-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S1000000x64 : Shape := ⟨2, ![1000000, 64]⟩
abbrev S64x64 : Shape := ⟨2, ![64, 64]⟩
abbrev S64 : Shape := ⟨1, ![64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S4096x200 : S_.BroadcastsInDim S4096x200 (![] : Fin 0 → Fin S4096x200.rank)
  reducesTo_S4096x200_S_d0_1 : S4096x200.ReducesTo [0, 1] S_

variable [Facts]

def fn_part1 {F : FTy → Type} [FloatOps F] (main_arg0 : IVec S4096x200 32) (main_arg1 : IVec S4096x200 32) (main_v13 : IVec S_ 1) (main_v15 : IVec S4096x200 1) (main_c_5 : IVec S_ 32) : IVec S_ 1 :=
  let main_v16 : IVec S4096x200 32 := broadcastInDim S4096x200 ![] bcast_S_S4096x200 main_c_5
  let main_v17 : IVec S4096x200 1 := cmpi .sle main_arg0 main_v16
  let main_v18 : IVec S4096x200 1 := andi main_v15 main_v17
  let main_c_6 : IVec S_ 1 := constantI S_ 1 1#1
  let main_v19 : IVec S_ 1 := (fun x v => Host.reduce IntOp.andi x v reducesTo_S4096x200_S_d0_1 h_S_) main_v18 main_c_6
  let main_v20 : IVec S_ 1 := andi main_v13 main_v19
  let main_c_7 : IVec S_ 32 := constantI S_ 32 1#32
  let main_v21 : IVec S4096x200 32 := broadcastInDim S4096x200 ![] bcast_S_S4096x200 main_c_7
  let main_v22 : IVec S4096x200 1 := cmpi .sge main_arg1 main_v21
  let main_c_8 : IVec S_ 32 := constantI S_ 32 1#32
  let main_v23 : IVec S4096x200 32 := broadcastInDim S4096x200 ![] bcast_S_S4096x200 main_c_8
  let main_v24 : IVec S4096x200 1 := cmpi .sle main_arg1 main_v23
  let main_v25 : IVec S4096x200 1 := andi main_v22 main_v24
  let main_c_9 : IVec S_ 1 := constantI S_ 1 1#1
  let main_v26 : IVec S_ 1 := (fun x v => Host.reduce IntOp.andi x v reducesTo_S4096x200_S_d0_1 h_S_) main_v25 main_c_9
  let main_v27 : IVec S_ 1 := andi main_v20 main_v26
  main_v27

def fn {F : FTy → Type} [FloatOps F] (main_arg0 : IVec S4096x200 32) (main_arg1 : IVec S4096x200 32) (main_arg2 : FVec F S1000000x64 .f32) (main_arg3 : FVec F S64x64 .f32) (main_arg4 : FVec F S64 .f32) : IVec S_ 1 :=
  let main_v0 : FVec F S1000000x64 .f32 := Host.absf main_arg2
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_c_4 : IVec S_ 32 := constantI S_ 32 0#32
  let main_v14 : IVec S4096x200 32 := broadcastInDim S4096x200 ![] bcast_S_S4096x200 main_c_4
  let main_v15 : IVec S4096x200 1 := cmpi .sge main_arg0 main_v14
  let main_c_5 : IVec S_ 32 := constantI S_ 32 999999#32
  fn_part1 (F := F) main_arg0 main_arg1 main_v13 main_v15 main_c_5
-- ==== Kernel.lean ====
abbrev S4096x200 : Shape := ⟨2, ![4096, 200]⟩
abbrev S1000000x64 : Shape := ⟨2, ![1000000, 64]⟩
abbrev S64x64 : Shape := ⟨2, ![64, 64]⟩
abbrev S64 : Shape := ⟨1, ![64]⟩
abbrev S200x4096 : Shape := ⟨2, ![200, 4096]⟩
abbrev S819200 : Shape := ⟨1, ![819200]⟩
abbrev S64x1000000 : Shape := ⟨2, ![64, 1000000]⟩
abbrev S_ : Shape := ⟨0, ![]⟩
abbrev S1000000x128 : Shape := ⟨2, ![1000000, 128]⟩
abbrev S64x8192 : Shape := ⟨2, ![64, 8192]⟩
abbrev S8192x128 : Shape := ⟨2, ![8192, 128]⟩
abbrev S8192x64 : Shape := ⟨2, ![8192, 64]⟩
abbrev S64x1 : Shape := ⟨2, ![64, 1]⟩
abbrev S819200x128 : Shape := ⟨2, ![819200, 128]⟩
abbrev S25600 : Shape := ⟨1, ![25600]⟩
abbrev S256x128 : Shape := ⟨2, ![256, 128]⟩
abbrev S256 : Shape := ⟨1, ![256]⟩
abbrev S200x64x4096 : Shape := ⟨3, ![200, 64, 4096]⟩
abbrev S2x64x4096 : Shape := ⟨3, ![2, 64, 4096]⟩
abbrev S4096x64 : Shape := ⟨2, ![4096, 64]⟩
abbrev S64x4096 : Shape := ⟨2, ![64, 4096]⟩
abbrev S1x64x4096 : Shape := ⟨3, ![1, 64, 4096]⟩
abbrev S4096x200x64 : Shape := ⟨3, ![4096, 200, 64]⟩

abbrev nBuf : Table → Nat
  | .hbm => 20
  | .local .tc .vmem => 11
  | .local .scVector .vmem => 3
  | _ => 0

abbrev bufTy : (tb : Table) → Fin (nBuf tb) → BufTy
  | .hbm, ⟨0, _⟩ => ⟨S4096x200, .i32⟩
  | .hbm, ⟨1, _⟩ => ⟨S4096x200, .i32⟩
  | .hbm, ⟨2, _⟩ => ⟨S1000000x64, .f32⟩
  | .hbm, ⟨3, _⟩ => ⟨S64x64, .f32⟩
  | .hbm, ⟨4, _⟩ => ⟨S64, .f32⟩
  | .hbm, ⟨5, _⟩ => ⟨S200x4096, .i32⟩
  | .hbm, ⟨6, _⟩ => ⟨S819200, .i32⟩
  | .hbm, ⟨7, _⟩ => ⟨S64x1000000, .f32⟩
  | .hbm, ⟨8, _⟩ => ⟨S64x64, .i32⟩
  | .hbm, ⟨9, _⟩ => ⟨S64x64, .i32⟩
  | .hbm, ⟨10, _⟩ => ⟨S_, .i32⟩
  | .hbm, ⟨11, _⟩ => ⟨S64x64, .i32⟩
  | .hbm, ⟨12, _⟩ => ⟨S64x64, .i32⟩
  | .hbm, ⟨13, _⟩ => ⟨S64x64, .i1⟩
  | .hbm, ⟨14, _⟩ => ⟨S64x64, .f32⟩
  | .hbm, ⟨15, _⟩ => ⟨S1000000x128, .f32⟩
  | .hbm, ⟨16, _⟩ => ⟨S64x1, .f32⟩
  | .hbm, ⟨17, _⟩ => ⟨S819200x128, .f32⟩
  | .hbm, ⟨18, _⟩ => ⟨S200x64x4096, .f32⟩
  | .hbm, ⟨19, _⟩ => ⟨S4096x200x64, .f32⟩
  | .local .tc .vmem, ⟨0, _⟩ => ⟨S64x8192, .f32⟩
  | .local .tc .vmem, ⟨1, _⟩ => ⟨S64x8192, .f32⟩
  | .local .tc .vmem, ⟨2, _⟩ => ⟨S64x64, .f32⟩
  | .local .tc .vmem, ⟨3, _⟩ => ⟨S8192x128, .f32⟩
  | .local .tc .vmem, ⟨4, _⟩ => ⟨S8192x128, .f32⟩
  | .local .tc .vmem, ⟨5, _⟩ => ⟨S8192x128, .f32⟩
  | .local .tc .vmem, ⟨6, _⟩ => ⟨S8192x128, .f32⟩
  | .local .tc .vmem, ⟨7, _⟩ => ⟨S64x64, .f32⟩
  | .local .tc .vmem, ⟨8, _⟩ => ⟨S64x1, .f32⟩
  | .local .tc .vmem, ⟨9, _⟩ => ⟨S2x64x4096, .f32⟩
  | .local .tc .vmem, ⟨10, _⟩ => ⟨S2x64x4096, .f32⟩
  | .local .scVector .vmem, ⟨0, _⟩ => ⟨S25600, .i32⟩
  | .local .scVector .vmem, ⟨1, _⟩ => ⟨S256x128, .f32⟩
  | .local .scVector .vmem, ⟨2, _⟩ => ⟨S256x128, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v9_scv : Ref sig .scVector := ⟨.hbm, 15, rfl⟩
abbrev main_v1_scv : Ref sig .scVector := ⟨.hbm, 6, rfl⟩
abbrev main_v11_scv : Ref sig .scVector := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg3_1 : Ref sig .tc := ⟨.vmem, 10, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
@[reducible] def k1_t1_loop : Scf.Loop 32 :=
  let c0_i32_2 : BitVec 32 := 0#32
  let c50_i32 : BitVec 32 := 50#32
  let v5 : BitVec 32 := Scalar.addi c0_i32_2 c50_i32
  let c1_i32 : BitVec 32 := 1#32
  ⟨c0_i32_2, v5, c1_i32⟩
def k1_cond1 (k1_t1 : Fin k1_t1_loop.trips) : BitVec 1 :=
  let c0_i32_5 : BitVec 32 := 0#32
  let c0_i32_2 : BitVec 32 := 0#32
  let c1_i32 : BitVec 32 := 1#32
  let arg10 : BitVec 32 := Scf.iv c0_i32_2 c1_i32 k1_t1
  let c2_i32_4 : BitVec 32 := 2#32
  let v6 : BitVec 32 := Scalar.muli arg10 c2_i32_4
  let v7 : BitVec 32 := Scalar.addi c0_i32_5 v6
  let c1_i32_6 : BitVec 32 := 1#32
  let v8 : BitVec 32 := Scalar.addi v7 c1_i32_6
  let c100_i32 : BitVec 32 := 100#32
  let v9 : BitVec 1 := Scalar.cmpi .slt v8 c100_i32
  let v10 : BitVec 32 := Scalar.extui v9
  let c0_i32_7 : BitVec 32 := 0#32
  let v11 : BitVec 1 := Scalar.cmpi .ne v10 c0_i32_7
  v11

def k1_off2 (k1_t1 : Fin k1_t1_loop.trips) : Fin 1 → Nat :=
  let c0_i32_5 : BitVec 32 := 0#32
  let c0_i32_2 : BitVec 32 := 0#32
  let c1_i32 : BitVec 32 := 1#32
  let arg10 : BitVec 32 := Scf.iv c0_i32_2 c1_i32 k1_t1
  let c2_i32_4 : BitVec 32 := 2#32
  let v6 : BitVec 32 := Scalar.muli arg10 c2_i32_4
  let v7 : BitVec 32 := Scalar.addi c0_i32_5 v6
  let c1_i32_17 : BitVec 32 := 1#32
  let v25 : BitVec 32 := Scalar.addi v7 c1_i32_17
  let c256_i32_18 : BitVec 32 := 256#32
  let v26 : BitVec 32 := Scalar.muli v25 c256_i32_18
  ![v26.toNat]
def k1_off3 (k1_t1 : Fin k1_t1_loop.trips) : Fin 1 → Nat :=
  let c0_i32_5 : BitVec 32 := 0#32
  let c0_i32_2 : BitVec 32 := 0#32
  let c1_i32 : BitVec 32 := 1#32
  let arg10 : BitVec 32 := Scf.iv c0_i32_2 c1_i32 k1_t1
  let c2_i32_4 : BitVec 32 := 2#32
  let v6 : BitVec 32 := Scalar.muli arg10 c2_i32_4
  let v7 : BitVec 32 := Scalar.addi c0_i32_5 v6
  let c256_i32 : BitVec 32 := 256#32
  let v12 : BitVec 32 := Scalar.muli v7 c256_i32
  ![v12.toNat]
def k1_off4 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_5 : BitVec 32 := 0#32
  let c0_i32_2 : BitVec 32 := 0#32
  let c1_i32 : BitVec 32 := 1#32
  let arg10 : BitVec 32 := Scf.iv c0_i32_2 c1_i32 k1_t1
  let c2_i32_4 : BitVec 32 := 2#32
  let v6 : BitVec 32 := Scalar.muli arg10 c2_i32_4
  let v7 : BitVec 32 := Scalar.addi c0_i32_5 v6
  let c256_i32_10 : BitVec 32 := 256#32
  let v15 : BitVec 32 := Scalar.muli v7 c256_i32_10
  let v16 : BitVec 32 := Scalar.addi v2 v15
  let c0_i32_17_r1 : BitVec 32 := 0#32
  ![v16.toNat, 0]
def k1_cond2 (k1_t1 : Fin k1_t1_loop.trips) : BitVec 1 :=
  let c0_i32_5 : BitVec 32 := 0#32
  let c0_i32_2 : BitVec 32 := 0#32
  let c1_i32 : BitVec 32 := 1#32
  let arg10 : BitVec 32 := Scf.iv c0_i32_2 c1_i32 k1_t1
  let c2_i32_4 : BitVec 32 := 2#32
  let v6 : BitVec 32 := Scalar.muli arg10 c2_i32_4
  let v7 : BitVec 32 := Scalar.addi c0_i32_5 v6
  let c2_i32_11 : BitVec 32 := 2#32
  let v17 : BitVec 32 := Scalar.addi v7 c2_i32_11
  let c100_i32_12 : BitVec 32 := 100#32
  let v18 : BitVec 1 := Scalar.cmpi .slt v17 c100_i32_12
  let v19 : BitVec 32 := Scalar.extui v18
  let c0_i32_13 : BitVec 32 := 0#32
  let v20 : BitVec 1 := Scalar.cmpi .ne v19 c0_i32_13
  v20

def k1_off5 (k1_t1 : Fin k1_t1_loop.trips) : Fin 1 → Nat :=
  let c0_i32_5 : BitVec 32 := 0#32
  let c0_i32_2 : BitVec 32 := 0#32
  let c1_i32 : BitVec 32 := 1#32
  let arg10 : BitVec 32 := Scf.iv c0_i32_2 c1_i32 k1_t1
  let c2_i32_4 : BitVec 32 := 2#32
  let v6 : BitVec 32 := Scalar.muli arg10 c2_i32_4
  let v7 : BitVec 32 := Scalar.addi c0_i32_5 v6
  let c2_i32_17 : BitVec 32 := 2#32
  let v25 : BitVec 32 := Scalar.addi v7 c2_i32_17
  let c256_i32_18 : BitVec 32 := 256#32
  let v26 : BitVec 32 := Scalar.muli v25 c256_i32_18
  ![v26.toNat]
def k1_cond3 (k1_t1 : Fin k1_t1_loop.trips) : BitVec 1 :=
  let c0_i32_5 : BitVec 32 := 0#32
  let c0_i32_2 : BitVec 32 := 0#32
  let c1_i32 : BitVec 32 := 1#32
  let arg10 : BitVec 32 := Scf.iv c0_i32_2 c1_i32 k1_t1
  let c2_i32_4 : BitVec 32 := 2#32
  let v6 : BitVec 32 := Scalar.muli arg10 c2_i32_4
  let v7 : BitVec 32 := Scalar.addi c0_i32_5 v6
  let c1_i32_14 : BitVec 32 := 1#32
  let v21 : BitVec 32 := Scalar.addi v7 c1_i32_14
  let c100_i32_15 : BitVec 32 := 100#32
  let v22 : BitVec 1 := Scalar.cmpi .slt v21 c100_i32_15
  let v23 : BitVec 32 := Scalar.extui v22
  let c0_i32_16 : BitVec 32 := 0#32
  let v24 : BitVec 1 := Scalar.cmpi .ne v23 c0_i32_16
  v24

def k1_off6 (k1_t1 : Fin k1_t1_loop.trips) : Fin 1 → Nat :=
  let c0_i32_5 : BitVec 32 := 0#32
  let c0_i32_2 : BitVec 32 := 0#32
  let c1_i32 : BitVec 32 := 1#32
  let arg10 : BitVec 32 := Scf.iv c0_i32_2 c1_i32 k1_t1
  let c2_i32_4 : BitVec 32 := 2#32
  let v6 : BitVec 32 := Scalar.muli arg10 c2_i32_4
  let v7 : BitVec 32 := Scalar.addi c0_i32_5 v6
  let c1_i32_17 : BitVec 32 := 1#32
  let v25 : BitVec 32 := Scalar.addi v7 c1_i32_17
  let c256_i32_18 : BitVec 32 := 256#32
  let v26 : BitVec 32 := Scalar.muli v25 c256_i32_18
  ![v26.toNat]
def k1_off7 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_5 : BitVec 32 := 0#32
  let c0_i32_2 : BitVec 32 := 0#32
  let c1_i32 : BitVec 32 := 1#32
  let arg10 : BitVec 32 := Scf.iv c0_i32_2 c1_i32 k1_t1
  let c2_i32_4 : BitVec 32 := 2#32
  let v6 : BitVec 32 := Scalar.muli arg10 c2_i32_4
  let v7 : BitVec 32 := Scalar.addi c0_i32_5 v6
  let c1_i32_21 : BitVec 32 := 1#32
  let v29 : BitVec 32 := Scalar.addi v7 c1_i32_21
  let c256_i32_22 : BitVec 32 := 256#32
  let v30 : BitVec 32 := Scalar.muli v29 c256_i32_22
  let v31 : BitVec 32 := Scalar.addi v2 v30
  let c0_i32_23_r2 : BitVec 32 := 0#32
  ![v31.toNat, 0]
abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

abbrev stage2_0 : Fin 2 → Memref sig .tc .vmem S8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2x64x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x200_S200x4096_1_0 : S4096x200.Transposes [1, 0] S200x4096
  shapeCasts_S200x4096_S819200 : S200x4096.ShapeCasts S819200
  transposes_S1000000x64_S64x1000000_1_0 : S1000000x64.Transposes [1, 0] S64x1000000
  bcast_S_S64x64 : S_.BroadcastsInDim S64x64 (![] : Fin 0 → Fin S64x64.rank)
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S8192x128_S8192x64_0_0 : ∀ a, (![0, 0] : Fin 2 → Nat) a + S8192x64.size a ≤ S8192x128.size a
  h_S8192x64 : 0 < S8192x64.numel
  shapeCasts_S64_S64x1 : S64.ShapeCasts S64x1
  inb_S25600_S256_0 : ∀ a, (![0] : Fin 1 → Nat) a + S256.size a ≤ S25600.size a
  inb_S1000000x128_S1000000x128_0_0 : ∀ a, (![0, 0] : Fin 2 → Nat) a + S1000000x128.size a ≤ S1000000x128.size a
  gathers_S1000000x128_S256x128 : S1000000x128.Gathers 0 S256x128
  shapeCasts_S8192x64_S8192x64 : S8192x64.ShapeCasts S8192x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  slices_S8192x64_o0_0_S4096x64 : S8192x64.Slices ![0, 0] S4096x64
  broadcasts_S64x1_S64x4096 : S64x1.Broadcasts S64x4096
  inb_S2x64x4096_S1x64x4096_0_0_0 : ∀ a, (![0, 0, 0] : Fin 3 → Nat) a + S1x64x4096.size a ≤ S2x64x4096.size a
  h_S1x64x4096 : 0 < S1x64x4096.numel
  shapeCasts_S1x64x4096_S64x4096 : S1x64x4096.ShapeCasts S64x4096
  shapeCasts_S64x4096_S1x64x4096 : S64x4096.ShapeCasts S1x64x4096
  slices_S8192x64_o4096_0_S4096x64 : S8192x64.Slices ![4096, 0] S4096x64
  inb_S2x64x4096_S1x64x4096_1_0_0 : ∀ a, (![1, 0, 0] : Fin 3 → Nat) a + S1x64x4096.size a ≤ S2x64x4096.size a
  transposes_S200x64x4096_S4096x200x64_2_0_1 : S200x64x4096.Transposes [2, 0, 1] S4096x200x64
  dot_S64x8192_S64x64_S8192x64_0_0_1_1_n_n_wf : DotDims.WF S64x8192 S64x64 S8192x64 [0] [0] [1] [1] [] []
  dot_S64x64_S4096x64_S64x4096_0_1_1_0_n_n_wf : DotDims.WF S64x64 S4096x64 S64x4096 [0] [1] [1] [0] [] []
  hcc1_scratch3 : 5 + S_.numel ≤ 16
  hcc1_scratch4 : 6 + S_.numel ≤ 16
  hcc1_scoped0 : 7 + S_.numel ≤ 16
  hcc1_scoped1 : 8 + S_.numel ≤ 16
  hcc1_scoped2 : 9 + S_.numel ≤ 16
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x8192.size a < S64x1000000.size a
  hwx0_0 : ∀ i : grid0.Coords, EltTy.bits .f32 = 32 ∨ (Rect.unit (s := S64x1000000) (fun a => cc0_transform_0 i a * S64x8192.size a) (fun a => (Pipeline.Clip.of (cc0_transform_0 i a) (S64x8192.size a) (S64x1000000.size a)).extent (S64x8192.size a)) fun a => Pipeline.Clip.inb (Pipeline.Clip.ok_of (hstart0_0 i a))).WholeWords (EltTy.packing .f32)
  hwxs0_0 : ∀ i : grid0.Coords, EltTy.bits .f32 = 32 ∨ (Rect.unit (s := S64x8192) (fun _ => 0) (fun a => (Pipeline.Clip.of (cc0_transform_0 i a) (S64x8192.size a) (S64x1000000.size a)).extent (S64x8192.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192x128.size a < S1000000x128.size a
  hwx0_2 : ∀ i : grid0.Coords, EltTy.bits .f32 = 32 ∨ (Rect.unit (s := S1000000x128) (fun a => cc0_transform_2 i a * S8192x128.size a) (fun a => (Pipeline.Clip.of (cc0_transform_2 i a) (S8192x128.size a) (S1000000x128.size a)).extent (S8192x128.size a)) fun a => Pipeline.Clip.inb (Pipeline.Clip.ok_of (hstart0_2 i a))).WholeWords (EltTy.packing .f32)
  hwxs0_2 : ∀ i : grid0.Coords, EltTy.bits .f32 = 32 ∨ (Rect.unit (s := S8192x128) (fun _ => 0) (fun a => (Pipeline.Clip.of (cc0_transform_2 i a) (S8192x128.size a) (S1000000x128.size a)).extent (S8192x128.size a)) fun a => (Nat.zero_add _).trans_le (Pipeline.Clip.extent_le (Pipeline.Clip.ok_of (hstart0_2 i a)))).WholeWords (EltTy.packing .f32)
  hcore1 : grid1.bound 0 ≤ τ.nSC
  hsub1 : grid1.bound 1 ≤ τ.nSub
  k1_off1_inb : ∀ i : grid1.Coords, ∀ a, (k1_off1 i) a + S25600.size a ≤ S819200.size a
  k1_t1_ok : k1_t1_loop.OK
  k1_off2_inb : ∀ k1_t1 : Fin k1_t1_loop.trips, ∀ (k1_h1 : k1_cond1 k1_t1 = 1#1), ∀ a, (k1_off2 k1_t1) a + S256.size a ≤ S25600.size a
  k1_off3_inb : ∀ k1_t1 : Fin k1_t1_loop.trips, ∀ a, (k1_off3 k1_t1) a + S256.size a ≤ S25600.size a
  k1_off4_inb : ∀ (i : grid1.Coords) (k1_t1 : Fin k1_t1_loop.trips), ∀ a, (k1_off4 i k1_t1) a + S256x128.size a ≤ S819200x128.size a
  k1_off5_inb : ∀ k1_t1 : Fin k1_t1_loop.trips, ∀ (k1_h2 : k1_cond2 k1_t1 = 1#1), ∀ a, (k1_off5 k1_t1) a + S256.size a ≤ S25600.size a
  k1_off6_inb : ∀ k1_t1 : Fin k1_t1_loop.trips, ∀ (k1_h3 : k1_cond3 k1_t1 = 1#1), ∀ a, (k1_off6 k1_t1) a + S256.size a ≤ S25600.size a
  k1_off7_inb : ∀ (i : grid1.Coords) (k1_t1 : Fin k1_t1_loop.trips), ∀ (k1_h3 : k1_cond3 k1_t1 = 1#1), ∀ a, (k1_off7 i k1_t1) a + S256x128.size a ≤ S819200x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S819200x128.size a
  hwx2_0 : ∀ i : grid2.Coords, EltTy.bits .f32 = 32 ∨ (Rect.block (s := S819200x128) S8192x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2x64x4096.size a ≤ S200x64x4096.size a
  hwx2_3 : ∀ i : grid2.Coords, EltTy.bits .f32 = 32 ∨ (Rect.block (s := S200x64x4096) S2x64x4096.size (cc2_transform_3 i) (hinb2_3 i)).WholeWords (EltTy.packing .f32)

variable [Facts₀]

abbrev cc1_scratch3 : DmaSems sig S_ := SemArray.consecutive 5 S_ hcc1_scratch3
abbrev cc1_scratch4 : DmaSems sig S_ := SemArray.consecutive 6 S_ hcc1_scratch4
abbrev cc1_scoped0 : DmaSems sig S_ := SemArray.consecutive 7 S_ hcc1_scoped0
abbrev cc1_scoped1 : DmaSems sig S_ := SemArray.consecutive 8 S_ hcc1_scoped1
abbrev cc1_scoped2 : DmaSems sig S_ := SemArray.consecutive 9 S_ hcc1_scoped2
def dot_S64x8192_S64x64_S8192x64_0_0_1_1_n_n : DotDims S64x8192 S64x64 S8192x64 where
  lhsContracting := [0]
  rhsContracting := [0]
  lhsNonContracting := [1]
  rhsNonContracting := [1]
  lhsBatch := []
  rhsBatch := []
  wf := dot_S64x8192_S64x64_S8192x64_0_0_1_1_n_n_wf
def dot_S64x64_S4096x64_S64x4096_0_1_1_0_n_n : DotDims S64x64 S4096x64 S64x4096 where
  lhsContracting := [0]
  rhsContracting := [1]
  lhsNonContracting := [1]
  rhsNonContracting := [0]
  lhsBatch := []
  rhsBatch := []
  wf := dot_S64x64_S4096x64_S64x4096_0_1_1_0_n_n_wf

abbrev win0_0 : Pipeline.Window sig grid0 :=
  Pipeline.Window.ofSpecClip (Memref.whole main_v2) S64x8192.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v8) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v9) S8192x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win2_0 : Pipeline.Window sig grid2 :=
  Pipeline.Window.ofSpec (Memref.whole main_v11) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S2x64x4096.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x200 : Shape := ⟨2, ![4096, 200]⟩
abbrev S1000000x64 : Shape := ⟨2, ![1000000, 64]⟩
abbrev S64x64 : Shape := ⟨2, ![64, 64]⟩
abbrev S64 : Shape := ⟨1, ![64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩
abbrev S1x1x64 : Shape := ⟨3, ![1, 1, 64]⟩

abbrev nBuf : Space → Nat
  | .hbm => 32
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S4096x200, .i32⟩
  | .hbm, ⟨2, _⟩ => ⟨S1000000x64, .f32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S4096x200, .i32⟩
  | .hbm, ⟨7, _⟩ => ⟨S4096x200, .i1⟩
  | .hbm, ⟨8, _⟩ => ⟨S_, .i32⟩
  | .hbm, ⟨9, _⟩ => ⟨S4096x200, .i32⟩
  | .hbm, ⟨10, _⟩ => ⟨S4096x200, .i32⟩
  | .hbm, ⟨11, _⟩ => ⟨S4096x200, .i32⟩
  | .hbm, ⟨12, _⟩ => ⟨S4096x200x1, .i32⟩
  | .hbm, ⟨13, _⟩ => ⟨S1, .i32⟩
  | .hbm, ⟨14, _⟩ => ⟨S_, .i32⟩
  | .hbm, ⟨15, _⟩ => ⟨S4096x200x1, .i32⟩
  | .hbm, ⟨16, _⟩ => ⟨S4096x200x1, .i1⟩
  | .hbm, ⟨17, _⟩ => ⟨S1x1x1, .i32⟩
  | .hbm, ⟨18, _⟩ => ⟨S4096x200x1, .i32⟩
  | .hbm, ⟨19, _⟩ => ⟨S4096x200x1, .i1⟩
  | .hbm, ⟨20, _⟩ => ⟨S4096x200x1, .i1⟩
  | .hbm, ⟨21, _⟩ => ⟨S_, .i1⟩
  | .hbm, ⟨22, _⟩ => ⟨S4096x200, .i1⟩
  | .hbm, ⟨23, _⟩ => ⟨S4096x200x64, .f32⟩
  | .hbm, ⟨24, _⟩ => ⟨S4096x200x64, .i1⟩
  | .hbm, ⟨25, _⟩ => ⟨S_, .f32⟩
  | .hbm, ⟨26, _⟩ => ⟨S4096x200x64, .f32⟩
  | .hbm, ⟨27, _⟩ => ⟨S4096x200x64, .f32⟩
  | .hbm, ⟨28, _⟩ => ⟨S4096x200x64, .f32⟩
  | .hbm, ⟨29, _⟩ => ⟨S1x1x64, .f32⟩
  | .hbm, ⟨30, _⟩ => ⟨S4096x200x64, .f32⟩
  | .hbm, ⟨31, _⟩ => ⟨S4096x200x64, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x64_0_1 : S4096x200.BroadcastsInDim S4096x200x64 (![0, 1] : Fin 2 → Fin S4096x200x64.rank)
  bcast_S_S4096x200x64 : S_.BroadcastsInDim S4096x200x64 (![] : Fin 0 → Fin S4096x200x64.rank)
  bcast_S64_S1x1x64_2 : S64.BroadcastsInDim S1x1x64 (![2] : Fin 1 → Fin S1x1x64.rank)
  bcast_S1x1x64_S4096x200x64_0_1_2 : S1x1x64.BroadcastsInDim S4096x200x64 (![0, 1, 2] : Fin 3 → Fin S4096x200x64.rank)
  gather_S1000000x64_S4096x200x1_S4096x200x64_2_0_n_n_0_2_164_wf : GatherDims.WF S1000000x64 S4096x200x1 S4096x200x64 [2] [0] [] [0] [] 2 ![1, 64]
  dot_S4096x200x64_S64x64_S4096x200x64_2_0_01_1_n_n_wf : DotDims.WF S4096x200x64 S64x64 S4096x200x64 [2] [0] [0, 1] [1] [] []

variable [Facts₀]

def gather_S1000000x64_S4096x200x1_S4096x200x64_2_0_n_n_0_2_164 : GatherDims S1000000x64 S4096x200x1 S4096x200x64 where
  offsetDims := [2]
  collapsedSliceDims := [0]
  operandBatchingDims := []
  startIndicesBatchingDims := []
  startIndexMap := [0]
  indexVectorDim := 2
  sliceSizes := ![1, 64]
  wf := gather_S1000000x64_S4096x200x1_S4096x200x64_2_0_n_n_0_2_164_wf
def dot_S4096x200x64_S64x64_S4096x200x64_2_0_01_1_n_n : DotDims S4096x200x64 S64x64 S4096x200x64 where
  lhsContracting := [2]
  rhsContracting := [0]
  lhsNonContracting := [0, 1]
  rhsNonContracting := [1]
  lhsBatch := []
  rhsBatch := []
  wf := dot_S4096x200x64_S64x64_S4096x200x64_2_0_01_1_n_n_wf

class Facts : Prop extends Facts₀ where

variable [Facts]
-- ==== Proof.KCommon.lean ====
/-
  The lookup kernel as the SparseCore launch sees it: the program's configuration, the ghost state, the arrays the
  three calls move, and what the handshakes carry.

  The program runs, on the TensorCore, a first pipelined call that writes the table (row v of the embedding in the
  first 64 of its 128 columns; the other 64 columns are never written), then the SparseCore call in which each of the
  32 vector subcores copies, for its block of 25600 token positions, the table rows its index words name into the
  same positions of the row buffer g, then a second pipelined call that multiplies each gathered row by W.
  Vector subcore (core c, subcore i) owns the positions from 51200 i + 25600 c; it moves them in 100 chunks of 256.
-/
import proofs.«217421_g60146722013857_cont_9to1c4b_519_37_alg».proof.KernelIdeal
import proofs.«217421_g60146722013857_cont_9to1c4b_519_37_alg».proof.Proof.Gen.KernelIdeal
import proofs.«217421_g60146722013857_cont_9to1c4b_519_37_alg».proof.Proof.Gen.KernelIdeal.Skeleton
import proofs.«217421_g60146722013857_cont_9to1c4b_519_37_alg».proof.Proof.Gen.KernelIdeal.Launch
import proofs.«217421_g60146722013857_cont_9to1c4b_519_37_alg».proof.Proof.Gen.KernelIdeal.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.ValueIdx
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelined calls' staging cells, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays the SparseCore call moves -/

variable (m : (ℓ : Loc nD τ sig) → Buf (Elt F) ℓ) (ρ : Dev nD → PrngReg)

abbrev idsLoc (d : Dev nD) : Loc nD τ sig := (SparseCore.T d).loc main_arg0
abbrev tabLoc (d : Dev nD) : Loc nD τ sig := (SparseCore.T d).loc main_v9
abbrev idxLoc (d : Dev nD) : Loc nD τ sig := (SparseCore.T d).loc main_v1
abbrev outLoc (d : Dev nD) : Loc nD τ sig := (SparseCore.T d).loc main_v11

local notation "tV" => (Memref.whole Cert.KernelIdeal.main_v9_scv : Memref Cert.KernelIdeal.sig Kind.scVector Space.hbm Cert.KernelIdeal.S1000000x128 EltTy.f32)
local notation "iV" => (Memref.whole Cert.KernelIdeal.main_v1_scv : Memref Cert.KernelIdeal.sig Kind.scVector Space.hbm Cert.KernelIdeal.S819200 EltTy.i32)
local notation "oV" => (Memref.whole Cert.KernelIdeal.main_v11_scv : Memref Cert.KernelIdeal.sig Kind.scVector Space.hbm Cert.KernelIdeal.S819200x128 EltTy.f32)

/-- The grid point of vector subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The first token position of a vector subcore's block. -/
def baseOf (L : grid1.Coords) : Nat := 51200 * (L 1).val + 25600 * (L 0).val

/-- A vector subcore's block of the index list, as the kernel slices it, -/
abbrev idxM (L : grid1.Coords) : Memref sig .scVector .hbm S25600 .i32 :=
  (iV).slice (Rect.unit (s := S819200) (k1_off1 L) S25600.size (k1_off1_inb L)) (fun _ => rfl)
/-- the even chunk of trip `k` of its block of the row buffer, -/
abbrev outA (L : grid1.Coords) (k : Fin k1_t1_loop.trips) : Memref sig .scVector .hbm S256x128 .f32 :=
  (oV).slice (Rect.unit (s := S819200x128) (k1_off4 L k) S256x128.size (k1_off4_inb L k)) (fun _ => rfl)

/-- The index list as the host leaves it: the token words, position (l, r) at l * 4096 + r. -/
def idxV [FloatOps F] (d : Dev nD) : Buf (Elt F) (idxLoc d) :=
  shapeCast S819200 (transpose S200x4096 [1, 0] (m (idsLoc d)) transposes_S4096x200_S200x4096_1_0) shapeCasts_S200x4096_S819200

/-- The table row an index word names. -/
def rowN (w : BitVec 32) : Fin 1000000 := ⟨w.toNat % 1000000, Nat.mod_lt _ (by decide)⟩

/-! ## The loop's conditions in closed form -/

theorem trips_eq : k1_t1_loop.trips = 50 := by decide
/-- Every trip has an odd chunk to start and to finish (2 k + 1 < 100), -/
theorem cond1_true : ∀ k : Fin k1_t1_loop.trips, k1_cond1 k = 1#1 := by decide +kernel
theorem cond3_true : ∀ k : Fin k1_t1_loop.trips, k1_cond3 k = 1#1 := by decide +kernel
/-- and every trip but the last starts the next even chunk (2 k + 2 < 100). -/
theorem cond2_iff : ∀ k : Fin k1_t1_loop.trips, k1_cond2 k = 1#1 ↔ k.val < 49 := by decide +kernel

/-- The odd chunk of trip `k` of a vector subcore's block of the row buffer, as the kernel slices it. -/
abbrev outB (L : grid1.Coords) (k : Fin k1_t1_loop.trips) : Memref sig .scVector .hbm S256x128 .f32 :=
  (oV).slice (Rect.unit (s := S819200x128) (k1_off7 L k) S256x128.size (k1_off7_inb L k (cond3_true k))) (fun _ => rfl)

/-! ## What the handshakes carry -/

/-- The vector subcores numbered 0 … 31. -/
def tileNo (L : grid1.Coords) : Fin 32 :=
  ⟨16 * (L 0).val + (L 1).val, by
    have h0 : (L 0).val < 2 := (L 0).isLt
    have h1 : (L 1).val < 16 := (L 1).isLt
    omega⟩

/-- The read share of the table a vector subcore holds during the call. -/
abbrev tq (L : grid1.Coords) : PosShare TreeShare := Transfers.shareTok fullShare 32 (tileNo L)

variable [FloatOps F]

/-- A vector subcore's block of the row buffer holds, position by position and on all 128 columns, the table's row
    that the position's index word names. -/
def GathOK (d : Dev nD) (L : grid1.Coords) (T : Buf (Elt F) (tabLoc d)) (f : Buf (Elt F) (outLoc d)) : Prop :=
  ∀ (p : Fin 819200) (k : Fin 128), baseOf L ≤ p.val → p.val < baseOf L + 25600 →
    f (ix2 p k) = T (ix2 (rowN (idxV m d (ix1 p))) k)

variable (TabOK : (d : Dev nD) → Buf (Elt F) (tabLoc d) → Prop)

/-- What a vector subcore is handed: a read share of the table (at contents of which `TabOK` holds), its block of
    the index list, and its block of the row buffer chunk by chunk, at the launch contents. -/
def goA (d : Dev nD) (L : grid1.Coords) : sProp 𝕄 :=
  iprop(∃ T : Buf (Elt F) (tabLoc d), ⌜TabOK d T⌝ ∗ (tabLoc d ↦{tq L} T)
    ∗ (idxLoc d ↦[(idxM L).view.set]{fullShare} idxV m d)
    ∗ bigSep Finset.univ fun k : Fin k1_t1_loop.trips =>
        iprop((outLoc d ↦[(outA L k).view.set]{fullShare} m (outLoc d)) ∗ (outLoc d ↦[(outB L k).view.set]{fullShare} m (outLoc d))))

/-- What it hands back: the same, its block of the row buffer now at the gathered rows. -/
def tdA (d : Dev nD) (L : grid1.Coords) : sProp 𝕄 :=
  iprop(∃ T : Buf (Elt F) (tabLoc d), ⌜TabOK d T⌝ ∗ (tabLoc d ↦{tq L} T)
    ∗ (idxLoc d ↦[(idxM L).view.set]{fullShare} idxV m d)
    ∗ ∃ f : Buf (Elt F) (outLoc d), ⌜GathOK m d L T f⌝ ∗ bigSep Finset.univ fun k : Fin k1_t1_loop.trips =>
        iprop((outLoc d ↦[(outA L k).view.set]{fullShare} f) ∗ (outLoc d ↦[(outB L k).view.set]{fullShare} f)))

/-- The grid point of vector subcore `i` of SparseCore `c` of the call's grid. -/
abbrev LV (c : Fin ((K (F := F)).nCore 0)) (i : Fin ((K (F := F)).nSub 0)) : grid1.Coords :=
  coordsV (Fin.cast rfl c) (Fin.cast rfl i)

/-- The one SparseCore call: a SparseCore is handed what its sixteen vector subcores are, and hands back what they do. -/
def P : (K (F := F)).Pay (nD := nD) (Val := Elt F) (Name := ℕ) (U := UU) where
  st := fun q d c => match q, c with
    | 0, c => bigSep Finset.univ fun i : Fin ((K (F := F)).nSub 0) => goA m TabOK d (LV c i)
  dn := fun q d c => match q, c with
    | 0, c => bigSep Finset.univ fun i : Fin ((K (F := F)).nSub 0) => tdA m TabOK d (LV c i)
  go := fun q d c i => match q, c, i with
    | 0, c, i => goA m TabOK d (LV c i)
  td := fun q d c i => match q, c, i with
    | 0, c, i => tdA m TabOK d (LV c i)
  x := fun _ _ => iprop(emp)

instance goA_storable (d : Dev nD) (L : grid1.Coords) : BI.Storable (upEmb : UEmb _ 𝕄) (goA m TabOK d L) := by
  unfold goA; infer_instance
instance tdA_storable (d : Dev nD) (L : grid1.Coords) : BI.Storable (upEmb : UEmb _ 𝕄) (tdA m TabOK d L) := by
  unfold tdA; infer_instance

instance P_storable : (P (F := F) m TabOK).IsStorable where
  st q d c := match q, c with
    | 0, c => (inferInstance : BI.Storable (upEmb : UEmb _ 𝕄) (bigSep Finset.univ fun i : Fin ((K (F := F)).nSub 0) => goA m TabOK d (LV c i)))
  dn q d c := match q, c with
    | 0, c => (inferInstance : BI.Storable (upEmb : UEmb _ 𝕄) (bigSep Finset.univ fun i : Fin ((K (F := F)).nSub 0) => tdA m TabOK d (LV c i)))
  go q d c i := match q, c, i with
    | 0, c, i => (inferInstance : BI.Storable (upEmb : UEmb _ 𝕄) (goA m TabOK d (LV c i)))
  td q d c i := match q, c, i with
    | 0, c, i => (inferInstance : BI.Storable (upEmb : UEmb _ 𝕄) (tdA m TabOK d (LV c i)))

end Cert.Proof.KI

end
-- ==== Proof.KSplit.lean ====
/-
  How the three arrays of the SparseCore call split among the 32 vector subcores and join again.

  The table goes out as 32 read shares beside a remainder; the index list is cut into the 32 consecutive blocks of
  25600 positions; the row buffer is cut into the 3200 consecutive chunks of 256 rows, two per trip of a vector
  subcore's loop. On the way back the shares rejoin (every holder agrees with the remainder's contents), and the
  chunks, each returned at its own contents, join into one array that agrees with each on its chunks.
-/
import proofs.«217421_g60146722013857_cont_9to1c4b_519_37_alg».proof.Proof.KCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

namespace Split

/-! ## The element sets, in arithmetic -/

/-- The vector subcores of the call: (SparseCore, subcore). -/
abbrev Tl (F : FTy → Type) : Type := Fin ((K (F := F)).nCore 0) × Fin ((K (F := F)).nSub 0)

theorem base_LV (c : Fin ((K (F := F)).nCore 0)) (i : Fin ((K (F := F)).nSub 0)) :
    baseOf (LV (F := F) c i) = 51200 * i.val + 25600 * c.val := rfl

/-- A vector subcore's block of the index list is the 25600 positions from its base. -/
theorem mem_idxSet (L : grid1.Coords) (x : S819200.Idx) :
    x ∈ (idxM L).view.set ↔ baseOf L ≤ (x 0).val ∧ (x 0).val < baseOf L + 25600 := by
  show x ∈ ((View.whole (main_v1_scv : Ref sig .scVector)).slice (Rect.unit (s := S819200) (k1_off1 L) S25600.size (k1_off1_inb L))).set ↔ _
  rw [View.set_slice, show ∀ (A : Finset S819200.Idx), A.map (View.whole (main_v1_scv : Ref sig .scVector)).emb = A from fun A => Finset.map_refl,
    Rect.mem_set_unit]
  have e : k1_off1 L 0 = baseOf L := by rw [k1_off1_eq]; rfl
  have s : S25600.size 0 = 25600 := rfl
  constructor
  · intro h; have h0 := h 0; omega
  · intro h a
    match a with
    | 0 => omega

/-- The even chunk of trip `k`: 256 rows from the block's base plus 512 k, all 128 columns. -/
theorem mem_outA (L : grid1.Coords) (k : Fin k1_t1_loop.trips) (x : S819200x128.Idx) :
    x ∈ (outA L k).view.set ↔ baseOf L + 512 * k.val ≤ (x 0).val ∧ (x 0).val < baseOf L + 512 * k.val + 256 := by
  show x ∈ ((View.whole (main_v11_scv : Ref sig .scVector)).slice (Rect.unit (s := S819200x128) (k1_off4 L k) S256x128.size (k1_off4_inb L k))).set ↔ _
  rw [View.set_slice, show ∀ (A : Finset S819200x128.Idx), A.map (View.whole (main_v11_scv : Ref sig .scVector)).emb = A from fun A => Finset.map_refl,
    Rect.mem_set_unit]
  have e0 : k1_off4 L k 0 = baseOf L + 512 * k.val := by rw [k1_off4_eq]; rfl
  have e1 : k1_off4 L k 1 = 0 := by rw [k1_off4_eq]; rfl
  have s0 : S256x128.size 0 = 256 := rfl
  have s1 : S256x128.size 1 = 128 := rfl
  have x1 : (x 1).val < 128 := (x 1).isLt
  constructor
  · intro h; have h0 := h 0; omega
  · intro h a
    match a with
    | 0 => omega
    | 1 => omega

/-- The odd chunk of trip `k`: the next 256 rows. -/
theorem mem_outB (L : grid1.Coords) (k : Fin k1_t1_loop.trips) (x : S819200x128.Idx) :
    x ∈ (outB L k).view.set ↔ baseOf L + 512 * k.val + 256 ≤ (x 0).val ∧ (x 0).val < baseOf L + 512 * k.val + 512 := by
  show x ∈ ((View.whole (main_v11_scv : Ref sig .scVector)).slice (Rect.unit (s := S819200x128) (k1_off7 L k) S256x128.size (k1_off7_inb L k (cond3_true k)))).set ↔ _
  rw [View.set_slice, show ∀ (A : Finset S819200x128.Idx), A.map (View.whole (main_v11_scv : Ref sig .scVector)).emb = A from fun A => Finset.map_refl,
    Rect.mem_set_unit]
  have e0 : k1_off7 L k 0 = baseOf L + 512 * k.val + 256 := by rw [k1_off7_eq]; rfl
  have e1 : k1_off7 L k 1 = 0 := by rw [k1_off7_eq]; rfl
  have s0 : S256x128.size 0 = 256 := rfl
  have s1 : S256x128.size 1 = 128 := rfl
  have x1 : (x 1).val < 128 := (x 1).isLt
  constructor
  · intro h; have h0 := h 0; omega
  · intro h a
    match a with
    | 0 => omega
    | 1 => omega

/-- The two chunks of a trip: 512 consecutive rows. -/
abbrev outP (L : grid1.Coords) (k : Fin k1_t1_loop.trips) : Finset S819200x128.Idx := (outA L k).view.set ∪ (outB L k).view.set

theorem mem_outP (L : grid1.Coords) (k : Fin k1_t1_loop.trips) (x : S819200x128.Idx) :
    x ∈ outP L k ↔ baseOf L + 512 * k.val ≤ (x 0).val ∧ (x 0).val < baseOf L + 512 * k.val + 512 := by
  rw [Finset.mem_union, mem_outA, mem_outB]; omega

theorem outAB_disjoint (L : grid1.Coords) (k : Fin k1_t1_loop.trips) : Disjoint (outA L k).view.set (outB L k).view.set :=
  Finset.disjoint_left.mpr fun x hA hB => by rw [mem_outA] at hA; rw [mem_outB] at hB; omega

/-! ## The blocks are pairwise disjoint and cover -/

/-- A vector subcore's block of the index list, as a set of positions. -/
abbrev idxS (L : grid1.Coords) : Finset S819200.Idx := (idxM L).view.set

theorem mem_idxS_LV (c : Fin ((K (F := F)).nCore 0)) (i : Fin ((K (F := F)).nSub 0)) (x : S819200.Idx) :
    x ∈ idxS (LV (F := F) c i) ↔ 51200 * i.val + 25600 * c.val ≤ (x 0).val ∧ (x 0).val < 51200 * i.val + 25600 * c.val + 25600 :=
  mem_idxSet (LV (F := F) c i) x

theorem mem_outP_LV (c : Fin ((K (F := F)).nCore 0)) (i : Fin ((K (F := F)).nSub 0)) (k : Fin k1_t1_loop.trips) (x : S819200x128.Idx) :
    x ∈ outP (LV (F := F) c i) k ↔ 51200 * i.val + 25600 * c.val + 512 * k.val ≤ (x 0).val ∧ (x 0).val < 51200 * i.val + 25600 * c.val + 512 * k.val + 512 :=
  mem_outP (LV (F := F) c i) k x

theorem idx_disjoint : ∀ t ∈ (Finset.univ : Finset (Tl F)), ∀ t' ∈ (Finset.univ : Finset (Tl F)), t ≠ t' →
    Disjoint (idxS (LV (F := F) t.1 t.2)) (idxS (LV (F := F) t'.1 t'.2)) := by
  rintro ⟨c, i⟩ - ⟨c', i'⟩ - hne
  refine Finset.disjoint_left.mpr fun x hx hx' => hne ?_
  have h1 := (mem_idxS_LV (F := F) c i x).mp hx
  have h2 := (mem_idxS_LV (F := F) c' i' x).mp hx'
  have hc : c.val < 2 := c.isLt
  have hc' : c'.val < 2 := c'.isLt
  have hi : i.val < 16 := i.isLt
  have hi' : i'.val < 16 := i'.isLt
  have ec : c.val = c'.val := by omega
  have ei : i.val = i'.val := by omega
  exact Prod.ext (Fin.ext ec) (Fin.ext ei)

theorem idx_cover : (Finset.univ : Finset (Tl F)).biUnion (fun t => idxS (LV (F := F) t.1 t.2)) = Finset.univ := by
  refine Finset.eq_univ_iff_forall.mpr fun x => Finset.mem_biUnion.mpr ?_
  have hx : (x 0).val < 819200 := (x 0).isLt
  have hc : (x 0).val % 51200 / 25600 < 2 := by omega
  have hi : (x 0).val / 51200 < 16 := by omega
  refine ⟨((⟨(x 0).val % 51200 / 25600, hc⟩, ⟨(x 0).val / 51200, hi⟩) : Tl F), Finset.mem_univ _, ?_⟩
  refine (mem_idxS_LV (F := F) ⟨(x 0).val % 51200 / 25600, hc⟩ ⟨(x 0).val / 51200, hi⟩ x).mpr ?_
  show 51200 * ((x 0).val / 51200) + 25600 * ((x 0).val % 51200 / 25600) ≤ (x 0).val
    ∧ (x 0).val < 51200 * ((x 0).val / 51200) + 25600 * ((x 0).val % 51200 / 25600) + 25600
  omega

theorem out_disjoint : ∀ u ∈ (Finset.univ : Finset (Tl F × Fin k1_t1_loop.trips)), ∀ u' ∈ (Finset.univ : Finset (Tl F × Fin k1_t1_loop.trips)), u ≠ u' →
    Disjoint (outP (LV (F := F) u.1.1 u.1.2) u.2) (outP (LV (F := F) u'.1.1 u'.1.2) u'.2) := by
  rintro ⟨⟨c, i⟩, k⟩ - ⟨⟨c', i'⟩, k'⟩ - hne
  refine Finset.disjoint_left.mpr fun x hx hx' => hne ?_
  have h1 := (mem_outP_LV (F := F) c i k x).mp hx
  have h2 := (mem_outP_LV (F := F) c' i' k' x).mp hx'
  have hc : c.val < 2 := c.isLt
  have hc' : c'.val < 2 := c'.isLt
  have hi : i.val < 16 := i.isLt
  have hi' : i'.val < 16 := i'.isLt
  have hk : k.val < 50 := lt_of_lt_of_eq k.isLt trips_eq
  have hk' : k'.val < 50 := lt_of_lt_of_eq k'.isLt trips_eq
  have ec : c.val = c'.val := by omega
  have ei : i.val = i'.val := by omega
  have ek : k.val = k'.val := by omega
  exact Prod.ext (Prod.ext (Fin.ext ec) (Fin.ext ei)) (Fin.ext ek)

theorem out_cover : (Finset.univ : Finset (Tl F × Fin k1_t1_loop.trips)).biUnion (fun u => outP (LV (F := F) u.1.1 u.1.2) u.2) = Finset.univ := by
  refine Finset.eq_univ_iff_forall.mpr fun x => Finset.mem_biUnion.mpr ?_
  have hx : (x 0).val < 819200 := (x 0).isLt
  have hc : (x 0).val % 51200 / 25600 < 2 := by omega
  have hi : (x 0).val / 51200 < 16 := by omega
  have hk : (x 0).val % 25600 / 512 < k1_t1_loop.trips := by rw [trips_eq]; omega
  refine ⟨((((⟨(x 0).val % 51200 / 25600, hc⟩, ⟨(x 0).val / 51200, hi⟩) : Tl F), ⟨(x 0).val % 25600 / 512, hk⟩) : Tl F × Fin k1_t1_loop.trips),
    Finset.mem_univ _, ?_⟩
  refine (mem_outP_LV (F := F) ⟨(x 0).val % 51200 / 25600, hc⟩ ⟨(x 0).val / 51200, hi⟩ ⟨(x 0).val % 25600 / 512, hk⟩ x).mpr ?_
  show 51200 * ((x 0).val / 51200) + 25600 * ((x 0).val % 51200 / 25600) + 512 * ((x 0).val % 25600 / 512) ≤ (x 0).val
    ∧ (x 0).val < 51200 * ((x 0).val / 51200) + 25600 * ((x 0).val % 51200 / 25600) + 512 * ((x 0).val % 25600 / 512) + 512
  omega

/-! ## The arrays as separating conjunctions over the vector subcores -/

/-- The vector subcores, numbered as their read shares of the table are. -/
def tileEquiv : Tl F ≃ Fin 32 where
  toFun t := tileNo (LV (F := F) t.1 t.2)
  invFun j := (⟨j.val / 16, by show _ < 2; omega⟩, ⟨j.val % 16, by show _ < 16; omega⟩)
  left_inv := by
    rintro ⟨c, i⟩
    have hi : i.val < 16 := i.isLt
    exact Prod.ext (Fin.ext (by show (16 * c.val + i.val) / 16 = c.val; omega)) (Fin.ext (by show (16 * c.val + i.val) % 16 = i.val; omega))
  right_inv := by
    intro j
    exact Fin.ext (by show 16 * (j.val / 16) + j.val % 16 = j.val; omega)

/-- The 32 read shares of the table, one per vector subcore. -/
theorem tab_toks (d : Dev nD) (T : Buf (Elt F) (tabLoc d)) :
    (bigSep Finset.univ fun j : Fin 32 => (tabLoc d ↦{Transfers.shareTok fullShare 32 j} T : sProp 𝕄))
      = bigSep Finset.univ fun t : Tl F => (tabLoc d ↦{tq (LV (F := F) t.1 t.2)} T : sProp 𝕄) :=
  bigSep_univ_equiv (tileEquiv (F := F)) _

/-- The index list is its 32 blocks. -/
theorem idx_blocks (d : Dev nD) (f : Buf (Elt F) (idxLoc d)) :
    (idxLoc d ↦{fullShare} f : sProp 𝕄) = bigSep Finset.univ fun t : Tl F => idxLoc d ↦[(idxM (LV (F := F) t.1 t.2)).view.set]{fullShare} f := by
  rw [← idx_cover (F := F), pointsTo_biUnion Finset.univ (ℓ := idxLoc d) (fun t : Tl F => idxS (LV (F := F) t.1 t.2)) (idx_disjoint (F := F))]

/-- A trip's 512 rows are its two chunks. -/
theorem out_pair (d : Dev nD) (f : Buf (Elt F) (outLoc d)) (L : grid1.Coords) (k : Fin k1_t1_loop.trips) :
    (outLoc d ↦[outP L k]{fullShare} f : sProp 𝕄)
      = iprop((outLoc d ↦[(outA L k).view.set]{fullShare} f) ∗ (outLoc d ↦[(outB L k).view.set]{fullShare} f)) := by
  have hu : (outLoc d ↦[(outA L k).view.set ∪ (outB L k).view.set]{fullShare} f : sProp 𝕄)
      ⊣⊢ iprop((outLoc d ↦[(outA L k).view.set]{fullShare} f) ∗ outLoc d ↦[(outB L k).view.set]{fullShare} f) := pointsTo_union (outAB_disjoint L k)
  exact BI.equiv_iff.mp ⟨hu.1, hu.2⟩

/-- The row buffer is, per vector subcore and per trip, the trip's two chunks. -/
theorem out_chunks (d : Dev nD) (f : Buf (Elt F) (outLoc d)) :
    (outLoc d ↦{fullShare} f : sProp 𝕄) = bigSep Finset.univ fun t : Tl F => bigSep Finset.univ fun k : Fin k1_t1_loop.trips =>
      iprop((outLoc d ↦[(outA (LV (F := F) t.1 t.2) k).view.set]{fullShare} f) ∗ (outLoc d ↦[(outB (LV (F := F) t.1 t.2) k).view.set]{fullShare} f)) := by
  rw [← out_cover (F := F), pointsTo_biUnion Finset.univ (ℓ := outLoc d) (fun u : Tl F × Fin k1_t1_loop.trips => outP (LV (F := F) u.1.1 u.1.2) u.2) (out_disjoint (F := F)),
    bigSep_univ_prod]
  exact bigSep_congr fun t _ => bigSep_congr fun k _ => out_pair d f (LV (F := F) t.1 t.2) k

/-! ## Handing out -/

variable [FloatOps F] (m : (ℓ : Loc nD τ sig) → Buf (Elt F) ℓ) (TabOK : (d : Dev nD) → Buf (Elt F) (tabLoc d) → Prop)

/-- What a vector subcore is handed, the table's contents named. -/
def goT (d : Dev nD) (L : grid1.Coords) (T : Buf (Elt F) (tabLoc d)) : sProp 𝕄 :=
  iprop((tabLoc d ↦{tq L} T) ∗ (idxLoc d ↦[(idxM L).view.set]{fullShare} idxV m d)
    ∗ bigSep Finset.univ fun k : Fin k1_t1_loop.trips =>
        iprop((outLoc d ↦[(outA L k).view.set]{fullShare} m (outLoc d)) ∗ (outLoc d ↦[(outB L k).view.set]{fullShare} m (outLoc d))))

theorem goA_of_goT (d : Dev nD) (L : grid1.Coords) (T : Buf (Elt F) (tabLoc d)) (hT : TabOK d T) : goT m d L T ⊢ goA m TabOK d L := by
  unfold goT goA
  iintro H
  iexists T
  isplitr
  · ipureintro; exact hT
  · iexact H

theorem tiles_of_parts (d : Dev nD) (T : Buf (Elt F) (tabLoc d)) (hT : TabOK d T) :
    iprop((bigSep Finset.univ fun t : Tl F => (tabLoc d ↦{tq (LV (F := F) t.1 t.2)} T : sProp 𝕄))
      ∗ (bigSep Finset.univ fun t : Tl F => (idxLoc d ↦[(idxM (LV (F := F) t.1 t.2)).view.set]{fullShare} idxV m d : sProp 𝕄))
      ∗ (bigSep Finset.univ fun t : Tl F => bigSep Finset.univ fun k : Fin k1_t1_loop.trips =>
          iprop((outLoc d ↦[(outA (LV (F := F) t.1 t.2) k).view.set]{fullShare} m (outLoc d)) ∗ (outLoc d ↦[(outB (LV (F := F) t.1 t.2) k).view.set]{fullShare} m (outLoc d)))))
      ⊢ (bigSep Finset.univ fun c : Fin ((K (F := F)).nCore 0) => bigSep Finset.univ fun i : Fin ((K (F := F)).nSub 0) => goA m TabOK d (LV c i) : sProp 𝕄) := by
  have h : (bigSep Finset.univ fun t : Tl F => goT m d (LV (F := F) t.1 t.2) T)
      ⊢ (bigSep Finset.univ fun c : Fin ((K (F := F)).nCore 0) => bigSep Finset.univ fun i : Fin ((K (F := F)).nSub 0) => goA m TabOK d (LV c i) : sProp 𝕄) := by
    rw [bigSep_univ_prod]
    exact bigSep_mono fun c _ => bigSep_mono fun i _ => goA_of_goT m TabOK d (LV c i) T hT
  unfold goT at h
  rw [bigSep_sep', bigSep_sep'] at h
  exact h

/-! ## Taking back -/

/-- A grid point is the one of its own two coordinates. -/
theorem LV_eta (L : grid1.Coords) : LV (F := F) (Fin.cast rfl (L 0)) (Fin.cast rfl (L 1)) = L := by
  funext a
  match a with
  | 0 => exact Fin.ext rfl
  | 1 => exact Fin.ext rfl

/-- What a vector subcore hands back, the table's contents named. -/
def tdT (d : Dev nD) (L : grid1.Coords) (T : Buf (Elt F) (tabLoc d)) : sProp 𝕄 :=
  iprop((tabLoc d ↦{tq L} T) ∗ (idxLoc d ↦[(idxM L).view.set]{fullShare} idxV m d)
    ∗ ∃ f : Buf (Elt F) (outLoc d), ⌜GathOK m d L T f⌝ ∗ bigSep Finset.univ fun k : Fin k1_t1_loop.trips =>
        iprop((outLoc d ↦[(outA L k).view.set]{fullShare} f) ∗ (outLoc d ↦[(outB L k).view.set]{fullShare} f)))

/-- Beside the remainder share of the table, a returned read share is at the remainder's contents. -/
theorem tdT_of_tdA (d : Dev nD) (L : grid1.Coords) (T : Buf (Elt F) (tabLoc d)) :
    iprop((tabLoc d ↦{Transfers.shareDrop fullShare 32} T) ∗ tdA m TabOK d L)
      ⊢ iprop((tabLoc d ↦{Transfers.shareDrop fullShare 32} T) ∗ tdT m d L T) := by
  unfold tdA tdT
  iintro ⟨Hd, %T', -, Ht, Hi, %f, %hf, Ho⟩
  ihave Hag := (persistent_entails_right pointsTo_agree) $$ [Hd Ht]
  · isplitl [Hd]; · iexact Hd
    iexact Ht
  icases Hag with ⟨%hag, Hd, Ht⟩
  have hTT : T' = T := funext fun x => ((hag x (Finset.mem_inter.mpr ⟨Finset.mem_univ _, Finset.mem_univ _⟩)).1).symm
  subst hTT
  isplitl [Hd]; · iexact Hd
  isplitl [Ht]; · iexact Ht
  isplitl [Hi]; · iexact Hi
  iexists f
  isplitr
  · ipureintro; exact hf
  · iexact Ho

/-- A step that gives back the assertion it uses may be taken at every summand in turn. -/
theorem bigSep_frame_mono {I : Type} [DecidableEq I] (s : Finset I) (R : sProp 𝕄) (Φ Ψ : I → sProp 𝕄)
    (h : ∀ i ∈ s, iprop(R ∗ Φ i) ⊢ iprop(R ∗ Ψ i)) : iprop(R ∗ bigSep s Φ) ⊢ iprop(R ∗ bigSep s Ψ) := by
  induction s using Finset.induction_on with
  | empty => rw [bigSep_empty, bigSep_empty]
  | insert i s hi ih =>
    have e : bigSep (insert i s) Φ = iprop(Φ i ∗ bigSep s Φ) := bigSep_insert hi
    have e' : bigSep (insert i s) Ψ = iprop(Ψ i ∗ bigSep s Ψ) := bigSep_insert hi
    rw [e, e']
    iintro ⟨HR, Hi, Hs⟩
    ihave H := (h i (Finset.mem_insert_self i s)) $$ [HR Hi]
    · isplitl [HR]; · iexact HR
      iexact Hi
    icases H with ⟨HR, Hi⟩
    ihave H := (ih fun j hj => h j (Finset.mem_insert_of_mem hj)) $$ [HR Hs]
    · isplitl [HR]; · iexact HR
      iexact Hs
    icases H with ⟨HR, Hs⟩
    isplitl [HR]; · iexact HR
    isplitl [Hi]; · iexact Hi
    iexact Hs

/-- The chunks, each vector subcore's at contents of its own, join into one array that has every block gathered. -/
theorem out_join (d : Dev nD) (T : Buf (Elt F) (tabLoc d)) :
    (bigSep Finset.univ fun t : Tl F => iprop(∃ f : Buf (Elt F) (outLoc d), ⌜GathOK m d (LV (F := F) t.1 t.2) T f⌝
        ∗ bigSep Finset.univ fun k : Fin k1_t1_loop.trips =>
          iprop((outLoc d ↦[(outA (LV (F := F) t.1 t.2) k).view.set]{fullShare} f) ∗ (outLoc d ↦[(outB (LV (F := F) t.1 t.2) k).view.set]{fullShare} f))))
      ⊢ (iprop(∃ f : Buf (Elt F) (outLoc d), ⌜∀ L : grid1.Coords, GathOK m d L T f⌝ ∗ (outLoc d ↦{fullShare} f)) : sProp 𝕄) := by
  have : ∀ _ : Tl F, Nonempty (Buf (Elt F) (outLoc d)) := fun _ => ⟨m (outLoc d)⟩
  refine (bigSep_exists_pi Finset.univ (fun (t : Tl F) (f : Buf (Elt F) (outLoc d)) => iprop(⌜GathOK m d (LV (F := F) t.1 t.2) T f⌝
        ∗ bigSep Finset.univ fun k : Fin k1_t1_loop.trips =>
          iprop((outLoc d ↦[(outA (LV (F := F) t.1 t.2) k).view.set]{fullShare} f) ∗ (outLoc d ↦[(outB (LV (F := F) t.1 t.2) k).view.set]{fullShare} f))))).trans ?_
  iintro ⟨%fs, H⟩
  ihave H' := (bigSep_pure_sep Finset.univ (fun t : Tl F => GathOK m d (LV (F := F) t.1 t.2) T (fs t))
      (fun t : Tl F => bigSep Finset.univ fun k : Fin k1_t1_loop.trips =>
          iprop((outLoc d ↦[(outA (LV (F := F) t.1 t.2) k).view.set]{fullShare} fs t) ∗ (outLoc d ↦[(outB (LV (F := F) t.1 t.2) k).view.set]{fullShare} fs t)))) $$ H
  icases H' with ⟨%hG, H⟩
  have e : (bigSep Finset.univ fun t : Tl F => bigSep Finset.univ fun k : Fin k1_t1_loop.trips =>
        iprop((outLoc d ↦[(outA (LV (F := F) t.1 t.2) k).view.set]{fullShare} fs t) ∗ (outLoc d ↦[(outB (LV (F := F) t.1 t.2) k).view.set]{fullShare} fs t)))
      = (bigSep Finset.univ fun u : Tl F × Fin k1_t1_loop.trips => (outLoc d ↦[outP (LV (F := F) u.1.1 u.1.2) u.2]{fullShare} fs u.1 : sProp 𝕄)) := by
    rw [bigSep_univ_prod (fun u : Tl F × Fin k1_t1_loop.trips => (outLoc d ↦[outP (LV (F := F) u.1.1 u.1.2) u.2]{fullShare} fs u.1 : sProp 𝕄))]
    exact bigSep_congr fun t _ => bigSep_congr fun k _ => (out_pair d (fs t) (LV (F := F) t.1 t.2) k).symm
  ihave H2 := (Entails.of_eq e) $$ H
  ihave H3 := (pointsTo_biUnion_join (ℓ := outLoc d) (q := fullShare) (Val := Elt F) Finset.univ
      (fun u : Tl F × Fin k1_t1_loop.trips => outP (LV (F := F) u.1.1 u.1.2) u.2) (fun u => fs u.1) (m (outLoc d)) (out_disjoint (F := F))) $$ H2
  icases H3 with ⟨%g, %hg, Hg⟩
  rw [out_cover (F := F)]
  iexists g
  isplitr
  · ipureintro
    intro L p k hlo hhi
    obtain ⟨t, hL⟩ : ∃ t : Tl F, LV (F := F) t.1 t.2 = L := ⟨(Fin.cast rfl (L 0), Fin.cast rfl (L 1)), LV_eta L⟩
    have hk : (p.val - baseOf L) / 512 < k1_t1_loop.trips := by rw [trips_eq]; omega
    have hmem : ix2 p k ∈ outP (LV (F := F) t.1 t.2) ⟨(p.val - baseOf L) / 512, hk⟩ := by
      rw [hL, mem_outP]
      show baseOf L + 512 * ((p.val - baseOf L) / 512) ≤ p.val ∧ p.val < baseOf L + 512 * ((p.val - baseOf L) / 512) + 512
      omega
    have hgx := hg (t, ⟨(p.val - baseOf L) / 512, hk⟩) (Finset.mem_univ _) (ix2 p k) hmem
    have hGt := hG t (Finset.mem_univ _)
    rw [hL] at hGt
    exact hgx.trans (hGt p k hlo hhi)
  · iexact Hg

end Split

open Split

theorem st_of_arrays [FloatOps F] (m : (ℓ : Loc nD τ sig) → Buf (Elt F) ℓ) (TabOK : (d : Dev nD) → Buf (Elt F) (tabLoc d) → Prop) (d : Dev nD)
    (T : Buf (Elt F) (tabLoc d)) (hT : TabOK d T) :
    (iprop((tabLoc d ↦{fullShare} T) ∗ (idxLoc d ↦{fullShare} idxV m d) ∗ (outLoc d ↦{fullShare} m (outLoc d))) : sProp 𝕄)
      ⊢ iprop((tabLoc d ↦{Transfers.shareDrop fullShare 32} T) ∗ bigSep Finset.univ fun c : Fin ((K (F := F)).nCore 0) => (P m TabOK).st 0 d c) := by
  show _ ⊢ iprop((tabLoc d ↦{Transfers.shareDrop fullShare 32} T)
    ∗ bigSep Finset.univ fun c : Fin ((K (F := F)).nCore 0) => bigSep Finset.univ fun i : Fin ((K (F := F)).nSub 0) => goA m TabOK d (LV c i))
  rw [idx_blocks (F := F) d (idxV m d), out_chunks (F := F) d (m (outLoc d))]
  refine (sep_mono_left (Transfers.pointsTo_toks_split fullShare 32)).trans ?_
  rw [tab_toks (F := F) d T]
  iintro ⟨⟨Hd, Ht⟩, Hi, Ho⟩
  isplitl [Hd]; · iexact Hd
  iapply (tiles_of_parts m TabOK d T hT)
  isplitl [Ht]; · iexact Ht
  isplitl [Hi]; · iexact Hi
  iexact Ho

theorem vecSplit [FloatOps F] (m : (ℓ : Loc nD τ sig) → Buf (Elt F) ℓ) (TabOK : (d : Dev nD) → Buf (Elt F) (tabLoc d) → Prop) :
    (K (F := F)).VecSplit' (P m TabOK) 0 := by
  intro d c
  show (bigSep Finset.univ fun i : Fin ((K (F := F)).nSub 0) => goA m TabOK d (LV c i)) ⊢ |={Set.univ}=> iprop(
      (bigSep Finset.univ fun i : Fin ((K (F := F)).nSub 0) => goA m TabOK d (LV c i))
      ∗ ((bigSep Finset.univ fun i : Fin ((K (F := F)).nSub 0) => tdA m TabOK d (LV c i))
          -∗ bigSep Finset.univ fun i : Fin ((K (F := F)).nSub 0) => tdA m TabOK d (LV c i)))
  iintro H; imodintro
  isplitl [H]; · iexact H
  iintro H; iexact H

theorem arrays_of_dn [FloatOps F] (m : (ℓ : Loc nD τ sig) → Buf (Elt F) ℓ) (TabOK : (d : Dev nD) → Buf (Elt F) (tabLoc d) → Prop) (d : Dev nD)
    (T : Buf (Elt F) (tabLoc d)) :
    (iprop((tabLoc d ↦{Transfers.shareDrop fullShare 32} T) ∗ bigSep Finset.univ fun c : Fin ((K (F := F)).nCore 0) => (P m TabOK).dn 0 d c) : sProp 𝕄)
      ⊢ iprop(∃ f : Buf (Elt F) (outLoc d), ⌜∀ L : grid1.Coords, GathOK m d L T f⌝ ∗ (tabLoc d ↦{fullShare} T) ∗ (idxLoc d ↦{fullShare} idxV m d) ∗ (outLoc d ↦{fullShare} f)) := by
  have e0 : (bigSep Finset.univ fun c : Fin ((K (F := F)).nCore 0) => bigSep Finset.univ fun i : Fin ((K (F := F)).nSub 0) => tdA m TabOK d (LV c i) : sProp 𝕄)
      = bigSep Finset.univ fun t : Tl F => tdA m TabOK d (LV (F := F) t.1 t.2) :=
    (bigSep_univ_prod (fun t : Tl F => tdA m TabOK d (LV (F := F) t.1 t.2))).symm
  refine (sep_mono_right (Entails.of_eq e0)).trans ?_
  refine (bigSep_frame_mono Finset.univ _ _ (fun t : Tl F => tdT m d (LV (F := F) t.1 t.2) T)
    fun t _ => tdT_of_tdA m TabOK d (LV (F := F) t.1 t.2) T).trans ?_
  unfold tdT
  rw [bigSep_sep', bigSep_sep', ← tab_toks (F := F) d T, ← idx_blocks (F := F) d (idxV m d)]
  iintro ⟨Hd, Ht, Hi, Ho⟩
  ihave Ho' := (out_join m d T) $$ Ho
  icases Ho' with ⟨%f, %hf, Ho⟩
  iexists f
  isplitr
  · ipureintro; exact hf
  isplitl [Hd Ht]
  · iapply (Transfers.pointsTo_toks_join fullShare 32)
    isplitl [Hd]; · iexact Hd
    iexact Ht
  isplitl [Hi]; · iexact Hi
  iexact Ho

end Cert.Proof.KI

end
-- ==== Proof.KMain.lean ====
/-
  The run of the whole program, from the launch: the SparseCore launch theorem applied to the program, with @main on the
  TensorCore as three stretches of host operations around the first pipelined call, the SparseCore call and the second
  pipelined call. Each pipelined call enters as ONE hypothesis — from the unscoped arrays held at any contents it runs
  and leaves them as found but for its output array, whose contents satisfy a stated predicate —, so that what @main
  computes is read off a chain of valuations W1 … W5 over the launch memory.
-/
import proofs.«217421_g60146722013857_cont_9to1c4b_519_37_alg».proof.Proof.KCommon
import proofs.«217421_g60146722013857_cont_9to1c4b_519_37_alg».proof.Proof.KSplit
import Idealize.ShloMosaic.Lib.Pipeline.Frame

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_split held_sdiff_result held_congr wp_hlo_within)

variable {F : FTy → Type} [FloatOps F]

local notation "𝕄" => MT nD τ sig (HIx 1) (Elt F) ℕ UU ℕ

/-- Array y of the TensorCore of device d. -/
abbrev yLoc (d : Dev nD) (y : Ref sig .tc) : Loc nD τ sig := (SparseCore.T d).loc y
abbrev v12Loc (d : Dev nD) : Loc nD τ sig := (SparseCore.T d).loc main_v12
abbrev v13Loc (d : Dev nD) : Loc nD τ sig := (SparseCore.T d).loc main_v13

/-! ## The pipelined calls' ghost state and the launch element -/

abbrev adm : (p : Fin 2) → (pcfgs (F := F) p).Adm := fun p => (cfgs p).toPCfg_adm

/-- The pipelined calls' staging-cell ghost state on device d, as the launch deals it. -/
abbrev GG (d : Dev nD) : sProp 𝕄 := Pipeline.ghostOn (pcfgs (F := F)) adm EP Finset.univ d

def u₀ : UU := (initOf (K (F := F)).hsCells (K (F := F)).hsToks,
  (initOf (Pipeline.cells cfgs cellOf_inj) (Pipeline.launchToks cfgs cellOf_inj), (1 : Counters)))

/-- The TensorCore owes nothing at a kernel's own index: all it owes are start signals, at a call's index. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-! ## A pipelined call as a step of @main -/

set_option backward.isDefEq.respectTransparency.types false in
/-- A pipelined call of @main as one step on the TensorCore, in the program's extended signature: the call is the lift of
    the pipelines' own entry, which the library's rule for a region runs from the region's thread state and the pipeline's ghost state. -/
theorem region_step [∀ e, Nonempty (Elt F e)]
    {rdats : (p : Fin 2) → (c : Dev nD) → Pipeline.RDat τ (Elt F) (HIx 1) ℕ UU ℕ (Pipeline.pin (pcfgs (F := F)) adm p) c} {p : Fin 2}
    (R : Pipeline.RDat.RegionSeg (pcfgs (F := F)) adm rdats (none : HIx 1) (defs₀ (F := F)) 𝒱₀ (K (F := F)).L (K (F := F)).lev p)
    (d : Dev nD) (Φ : PUnit → sProp 𝕄) :
    iprop((iprop(boundary (SparseCore.T d) ∗ R.post d) -∗ Φ ⟨⟩) ∗ boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Pipeline.entry p)) ())) Φ := by
  iintro ⟨Hk, Hrest⟩
  iapply ((K (F := F)).wp_liftProg (D (F := F)) 𝒱 (SparseCore.T d) Set.univ none (Prog.lift (.customCall (Pipeline.entry p) ())) Φ)
  iapply (Pipeline.RDat.RegionSeg.wp (pcfgs (F := F)) adm rdats (none : HIx 1) cellOf_inj EP (defs₀ (F := F)) 𝒱₀ (K (F := F)).L (K (F := F)).lev R d none
    (fun u h => nomatch h) (fun x => .ret x) Φ)
  isplitl [Hk]
  · iintro H
    rw [wp_ret]; imodintro
    iapply Hk; iexact H
  · iexact Hrest

/-- What a pipelined call p with output array y is asked: from the level facts, the region boundary, every unscoped array of
    the TensorCore held whole at W, the core's dues O (none at a kernel's own index) and the pipeline's ghost state, the call
    runs, and its continuation is entered with the boundary, the arrays at W but y at contents Y of which Post holds, and
    the same dues, the newly recorded waits all at a kernel's own index. -/
def RegSpec (p : Fin 2) (y : Ref sig .tc)
    (Post : (d : Dev nD) → Valuation τ sig (Elt F) → Buf (Elt F) (yLoc d y) → Prop) : Prop :=
  ∀ (d : Dev nD) (W : Valuation τ sig (Elt F)) (O : CellTallies nD τ sig (HIx 1)) (Wt : Waits sig (HIx 1)), (∀ g, O g none = 0) →
  ∀ (Φ : PUnit → sProp 𝕄),
    iprop(levAts (K (F := F)).L (K (F := F)).lev ∗ boundary (SparseCore.T d) ∗ held (SparseCore.T d) (Pipeline.ucRefs τ sig) W ∗ owes (SparseCore.T d) O Wt
        ∗ Pipeline.cellsGhost (Pipeline.pin (pcfgs (F := F)) adm) EP p d ∗ Pipeline.toksInit (Pipeline.pin (pcfgs (F := F)) adm) EP p d
        ∗ (∀ (Y : Buf (Elt F) (yLoc d y)) (Wt' : Waits sig (HIx 1)),
            iprop(⌜Post d W Y ∧ ∀ q ∈ Wt', q ∈ Wt ∨ q.2 = none⌝ ∗ boundary (SparseCore.T d)
              ∗ held (SparseCore.T d) (Pipeline.ucRefs τ sig) (Function.update W (Proc.devRef .tc y) Y) ∗ owes (SparseCore.T d) O Wt') -∗ Φ ⟨⟩))
      ⊢ wp frame (wpE ((K (F := F)).defs (D (F := F))) 𝒱 (SparseCore.T d) none) Set.univ
          (Prog.lift (.customCall (SparseCore.inner (Pipeline.entry p)) ())) Φ

/-! ## @main's host operations, stretch by stretch -/

/-- Before the first call: the token words transposed and flattened, the embedding transposed, the 64 x 64 identity. -/
abbrev ops0 : List (HloOp τ sig (Elt F)) := [
  StableHlo.unary main_arg0 main_v0 ((transpose S200x4096 [1, 0] · transposes_S4096x200_S200x4096_1_0) : (⟨S4096x200, .i32⟩ : BufTy).Contents (Elt F) → (⟨S200x4096, .i32⟩ : BufTy).Contents (Elt F)),
  StableHlo.reshape main_v0 main_v1 rfl shapeCasts_S200x4096_S819200,
  StableHlo.unary main_arg2 main_v2 ((transpose S64x1000000 [1, 0] · transposes_S1000000x64_S64x1000000_1_0) : (⟨S1000000x64, .f32⟩ : BufTy).Contents (Elt F) → (⟨S64x1000000, .f32⟩ : BufTy).Contents (Elt F)),
  StableHlo.nullary main_v3 (iotaInDim S64x64 32 0),
  StableHlo.nullary main_v4 (iotaInDim S64x64 32 1),
  StableHlo.nullary main_c (constantI S_ 32 0#32),
  StableHlo.unary main_c main_v5 (broadcastInDim S64x64 ![] bcast_S_S64x64 : (⟨S_, .i32⟩ : BufTy).Contents (Elt F) → (⟨S64x64, .i32⟩ : BufTy).Contents (Elt F)),
  StableHlo.binary main_v3 main_v5 main_v6 (addi : (⟨S64x64, .i32⟩ : BufTy).Contents (Elt F) → (⟨S64x64, .i32⟩ : BufTy).Contents (Elt F) → (⟨S64x64, .i32⟩ : BufTy).Contents (Elt F)),
  StableHlo.binary main_v6 main_v4 main_v7 (cmpi .eq : (⟨S64x64, .i32⟩ : BufTy).Contents (Elt F) → (⟨S64x64, .i32⟩ : BufTy).Contents (Elt F) → (⟨S64x64, .i1⟩ : BufTy).Contents (Elt F)),
  StableHlo.unary main_v7 main_v8 (uitofp .f32 : (⟨S64x64, .i1⟩ : BufTy).Contents (Elt F) → (⟨S64x64, .f32⟩ : BufTy).Contents (Elt F))]
/-- Between the first call and the SparseCore call: the bias as a column. -/
abbrev ops1 : List (HloOp τ sig (Elt F)) := [StableHlo.reshape main_arg4 main_v10 rfl shapeCasts_S64_S64x1]
/-- After the second call: its result transposed into the token-major layout. -/
abbrev ops2 : List (HloOp τ sig (Elt F)) := [
  StableHlo.unary main_v12 main_v13 ((transpose S4096x200x64 [2, 0, 1] · transposes_S200x64x4096_S4096x200x64_2_0_1) : (⟨S200x64x4096, .f32⟩ : BufTy).Contents (Elt F) → (⟨S4096x200x64, .f32⟩ : BufTy).Contents (Elt F))]

/-- @main is these stretches around its three calls. -/
theorem main_eq (d : Dev nD) : main (F := F) d =
    (StableHlo.seq ops0 >>= fun _ => Prog.lift (.customCall (SparseCore.inner (Pipeline.entry 0)) ()) >>= fun _ =>
      StableHlo.seq ops1 >>= fun _ => sc.run d 0 >>= fun _ => Prog.lift (.customCall (SparseCore.inner (Pipeline.entry 1)) ()) >>= fun _ =>
      (StableHlo.seq ops2 >>= fun _ => pure ⟨⟩)) := by
  chain_rfl

theorem ops0_sub : (ops0 (F := F)).Forall fun op => op.bufs ⊆ StableHlo.tcRefs τ sig := by
  simp only [List.Forall]; repeat' constructor
  all_goals simp
theorem ops1_sub : (ops1 (F := F)).Forall fun op => op.bufs ⊆ StableHlo.tcRefs τ sig := by
  simp only [List.Forall]; simp
theorem ops2_sub : (ops2 (F := F)).Forall fun op => op.bufs ⊆ StableHlo.tcRefs τ sig := by
  simp only [List.Forall]; simp
theorem ops0_fresh : (ops0 (F := F)).Forall fun op => op.fresh = ∅ := by
  simp only [List.Forall]; repeat' constructor
theorem ops1_fresh : (ops1 (F := F)).Forall fun op => op.fresh = ∅ := by
  simp only [List.Forall]; repeat' constructor
theorem ops2_fresh : (ops2 (F := F)).Forall fun op => op.fresh = ∅ := by
  simp only [List.Forall]; repeat' constructor

/-! ## The arrays' contents from call to call -/

variable (m : (ℓ : Loc nD τ sig) → Buf (Elt F) ℓ) (ρ : Dev nD → PrngReg)

abbrev v9' : DevRef τ sig := Proc.devRef .tc (main_v9 : Ref sig .tc)
abbrev v1' : DevRef τ sig := Proc.devRef .tc (main_v1 : Ref sig .tc)
abbrev v11' : DevRef τ sig := Proc.devRef .tc (main_v11 : Ref sig .tc)
abbrev v12' : DevRef τ sig := Proc.devRef .tc (main_v12 : Ref sig .tc)
abbrev v13' : DevRef τ sig := Proc.devRef .tc (main_v13 : Ref sig .tc)

/-- At launch; -/
abbrev V0 (d : Dev nD) : Valuation τ sig (Elt F) := fun b => m (d, b)
/-- as the first call finds them; -/
abbrev W1 (d : Dev nD) : Valuation τ sig (Elt F) := StableHlo.after ops0 (V0 m d)
/-- as the SparseCore call finds them, the table at what the first call left; -/
abbrev W2 (d : Dev nD) (Tb : Buf (Elt F) (tabLoc d)) : Valuation τ sig (Elt F) := StableHlo.after ops1 (Function.update (W1 m d) v9' Tb)
/-- as the second call finds them, the row buffer at what the vector subcores left; -/
abbrev W3 (d : Dev nD) (Tb : Buf (Elt F) (tabLoc d)) (f : Buf (Elt F) (outLoc d)) : Valuation τ sig (Elt F) := Function.update (W2 m d Tb) v11' f
/-- and at the return. -/
abbrev W5 (d : Dev nD) (Tb : Buf (Elt F) (tabLoc d)) (f : Buf (Elt F) (outLoc d)) (Y : Buf (Elt F) (v12Loc d)) : Valuation τ sig (Elt F) :=
  StableHlo.after ops2 (Function.update (W3 m d Tb f) v12' Y)

variable (Tab0 : (d : Dev nD) → Valuation τ sig (Elt F) → Buf (Elt F) (tabLoc d) → Prop)
variable (Res2 : (d : Dev nD) → Valuation τ sig (Elt F) → Buf (Elt F) (v12Loc d) → Prop)

/-- What the table's contents satisfy when the SparseCore call is made. -/
abbrev TabOK : (d : Dev nD) → Buf (Elt F) (tabLoc d) → Prop := fun d Tb => Tab0 d (W1 m d) Tb

/-- What the result array holds at the return: the last valuation's, over SOME table, row buffer and second-call output
    that the three calls may have left. -/
def ResOK (d : Dev nD) (R : Buf (Elt F) (v13Loc d)) : Prop :=
  ∃ (Tb : Buf (Elt F) (tabLoc d)) (f : Buf (Elt F) (outLoc d)) (Y : Buf (Elt F) (v12Loc d)),
    Tab0 d (W1 m d) Tb ∧ (∀ L : grid1.Coords, GathOK m d L Tb f) ∧ Res2 d (W3 m d Tb f) Y ∧ R = W5 m d Tb f Y v13'

/-! ## Which arrays a stretch writes, and what the others keep -/

abbrev ops0_W : List (Ref sig .tc) := [main_v0, main_v1, main_v2, main_v3, main_v4, main_c, main_v5, main_v6, main_v7, main_v8]
abbrev ops1_W : List (Ref sig .tc) := [main_v10]
abbrev ops2_W : List (Ref sig .tc) := [main_v13]

theorem ops0_writes : (ops0 (F := F)).Forall fun op => op.writes ⊆ (ops0_W.map (Proc.devRef (τ := τ) .tc)).toFinset := by
  simp only [List.Forall]; repeat' constructor
  all_goals (simp only [StableHlo.nullary_writes, StableHlo.unary_writes, StableHlo.binary_writes, StableHlo.reshape_writes, Finset.singleton_subset_iff, List.mem_toFinset]; exact List.mem_map_of_mem (by decide))
theorem ops1_writes : (ops1 (F := F)).Forall fun op => op.writes ⊆ (ops1_W.map (Proc.devRef (τ := τ) .tc)).toFinset := by
  simp only [List.Forall]; exact (by simp only [StableHlo.reshape_writes, Finset.singleton_subset_iff, List.mem_toFinset]; exact List.mem_map_of_mem (by decide))
theorem ops2_writes : (ops2 (F := F)).Forall fun op => op.writes ⊆ (ops2_W.map (Proc.devRef (τ := τ) .tc)).toFinset := by
  simp only [List.Forall]; exact (by simp only [StableHlo.unary_writes, Finset.singleton_subset_iff, List.mem_toFinset]; exact List.mem_map_of_mem (by decide))

/-- The table, when the SparseCore call is made, is what the first call left; -/
theorem W2_tab (d : Dev nD) (Tb : Buf (Elt F) (tabLoc d)) : W2 m d Tb v9' = Tb := by
  refine (StableHlo.after_of_writes_sub ops1 _ ops1_writes (r := main_v9) (by decide)).trans ?_
  exact Function.update_self _ _ _
/-- the index list is the token words transposed and flattened; -/
theorem W2_idx (d : Dev nD) (Tb : Buf (Elt F) (tabLoc d)) : W2 m d Tb v1' = idxV m d := by
  refine (StableHlo.after_of_writes_sub ops1 _ ops1_writes (r := main_v1) (by decide)).trans ?_
  refine (Function.update_of_ne (show v1' ≠ v9' by decide) _ _).trans ?_
  show StableHlo.after ops0 (V0 m d) v1' = idxV m d
  unfold idxV
  after_results
  rfl
/-- the row buffer is as launched. -/
theorem W2_out (d : Dev nD) (Tb : Buf (Elt F) (tabLoc d)) : W2 m d Tb v11' = m (outLoc d) := by
  refine (StableHlo.after_of_writes_sub ops1 _ ops1_writes (r := main_v11) (by decide)).trans ?_
  refine (Function.update_of_ne (show v11' ≠ v9' by decide) _ _).trans ?_
  exact StableHlo.after_of_writes_sub ops0 _ ops0_writes (r := main_v11) (by decide)

/-- An array that no stretch writes and no call outputs is, at the return, as launched. -/
theorem W5_keep (d : Dev nD) (Tb : Buf (Elt F) (tabLoc d)) (f : Buf (Elt F) (outLoc d)) (Y : Buf (Elt F) (v12Loc d)) (r : Ref sig .tc)
    (h : r ∉ ops0_W ++ [main_v9, main_v10, main_v11, main_v12, main_v13]) :
    W5 m d Tb f Y (Proc.devRef .tc r) = m (d, Proc.devRef .tc r) := by
  have hne : ∀ y : Ref sig .tc, y ∈ ops0_W ++ [main_v9, main_v10, main_v11, main_v12, main_v13] → (Proc.devRef .tc r : DevRef τ sig) ≠ Proc.devRef .tc y :=
    fun y hy e => h (by rw [Proc.devRef_injective _ e]; exact hy)
  refine (StableHlo.after_of_writes_sub ops2 _ ops2_writes (r := r) (fun hm => h (by rw [List.mem_singleton.mp hm]; decide))).trans ?_
  refine (Function.update_of_ne (hne main_v12 (by simp)) _ _).trans ?_
  refine (Function.update_of_ne (hne main_v11 (by simp)) _ _).trans ?_
  refine (StableHlo.after_of_writes_sub ops1 _ ops1_writes (r := r) (fun hm => h (by rw [List.mem_singleton.mp hm]; decide))).trans ?_
  refine (Function.update_of_ne (hne main_v9 (by simp)) _ _).trans ?_
  exact StableHlo.after_of_writes_sub ops0 _ ops0_writes (r := r) (fun hm => h (List.mem_append_left _ hm))

/-! ## The held arrays, one taken out -/

theorem held_take (d : Dev nD) {S : Finset (DevRef τ sig)} {b : DevRef τ sig} (hb : b ∈ S) (W : Valuation τ sig (Elt F)) :
    (held (SparseCore.T d) S W : sProp 𝕄) = iprop((((d, b) : Loc nD τ sig) ↦{fullShare} W b) ∗ held (SparseCore.T d) (S.erase b) W) := by
  unfold held; exact SparseCore.bigSep_erase' hb

theorem held_erase_update (d : Dev nD) (S : Finset (DevRef τ sig)) (b : DevRef τ sig) (W : Valuation τ sig (Elt F)) (x) :
    (held (SparseCore.T d) (S.erase b) (Function.update W b x) : sProp 𝕄) = held (SparseCore.T d) (S.erase b) W :=
  held_congr _ fun b' hb' => Function.update_of_ne (Finset.ne_of_mem_erase hb') _ _

/-! ## The launch element -/

theorem bigSep_emp' {I : Type} (s : Finset I) : (bigSep s fun _ => iprop(emp)) = (iprop(emp) : sProp 𝕄) := bigSep_emp_const s

variable (TabOK' : (d : Dev nD) → Buf (Elt F) (tabLoc d) → Prop)

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (P m TabOK').x q thr) := by
  unfold u₀
  iintro Hu
  ihave H := (ownU_pair (initOf (K (F := F)).hsCells (K (F := F)).hsToks)
    ((initOf (Pipeline.cells cfgs cellOf_inj) (Pipeline.launchToks cfgs cellOf_inj), (1 : Counters)) : UP × Counters)) $$ Hu
  icases H with ⟨HH, HR⟩
  ihave H2 := (own_pair_emb (embR : Emb (UP × Counters) (MT nD τ sig (HIx 1) (Elt F) ℕ UU ℕ))
    (initOf (Pipeline.cells cfgs cellOf_inj) (Pipeline.launchToks cfgs cellOf_inj)) (1 : Counters)) $$ HR
  icases H2 with ⟨HP, -⟩
  ihave HP' := (Entails.of_eq (show (BI.own (((Emb.inl : Emb UP (UP × Counters)).trans (embR : Emb (UP × Counters) (MT nD τ sig (HIx 1) (Elt F) ℕ UU ℕ)))
      (initOf (Pipeline.cells cfgs cellOf_inj) (Pipeline.launchToks cfgs cellOf_inj))) : sProp 𝕄)
      = BI.own ((EP (F := F)) (initOf (Pipeline.cells cfgs cellOf_inj) (Pipeline.launchToks cfgs cellOf_inj))) from rfl)) $$ HP
  imod (Pipeline.fund_ghost (nD := nD) (τ := τ) (Val := Elt F) (Ix := HIx 1) (Name := ℕ) (U := UU) (Lvl := ℕ) cfgs (EP (F := F)) cellOf_inj) $$ HP' with ⟨Hg, Ht⟩
  imodintro
  isplitl [HH]; · iexact HH
  isplitl [Hg Ht]
  · have e : (iprop((bigSep Finset.univ fun c : Dev nD => bigSep Finset.univ fun p : Fin 2 => (Pipeline.cellsGhost cfgs (EP (F := F)) p c : sProp 𝕄))
        ∗ (bigSep Finset.univ fun c : Dev nD => bigSep Finset.univ fun p : Fin 2 => (Pipeline.toksInit cfgs (EP (F := F)) p c : sProp 𝕄))) : sProp 𝕄)
        = bigSep Finset.univ fun d : Dev nD => GG (F := F) d := by
      rw [← bigSep_sep']
      exact bigSep_congr fun c _ => (bigSep_sep' _ _ _).symm
    iapply (Entails.of_eq e)
    isplitl [Hg] <;> iassumption
  · rw [show (bigSep Finset.univ fun thr : Thread nD τ => bigSep Finset.univ fun q : Fin 1 => (P (F := F) m TabOK').x q thr) = bigSep Finset.univ fun _ => (iprop(emp) : sProp 𝕄) from
      bigSep_congr fun _ _ => bigSep_univ_of_subsingleton (0 : Fin 1), bigSep_emp']
    iempintro

/-! ## What @main leaves the claim -/

variable (ResOK' : (d : Dev nD) → Buf (Elt F) (v13Loc d) → Prop)

abbrev argPts (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_arg3 ↦{fullShare} m ((SparseCore.T d).loc main_arg3))
    ∗ ((SparseCore.T d).loc main_arg4 ↦{fullShare} m ((SparseCore.T d).loc main_arg4)))

/-- The five arguments at their launch contents, the result at contents of which ResOK' holds. -/
abbrev FIN (d : Dev nD) : sProp 𝕄 :=
  iprop(argPts m d ∗ ∃ R : Buf (Elt F) (v13Loc d), ⌜ResOK' d R⌝ ∗ (v13Loc d ↦{fullShare} R))

def fq (d : Dev nD) (s' : Phys nD τ sig (Elt F)) : Prop :=
  ResOK' d (s'.mem.mem (v13Loc d))
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)
    ∧ s'.mem.mem ((SparseCore.T d).loc main_arg4) = m ((SparseCore.T d).loc main_arg4)

set_option maxRecDepth 16384 in
theorem hfin (d : Dev nD) (s' : Phys nD τ sig (Elt F)) : iprop(FIN m ResOK' d ∗ SI s') ⊢ (⌜fq m ResOK' d s'⌝ : sProp 𝕄) := by
  iintro ⟨⟨⟨H0, H1, H2, H3, H4⟩, %R, %hR, HR⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (persistent_entails_right (SI_pointsTo_agree (st := s') (ℓ := (SparseCore.T d).loc main_arg3) (I := Finset.univ) (q := fullShare) (f := m ((SparseCore.T d).loc main_arg3)))) $$ [HSI H3]
  · isplitl [HSI] <;> iassumption
  icases H with ⟨%h3, HSI, -⟩
  ihave H := (persistent_entails_right (SI_pointsTo_agree (st := s') (ℓ := (SparseCore.T d).loc main_arg4) (I := Finset.univ) (q := fullShare) (f := m ((SparseCore.T d).loc main_arg4)))) $$ [HSI H4]
  · isplitl [HSI] <;> iassumption
  icases H with ⟨%h4, HSI, -⟩
  ihave H := (SI_pointsTo_agree (st := s') (ℓ := v13Loc d) (I := Finset.univ) (q := fullShare) (f := R)) $$ [HSI HR]
  · isplitl [HSI] <;> iassumption
  icases H with %hR'
  ipureintro
  refine ⟨?_, funext fun i => h0 i (Finset.mem_univ i), funext fun i => h1 i (Finset.mem_univ i), funext fun i => h2 i (Finset.mem_univ i),
    funext fun i => h3 i (Finset.mem_univ i), funext fun i => h4 i (Finset.mem_univ i)⟩
  rw [show s'.mem.mem (v13Loc d) = R from funext fun i => hR' i (Finset.mem_univ i)]
  exact hR

/-! ## @main on the TensorCore -/

theorem unscoped_held (d : Dev nD) :
    (unscopedBufs d (fun b => m ((SparseCore.T d).loc b)) : sProp 𝕄) = held (SparseCore.T d) (Pipeline.ucRefs τ sig) (V0 m d) :=
  Pipeline.unscopedBufs_held d (V0 m d)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem ghost_split (d : Dev nD) : (GG (F := F) d : sProp 𝕄)
    = iprop((Pipeline.cellsGhost (Pipeline.pin (pcfgs (F := F)) adm) EP 0 d ∗ Pipeline.toksInit (Pipeline.pin (pcfgs (F := F)) adm) EP 0 d)
        ∗ (Pipeline.cellsGhost (Pipeline.pin (pcfgs (F := F)) adm) EP 1 d ∗ Pipeline.toksInit (Pipeline.pin (pcfgs (F := F)) adm) EP 1 d)) := by
  show Pipeline.PerCore.ghostOn (pcfgs (F := F)) (fun _ => adm) EP Finset.univ d = _
  unfold Pipeline.PerCore.ghostOn
  rw [show (Finset.univ : Finset (Fin 2)) = {0, 1} by decide, SparseCore.bigSep_insert' (by decide), bigSep_singleton]

/-- Recorded waits stay bounded when the new ones all sit at a kernel's own index (level 0). -/
theorem wbelow_ext {thr : Thread nD τ} {W W' : Waits sig (HIx 1)} {b : ℕ} (hW : (K (F := F)).WBelow thr W b)
    (h : ∀ q ∈ W', q ∈ W ∨ q.2 = none) : (K (F := F)).WBelow thr W' b := fun p hp =>
  (h p hp).elim (hW p) fun e => by rw [e]; exact Nat.zero_le _

theorem mem_er {S : Finset (DevRef τ sig)} {b c : DevRef τ sig} (h : b ∈ S) (n : b ≠ c) : b ∈ S.erase c := Finset.mem_erase.mpr ⟨n, h⟩

/-- The SparseCore call's three arrays taken out of the held ones, at what the call finds in them. -/
theorem held_three (d : Dev nD) (Tb : Buf (Elt F) (tabLoc d)) :
    (held (SparseCore.T d) (Pipeline.ucRefs τ sig) (W2 m d Tb) : sProp 𝕄)
      = iprop((tabLoc d ↦{fullShare} Tb) ∗ (idxLoc d ↦{fullShare} idxV m d) ∗ (outLoc d ↦{fullShare} m (outLoc d))
          ∗ held (SparseCore.T d) ((((Pipeline.ucRefs τ sig).erase v9').erase v1').erase v11') (W2 m d Tb)) := by
  rw [held_take d (b := v9') (mem_uc main_v9 (by decide)) (W2 m d Tb),
    held_take d (b := v1') (mem_er (mem_uc main_v1 (by decide)) (by decide)) (W2 m d Tb),
    held_take d (b := v11') (mem_er (mem_er (mem_uc main_v11 (by decide)) (by decide)) (by decide)) (W2 m d Tb),
    W2_tab, W2_idx, W2_out]

/-- And put back, the row buffer at what the vector subcores left. -/
theorem held_three' (d : Dev nD) (Tb : Buf (Elt F) (tabLoc d)) (f : Buf (Elt F) (outLoc d)) :
    (iprop((tabLoc d ↦{fullShare} Tb) ∗ (idxLoc d ↦{fullShare} idxV m d) ∗ (outLoc d ↦{fullShare} f)
          ∗ held (SparseCore.T d) ((((Pipeline.ucRefs τ sig).erase v9').erase v1').erase v11') (W2 m d Tb)) : sProp 𝕄)
      = held (SparseCore.T d) (Pipeline.ucRefs τ sig) (W3 m d Tb f) := by
  rw [held_take d (b := v9') (mem_uc main_v9 (by decide)) (W3 m d Tb f),
    held_take d (b := v1') (mem_er (mem_uc main_v1 (by decide)) (by decide)) (W3 m d Tb f),
    held_take d (b := v11') (mem_er (mem_er (mem_uc main_v11 (by decide)) (by decide)) (by decide)) (W3 m d Tb f),
    held_erase_update d (((Pipeline.ucRefs τ sig).erase v9').erase v1') v11' (W2 m d Tb) f,
    show W3 m d Tb f v9' = Tb from (Function.update_of_ne (show v9' ≠ v11' by decide) _ _).trans (W2_tab m d Tb),
    show W3 m d Tb f v1' = idxV m d from (Function.update_of_ne (show v1' ≠ v11' by decide) _ _).trans (W2_idx m d Tb),
    show W3 m d Tb f v11' = f from Function.update_self _ _ _]

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)

/-- At the return: the five arguments as launched, the result at the last valuation's, and the rest. -/
theorem held_six (d : Dev nD) (Tb : Buf (Elt F) (tabLoc d)) (f : Buf (Elt F) (outLoc d)) (Y : Buf (Elt F) (v12Loc d)) :
    (held (SparseCore.T d) (Pipeline.ucRefs τ sig) (W5 m d Tb f Y) : sProp 𝕄)
      = iprop(((SparseCore.T d).loc main_arg0 ↦{fullShare} m ((SparseCore.T d).loc main_arg0))
          ∗ ((SparseCore.T d).loc main_arg1 ↦{fullShare} m ((SparseCore.T d).loc main_arg1))
          ∗ ((SparseCore.T d).loc main_arg2 ↦{fullShare} m ((SparseCore.T d).loc main_arg2))
          ∗ ((SparseCore.T d).loc main_arg3 ↦{fullShare} m ((SparseCore.T d).loc main_arg3))
          ∗ ((SparseCore.T d).loc main_arg4 ↦{fullShare} m ((SparseCore.T d).loc main_arg4))
          ∗ (v13Loc d ↦{fullShare} W5 m d Tb f Y v13')
          ∗ held (SparseCore.T d) (((((((Pipeline.ucRefs τ sig).erase a0').erase a1').erase a2').erase a3').erase a4').erase v13') (W5 m d Tb f Y)) := by
  rw [held_take d (b := a0') (mem_uc main_arg0 (by decide)) (W5 m d Tb f Y),
    held_take d (b := a1') (mem_er (mem_uc main_arg1 (by decide)) (by decide)) (W5 m d Tb f Y),
    held_take d (b := a2') (mem_er (mem_er (mem_uc main_arg2 (by decide)) (by decide)) (by decide)) (W5 m d Tb f Y),
    held_take d (b := a3') (mem_er (mem_er (mem_er (mem_uc main_arg3 (by decide)) (by decide)) (by decide)) (by decide)) (W5 m d Tb f Y),
    held_take d (b := a4') (mem_er (mem_er (mem_er (mem_er (mem_uc main_arg4 (by decide)) (by decide)) (by decide)) (by decide)) (by decide)) (W5 m d Tb f Y),
    held_take d (b := v13') (mem_er (mem_er (mem_er (mem_er (mem_er (mem_uc main_v13 (by decide)) (by decide)) (by decide)) (by decide)) (by decide)) (by decide)) (W5 m d Tb f Y),
    W5_keep m d Tb f Y main_arg0 (by decide), W5_keep m d Tb f Y main_arg1 (by decide), W5_keep m d Tb f Y main_arg2 (by decide),
    W5_keep m d Tb f Y main_arg3 (by decide), W5_keep m d Tb f Y main_arg4 (by decide)]

set_option backward.isDefEq.respectTransparency.types false in
set_option maxRecDepth 16384 in
/-- @main on the TensorCore of device d: the first stretch, the first call, the bias column, the SparseCore call on the
    table, the index list and the row buffer split among the vector subcores and joined again, the second call, the last
    transpose; the arguments and the result read off the last valuation. -/
theorem hmain [∀ e, Nonempty (Elt F e)] (h0 : RegSpec (F := F) 0 main_v9 Tab0) (h2 : RegSpec (F := F) 1 main_v12 Res2)
    (hsplit : ∀ (d : Dev nD) (Tb : Buf (Elt F) (tabLoc d)), Tab0 d (W1 m d) Tb →
      ((iprop((tabLoc d ↦{fullShare} Tb) ∗ (idxLoc d ↦{fullShare} idxV m d) ∗ (outLoc d ↦{fullShare} m (outLoc d))) : sProp 𝕄)
        ⊢ iprop((tabLoc d ↦{Transfers.shareDrop fullShare 32} Tb) ∗ bigSep Finset.univ fun c : Fin ((K (F := F)).nCore 0) => (P m (TabOK m Tab0)).st 0 d c)))
    (hjoin : ∀ (d : Dev nD) (Tb : Buf (Elt F) (tabLoc d)),
      ((iprop((tabLoc d ↦{Transfers.shareDrop fullShare 32} Tb) ∗ bigSep Finset.univ fun c : Fin ((K (F := F)).nCore 0) => (P m (TabOK m Tab0)).dn 0 d c) : sProp 𝕄)
        ⊢ iprop(∃ f : Buf (Elt F) (outLoc d), ⌜∀ L : grid1.Coords, GathOK m d L Tb f⌝ ∗ (tabLoc d ↦{fullShare} Tb) ∗ (idxLoc d ↦{fullShare} idxV m d) ∗ (outLoc d ↦{fullShare} f))))
    (κ : GSem nD τ sig → ℕ) (d : Dev nD) :
    iprop((K (F := F)).ctx EH (P m (TabOK m Tab0)) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m (ResOK m Tab0 Res2) d) := by
  obtain ⟨R0, hst0⟩ : ∃ R : sProp 𝕄, (K (F := F)).tcSt EH d 0
      = iprop((∃ W, ⌜(K (F := F)).WBelow (SparseCore.T d) W (8 * 0)⌝ ∗ owes (SparseCore.T d) ((K (F := F)).Otc d 0) W) ∗ R) :=
    ⟨_, by unfold SparseCore.Cfg.tcSt; rfl⟩
  obtain ⟨R1, hst1⟩ : ∃ R : sProp 𝕄, (K (F := F)).tcSt EH d 1
      = iprop((∃ W, ⌜(K (F := F)).WBelow (SparseCore.T d) W (8 * 1)⌝ ∗ owes (SparseCore.T d) ((K (F := F)).Otc d 1) W) ∗ R) :=
    ⟨_, by unfold SparseCore.Cfg.tcSt; rfl⟩
  have hS0 := fun op h => Pipeline.sub_ucRefs op ((List.forall_iff_forall_mem.mp (ops0_sub (F := F))) op h)
  have hS1 := fun op h => Pipeline.sub_ucRefs op ((List.forall_iff_forall_mem.mp (ops1_sub (F := F))) op h)
  have hS2 := fun op h => Pipeline.sub_ucRefs op ((List.forall_iff_forall_mem.mp (ops2_sub (F := F))) op h)
  rw [main_eq]
  unfold SparseCore.Cfg.tcRes
  rw [unscoped_held, ghost_split, hst0]
  iintro ⟨#Hctx, ⟨⟨%Wt, %hWt, HO⟩, Hr0⟩, ⟨Hb, Hheld, -, -⟩, ⟨Hg0, Ht0⟩, Hg1, Ht1⟩
  ihave #Hlev := (SparseCore.Cfg.ctx_levAts κ) $$ Hctx
  -- the first stretch of host operations
  iapply (StableHlo.wp_seq (defs := (K (F := F)).defs (D (F := F))) 𝒱 none Set.univ d (Pipeline.ucRefs τ sig) _ (ops0 (F := F)) hS0
      (fun op h => (List.forall_iff_forall_mem.mp ops0_fresh) op h) (V0 m d)) $$ [Hb Hheld]
  · isplitl [Hb] <;> iassumption
  iintro ⟨Hb, Hheld⟩
  -- the first pipelined call: the table
  rw [wp_bind]
  iapply (h0 d (W1 m d) ((K (F := F)).Otc d 0) Wt (Otc_none d 0) _)
  isplitr; · iexact Hlev
  isplitl [Hb]; · iexact Hb
  isplitl [Hheld]; · iexact Hheld
  isplitl [HO]; · iexact HO
  isplitl [Hg0]; · iexact Hg0
  isplitl [Ht0]; · iexact Ht0
  iintro %Tb %Wt1 ⟨%hp1, Hb, Hheld, HO⟩
  obtain ⟨hTb, hWt1⟩ := hp1
  -- the bias as a column
  iapply (StableHlo.wp_seq (defs := (K (F := F)).defs (D (F := F))) 𝒱 none Set.univ d (Pipeline.ucRefs τ sig) _ (ops1 (F := F)) hS1
      (fun op h => (List.forall_iff_forall_mem.mp ops1_fresh) op h) (Function.update (W1 m d) v9' Tb)) $$ [Hb Hheld]
  · isplitl [Hb] <;> iassumption
  iintro ⟨Hb, Hheld⟩
  -- the SparseCore call: its three arrays out of the held ones, split among the vector subcores
  ihave Hh := (Entails.of_eq (held_three m d Tb)) $$ Hheld
  icases Hh with ⟨Htab, Hidx, Hout, Hrest⟩
  ihave Hs := (hsplit d Tb hTb) $$ [Htab Hidx Hout]
  · isplitl [Htab]; · iexact Htab
    isplitl [Hidx] <;> iassumption
  icases Hs with ⟨Hrem, Hsts⟩
  rw [wp_bind]
  iapply ((K (F := F)).wp_run (D (F := F)) 𝒱 (EH := EH) (P := P m (TabOK m Tab0)) κ d 0) $$ [HO Hr0 Hsts Hb Hrest Hrem Hg1 Ht1]
  isplitr; · iexact Hctx
  isplitl [HO Hr0]
  · rw [show ((0 : Fin 1) : ℕ) = 0 from rfl, hst0]
    isplitl [HO]
    · iexists Wt1; isplitr
      · ipureintro; exact wbelow_ext hWt hWt1
      · iexact HO
    · iexact Hr0
  isplitl [Hsts]; · iexact Hsts
  iintro ⟨Hst, Hdn⟩
  ihave Hst' := (Entails.of_eq (show (K (F := F)).tcSt EH d ((0 : Fin 1).val + 1) = _ from hst1)) $$ Hst
  icases Hst' with ⟨⟨%Wt2, %hWt2, HO⟩, Hr1⟩
  ihave Hj := (hjoin d Tb) $$ [Hrem Hdn]
  · isplitl [Hrem] <;> iassumption
  icases Hj with ⟨%f, %hf, Htab, Hidx, Hout⟩
  ihave Hheld := (Entails.of_eq (held_three' m d Tb f)) $$ [Htab Hidx Hout Hrest]
  · isplitl [Htab]; · iexact Htab
    isplitl [Hidx]; · iexact Hidx
    isplitl [Hout] <;> iassumption
  -- the second pipelined call: the projection
  rw [wp_bind]
  iapply (h2 d (W3 m d Tb f) ((K (F := F)).Otc d 1) Wt2 (Otc_none d 1) _)
  isplitr; · iexact Hlev
  isplitl [Hb]; · iexact Hb
  isplitl [Hheld]; · iexact Hheld
  isplitl [HO]; · iexact HO
  isplitl [Hg1]; · iexact Hg1
  isplitl [Ht1]; · iexact Ht1
  iintro %Y %Wt3 ⟨%hp3, Hb, Hheld, HO⟩
  obtain ⟨hY, hWt3⟩ := hp3
  -- the last transpose
  iapply (StableHlo.wp_seq (defs := (K (F := F)).defs (D (F := F))) 𝒱 none Set.univ d (Pipeline.ucRefs τ sig) _ (ops2 (F := F)) hS2
      (fun op h => (List.forall_iff_forall_mem.mp ops2_fresh) op h) (Function.update (W3 m d Tb f) v12' Y)) $$ [Hb Hheld]
  · isplitl [Hb] <;> iassumption
  iintro ⟨Hb, Hheld⟩
  rw [wp_pure]
  imodintro
  rw [hst1]
  isplitl [HO Hr1]
  · isplitl [HO]
    · iexists Wt3; isplitr
      · ipureintro; exact wbelow_ext hWt2 hWt3
      · iexact HO
    · iexact Hr1
  · ihave Hh := (Entails.of_eq (held_six m d Tb f Y)) $$ Hheld
    icases Hh with ⟨H0, H1, H2, H3, H4, H13, -⟩
    isplitl [H0 H1 H2 H3 H4]
    · isplitl [H0]; · iexact H0
      isplitl [H1]; · iexact H1
      isplitl [H2]; · iexact H2
      isplitl [H3]; · iexact H3
      iexact H4
    iexists (W5 m d Tb f Y v13'); isplitr
    · ipureintro; exact ⟨Tb, f, Y, hTb, hf, hY, rfl⟩
    · iexact H13

/-! ## The program's run -/

def QC : PUnit × MemSt nD τ sig (Elt F) → Prop := fun r => ∀ c : Dev nD,
  ResOK' c (r.2.mem (v13Loc c))
    ∧ r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ r.2.mem ((SparseCore.T c).loc main_arg3) = m ((SparseCore.T c).loc main_arg3)
    ∧ r.2.mem ((SparseCore.T c).loc main_arg4) = m ((SparseCore.T c).loc main_arg4)

/-- THE RUN. Given each pipelined call as a step of @main (h0, h2) and the vector subcores' task (htile), every weakly fair
    execution of the program from memory m with all counters zero terminates, nothing faulting, and every final memory
    holds the five arguments as launched and, in the result array, contents of which ResOK holds. -/
theorem run_main [∀ e, Nonempty (Elt F e)] (h0 : RegSpec (F := F) 0 main_v9 Tab0) (h2 : RegSpec (F := F) 1 main_v12 Res2)
    (htile : (K (F := F)).TileObl (D (F := F)) 𝒱 (P m (TabOK m Tab0)) v₀ 0) :
    θ_run (Cert.KernelIdeal.defs (F := F)) (Cert.KernelIdeal.threads (F := F)) ⟨m, fun _ => 0, ρ⟩ (QC m (ResOK m Tab0 Res2)) :=
  SparseCore.Cfg.θ_run_sc (K := K (F := F)) (D := D (F := F)) (𝒱 := 𝒱) (EH := EH) (P := P m (TabOK m Tab0)) facts v₀
    (fun q hq => match q with | 0 => nomatch hq)
    (fun q _ => match q with | 0 => htile)
    (fun q _ => match q with | 0 => SparseCore.Cfg.VecSplit.of_plain (vecSplit m (TabOK m Tab0)))
    m ρ main (fun d => GG (F := F) d) (FIN m (ResOK m Tab0 Res2)) (u₀ (F := F)) (sep_elim_left.trans (hu₀ m (TabOK m Tab0)))
    (hmain m ρ Tab0 Res2 h0 h2 (fun d Tb hTb => st_of_arrays m (TabOK m Tab0) d Tb hTb) (fun d Tb => arrays_of_dn m (TabOK m Tab0) d Tb))
    (fq m (ResOK m Tab0 Res2)) (hfin m (ResOK m Tab0 Res2)) (QC m (ResOK m Tab0 Res2)) (fun _ h => h)

end Cert.Proof.KI

end
-- ==== Proof.KMainG.lean ====
/-
  The run of the whole program over ANY account of what the SparseCore call's handshakes carry: the payload record PP and
  what is said of the gathered rows (Gath) are parameters, so that the same proof of @main serves the claim about values
  (the rows named) and the claims that name none (every array at contents not stated).
-/
import proofs.«217421_g60146722013857_cont_9to1c4b_519_37_alg».proof.Proof.KMain

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_split held_sdiff_result held_congr wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)
variable (Tab0 : (d : Dev nD) → Valuation τ sig (Elt F) → Buf (Elt F) (tabLoc d) → Prop)
variable (Res2 : (d : Dev nD) → Valuation τ sig (Elt F) → Buf (Elt F) (v12Loc d) → Prop)
variable (PP : (K (F := F)).Pay (nD := nD) (Val := Elt F) (Name := ℕ) (U := UU)) [PP.IsStorable]
variable (Gath : (d : Dev nD) → Buf (Elt F) (tabLoc d) → Buf (Elt F) (outLoc d) → Prop)

/-- What the result array holds at the return: the last valuation's, over SOME table, row buffer and second-call output
    that the three calls may have left. -/
def ResOKG (d : Dev nD) (R : Buf (Elt F) (v13Loc d)) : Prop :=
  ∃ (Tb : Buf (Elt F) (tabLoc d)) (f : Buf (Elt F) (outLoc d)) (Y : Buf (Elt F) (v12Loc d)),
    Tab0 d (W1 m d) Tb ∧ Gath d Tb f ∧ Res2 d (W3 m d Tb f) Y ∧ R = W5 m d Tb f Y v13'

/-! ## The launch element -/

theorem hu₀G (hx : ∀ q thr, PP.x q thr = (iprop(emp) : sProp 𝕄)) : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => PP.x q thr) := by
  unfold u₀
  iintro Hu
  ihave H := (ownU_pair (initOf (K (F := F)).hsCells (K (F := F)).hsToks)
    ((initOf (Pipeline.cells cfgs cellOf_inj) (Pipeline.launchToks cfgs cellOf_inj), (1 : Counters)) : UP × Counters)) $$ Hu
  icases H with ⟨HH, HR⟩
  ihave H2 := (own_pair_emb (embR : Emb (UP × Counters) (MT nD τ sig (HIx 1) (Elt F) ℕ UU ℕ))
    (initOf (Pipeline.cells cfgs cellOf_inj) (Pipeline.launchToks cfgs cellOf_inj)) (1 : Counters)) $$ HR
  icases H2 with ⟨HP, -⟩
  ihave HP' := (Entails.of_eq (show (BI.own (((Emb.inl : Emb UP (UP × Counters)).trans (embR : Emb (UP × Counters) (MT nD τ sig (HIx 1) (Elt F) ℕ UU ℕ)))
      (initOf (Pipeline.cells cfgs cellOf_inj) (Pipeline.launchToks cfgs cellOf_inj))) : sProp 𝕄)
      = BI.own ((EP (F := F)) (initOf (Pipeline.cells cfgs cellOf_inj) (Pipeline.launchToks cfgs cellOf_inj))) from rfl)) $$ HP
  imod (Pipeline.fund_ghost (nD := nD) (τ := τ) (Val := Elt F) (Ix := HIx 1) (Name := ℕ) (U := UU) (Lvl := ℕ) cfgs (EP (F := F)) cellOf_inj) $$ HP' with ⟨Hg, Ht⟩
  imodintro
  isplitl [HH]; · iexact HH
  isplitl [Hg Ht]
  · have e : (iprop((bigSep Finset.univ fun c : Dev nD => bigSep Finset.univ fun p : Fin 2 => (Pipeline.cellsGhost cfgs (EP (F := F)) p c : sProp 𝕄))
        ∗ (bigSep Finset.univ fun c : Dev nD => bigSep Finset.univ fun p : Fin 2 => (Pipeline.toksInit cfgs (EP (F := F)) p c : sProp 𝕄))) : sProp 𝕄)
        = bigSep Finset.univ fun d : Dev nD => GG (F := F) d := by
      rw [← bigSep_sep']
      exact bigSep_congr fun c _ => (bigSep_sep' _ _ _).symm
    iapply (Entails.of_eq e)
    isplitl [Hg] <;> iassumption
  · rw [show (bigSep Finset.univ fun thr : Thread nD τ => bigSep Finset.univ fun q : Fin 1 => PP.x q thr) = bigSep Finset.univ fun _ => (iprop(emp) : sProp 𝕄) from
      bigSep_congr fun thr _ => (bigSep_univ_of_subsingleton (0 : Fin 1)).trans (hx 0 thr), bigSep_emp']
    iempintro

/-! ## @main on the TensorCore -/

set_option backward.isDefEq.respectTransparency.types false in
set_option maxRecDepth 16384 in
/-- @main on the TensorCore of device d: the first stretch, the first call, the bias column, the SparseCore call on the
    table, the index list and the row buffer split among the vector subcores and joined again, the second call, the last
    transpose; the arguments and the result read off the last valuation. -/
theorem hmainG [∀ e, Nonempty (Elt F e)] (h0 : RegSpec (F := F) 0 main_v9 Tab0) (h2 : RegSpec (F := F) 1 main_v12 Res2)
    (hsplit : ∀ (d : Dev nD) (Tb : Buf (Elt F) (tabLoc d)), Tab0 d (W1 m d) Tb →
      ((iprop((tabLoc d ↦{fullShare} Tb) ∗ (idxLoc d ↦{fullShare} idxV m d) ∗ (outLoc d ↦{fullShare} m (outLoc d))) : sProp 𝕄)
        ⊢ iprop((tabLoc d ↦{Transfers.shareDrop fullShare 32} Tb) ∗ bigSep Finset.univ fun c : Fin ((K (F := F)).nCore 0) => PP.st 0 d c)))
    (hjoin : ∀ (d : Dev nD) (Tb : Buf (Elt F) (tabLoc d)),
      ((iprop((tabLoc d ↦{Transfers.shareDrop fullShare 32} Tb) ∗ bigSep Finset.univ fun c : Fin ((K (F := F)).nCore 0) => PP.dn 0 d c) : sProp 𝕄)
        ⊢ iprop(∃ f : Buf (Elt F) (outLoc d), ⌜Gath d Tb f⌝ ∗ (tabLoc d ↦{fullShare} Tb) ∗ (idxLoc d ↦{fullShare} idxV m d) ∗ (outLoc d ↦{fullShare} f))))
    (κ : GSem nD τ sig → ℕ) (d : Dev nD) :
    iprop((K (F := F)).ctx EH PP κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m (ResOKG m Tab0 Res2 Gath) d) := by
  obtain ⟨R0, hst0⟩ : ∃ R : sProp 𝕄, (K (F := F)).tcSt EH d 0
      = iprop((∃ W, ⌜(K (F := F)).WBelow (SparseCore.T d) W (8 * 0)⌝ ∗ owes (SparseCore.T d) ((K (F := F)).Otc d 0) W) ∗ R) :=
    ⟨_, by unfold SparseCore.Cfg.tcSt; rfl⟩
  obtain ⟨R1, hst1⟩ : ∃ R : sProp 𝕄, (K (F := F)).tcSt EH d 1
      = iprop((∃ W, ⌜(K (F := F)).WBelow (SparseCore.T d) W (8 * 1)⌝ ∗ owes (SparseCore.T d) ((K (F := F)).Otc d 1) W) ∗ R) :=
    ⟨_, by unfold SparseCore.Cfg.tcSt; rfl⟩
  have hS0 := fun op h => Pipeline.sub_ucRefs op ((List.forall_iff_forall_mem.mp (ops0_sub (F := F))) op h)
  have hS1 := fun op h => Pipeline.sub_ucRefs op ((List.forall_iff_forall_mem.mp (ops1_sub (F := F))) op h)
  have hS2 := fun op h => Pipeline.sub_ucRefs op ((List.forall_iff_forall_mem.mp (ops2_sub (F := F))) op h)
  rw [main_eq]
  unfold SparseCore.Cfg.tcRes
  rw [unscoped_held, ghost_split, hst0]
  iintro ⟨#Hctx, ⟨⟨%Wt, %hWt, HO⟩, Hr0⟩, ⟨Hb, Hheld, -, -⟩, ⟨Hg0, Ht0⟩, Hg1, Ht1⟩
  ihave #Hlev := (SparseCore.Cfg.ctx_levAts κ) $$ Hctx
  -- the first stretch of host operations
  iapply (StableHlo.wp_seq (defs := (K (F := F)).defs (D (F := F))) 𝒱 none Set.univ d (Pipeline.ucRefs τ sig) _ (ops0 (F := F)) hS0
      (fun op h => (List.forall_iff_forall_mem.mp ops0_fresh) op h) (V0 m d)) $$ [Hb Hheld]
  · isplitl [Hb] <;> iassumption
  iintro ⟨Hb, Hheld⟩
  -- the first pipelined call: the table
  rw [wp_bind]
  iapply (h0 d (W1 m d) ((K (F := F)).Otc d 0) Wt (Otc_none d 0) _)
  isplitr; · iexact Hlev
  isplitl [Hb]; · iexact Hb
  isplitl [Hheld]; · iexact Hheld
  isplitl [HO]; · iexact HO
  isplitl [Hg0]; · iexact Hg0
  isplitl [Ht0]; · iexact Ht0
  iintro %Tb %Wt1 ⟨%hp1, Hb, Hheld, HO⟩
  obtain ⟨hTb, hWt1⟩ := hp1
  -- the bias as a column
  iapply (StableHlo.wp_seq (defs := (K (F := F)).defs (D (F := F))) 𝒱 none Set.univ d (Pipeline.ucRefs τ sig) _ (ops1 (F := F)) hS1
      (fun op h => (List.forall_iff_forall_mem.mp ops1_fresh) op h) (Function.update (W1 m d) v9' Tb)) $$ [Hb Hheld]
  · isplitl [Hb] <;> iassumption
  iintro ⟨Hb, Hheld⟩
  -- the SparseCore call: its three arrays out of the held ones, split among the vector subcores
  ihave Hh := (Entails.of_eq (held_three m d Tb)) $$ Hheld
  icases Hh with ⟨Htab, Hidx, Hout, Hrest⟩
  ihave Hs := (hsplit d Tb hTb) $$ [Htab Hidx Hout]
  · isplitl [Htab]; · iexact Htab
    isplitl [Hidx] <;> iassumption
  icases Hs with ⟨Hrem, Hsts⟩
  rw [wp_bind]
  iapply ((K (F := F)).wp_run (D (F := F)) 𝒱 (EH := EH) (P := PP) κ d 0) $$ [HO Hr0 Hsts Hb Hrest Hrem Hg1 Ht1]
  isplitr; · iexact Hctx
  isplitl [HO Hr0]
  · rw [show ((0 : Fin 1) : ℕ) = 0 from rfl, hst0]
    isplitl [HO]
    · iexists Wt1; isplitr
      · ipureintro; exact wbelow_ext hWt hWt1
      · iexact HO
    · iexact Hr0
  isplitl [Hsts]; · iexact Hsts
  iintro ⟨Hst, Hdn⟩
  ihave Hst' := (Entails.of_eq (show (K (F := F)).tcSt EH d ((0 : Fin 1).val + 1) = _ from hst1)) $$ Hst
  icases Hst' with ⟨⟨%Wt2, %hWt2, HO⟩, Hr1⟩
  ihave Hj := (hjoin d Tb) $$ [Hrem Hdn]
  · isplitl [Hrem] <;> iassumption
  icases Hj with ⟨%f, %hf, Htab, Hidx, Hout⟩
  ihave Hheld := (Entails.of_eq (held_three' m d Tb f)) $$ [Htab Hidx Hout Hrest]
  · isplitl [Htab]; · iexact Htab
    isplitl [Hidx]; · iexact Hidx
    isplitl [Hout] <;> iassumption
  -- the second pipelined call: the projection
  rw [wp_bind]
  iapply (h2 d (W3 m d Tb f) ((K (F := F)).Otc d 1) Wt2 (Otc_none d 1) _)
  isplitr; · iexact Hlev
  isplitl [Hb]; · iexact Hb
  isplitl [Hheld]; · iexact Hheld
  isplitl [HO]; · iexact HO
  isplitl [Hg1]; · iexact Hg1
  isplitl [Ht1]; · iexact Ht1
  iintro %Y %Wt3 ⟨%hp3, Hb, Hheld, HO⟩
  obtain ⟨hY, hWt3⟩ := hp3
  -- the last transpose
  iapply (StableHlo.wp_seq (defs := (K (F := F)).defs (D (F := F))) 𝒱 none Set.univ d (Pipeline.ucRefs τ sig) _ (ops2 (F := F)) hS2
      (fun op h => (List.forall_iff_forall_mem.mp ops2_fresh) op h) (Function.update (W3 m d Tb f) v12' Y)) $$ [Hb Hheld]
  · isplitl [Hb] <;> iassumption
  iintro ⟨Hb, Hheld⟩
  rw [wp_pure]
  imodintro
  rw [hst1]
  isplitl [HO Hr1]
  · isplitl [HO]
    · iexists Wt3; isplitr
      · ipureintro; exact wbelow_ext hWt2 hWt3
      · iexact HO
    · iexact Hr1
  · ihave Hh := (Entails.of_eq (held_six m d Tb f Y)) $$ Hheld
    icases Hh with ⟨H0, H1, H2, H3, H4, H13, -⟩
    isplitl [H0 H1 H2 H3 H4]
    · isplitl [H0]; · iexact H0
      isplitl [H1]; · iexact H1
      isplitl [H2]; · iexact H2
      isplitl [H3]; · iexact H3
      iexact H4
    iexists (W5 m d Tb f Y v13'); isplitr
    · ipureintro; exact ⟨Tb, f, Y, hTb, hf, hY, rfl⟩
    · iexact H13

/-! ## The program's run -/

/-- THE RUN. Given each pipelined call as a step of @main (h0, h2), the vector subcores' task (htile), the split of a
    SparseCore's operands among them (hvec) and of the call's arrays among the SparseCores (hsplit, hjoin): every weakly fair
    execution of the program from memory m with all counters zero terminates, nothing faulting, and every final memory
    holds the five arguments as launched and, in the result array, contents of which ResOKG holds. -/
theorem run_mainG [∀ e, Nonempty (Elt F e)] (hx : ∀ q thr, PP.x q thr = (iprop(emp) : sProp 𝕄)) (hheld : PP.held = ∅)
    (h0 : RegSpec (F := F) 0 main_v9 Tab0) (h2 : RegSpec (F := F) 1 main_v12 Res2)
    (htile : (K (F := F)).TileObl (D (F := F)) 𝒱 PP v₀ 0) (hvec : (K (F := F)).VecSplit' PP 0)
    (hsplit : ∀ (d : Dev nD) (Tb : Buf (Elt F) (tabLoc d)), Tab0 d (W1 m d) Tb →
      ((iprop((tabLoc d ↦{fullShare} Tb) ∗ (idxLoc d ↦{fullShare} idxV m d) ∗ (outLoc d ↦{fullShare} m (outLoc d))) : sProp 𝕄)
        ⊢ iprop((tabLoc d ↦{Transfers.shareDrop fullShare 32} Tb) ∗ bigSep Finset.univ fun c : Fin ((K (F := F)).nCore 0) => PP.st 0 d c)))
    (hjoin : ∀ (d : Dev nD) (Tb : Buf (Elt F) (tabLoc d)),
      ((iprop((tabLoc d ↦{Transfers.shareDrop fullShare 32} Tb) ∗ bigSep Finset.univ fun c : Fin ((K (F := F)).nCore 0) => PP.dn 0 d c) : sProp 𝕄)
        ⊢ iprop(∃ f : Buf (Elt F) (outLoc d), ⌜Gath d Tb f⌝ ∗ (tabLoc d ↦{fullShare} Tb) ∗ (idxLoc d ↦{fullShare} idxV m d) ∗ (outLoc d ↦{fullShare} f)))) :
    θ_run (Cert.KernelIdeal.defs (F := F)) (Cert.KernelIdeal.threads (F := F)) ⟨m, fun _ => 0, ρ⟩ (QC m (ResOKG m Tab0 Res2 Gath)) :=
  SparseCore.Cfg.θ_run_sc (K := K (F := F)) (D := D (F := F)) (𝒱 := 𝒱) (EH := EH) (P := PP) facts v₀
    (fun q hq => match q with | 0 => nomatch hq)
    (fun q _ => match q with | 0 => htile)
    (fun q _ => match q with | 0 => SparseCore.Cfg.VecSplit.of_plain hvec)
    m ρ main (fun d => GG (F := F) d) (FIN m (ResOKG m Tab0 Res2 Gath)) (u₀ (F := F)) (sep_elim_left.trans (hu₀G PP hx))
    (hmainG m ρ Tab0 Res2 PP Gath h0 h2 hsplit hjoin)
    (fq m (ResOKG m Tab0 Res2 Gath)) (hfin m (ResOKG m Tab0 Res2 Gath)) (QC m (ResOKG m Tab0 Res2 Gath)) (fun _ h => h) hheld

end Cert.Proof.KI

end
-- ==== Proof.KReg0.lean ====
/-
  The pipelined calls as steps of @main, first in the form that says nothing of what a call writes: from every unscoped
  array held at W, the dues and the pipeline's ghost state, the call runs and hands back the arrays as found but for its
  output array, at contents not named. The proof data constrain nothing (every window's buffer may be left at anything);
  an input array is never written back, so it ends as it began; the core's dues pass through unchanged, its new waits all
  at a kernel's own index.
-/
import proofs.«217421_g60146722013857_cont_9to1c4b_519_37_alg».proof.Proof.KMain

noncomputable section

namespace Cert.Proof.KI

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_congr)

variable {F : FTy → Type} [FloatOps F]

local notation "𝕄" => MT nD τ sig (HIx 1) (Elt F) ℕ UU ℕ

variable (W : Valuation τ sig (Elt F)) (O : CellTallies nD τ sig (HIx 1)) (Wt : Waits sig (HIx 1))

/-- Proof data that constrain nothing, for the first call: -/
def rdF0 (c : Dev nD) : Pipeline.RDat τ (Elt F) (HIx 1) ℕ UU ℕ cfg0 c where
  A w := W (Pipeline.arrRef spec0 w)
  after _ _ _ _ := True
  Φ _ := Pipeline.scopedRest spec0 c
  q _ := fullShare
  owed _ := O
  recorded _ := {p | p ∈ Wt ∨ p.2 = none}
/-- and for the second. -/
def rdF2 (c : Dev nD) : Pipeline.RDat τ (Elt F) (HIx 1) ℕ UU ℕ cfg2 c where
  A w := W (Pipeline.arrRef spec2 w)
  after _ _ _ _ := True
  Φ _ := Pipeline.scopedRest spec2 c
  q _ := fullShare
  owed _ := O
  recorded _ := {p | p ∈ Wt ∨ p.2 = none}

def rdF : (p : Fin 2) → (c : Dev nD) → Pipeline.RDat τ (Elt F) (HIx 1) ℕ UU ℕ (Pipeline.pin (pcfgs (F := F)) adm p) c
  | ⟨0, _⟩ => fun c => rdF0 W O Wt c
  | ⟨1, _⟩ => fun c => rdF2 W O Wt c

set_option maxHeartbeats 1000000 in
/-- The first call's body at any point, on buffers at any contents: three loads and a store of part of the output's buffer. -/
theorem body0 (c : Dev nD) : (rdF0 W O Wt c).BodyObligation (defs₀ (F := F)) 𝒱₀ (none : HIx 1) Set.univ := fun t Y hY => by
  rw [bigSep_W0, bigSep_W0]
  show _ ⊢ wp frame _ _ (bodyAt0 t) _
  unfold bodyAt0
  simp only [cc0_prep_kernel_eq_skeleton]; unfold cc0_prep_kernel_skel
  unfold owns
  rw [show (rdF0 W O Wt c).Φ t.succ = (rdF0 W O Wt c).Φ t.castSucc from rfl,
    show (rdF0 W O Wt c).owesAt none t.succ = (rdF0 W O Wt c).owesAt none t.castSucc from rfl]
  iintro ⟨HΦ, HO, ⟨%f0, %hf0, H0⟩, ⟨%f1, %hf1, H1⟩, ⟨%f2, %hf2, H2⟩⟩
  sl_exec
  sl_step
  isplitl [HΦ]; · iexact HΦ
  isplitl [HO]; · iexact HO
  isplitl [H0]
  · iexists _; isplitr
    swap
    · iexists _; isplitr
      swap; · iexact H0
      ipureintro; rfl
    ipureintro; exact True.intro
  isplitl [H1]
  · iexists _; isplitr
    swap
    · iexists _; isplitr
      swap; · iexact H1
      ipureintro; rfl
    ipureintro; exact True.intro
  iexists _; isplitr
  swap
  · iexists _; isplitr
    swap; · iexact H2
    ipureintro; rfl
  ipureintro; exact True.intro

theorem rdF0_share (c : Dev nD) (w : Fin cfg0.W) : (rdF0 W O Wt c).share w = fullShare := by
  unfold Pipeline.RDat.share; split <;> rfl

/-- A call's arrays at contents Fs and the unscoped rest at V are the core's unscoped arrays at any valuation V' that has
    the call's arrays at Fs and agrees with V off them (the exact proof data's lemma, said of relational data). -/
theorem unscopedBufs_of_rarrays {p : Fin 2} (hw : Pipeline.WinFacts (Pipeline.pin (pcfgs (F := F)) adm p).spec)
    (harr : ∀ w, ((Pipeline.pin (pcfgs (F := F)) adm p).spec w).arr.IsWhole) (c : Dev nD)
    (rdats : (p : Fin 2) → (c : Dev nD) → Pipeline.RDat τ (Elt F) (HIx 1) ℕ UU ℕ (Pipeline.pin (pcfgs (F := F)) adm p) c)
    (hshare : ∀ w, (rdats p c).share w = fullShare)
    (V V' : (b : Ref sig .tc) → Buf (Elt F) ((c.tc : Thread nD τ).loc b))
    (Fs : (w : Fin (Pipeline.pin (pcfgs (F := F)) adm p).W) → Buf (Elt F) (((Pipeline.pin (pcfgs (F := F)) adm p).spec w).arr.view.loc (c.tc : Thread nD τ)))
    (hF : ∀ w, Fs w = V' (Pipeline.arrRef (Pipeline.pin (pcfgs (F := F)) adm p).spec w))
    (hrest : ∀ b, b ∉ Finset.univ.image (Pipeline.arrRef (Pipeline.pin (pcfgs (F := F)) adm p).spec) → V' b = V b) :
    (iprop((rdats p c).arrays Fs ∗ Pipeline.unscopedRest (Pipeline.pin (pcfgs (F := F)) adm p).spec c V) : sProp 𝕄) ⊢ unscopedBufs c V' := by
  rw [Pipeline.unscopedBufs_split (Pipeline.pin (pcfgs (F := F)) adm) p hw.arr_unscoped hw.arr_inj c V',
    Pipeline.RDat.arrays_eq (pcfgs (F := F)) adm rdats p c harr hshare]
  refine sep_mono (Entails.of_eq (bigSep_congr fun w _ => by rw [hF])) (Entails.of_eq ?_)
  unfold Pipeline.unscopedRest
  exact bigSep_congr fun b hb => by rw [hrest b (Finset.mem_sdiff.mp hb).2]

set_option backward.isDefEq.respectTransparency.types false in
/-- The first call over the thread state "every unscoped array held at W, the dues O": entered from it, left at it
    with the table at contents not named. -/
def R0 (hO : ∀ g, O g none = 0) :
    Pipeline.RDat.RegionSeg (pcfgs (F := F)) adm (rdF W O Wt) (none : HIx 1) (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body0 W O Wt c
  hwaits c := Pipeline.RDat.cellsWaits_intro (Pipeline.pin (pcfgs (F := F)) adm) (rdF W O Wt) (none : HIx 1) 0 c
    (fun w s t => (K (F := F)).mayWait_none _ hO)
  pre c := iprop(held (c.tc : Thread nD τ) (Pipeline.ucRefs τ sig) W ∗ owes (c.tc : Thread nD τ) O Wt)
  post c := iprop(∃ (Y : Buf (Elt F) (yLoc c main_v9)) (Wt' : Waits sig (HIx 1)), ⌜∀ q ∈ Wt', q ∈ Wt ∨ q.2 = none⌝
      ∗ held (c.tc : Thread nD τ) (Pipeline.ucRefs τ sig) (Function.update W v9' Y) ∗ owes (c.tc : Thread nD τ) O Wt')
  X _ := iprop(emp)
  Y _ := iprop(emp)
  Z c := Pipeline.unscopedRest spec0 c (fun b => W b)
  hentry c := by
    rw [Pipeline.ownSems0_none]
    have hsplit := Pipeline.RDat.arrays_of_unscopedBufs (p := 0) (pcfgs (F := F)) adm (rdF W O Wt) launch0.win launch0.arr_whole c
      (rdF0_share W O Wt c) (fun b => W b) (fun _ => rfl)
    rw [Pipeline.unscopedBufs_held] at hsplit
    iintro ⟨⟨Hub, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · iexists Wt; isplitr
      · ipureintro; exact fun p hp => Set.mem_union_left _ (Or.inl (Finset.mem_coe.mp hp))
      · iexact HO
    isplitr; · iempintro
    iexact Hrest
  hin c := by
    show _ ⊢ Pipeline.scopedRest spec0 c
    iintro ⟨-, -, Hr⟩; iexact Hr
  hout c := by
    rw [Pipeline.ownSems0_none]
    show Pipeline.scopedRest spec0 c ⊢ _
    iintro Hr
    isplitr; · iempintro
    isplitr; · iempintro
    iexact Hr
  hexit c := by
    have e0 := Pipeline.RDat.ArrAt_in (rd := rdF0 W O Wt c) (0 : Fin cfg0.W) rfl cfg0.N
    have e1 := Pipeline.RDat.ArrAt_in (rd := rdF0 W O Wt c) (1 : Fin cfg0.W) rfl cfg0.N
    show iprop((rdF0 W O Wt c).arraysAt cfg0.N ∗ (rdF0 W O Wt c).owesAt none (Fin.last cfg0.N) ∗ emp
        ∗ Pipeline.unscopedRest spec0 c (fun b => W b)) ⊢ _
    unfold Pipeline.RDat.arraysAt
    rw [bigSep_W0, e0, e1]
    iintro ⟨⟨⟨%F0, %h0, Ha0⟩, ⟨%F1, %h1, Ha1⟩, %F2, -, Ha2⟩, ⟨%Wt', %hWt', HO⟩, -, Hrest⟩
    subst h0 h1
    imodintro
    iexists F2, Wt'
    isplitr
    · ipureintro; intro q hq
      rcases hWt' (Finset.mem_coe.mpr hq) with h | ⟨w, s, rfl⟩
      · exact h
      · exact Or.inr rfl
    isplitr [HO]
    · iapply (Entails.of_eq (Pipeline.unscopedBufs_held c (Function.update W v9' F2)))
      iapply (unscopedBufs_of_rarrays (p := 0) launch0.win launch0.arr_whole c (rdF W O Wt) (rdF0_share W O Wt c) (fun b => W b)
        (fun b => Function.update W v9' F2 b)
        (fun w => Function.update W v9' F2 (Proc.devRef .tc (Pipeline.arrRef spec0 w)))
        (fun _ => rfl)
        (fun b hb => Function.update_of_ne (fun e => hb (Finset.mem_image.mpr ⟨2, Finset.mem_univ _, (Proc.devRef_injective _ e).symm⟩)) _ _))
      isplitr [Hrest]
      · unfold Pipeline.RDat.arrays
        rw [bigSep_W0]
        beta_reduce
        rw [show Function.update W v9' F2 (Proc.devRef .tc (Pipeline.arrRef spec0 0)) = (rdF0 W O Wt c).A 0 from
            Function.update_of_ne (show (Proc.devRef .tc (main_v2 : Ref sig .tc) : DevRef τ sig) ≠ v9' by decide) F2 W,
          show Function.update W v9' F2 (Proc.devRef .tc (Pipeline.arrRef spec0 1)) = (rdF0 W O Wt c).A 1 from
            Function.update_of_ne (show (Proc.devRef .tc (main_v8 : Ref sig .tc) : DevRef τ sig) ≠ v9' by decide) F2 W,
          show Function.update W v9' F2 (Proc.devRef .tc (Pipeline.arrRef spec0 2)) = F2 from Function.update_self v9' F2 W]
        isplitl [Ha0]; · iexact Ha0
        isplitl [Ha1]; · iexact Ha1
        iexact Ha2
      · iexact Hrest
    · iexact HO

/-- The first call as a step of @main, its output not named. -/
theorem reg0_frame [∀ e, Nonempty (Elt F e)] : RegSpec (F := F) 0 main_v9 (fun _ _ _ => True) := by
  intro d W O Wt hO Φ
  have hstep := region_step (R0 W O Wt hO) d Φ
  dsimp only [R0] at hstep
  iintro ⟨#Hlev, Hb, Hheld, HO, Hg, Ht, Hk⟩
  iapply hstep
  isplitl [Hk]
  · iintro ⟨Hb, %Y, %Wt', %hW, Hheld, HO⟩
    ispecialize Hk $$ %Y
    ispecialize Hk $$ %Wt'
    iapply Hk
    isplitr
    · ipureintro; exact ⟨True.intro, hW⟩
    isplitl [Hb]; · iexact Hb
    isplitl [Hheld]; · iexact Hheld
    iexact HO
  isplitl [Hb]; · iexact Hb
  isplitl [Hheld HO]
  · isplitl [Hheld]; · iexact Hheld
    iexact HO
  isplitr; · iexact Hlev
  isplitl [Hg]; · iexact Hg
  iexact Ht

end Cert.Proof.KI

end
-- ==== Proof.KReg2F.lean ====
/-
  The second pipelined call as a step of @main, in the form that says nothing of what it writes (as the first call's, in
  the module this one imports): six loads and two stores on buffers at any contents; the three input arrays end as they
  began, the output array at contents not named.
-/
import proofs.«217421_g60146722013857_cont_9to1c4b_519_37_alg».proof.Proof.KReg0

noncomputable section

namespace Cert.Proof.KI

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_congr)

variable {F : FTy → Type} [FloatOps F]

local notation "𝕄" => MT nD τ sig (HIx 1) (Elt F) ℕ UU ℕ

variable (W : Valuation τ sig (Elt F)) (O : CellTallies nD τ sig (HIx 1)) (Wt : Waits sig (HIx 1))

set_option maxHeartbeats 1000000 in
/-- The second call's body at any point, on buffers at any contents. -/
theorem body2 (c : Dev nD) : (rdF2 W O Wt c).BodyObligation (defs₀ (F := F)) 𝒱₀ (none : HIx 1) Set.univ := fun t Y hY => by
  rw [bigSep_W2, bigSep_W2]
  show _ ⊢ wp frame _ _ (bodyAt2 t) _
  unfold bodyAt2
  simp only [cc2_mm_kernel_eq_skeleton]; unfold cc2_mm_kernel_skel
  unfold owns
  rw [show (rdF2 W O Wt c).Φ t.succ = (rdF2 W O Wt c).Φ t.castSucc from rfl,
    show (rdF2 W O Wt c).owesAt none t.succ = (rdF2 W O Wt c).owesAt none t.castSucc from rfl]
  iintro ⟨HΦ, HO, ⟨%f0, %hf0, H0⟩, ⟨%f1, %hf1, H1⟩, ⟨%f2, %hf2, H2⟩, ⟨%f3, %hf3, H3⟩⟩
  sl_exec
  sl_step
  isplitl [HΦ]; · iexact HΦ
  isplitl [HO]; · iexact HO
  isplitl [H0]
  · iexists _; isplitr
    swap
    · iexists _; isplitr
      swap; · iexact H0
      ipureintro; rfl
    ipureintro; exact True.intro
  isplitl [H1]
  · iexists _; isplitr
    swap
    · iexists _; isplitr
      swap; · iexact H1
      ipureintro; rfl
    ipureintro; exact True.intro
  isplitl [H2]
  · iexists _; isplitr
    swap
    · iexists _; isplitr
      swap; · iexact H2
      ipureintro; rfl
    ipureintro; exact True.intro
  iexists _; isplitr
  swap
  · iexists _; isplitr
    swap; · iexact H3
    ipureintro; rfl
  ipureintro; exact True.intro

theorem rdF2_share (c : Dev nD) (w : Fin cfg2.W) : (rdF2 W O Wt c).share w = fullShare := by
  unfold Pipeline.RDat.share; split <;> rfl

set_option backward.isDefEq.respectTransparency.types false in
/-- The second call over the thread state "every unscoped array held at W, the dues O": entered from it, left at it
    with the call's output array at contents not named. -/
def R2 (hO : ∀ g, O g none = 0) :
    Pipeline.RDat.RegionSeg (pcfgs (F := F)) adm (rdF W O Wt) (none : HIx 1) (defs₀ (F := F)) 𝒱₀ (K (F := F)).L (K (F := F)).lev 1 where
  win := launch2.win.to₀
  block_pos := launch2.block_pos
  stage_whole := launch2.stage_whole
  K := PEmpty
  osem k := k.elim
  ho := Pipeline.OwnSemFacts.none _
  hbody c := body2 W O Wt c
  hwaits c := Pipeline.RDat.cellsWaits_intro (Pipeline.pin (pcfgs (F := F)) adm) (rdF W O Wt) (none : HIx 1) 1 c
    (fun w s t => (K (F := F)).mayWait_none _ hO)
  pre c := iprop(held (c.tc : Thread nD τ) (Pipeline.ucRefs τ sig) W ∗ owes (c.tc : Thread nD τ) O Wt)
  post c := iprop(∃ (Y : Buf (Elt F) (yLoc c main_v12)) (Wt' : Waits sig (HIx 1)), ⌜∀ q ∈ Wt', q ∈ Wt ∨ q.2 = none⌝
      ∗ held (c.tc : Thread nD τ) (Pipeline.ucRefs τ sig) (Function.update W v12' Y) ∗ owes (c.tc : Thread nD τ) O Wt')
  X _ := iprop(emp)
  Y _ := iprop(emp)
  Z c := Pipeline.unscopedRest spec2 c (fun b => W b)
  hentry c := by
    rw [Pipeline.ownSems0_none]
    have hsplit := Pipeline.RDat.arrays_of_unscopedBufs (p := 1) (pcfgs (F := F)) adm (rdF W O Wt) launch2.win launch2.arr_whole c
      (rdF2_share W O Wt c) (fun b => W b) (fun _ => rfl)
    rw [Pipeline.unscopedBufs_held] at hsplit
    iintro ⟨⟨Hub, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · iexists Wt; isplitr
      · ipureintro; exact fun p hp => Set.mem_union_left _ (Or.inl (Finset.mem_coe.mp hp))
      · iexact HO
    isplitr; · iempintro
    iexact Hrest
  hin c := by
    show _ ⊢ Pipeline.scopedRest spec2 c
    iintro ⟨-, -, Hr⟩; iexact Hr
  hout c := by
    rw [Pipeline.ownSems0_none]
    show Pipeline.scopedRest spec2 c ⊢ _
    iintro Hr
    isplitr; · iempintro
    isplitr; · iempintro
    iexact Hr
  hexit c := by
    have e0 := Pipeline.RDat.ArrAt_in (rd := rdF2 W O Wt c) (0 : Fin cfg2.W) rfl cfg2.N
    have e1 := Pipeline.RDat.ArrAt_in (rd := rdF2 W O Wt c) (1 : Fin cfg2.W) rfl cfg2.N
    have e2 := Pipeline.RDat.ArrAt_in (rd := rdF2 W O Wt c) (2 : Fin cfg2.W) rfl cfg2.N
    show iprop((rdF2 W O Wt c).arraysAt cfg2.N ∗ (rdF2 W O Wt c).owesAt none (Fin.last cfg2.N) ∗ emp
        ∗ Pipeline.unscopedRest spec2 c (fun b => W b)) ⊢ _
    unfold Pipeline.RDat.arraysAt
    rw [bigSep_W2, e0, e1, e2]
    iintro ⟨⟨⟨%F0, %h0, Ha0⟩, ⟨%F1, %h1, Ha1⟩, ⟨%F2, %h2, Ha2⟩, %F3, -, Ha3⟩, ⟨%Wt', %hWt', HO⟩, -, Hrest⟩
    subst h0 h1 h2
    imodintro
    iexists F3, Wt'
    isplitr
    · ipureintro; intro q hq
      rcases hWt' (Finset.mem_coe.mpr hq) with h | ⟨w, s, rfl⟩
      · exact h
      · exact Or.inr rfl
    isplitr [HO]
    · iapply (Entails.of_eq (Pipeline.unscopedBufs_held c (Function.update W v12' F3)))
      iapply (unscopedBufs_of_rarrays (p := 1) launch2.win launch2.arr_whole c (rdF W O Wt) (rdF2_share W O Wt c) (fun b => W b)
        (fun b => Function.update W v12' F3 b)
        (fun w => Function.update W v12' F3 (Proc.devRef .tc (Pipeline.arrRef spec2 w)))
        (fun _ => rfl)
        (fun b hb => Function.update_of_ne (fun e => hb (Finset.mem_image.mpr ⟨3, Finset.mem_univ _, (Proc.devRef_injective _ e).symm⟩)) _ _))
      isplitr [Hrest]
      · unfold Pipeline.RDat.arrays
        rw [bigSep_W2]
        beta_reduce
        rw [show Function.update W v12' F3 (Proc.devRef .tc (Pipeline.arrRef spec2 0)) = (rdF2 W O Wt c).A 0 from
            Function.update_of_ne (show (Proc.devRef .tc (main_v11 : Ref sig .tc) : DevRef τ sig) ≠ v12' by decide) F3 W,
          show Function.update W v12' F3 (Proc.devRef .tc (Pipeline.arrRef spec2 1)) = (rdF2 W O Wt c).A 1 from
            Function.update_of_ne (show (Proc.devRef .tc (main_arg3 : Ref sig .tc) : DevRef τ sig) ≠ v12' by decide) F3 W,
          show Function.update W v12' F3 (Proc.devRef .tc (Pipeline.arrRef spec2 2)) = (rdF2 W O Wt c).A 2 from
            Function.update_of_ne (show (Proc.devRef .tc (main_v10 : Ref sig .tc) : DevRef τ sig) ≠ v12' by decide) F3 W,
          show Function.update W v12' F3 (Proc.devRef .tc (Pipeline.arrRef spec2 3)) = F3 from Function.update_self v12' F3 W]
        isplitl [Ha0]; · iexact Ha0
        isplitl [Ha1]; · iexact Ha1
        isplitl [Ha2]; · iexact Ha2
        iexact Ha3
      · iexact Hrest
    · iexact HO

/-- The second call as a step of @main, its output not named. -/
theorem reg2_frame [∀ e, Nonempty (Elt F e)] : RegSpec (F := F) 1 main_v12 (fun _ _ _ => True) := by
  intro d W O Wt hO Φ
  have hstep := region_step (R2 W O Wt hO) d Φ
  dsimp only [R2] at hstep
  iintro ⟨#Hlev, Hb, Hheld, HO, Hg, Ht, Hk⟩
  iapply hstep
  isplitl [Hk]
  · iintro ⟨Hb, %Y, %Wt', %hW, Hheld, HO⟩
    ispecialize Hk $$ %Y
    ispecialize Hk $$ %Wt'
    iapply Hk
    isplitr
    · ipureintro; exact ⟨True.intro, hW⟩
    isplitl [Hb]; · iexact Hb
    isplitl [Hheld]; · iexact Hheld
    iexact HO
  isplitl [Hb]; · iexact Hb
  isplitl [Hheld HO]
  · isplitl [Hheld]; · iexact Hheld
    iexact HO
  isplitr; · iexact Hlev
  isplitl [Hg]; · iexact Hg
  iexact Ht

end Cert.Proof.KI

end
-- ==== Proof.KTileFrame.lean ====
/-
  The body obligation of the lookup's SparseCore kernel, the gathered contents left unnamed: every vector subcore's
  task runs to its end from what it is handed — a read share of the table, its block of the index list, its block of
  the row buffer chunk by chunk — to the same with each chunk at SOME contents. The index block is fetched; chunk 0's
  gather into rows A starts; trip k starts the gather of chunk 2k+1 into rows B, waits for chunk 2k, copies rows A out,
  starts the gather of chunk 2k+2 into rows A (k < 49), waits for chunk 2k+1, copies rows B out. Two gathers are in
  flight at once: each borrows half of the subcore's share of the table and half of the index scratch.
-/
import proofs.«217421_g60146722013857_cont_9to1c4b_519_37_alg».proof.Proof.KCommon

noncomputable section

namespace Cert.Proof.KI
namespace Frame

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "tV" => (Memref.whole Cert.KernelIdeal.main_v9_scv : Memref Cert.KernelIdeal.sig Kind.scVector Space.hbm Cert.KernelIdeal.S1000000x128 EltTy.f32)
local notation "iV" => (Memref.whole Cert.KernelIdeal.main_v1_scv : Memref Cert.KernelIdeal.sig Kind.scVector Space.hbm Cert.KernelIdeal.S819200 EltTy.i32)
local notation "oV" => (Memref.whole Cert.KernelIdeal.main_v11_scv : Memref Cert.KernelIdeal.sig Kind.scVector Space.hbm Cert.KernelIdeal.S819200x128 EltTy.f32)
local notation "sI" => (Memref.whole Cert.KernelIdeal.cc1_scratch0 : Memref Cert.KernelIdeal.sig Kind.scVector Space.vmem Cert.KernelIdeal.S25600 EltTy.i32)
local notation "sA" => (Memref.whole Cert.KernelIdeal.cc1_scratch1 : Memref Cert.KernelIdeal.sig Kind.scVector Space.vmem Cert.KernelIdeal.S256x128 EltTy.f32)
local notation "sB" => (Memref.whole Cert.KernelIdeal.cc1_scratch2 : Memref Cert.KernelIdeal.sig Kind.scVector Space.vmem Cert.KernelIdeal.S256x128 EltTy.f32)

/-! ## The index list is in range wherever the token words are -/

/-- Every word of the index list is one of the token words (the list is their transpose, flattened). -/
theorem idx_in_range [FloatOps F] (m : (ℓ : Loc nD τ sig) → Buf (Elt F) ℓ) (h : ∀ (d : Dev nD) j, (m (idsLoc d) j).toNat < 1000000) :
    ∀ (d : Dev nD) p, (idxV m d p).toNat < 1000000 := by
  intro d p
  unfold idxV shapeCast transpose
  exact h d _

variable (m : (ℓ : Loc nD τ sig) → Buf (Elt F) ℓ)
variable [FloatOps F]

/-! ## A vector subcore's thread, semaphores and scratch -/

section Tile

variable (d : Dev nD) (L : grid1.Coords)

abbrev cV : Fin τ.nSC := (L 0).castLE hcore1
abbrev jV : Fin τ.nSub := (L 1).castLE hsub1
/-- The thread of the vector subcore at grid point `L`. -/
abbrev TH : Thread nD τ := V d (cV L) (jV L)

abbrev cellGA : GSem nD τ sig := (TH d L, .dma cc1_scratch3.sem)
abbrev cellGB : GSem nD τ sig := (TH d L, .dma cc1_scratch4.sem)
abbrev cell0 : GSem nD τ sig := (TH d L, .dma cc1_scoped0.sem)
abbrev cell1 : GSem nD τ sig := (TH d L, .dma cc1_scoped1.sem)
abbrev cell2 : GSem nD τ sig := (TH d L, .dma cc1_scoped2.sem)

theorem cell_ne {a b : DmaSem sig} (h : a ≠ b) : ((TH d L, SemLoc.dma a) : GSem nD τ sig) ≠ (TH d L, SemLoc.dma b) :=
  fun e => h (SemLoc.dma.inj (Prod.mk.inj e).2)

theorem cell_own (a : DmaSem sig) (h : (SemLoc.dma a : SemLoc sig).isScoped .scVector = true) :
    ((TH d L, SemLoc.dma a) : GSem nD τ sig) ∈ ownCells (TH d L) := (mem_ownCells (g := (TH d L, SemLoc.dma a))).mpr ⟨rfl, h⟩

theorem ownSems0_V :
    (ownSems0 (TH d L) : sProp 𝕄)
      = iprop(semVal (cellGA d L) 0 ∗ semVal (cellGB d L) 0 ∗ semVal (cell0 d L) 0 ∗ semVal (cell1 d L) 0 ∗ semVal (cell2 d L) 0
          ∗ bigSep (((((ownCells (TH d L)).erase (cellGA d L)).erase (cellGB d L)).erase (cell0 d L)).erase (cell1 d L) |>.erase (cell2 d L))
              fun g => semVal g 0) := by
  unfold SparseCore.Cfg.ownSems0
  have oA := cell_own d L cc1_scratch3.sem (by decide)
  have oB := cell_own d L cc1_scratch4.sem (by decide)
  have o0 := cell_own d L cc1_scoped0.sem (by decide)
  have o1 := cell_own d L cc1_scoped1.sem (by decide)
  have o2 := cell_own d L cc1_scoped2.sem (by decide)
  have nBA := cell_ne d L (show cc1_scratch4.sem ≠ cc1_scratch3.sem by decide)
  have n0A := cell_ne d L (show cc1_scoped0.sem ≠ cc1_scratch3.sem by decide)
  have n0B := cell_ne d L (show cc1_scoped0.sem ≠ cc1_scratch4.sem by decide)
  have n1A := cell_ne d L (show cc1_scoped1.sem ≠ cc1_scratch3.sem by decide)
  have n1B := cell_ne d L (show cc1_scoped1.sem ≠ cc1_scratch4.sem by decide)
  have n10 := cell_ne d L (show cc1_scoped1.sem ≠ cc1_scoped0.sem by decide)
  have n2A := cell_ne d L (show cc1_scoped2.sem ≠ cc1_scratch3.sem by decide)
  have n2B := cell_ne d L (show cc1_scoped2.sem ≠ cc1_scratch4.sem by decide)
  have n20 := cell_ne d L (show cc1_scoped2.sem ≠ cc1_scoped0.sem by decide)
  have n21 := cell_ne d L (show cc1_scoped2.sem ≠ cc1_scoped1.sem by decide)
  rw [SparseCore.bigSep_erase' oA,
    SparseCore.bigSep_erase' (Finset.mem_erase.mpr ⟨nBA, oB⟩),
    SparseCore.bigSep_erase' (Finset.mem_erase.mpr ⟨n0B, Finset.mem_erase.mpr ⟨n0A, o0⟩⟩),
    SparseCore.bigSep_erase' (Finset.mem_erase.mpr ⟨n10, Finset.mem_erase.mpr ⟨n1B, Finset.mem_erase.mpr ⟨n1A, o1⟩⟩⟩),
    SparseCore.bigSep_erase' (Finset.mem_erase.mpr ⟨n21, Finset.mem_erase.mpr ⟨n20, Finset.mem_erase.mpr ⟨n2B, Finset.mem_erase.mpr ⟨n2A, o2⟩⟩⟩⟩)]

/-- The three scratch buffers are among the subcore's own: they are them, at some contents, and the rest. -/
theorem ownBufs_V :
    (ownBufs (TH d L) : sProp 𝕄)
      = iprop((∃ f, (TH d L).loc cc1_scratch0 ↦{fullShare} f) ∗ (∃ f, (TH d L).loc cc1_scratch1 ↦{fullShare} f)
          ∗ (∃ f, (TH d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

variable (TabOK : (d : Dev nD) → Buf (Elt F) (tabLoc d) → Prop)

/-- What a vector subcore hands back, the gathered contents left unnamed: the table share, its block of the index
    list, and each chunk of its block of the row buffer at some contents. -/
def tdA' (d : Dev nD) (L : grid1.Coords) : sProp 𝕄 :=
  iprop(∃ T : Buf (Elt F) (tabLoc d), ⌜TabOK d T⌝ ∗ (tabLoc d ↦{tq L} T)
    ∗ (idxLoc d ↦[(idxM L).view.set]{fullShare} idxV m d)
    ∗ bigSep Finset.univ fun k : Fin k1_t1_loop.trips =>
        iprop((∃ f, outLoc d ↦[(outA L k).view.set]{fullShare} f) ∗ (∃ f, outLoc d ↦[(outB L k).view.set]{fullShare} f)))

/-- The arrays as the subcore's memrefs address them are the TensorCore's arrays, and its scratch its own. -/
theorem pts_idx (f : Buf (Elt F) (idxLoc d)) :
    ((idxM L).view.loc (TH d L) ↦[(idxM L).view.set]{fullShare} f : sProp 𝕄) = idxLoc d ↦[(idxM L).view.set]{fullShare} f := rfl
theorem pts_tab (q : PosShare TreeShare) (f : Buf (Elt F) (tabLoc d)) :
    ((tV).view.loc (TH d L) ↦{q} f : sProp 𝕄) = tabLoc d ↦{q} f := rfl
theorem pts_outA (k : Fin k1_t1_loop.trips) (f : Buf (Elt F) (outLoc d)) :
    ((outA L k).view.loc (TH d L) ↦[(outA L k).view.set]{fullShare} f : sProp 𝕄) = outLoc d ↦[(outA L k).view.set]{fullShare} f := rfl
theorem pts_outB (k : Fin k1_t1_loop.trips) (f : Buf (Elt F) (outLoc d)) :
    ((outB L k).view.loc (TH d L) ↦[(outB L k).view.set]{fullShare} f : sProp 𝕄) = outLoc d ↦[(outB L k).view.set]{fullShare} f := rfl
theorem pts_sI (q : PosShare TreeShare) (f : Buf (Elt F) ((TH d L).loc cc1_scratch0)) :
    ((sI).view.loc (TH d L) ↦{q} f : sProp 𝕄) = (TH d L).loc cc1_scratch0 ↦{q} f := rfl
theorem pts_sA (f : Buf (Elt F) ((TH d L).loc cc1_scratch1)) :
    ((sA).view.loc (TH d L) ↦{fullShare} f : sProp 𝕄) = (TH d L).loc cc1_scratch1 ↦{fullShare} f := rfl
theorem pts_sB (f : Buf (Elt F) ((TH d L).loc cc1_scratch2)) :
    ((sB).view.loc (TH d L) ↦{fullShare} f : sProp 𝕄) = (TH d L).loc cc1_scratch2 ↦{fullShare} f := rfl

/-- Words written whole into the index scratch, each in range, read in range through any slice of it. -/
theorem fetched_inb {w : S25600.Idx → Elt F .i32} (hw : ∀ y, (w y).toNat < 1000000) (fi0 : (sI).view.ty.Contents (Elt F))
    (r : Rect S25600) (hr : ∀ a, r.stride a = 1) (x : r.shape.Idx) :
    (View.read (Elt F) ((sI).slice r hr).view (View.write (Elt F) (sI).view fi0 w Finset.univ) x).toNat < 1000000 := by
  have e : View.read (Elt F) ((sI).slice r hr).view (View.write (Elt F) (sI).view fi0 w Finset.univ) x
      = View.read (Elt F) (sI).view (View.write (Elt F) (sI).view fi0 w Finset.univ) (r.emb x) := rfl
  rw [e, View.read_write_of_mem _ _ (Finset.mem_univ _)]; exact hw _

/-- Elements carved out of a buffer and the rest, at the same contents, are the buffer whole. -/
theorem rejoin {ℓ : Loc nD τ sig} (I : Finset (Idx ℓ)) (q : PosShare TreeShare) (f : Buf (Elt F) ℓ) :
    iprop((ℓ ↦[I]{q} f) ∗ ℓ ↦[Finset.univ \ I]{q} f) ⊢ (ℓ ↦{q} f : sProp 𝕄) :=
  (pointsTo_split_subset (Finset.subset_univ I)).2

/-- A wait at the default index recorded keeps the recorded waits within the bound. -/
theorem waits_ins {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact h p hp

/-- The words of the index scratch are in range, read through any slice of it. -/
structure InRange (fI : Buf (Elt F) ((sI).view.loc (TH d L))) : Prop where
  h : ∀ (r : Rect S25600) (hr : ∀ a, r.stride a = 1) (x : r.shape.Idx), (View.read (Elt F) ((sI).slice r hr).view fI x).toNat < 1000000

/-- An assertion set aside, kept as it is. -/
def hide (P : sProp 𝕄) : sProp 𝕄 := P
theorem hide_eq (P : sProp 𝕄) : hide P = P := rfl

/-- The table's and the index scratch's read shares of the two gathers in flight at once. -/
abbrev qTa : PosShare TreeShare := (tq L).left
abbrev qTb : PosShare TreeShare := (tq L).right
abbrev qIa : PosShare TreeShare := fullShare.left
abbrev qIb : PosShare TreeShare := fullShare.right

variable (O : CellTallies nD τ sig (HIx 1)) (W : Waits sig (HIx 1))
variable (T : Buf (Elt F) (tabLoc d)) (fI : Buf (Elt F) ((sI).view.loc (TH d L)))

/-- A gather into rows A in flight: its flight delivers rows A at some contents, the elements of the index scratch and
    of the table it borrowed; what it did not borrow stays beside it. -/
def flA : sProp 𝕄 :=
  iprop(∃ (ga : Buf (Elt F) ((sA).view.loc (TH d L))) (So : Finset (Idx ((sI).view.loc (TH d L)))) (St : Finset (Idx ((tV).view.loc (TH d L)))),
    Transfers.Flight (countersEmb : UEmb Counters 𝕄) (TH d L) (SemLoc.dma cc1_scratch3.sem) default 1048576
        iprop((((sA).view.loc (TH d L) ↦[(sA).view.set]{fullShare} ga) ∗ ((sI).view.loc (TH d L) ↦[So]{qIa} fI)) ∗ ((tV).view.loc (TH d L) ↦[St]{qTa L} T))
      ∗ ((tV).view.loc (TH d L) ↦[Finset.univ \ St]{qTa L} T)
      ∗ ((sA).view.loc (TH d L) ↦[Finset.univ \ (sA).view.set]{fullShare} ga)
      ∗ ((sI).view.loc (TH d L) ↦[Finset.univ \ So]{qIa} fI))

/-- Rows A idle: the buffer, its semaphore at zero, the shares back. -/
def idleA : sProp 𝕄 :=
  iprop((∃ ga, (sA).view.loc (TH d L) ↦{fullShare} ga) ∗ semVal (cellGA d L) 0
    ∗ ((tV).view.loc (TH d L) ↦{qTa L} T) ∗ ((sI).view.loc (TH d L) ↦{qIa} fI))

/-- The chunks of the subcore's block of the row buffer, each at some contents. -/
def outChunks : sProp 𝕄 :=
  bigSep Finset.univ fun k : Fin k1_t1_loop.trips =>
    iprop((∃ f, (outA L k).view.loc (TH d L) ↦[(outA L k).view.set]{fullShare} f) ∗ (∃ f, (outB L k).view.loc (TH d L) ↦[(outB L k).view.set]{fullShare} f))

/-- Before trip `k`: rows B, its semaphore and its shares idle; the copy-out semaphores at zero; the chunks; the gather of
    chunk `2 k` in flight into rows A (none left after the last trip); what the subcore owes. -/
def Inv (k : Nat) (_ : PUnit) : sProp 𝕄 :=
  iprop(Transfers.MayWaits (TH d L) (none : HIx 1) O
    ∗ ((tV).view.loc (TH d L) ↦{qTb L} T) ∗ ((sI).view.loc (TH d L) ↦{qIb} fI)
    ∗ (∃ gb, (sB).view.loc (TH d L) ↦{fullShare} gb) ∗ semVal (cellGB d L) 0
    ∗ semVal (cell1 d L) 0 ∗ semVal (cell2 d L) 0
    ∗ outChunks d L
    ∗ (if k < 50 then flA d L T fI else idleA d L T fI)
    ∗ ∃ W', ⌜∀ p ∈ W', p ∈ W ∨ p.2 = none⌝ ∗ owes (TH d L) O W')

set_option maxRecDepth 65536 in
set_option maxHeartbeats 4000000 in
/-- One trip of the loop, from the invariant before it to the invariant after it. -/
theorem trip (hI : InRange d L fI) (k : Fin k1_t1_loop.trips) (u : PUnit) :
    Inv d L O W T fI k.val u
      ⊢ wp frame (wpE (defs₀ (F := F)) 𝒱₀ (TH d L) none) Set.univ
          (k1_t1_body L tV (Memref.isWhole_whole _) iV (Memref.isWhole_whole _) oV (Memref.isWhole_whole _)
            sI (Memref.isWhole_whole _) sA (Memref.isWhole_whole _) sB (Memref.isWhole_whole _) cc1_scratch3 cc1_scratch4 cc1_scoped0 cc1_scoped1 cc1_scoped2 k u)
          (Inv d L O W T fI (k.val + 1)) := by
  have hk50 : k.val < 50 := trips_eq ▸ k.isLt
  have k1_h1 : k1_cond1 k = 1#1 := cond1_true k
  have k1_h3 : k1_cond3 k = 1#1 := cond3_true k
  unfold Inv
  rw [if_pos hk50]
  unfold flA outChunks
  unfold k1_t1_body
  iintro ⟨#Hmw, HtB, HiB, ⟨%gb, Hsb⟩, HcB, Hc1, Hc2, HOUT, HFLA, %W', %hW', HO⟩
  ihave HOUT' := (Transfers.bigSep_univ_out k _) $$ HOUT
  icases HOUT' with ⟨HK, Hout⟩
  icases HK with ⟨⟨%fa, HoA⟩, ⟨%fb, HoB⟩⟩
  icases HFLA with ⟨%ga, %So, %St, HcA, HtAr, HsaR, HiAr⟩
  ihave HtArH := (Entails.of_eq (hide_eq (F := F) _).symm) $$ HtAr
  ihave HiArH := (Entails.of_eq (hide_eq (F := F) _).symm) $$ HiAr
  have hinB := hI.h (Rect.unit (s := S25600) (k1_off2 k) S256.size (k1_off2_inb k k1_h1)) (fun _ => rfl)
  rcases Nat.lt_or_ge k.val 49 with h49 | h49
  · have k1_h2 : k1_cond2 k = 1#1 := (cond2_iff k).2 h49
    rw [if_pos (show k.val + 1 < 50 by omega)]
    -- chunk 2k+1's gather starts; chunk 2k has landed in rows A
    sl_exec
    icases HcA_dst with ⟨HsaD, HiAD⟩
    ihave Hsa := (rejoin (F := F) _ _ _) $$ [HsaD HsaR]
    · isplitl [HsaD]; · iexact HsaD
      iexact HsaR
    -- rows A go out to chunk 2k of the block
    sl_exec
    ihave HtAr := (Entails.of_eq (hide_eq (F := F) _)) $$ HtArH
    ihave HiAr := (Entails.of_eq (hide_eq (F := F) _)) $$ HiArH
    ihave HtA := (rejoin (F := F) _ _ _) $$ [HcA_src HtAr]
    · isplitl [HcA_src]; · iexact HcA_src
      iexact HtAr
    ihave HiA := (rejoin (F := F) _ _ _) $$ [HiAD HiAr]
    · isplitl [HiAD]; · iexact HiAD
      iexact HiAr
    ihave HtBH := (Entails.of_eq (hide_eq (F := F) _).symm) $$ HtB
    ihave HiBH := (Entails.of_eq (hide_eq (F := F) _).symm) $$ HiB
    ihave HcBH := (Entails.of_eq (hide_eq (F := F) _).symm) $$ HcB
    have hinA := hI.h (Rect.unit (s := S25600) (k1_off5 k) S256.size (k1_off5_inb k k1_h2)) (fun _ => rfl)
    -- chunk 2k+2's gather starts into rows A
    sl_exec
    ihave HtB := (Entails.of_eq (hide_eq (F := F) _)) $$ HtBH
    ihave HiB := (Entails.of_eq (hide_eq (F := F) _)) $$ HiBH
    ihave HcB := (Entails.of_eq (hide_eq (F := F) _)) $$ HcBH
    -- chunk 2k+1 has landed in rows B, which go out to chunk 2k+1 of the block
    sl_exec
    sl_step
    isplitl [Hmw]; · iexact Hmw
    isplitl [HtB]; · iexact HtB
    isplitl [HiB]; · iexact HiB
    isplitl [Hsb]; · iexists _; iexact Hsb
    isplitl [HcB]; · iexact HcB
    isplitl [Hc1]; · iexact Hc1
    isplitl [Hc2]; · iexact Hc2
    isplitl [HoA HoB Hout]
    · iapply (Transfers.bigSep_univ_in k _)
      isplitl [HoA HoB]
      · isplitl [HoA]
        · iexists _; iexact HoA
        · iexists _; iexact HoB
      · iexact Hout
    isplitl [HcA HtA Hsa HiA]
    · iexists _; iexists _; iexists _
      isplitl [HcA]; · iexact HcA
      isplitl [HtA]; · iexact HtA
      isplitl [Hsa]; · iexact Hsa
      iexact HiA
    iexists _; isplitr
    rotate_left
    · iexact HO
    · ipureintro; exact waits_ins (waits_ins (waits_ins (waits_ins hW' _) _) _) _
  · have k1_h2 : ¬ k1_cond2 k = 1#1 := fun h => absurd ((cond2_iff k).1 h) (by omega)
    rw [if_neg (show ¬ k.val + 1 < 50 by omega)]
    unfold idleA
    -- chunk 2k+1's gather starts; chunk 2k has landed in rows A
    sl_exec
    icases HcA_dst with ⟨HsaD, HiAD⟩
    ihave Hsa := (rejoin (F := F) _ _ _) $$ [HsaD HsaR]
    · isplitl [HsaD]; · iexact HsaD
      iexact HsaR
    -- rows A go out to chunk 2k; no further gather; rows B land and go out to chunk 2k+1
    sl_exec
    ihave HtAr := (Entails.of_eq (hide_eq (F := F) _)) $$ HtArH
    ihave HiAr := (Entails.of_eq (hide_eq (F := F) _)) $$ HiArH
    ihave HtA := (rejoin (F := F) _ _ _) $$ [HcA_src HtAr]
    · isplitl [HcA_src]; · iexact HcA_src
      iexact HtAr
    ihave HiA := (rejoin (F := F) _ _ _) $$ [HiAD HiAr]
    · isplitl [HiAD]; · iexact HiAD
      iexact HiAr
    sl_step
    isplitl [Hmw]; · iexact Hmw
    isplitl [HtB]; · iexact HtB
    isplitl [HiB]; · iexact HiB
    isplitl [Hsb]; · iexists _; iexact Hsb
    isplitl [HcB]; · iexact HcB
    isplitl [Hc1]; · iexact Hc1
    isplitl [Hc2]; · iexact Hc2
    isplitl [HoA HoB Hout]
    · iapply (Transfers.bigSep_univ_in k _)
      isplitl [HoA HoB]
      · isplitl [HoA]
        · iexists _; iexact HoA
        · iexists _; iexact HoB
      · iexact Hout
    isplitl [Hsa HcA HtA HiA]
    · isplitl [Hsa]; · iexists _; iexact Hsa
      isplitl [HcA]; · iexact HcA
      isplitl [HtA]; · iexact HtA
      iexact HiA
    iexists _; isplitr
    rotate_left
    · iexact HO
    · ipureintro; exact waits_ins (waits_ins (waits_ins (waits_ins hW' _) _) _) _

theorem chunk_launch (k : Fin k1_t1_loop.trips) :
    (iprop((outLoc d ↦[(outA L k).view.set]{fullShare} m (outLoc d)) ∗ (outLoc d ↦[(outB L k).view.set]{fullShare} m (outLoc d))) : sProp 𝕄)
      ⊢ iprop((∃ f, (outA L k).view.loc (TH d L) ↦[(outA L k).view.set]{fullShare} f) ∗ (∃ f, (outB L k).view.loc (TH d L) ↦[(outB L k).view.set]{fullShare} f)) := by
  iintro ⟨HA, HB⟩
  isplitl [HA]
  · iexists _; iexact HA
  · iexists _; iexact HB

/-- The launch contents of the chunks are some contents. -/
theorem outChunks_of_launch :
    (bigSep Finset.univ fun k : Fin k1_t1_loop.trips =>
        iprop((outLoc d ↦[(outA L k).view.set]{fullShare} m (outLoc d)) ∗ (outLoc d ↦[(outB L k).view.set]{fullShare} m (outLoc d))) : sProp 𝕄)
      ⊢ outChunks d L := by
  unfold outChunks
  exact BI.bigSep_mono fun k _ => chunk_launch m d L k

/-- The two halves of the table's share are the share; of the index scratch's, the scratch outright. -/
theorem tab_join : (iprop(((tV).view.loc (TH d L) ↦{qTa L} T) ∗ ((tV).view.loc (TH d L) ↦{qTb L} T)) : sProp 𝕄) ⊢ (tabLoc d ↦{tq L} T : sProp 𝕄) :=
  (pointsTo_share (PosShare.mem_left_op_right (tq L))).2
theorem sI_join (f : Buf (Elt F) ((sI).view.loc (TH d L))) :
    (iprop(((sI).view.loc (TH d L) ↦{qIa} f) ∗ ((sI).view.loc (TH d L) ↦{qIb} f)) : sProp 𝕄) ⊢ ((TH d L).loc cc1_scratch0 ↦{fullShare} f : sProp 𝕄) :=
  (pointsTo_share (PosShare.mem_left_op_right fullShare)).2

set_option maxRecDepth 65536 in
set_option maxHeartbeats 4000000 in
/-- The kernel on one vector subcore: the index block fetched, the first gather started, the fifty trips by the
    invariant, and at the end everything idle again. -/
theorem tile_body (hF : (K (F := F)).Facts) (hin : ∀ (d : Dev nD) p, (idxV m d p).toNat < 1000000)
    (hO : ∀ g, O g none = 0) :
    iprop(levAts (K (F := F)).L (K (F := F)).lev ∗ emp ∗ goA m TabOK d L
        ∗ scopedBufs (TH d L) ∗ scopedSems0 (TH d L) ∗ owes (TH d L) O W)
      ⊢ wp frame (wpE (defs₀ (F := F)) 𝒱₀ (TH d L) none) Set.univ
          (cc1_gather_kernel L tV (Memref.isWhole_whole _) iV (Memref.isWhole_whole _) oV (Memref.isWhole_whole _)
            sI (Memref.isWhole_whole _) sA (Memref.isWhole_whole _) sB (Memref.isWhole_whole _) cc1_scratch3 cc1_scratch4 cc1_scoped0 cc1_scoped1 cc1_scoped2)
          fun _ => iprop(tdA' m TabOK d L ∗ scopedBufs (TH d L) ∗ scopedSems0 (TH d L)
            ∗ ∃ W', ⌜∀ p ∈ W', p ∈ W ∨ p.2 = none⌝ ∗ owes (TH d L) O W') := by
  simp only [cc1_gather_kernel_eq_skeleton]; unfold cc1_gather_kernel_skel
  rw [(K (F := F)).scopedBufs_V hF d (cV L) (jV L), SparseCore.Cfg.scopedSems0_V (Val := Elt F) d (cV L) (jV L), ownSems0_V, ownBufs_V]
  unfold goA
  iintro ⟨#Hlv, -, ⟨%T, %hT, Ht, Hix, Hout⟩, ⟨⟨%fi0, Hsi⟩, ⟨%fa0, Hsa⟩, ⟨%fb0, Hsb⟩, Hbufs⟩, ⟨HcA, HcB, Hc0, Hc1, Hc2, Hsems⟩, HO⟩
  ihave Hmw := ((K (F := F)).mayWaits_none (thr := TH d L) hO) $$ Hlv
  ihave Hix' := (Entails.of_eq (pts_idx (F := F) d L _).symm) $$ Hix
  ihave Hsi' := (Entails.of_eq (pts_sI (F := F) d L _ _).symm) $$ Hsi
  ihave Hsa' := (Entails.of_eq (pts_sA (F := F) d L _).symm) $$ Hsa
  ihave Hsb' := (Entails.of_eq (pts_sB (F := F) d L _).symm) $$ Hsb
  ihave Ht' := (Entails.of_eq (pts_tab (F := F) d L _ _).symm) $$ Ht
  -- the index block comes in
  sl_exec
  have hI : InRange d L (View.write (Elt F) (sI).view fi0 (tile_body.sl.dma0 m d L) Finset.univ) :=
    ⟨fun r hr x => fetched_inb (fun y => hin d _) fi0 r hr x⟩
  -- the shares of the two gathers that are in flight at once
  ihave Hsi2 := (pointsTo_share (PosShare.mem_left_op_right fullShare)).1 $$ Hsi'
  icases Hsi2 with ⟨HiA, HiB⟩
  ihave Ht2 := (pointsTo_share (PosShare.mem_left_op_right (tq L))).1 $$ Ht'
  icases Ht2 with ⟨HtA, HtB⟩
  ihave HiBH := (Entails.of_eq (hide_eq (F := F) _).symm) $$ HiB
  ihave HtBH := (Entails.of_eq (hide_eq (F := F) _).symm) $$ HtB
  have hin0 := hI.h (Rect.unit (s := S25600) ![0] S256.size inb_S25600_S256_0) (fun _ => rfl)
  -- chunk 0's gather starts
  sl_exec
  ihave HiB := (Entails.of_eq (hide_eq (F := F) _)) $$ HiBH
  ihave HtB := (Entails.of_eq (hide_eq (F := F) _)) $$ HtBH
  ihave Hout' := (outChunks_of_launch (F := F) m d L) $$ Hout
  sl_for (Inv d L O W T (View.write (Elt F) (sI).view fi0 (tile_body.sl.dma0 m d L) Finset.univ)) $$ [Hmw HtB HiB Hsb' HcB Hc1 Hc2 Hout' HcA HtA Hsa' HiA HO]
  case region =>
    intro k u
    exact trip d L O W T _ hI k u
  · unfold Inv
    rw [if_pos (show (0 : ℕ) < 50 by decide)]
    unfold flA
    isplitl [Hmw]; · iexact Hmw
    isplitl [HtB]; · iexact HtB
    isplitl [HiB]; · iexact HiB
    isplitl [Hsb']; · iexists _; iexact Hsb'
    isplitl [HcB]; · iexact HcB
    isplitl [Hc1]; · iexact Hc1
    isplitl [Hc2]; · iexact Hc2
    isplitl [Hout']; · iexact Hout'
    isplitl [HcA HtA Hsa' HiA]
    · iexists _; iexists _; iexists _
      isplitl [HcA]; · iexact HcA
      isplitl [HtA]; · iexact HtA
      isplitl [Hsa']; · iexact Hsa'
      iexact HiA
    iexists _; isplitr
    rotate_left
    · iexact HO
    · ipureintro; exact waits_ins (fun p hp => .inl hp) _
  iintro %acc HI
  unfold Inv
  rw [if_neg (show ¬ k1_t1_loop.trips < 50 by rw [trips_eq]; decide)]
  unfold idleA
  icases HI with ⟨-, HtB, HiB, ⟨%gb, Hsb⟩, HcB, Hc1, Hc2, Hout, ⟨⟨%ga, Hsa⟩, HcA, HtA, HiA⟩, %W', %hW', HO⟩
  sl_exec
  sl_step
  isplitl [HtA HtB Hix' Hout]
  · unfold tdA'
    iexists T
    isplitr; · ipureintro; exact hT
    isplitl [HtA HtB]
    · iapply (tab_join (F := F) d L T)
      isplitl [HtA]; · iexact HtA
      iexact HtB
    isplitl [Hix']; · iexact Hix'
    unfold outChunks; iexact Hout
  isplitl [HiA HiB Hsa Hsb Hbufs]
  · isplitl [HiA HiB]
    · iexists _
      iapply (sI_join (F := F) d L _)
      isplitl [HiA]; · iexact HiA
      iexact HiB
    isplitl [Hsa]; · iexists _; iexact Hsa
    isplitl [Hsb]; · iexists _; iexact Hsb
    iexact Hbufs
  isplitl [HcA HcB Hc0 Hc1 Hc2 Hsems]
  · isplitl [HcA]; · iexact HcA
    isplitl [HcB]; · iexact HcB
    isplitl [Hc0]; · iexact Hc0
    isplitl [Hc1]; · iexact Hc1
    isplitl [Hc2]; · iexact Hc2
    iexact Hsems
  iexists W'; isplitr
  · ipureintro; exact hW'
  · iexact HO

end Tile

/-! ## The launch theorem's obligation -/

variable (TabOK : (d : Dev nD) → Buf (Elt F) (tabLoc d) → Prop)

/-- The one SparseCore call, the vector subcores' results at unnamed gathered contents. -/
def P' : (K (F := F)).Pay (nD := nD) (Val := Elt F) (Name := ℕ) (U := UU) where
  st := (P m TabOK).st
  dn := fun q d c => match q, c with
    | 0, c => bigSep Finset.univ fun i : Fin ((K (F := F)).nSub 0) => tdA' m TabOK d (LV c i)
  go := (P m TabOK).go
  td := fun q d c i => match q, c, i with
    | 0, c, i => tdA' m TabOK d (LV c i)
  x := (P m TabOK).x

theorem defs₀_vector (c : Fin τ.nSC) (s : Fin τ.nSub) :
    defs₀ (F := F) (.scVector c s) 1 ()
      = SparseCore.onTile hcore1 hsub1 (fun c s => cc1_gather_kernel (coordsV c s)
          tV (Memref.isWhole_whole _) iV (Memref.isWhole_whole _) oV (Memref.isWhole_whole _)
          sI (Memref.isWhole_whole _) sA (Memref.isWhole_whole _) sB (Memref.isWhole_whole _) cc1_scratch3 cc1_scratch4 cc1_scoped0 cc1_scoped1 cc1_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task, from what it is handed to what it hands back. -/
theorem tileObl' (hF : (K (F := F)).Facts) (hin : ∀ (d : Dev nD) p, (idxV m d p).toNat < 1000000) :
    (K (F := F)).TileObl (D (F := F)) 𝒱 (P' m TabOK) v₀ 0 := by
  intro d c i O W hO _ _
  simp only [show (P' m TabOK).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m d (coordsV ⟨_, hc.1⟩ ⟨_, hc.2⟩) TabOK O W hF hin hO).trans (wp_mono frame _ _ fun _ => obl_post)

end Frame
end Cert.Proof.KI
end
-- ==== Proof.KSplitFrame.lean ====
/-
  The arrays of the SparseCore call joined again when each vector subcore returns its chunks of the row buffer at
  contents of their own, unnamed: the read shares of the table rejoin as before, and the 3200 chunks, each held at
  some contents, join into the whole array at some contents.
-/
import proofs.«217421_g60146722013857_cont_9to1c4b_519_37_alg».proof.Proof.KSplit
import proofs.«217421_g60146722013857_cont_9to1c4b_519_37_alg».proof.Proof.KTileFrame

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

namespace SplitF

open Split

variable [FloatOps F] (m : (ℓ : Loc nD τ sig) → Buf (Elt F) ℓ) (TabOK : (d : Dev nD) → Buf (Elt F) (tabLoc d) → Prop)

/-- What a vector subcore hands back, the table's contents named and the chunks' left unnamed. -/
def tdT' (d : Dev nD) (L : grid1.Coords) (T : Buf (Elt F) (tabLoc d)) : sProp 𝕄 :=
  iprop((tabLoc d ↦{tq L} T) ∗ (idxLoc d ↦[(idxM L).view.set]{fullShare} idxV m d)
    ∗ bigSep Finset.univ fun k : Fin k1_t1_loop.trips =>
        iprop((∃ f, outLoc d ↦[(outA L k).view.set]{fullShare} f) ∗ (∃ f, outLoc d ↦[(outB L k).view.set]{fullShare} f)))

/-- Beside the remainder share of the table, a returned read share is at the remainder's contents. -/
theorem tdT'_of_tdA' (d : Dev nD) (L : grid1.Coords) (T : Buf (Elt F) (tabLoc d)) :
    iprop((tabLoc d ↦{Transfers.shareDrop fullShare 32} T) ∗ Frame.tdA' m TabOK d L)
      ⊢ iprop((tabLoc d ↦{Transfers.shareDrop fullShare 32} T) ∗ tdT' m d L T) := by
  unfold Frame.tdA' tdT'
  iintro ⟨Hd, %T', -, Ht, Hi, Ho⟩
  ihave Hag := (persistent_entails_right pointsTo_agree) $$ [Hd Ht]
  · isplitl [Hd]; · iexact Hd
    iexact Ht
  icases Hag with ⟨%hag, Hd, Ht⟩
  have hTT : T' = T := funext fun x => ((hag x (Finset.mem_inter.mpr ⟨Finset.mem_univ _, Finset.mem_univ _⟩)).1).symm
  subst hTT
  isplitl [Hd]; · iexact Hd
  isplitl [Ht]; · iexact Ht
  isplitl [Hi]; · iexact Hi
  iexact Ho

/-- A trip's two chunks, each at some contents, are its 512 rows at some contents. -/
theorem pair_join (d : Dev nD) (L : grid1.Coords) (k : Fin k1_t1_loop.trips) :
    (iprop((∃ f, outLoc d ↦[(outA L k).view.set]{fullShare} f) ∗ (∃ f, outLoc d ↦[(outB L k).view.set]{fullShare} f)) : sProp 𝕄)
      ⊢ iprop(∃ f : Buf (Elt F) (outLoc d), outLoc d ↦[outP L k]{fullShare} f) := by
  iintro ⟨⟨%f, Hf⟩, ⟨%g, Hg⟩⟩
  iexists ((outB L k).view.set).piecewise g f
  iapply (pointsTo_join (outAB_disjoint L k))
  isplitl [Hf]; · iexact Hf
  iexact Hg

/-- All the chunks, each at some contents, are the row buffer at some contents. -/
theorem out_join' (m0 : (ℓ : Loc nD τ sig) → Buf (Elt F) ℓ) (d : Dev nD) :
    (bigSep Finset.univ fun t : Tl F => bigSep Finset.univ fun k : Fin k1_t1_loop.trips =>
        iprop((∃ f, outLoc d ↦[(outA (LV (F := F) t.1 t.2) k).view.set]{fullShare} f) ∗ (∃ f, outLoc d ↦[(outB (LV (F := F) t.1 t.2) k).view.set]{fullShare} f)))
      ⊢ (iprop(∃ f : Buf (Elt F) (outLoc d), (outLoc d ↦{fullShare} f)) : sProp 𝕄) := by
  have : ∀ _ : Tl F × Fin k1_t1_loop.trips, Nonempty (Buf (Elt F) (outLoc d)) := fun _ => ⟨m0 (outLoc d)⟩
  have h1 : (bigSep Finset.univ fun t : Tl F => bigSep Finset.univ fun k : Fin k1_t1_loop.trips =>
        iprop((∃ f, outLoc d ↦[(outA (LV (F := F) t.1 t.2) k).view.set]{fullShare} f) ∗ (∃ f, outLoc d ↦[(outB (LV (F := F) t.1 t.2) k).view.set]{fullShare} f)))
      ⊢ (bigSep Finset.univ fun u : Tl F × Fin k1_t1_loop.trips =>
          iprop(∃ f : Buf (Elt F) (outLoc d), outLoc d ↦[outP (LV (F := F) u.1.1 u.1.2) u.2]{fullShare} f) : sProp 𝕄) := by
    rw [bigSep_univ_prod (fun u : Tl F × Fin k1_t1_loop.trips =>
          (iprop(∃ f : Buf (Elt F) (outLoc d), outLoc d ↦[outP (LV (F := F) u.1.1 u.1.2) u.2]{fullShare} f) : sProp 𝕄))]
    exact bigSep_mono fun t _ => bigSep_mono fun k _ => pair_join d (LV (F := F) t.1 t.2) k
  refine h1.trans ?_
  refine (bigSep_exists_pi Finset.univ (fun (u : Tl F × Fin k1_t1_loop.trips) (f : Buf (Elt F) (outLoc d)) =>
    (outLoc d ↦[outP (LV (F := F) u.1.1 u.1.2) u.2]{fullShare} f : sProp 𝕄))).trans ?_
  iintro ⟨%fs, H⟩
  ihave H3 := (pointsTo_biUnion_join (ℓ := outLoc d) (q := fullShare) (Val := Elt F) Finset.univ
      (fun u : Tl F × Fin k1_t1_loop.trips => outP (LV (F := F) u.1.1 u.1.2) u.2) fs (m0 (outLoc d)) (out_disjoint (F := F))) $$ H
  icases H3 with ⟨%g, -, Hg⟩
  rw [out_cover (F := F)]
  iexists g
  iexact Hg

instance tdA'_storable (d : Dev nD) (L : grid1.Coords) : BI.Storable (upEmb : UEmb _ 𝕄) (Frame.tdA' m TabOK d L) := by
  unfold Frame.tdA'; infer_instance

end SplitF

open Split SplitF

theorem arrays_of_dn' [FloatOps F] (m : (ℓ : Loc nD τ sig) → Buf (Elt F) ℓ) (TabOK : (d : Dev nD) → Buf (Elt F) (tabLoc d) → Prop) (d : Dev nD)
    (T : Buf (Elt F) (tabLoc d)) :
    (iprop((tabLoc d ↦{Transfers.shareDrop fullShare 32} T) ∗ bigSep Finset.univ fun c : Fin ((K (F := F)).nCore 0) => (Frame.P' m TabOK).dn 0 d c) : sProp 𝕄)
      ⊢ iprop(∃ f : Buf (Elt F) (outLoc d), ⌜True⌝ ∗ (tabLoc d ↦{fullShare} T) ∗ (idxLoc d ↦{fullShare} idxV m d) ∗ (outLoc d ↦{fullShare} f)) := by
  have e0 : (bigSep Finset.univ fun c : Fin ((K (F := F)).nCore 0) => bigSep Finset.univ fun i : Fin ((K (F := F)).nSub 0) => Frame.tdA' m TabOK d (LV c i) : sProp 𝕄)
      = bigSep Finset.univ fun t : Tl F => Frame.tdA' m TabOK d (LV (F := F) t.1 t.2) :=
    (bigSep_univ_prod (fun t : Tl F => Frame.tdA' m TabOK d (LV (F := F) t.1 t.2))).symm
  refine (sep_mono_right (Entails.of_eq e0)).trans ?_
  refine (bigSep_frame_mono Finset.univ _ _ (fun t : Tl F => tdT' m d (LV (F := F) t.1 t.2) T)
    fun t _ => tdT'_of_tdA' m TabOK d (LV (F := F) t.1 t.2) T).trans ?_
  unfold tdT'
  rw [bigSep_sep', bigSep_sep', ← tab_toks (F := F) d T, ← idx_blocks (F := F) d (idxV m d)]
  iintro ⟨Hd, Ht, Hi, Ho⟩
  ihave Ho' := (out_join' m d) $$ Ho
  icases Ho' with ⟨%f, Ho⟩
  iexists f
  isplitr
  · ipureintro; trivial
  isplitl [Hd Ht]
  · iapply (Transfers.pointsTo_toks_join fullShare 32)
    isplitl [Hd]; · iexact Hd
    iexact Ht
  isplitl [Hi]; · iexact Hi
  iexact Ho

theorem vecSplit' [FloatOps F] (m : (ℓ : Loc nD τ sig) → Buf (Elt F) ℓ) (TabOK : (d : Dev nD) → Buf (Elt F) (tabLoc d) → Prop) :
    (K (F := F)).VecSplit' (Frame.P' m TabOK) 0 := by
  intro d c
  show (bigSep Finset.univ fun i : Fin ((K (F := F)).nSub 0) => goA m TabOK d (LV c i)) ⊢ |={Set.univ}=> iprop(
      (bigSep Finset.univ fun i : Fin ((K (F := F)).nSub 0) => goA m TabOK d (LV c i))
      ∗ ((bigSep Finset.univ fun i : Fin ((K (F := F)).nSub 0) => Frame.tdA' m TabOK d (LV c i))
          -∗ bigSep Finset.univ fun i : Fin ((K (F := F)).nSub 0) => Frame.tdA' m TabOK d (LV c i)))
  iintro H; imodintro
  isplitl [H]; · iexact H
  iintro H; iexact H

instance P'_storable [FloatOps F] (m : (ℓ : Loc nD τ sig) → Buf (Elt F) ℓ) (TabOK : (d : Dev nD) → Buf (Elt F) (tabLoc d) → Prop) :
    (Frame.P' (F := F) m TabOK).IsStorable where
  st q d c := match q, c with
    | 0, c => (inferInstance : BI.Storable (upEmb : UEmb _ 𝕄) (bigSep Finset.univ fun i : Fin ((K (F := F)).nSub 0) => goA m TabOK d (LV c i)))
  dn q d c := match q, c with
    | 0, c => (inferInstance : BI.Storable (upEmb : UEmb _ 𝕄) (bigSep Finset.univ fun i : Fin ((K (F := F)).nSub 0) => Frame.tdA' m TabOK d (LV c i)))
  go q d c i := match q, c, i with
    | 0, c, i => (inferInstance : BI.Storable (upEmb : UEmb _ 𝕄) (goA m TabOK d (LV c i)))
  td q d c i := match q, c, i with
    | 0, c, i => (inferInstance : BI.Storable (upEmb : UEmb _ 𝕄) (Frame.tdA' m TabOK d (LV c i)))

end Cert.Proof.KI

end
-- ==== Proof.PreDecode.lean ====
/-
  The precondition, decoded.

  The precondition is one word, the conjunction of five facts about the argument arrays (every float
  entry finite; every token word between 0 and 999999, compared signed; every mask word between 1 and 1).
  From that word being 1 this module reads back the one fact the lookup needs: every token word, read
  unsigned, is below the table's height 1000000. (A word that is non-negative when read signed reads the
  same unsigned, and it is at most 999999.)
-/
import proofs.«217421_g60146722013857_cont_9to1c4b_519_37_alg».proof.Pre_input_domain
import proofs.«217421_g60146722013857_cont_9to1c4b_519_37_alg».proof.Proof.Gen.Pre_input_domain
import Idealize.ShloMosaic.Lib.ReduceAll
import Idealize.ShloMosaic.Lib.ValueIdx

namespace Cert.Proof.PreD

open Idealize.ShloMosaic

/-- The scalar shape has one index. -/
instance subsingleton_scalar_idx : Subsingleton Cert.Pre_input_domain.S_.Idx := ⟨fun _ _ => funext fun d => d.elim0⟩

/-- A word that lies between 0 and 999999 when read signed is below 1000000 when read unsigned. -/
theorem word_lt (v : BitVec 32) (h0 : IntOp.cmpi .sge v 0#32 = 1#1) (h1 : IntOp.cmpi .sle v 999999#32 = 1#1) :
    v.toNat < 1000000 := by
  rw [IntOp.cmpi_sge] at h0
  rw [IntOp.cmpi_sle] at h1
  have e0 : (0#32 : BitVec 32).toInt = 0 := by decide
  have e1 : (999999#32 : BitVec 32).toInt = 999999 := by decide
  rw [e0] at h0
  rw [e1] at h1
  rw [BitVec.toInt_eq_toNat_cond] at h0 h1
  split at h0 <;> omega

/-- Under the precondition every token word names a row of the table. -/
theorem ids_lt {F : FTy → Type} [FloatOps F] [Cert.Pre_input_domain.Facts]
    (a0 a1 : IVec Cert.Pre_input_domain.S4096x200 32) (a2 : FVec F Cert.Pre_input_domain.S1000000x64 .f32)
    (a3 : FVec F Cert.Pre_input_domain.S64x64 .f32) (a4 : FVec F Cert.Pre_input_domain.S64 .f32)
    (h : Cert.Pre_input_domain.fn (F := F) a0 a1 a2 a3 a4 = fun _ => 1#1) : ∀ j, (a0 j).toNat < 1000000 := by
  intro j
  have e := congrFun h ValueIdx.ix0
  dsimp only [Cert.Pre_input_domain.fn, Cert.Pre_input_domain.fn_part1] at e
  -- the last conjunction: (floats finite ∧ token words in range) ∧ mask words in range
  obtain ⟨e, -⟩ := IntOp.andi_eq_one.1 e
  -- floats finite ∧ token words in range
  obtain ⟨-, e⟩ := IntOp.andi_eq_one.1 e
  -- every token position passes both comparisons
  have ej := Host.reduce_andi_all _ _ _ _ _ e j
  obtain ⟨h0, h1⟩ := IntOp.andi_eq_one.1 ej
  exact word_lt (a0 j) h0 h1

end Cert.Proof.PreD
-- ==== Proof.KFrame.lean ====
/-
  The frame of the idealized kernel program: under the precondition (which puts every index word inside the table) every
  weakly fair execution terminates, nothing faulting, and the five argument arrays end unchanged. It is the run of the
  whole program with nothing said of any array's contents: each pipelined call as a step of @main, the vector subcores'
  task with its gathered rows unnamed, the call's arrays split among them and joined again.
-/
import proofs.«217421_g60146722013857_cont_9to1c4b_519_37_alg».proof.Defs
import proofs.«217421_g60146722013857_cont_9to1c4b_519_37_alg».proof.Proof.KMainG
import proofs.«217421_g60146722013857_cont_9to1c4b_519_37_alg».proof.Proof.KReg2F
import proofs.«217421_g60146722013857_cont_9to1c4b_519_37_alg».proof.Proof.KTileFrame
import proofs.«217421_g60146722013857_cont_9to1c4b_519_37_alg».proof.Proof.KSplitFrame
import proofs.«217421_g60146722013857_cont_9to1c4b_519_37_alg».proof.Proof.PreDecode
import proofs.«217421_g60146722013857_cont_9to1c4b_519_37_alg».proof.Proof.Gen.Pre_input_domain

noncomputable section

namespace Cert.Proof.KI

open Cert.KernelIdeal Cert.KernelIdeal.Gen
open Idealize.ShloMosaic Idealize.SL.Sem
open Idealize.SL Idealize.SL.BI
open scoped Idealize.SL.BI

/-- The run with no value named, at any float instance: the arguments end as launched. -/
theorem run_frame {F : FTy → Type} [FloatOps F] [∀ e, Nonempty (Elt F e)] (m : (ℓ : Loc nD τ sig) → Buf (Elt F) ℓ) (ρ : Dev nD → PrngReg)
    (hids : ∀ (d : Dev nD) j, (m (idsLoc d) j).toNat < 1000000) :
    θ_run (Cert.KernelIdeal.defs (F := F)) (Cert.KernelIdeal.threads (F := F)) ⟨m, fun _ => 0, ρ⟩
      (QC m (ResOKG m (fun _ _ _ => True) (fun _ _ _ => True) (fun _ _ _ => True))) :=
  run_mainG m ρ (fun _ _ _ => True) (fun _ _ _ => True) (Frame.P' m (fun _ _ => True)) (fun _ _ _ => True)
    (fun _ _ => rfl) rfl reg0_frame reg2_frame
    (Frame.tileObl' m (fun _ _ => True) facts (Frame.idx_in_range m hids))
    (vecSplit' m (fun _ _ => True))
    (fun d Tb _ => st_of_arrays m (fun _ _ => True) d Tb True.intro)
    (fun d Tb => arrays_of_dn' m (fun _ _ => True) d Tb)

/-- Cert.frame_KernelIdeal (Defs.lean). -/
theorem frame_KernelIdeal : Cert.frame_KernelIdeal := fun m ρ hpre =>
  (θ_run Cert.KernelIdeal.defs _ _).mono (fun _ h c => (h c).2)
    (run_frame (F := Ideal) m ρ fun d j => Cert.Proof.PreD.ids_lt (F := Ideal) _ _ _ _ _ (hpre d) j)

end Cert.Proof.KI

end
-- ==== Proof.BCommon.lean ====
/-
  The lookup kernel as the SparseCore launch sees it: the program's configuration, the ghost state, the arrays the
  three calls move, and what the handshakes carry.

  The program runs, on the TensorCore, a first pipelined call that writes the table (row v of the embedding in the
  first 64 of its 128 columns; the other 64 columns are never written), then the SparseCore call in which each of the
  32 vector subcores copies, for its block of 25600 token positions, the table rows its index words name into the
  same positions of the row buffer g, then a second pipelined call that multiplies each gathered row by W.
  Vector subcore (core c, subcore i) owns the positions from 51200 i + 25600 c; it moves them in 100 chunks of 256.
-/
import proofs.«217421_g60146722013857_cont_9to1c4b_519_37_alg».proof.Kernel
import proofs.«217421_g60146722013857_cont_9to1c4b_519_37_alg».proof.Proof.Gen.Kernel
import proofs.«217421_g60146722013857_cont_9to1c4b_519_37_alg».proof.Proof.Gen.Kernel.Skeleton
import proofs.«217421_g60146722013857_cont_9to1c4b_519_37_alg».proof.Proof.Gen.Kernel.Launch
import proofs.«217421_g60146722013857_cont_9to1c4b_519_37_alg».proof.Proof.Gen.Kernel.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.ValueIdx
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelined calls' staging cells, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays the SparseCore call moves -/

variable (m : (ℓ : Loc nD τ sig) → Buf (Elt F) ℓ) (ρ : Dev nD → PrngReg)

abbrev idsLoc (d : Dev nD) : Loc nD τ sig := (SparseCore.T d).loc main_arg0
abbrev tabLoc (d : Dev nD) : Loc nD τ sig := (SparseCore.T d).loc main_v9
abbrev idxLoc (d : Dev nD) : Loc nD τ sig := (SparseCore.T d).loc main_v1
abbrev outLoc (d : Dev nD) : Loc nD τ sig := (SparseCore.T d).loc main_v11

local notation "tV" => (Memref.whole Cert.Kernel.main_v9_scv : Memref Cert.Kernel.sig Kind.scVector Space.hbm Cert.Kernel.S1000000x128 EltTy.f32)
local notation "iV" => (Memref.whole Cert.Kernel.main_v1_scv : Memref Cert.Kernel.sig Kind.scVector Space.hbm Cert.Kernel.S819200 EltTy.i32)
local notation "oV" => (Memref.whole Cert.Kernel.main_v11_scv : Memref Cert.Kernel.sig Kind.scVector Space.hbm Cert.Kernel.S819200x128 EltTy.f32)

/-- The grid point of vector subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The first token position of a vector subcore's block. -/
def baseOf (L : grid1.Coords) : Nat := 51200 * (L 1).val + 25600 * (L 0).val

/-- A vector subcore's block of the index list, as the kernel slices it, -/
abbrev idxM (L : grid1.Coords) : Memref sig .scVector .hbm S25600 .i32 :=
  (iV).slice (Rect.unit (s := S819200) (k1_off1 L) S25600.size (k1_off1_inb L)) (fun _ => rfl)
/-- the even chunk of trip `k` of its block of the row buffer, -/
abbrev outA (L : grid1.Coords) (k : Fin k1_t1_loop.trips) : Memref sig .scVector .hbm S256x128 .f32 :=
  (oV).slice (Rect.unit (s := S819200x128) (k1_off4 L k) S256x128.size (k1_off4_inb L k)) (fun _ => rfl)

/-- The index list as the host leaves it: the token words, position (l, r) at l * 4096 + r. -/
def idxV [FloatOps F] (d : Dev nD) : Buf (Elt F) (idxLoc d) :=
  shapeCast S819200 (transpose S200x4096 [1, 0] (m (idsLoc d)) transposes_S4096x200_S200x4096_1_0) shapeCasts_S200x4096_S819200

/-- The table row an index word names. -/
def rowN (w : BitVec 32) : Fin 1000000 := ⟨w.toNat % 1000000, Nat.mod_lt _ (by decide)⟩

/-! ## The loop's conditions in closed form -/

theorem trips_eq : k1_t1_loop.trips = 50 := by decide
/-- Every trip has an odd chunk to start and to finish (2 k + 1 < 100), -/
theorem cond1_true : ∀ k : Fin k1_t1_loop.trips, k1_cond1 k = 1#1 := by decide +kernel
theorem cond3_true : ∀ k : Fin k1_t1_loop.trips, k1_cond3 k = 1#1 := by decide +kernel
/-- and every trip but the last starts the next even chunk (2 k + 2 < 100). -/
theorem cond2_iff : ∀ k : Fin k1_t1_loop.trips, k1_cond2 k = 1#1 ↔ k.val < 49 := by decide +kernel

/-- The odd chunk of trip `k` of a vector subcore's block of the row buffer, as the kernel slices it. -/
abbrev outB (L : grid1.Coords) (k : Fin k1_t1_loop.trips) : Memref sig .scVector .hbm S256x128 .f32 :=
  (oV).slice (Rect.unit (s := S819200x128) (k1_off7 L k) S256x128.size (k1_off7_inb L k (cond3_true k))) (fun _ => rfl)

/-! ## What the handshakes carry -/

/-- The vector subcores numbered 0 … 31. -/
def tileNo (L : grid1.Coords) : Fin 32 :=
  ⟨16 * (L 0).val + (L 1).val, by
    have h0 : (L 0).val < 2 := (L 0).isLt
    have h1 : (L 1).val < 16 := (L 1).isLt
    omega⟩

/-- The read share of the table a vector subcore holds during the call. -/
abbrev tq (L : grid1.Coords) : PosShare TreeShare := Transfers.shareTok fullShare 32 (tileNo L)

variable [FloatOps F]

/-- A vector subcore's block of the row buffer holds, position by position and on all 128 columns, the table's row
    that the position's index word names. -/
def GathOK (d : Dev nD) (L : grid1.Coords) (T : Buf (Elt F) (tabLoc d)) (f : Buf (Elt F) (outLoc d)) : Prop :=
  ∀ (p : Fin 819200) (k : Fin 128), baseOf L ≤ p.val → p.val < baseOf L + 25600 →
    f (ix2 p k) = T (ix2 (rowN (idxV m d (ix1 p))) k)

variable (TabOK : (d : Dev nD) → Buf (Elt F) (tabLoc d) → Prop)

/-- What a vector subcore is handed: a read share of the table (at contents of which `TabOK` holds), its block of
    the index list, and its block of the row buffer chunk by chunk, at the launch contents. -/
def goA (d : Dev nD) (L : grid1.Coords) : sProp 𝕄 :=
  iprop(∃ T : Buf (Elt F) (tabLoc d), ⌜TabOK d T⌝ ∗ (tabLoc d ↦{tq L} T)
    ∗ (idxLoc d ↦[(idxM L).view.set]{fullShare} idxV m d)
    ∗ bigSep Finset.univ fun k : Fin k1_t1_loop.trips =>
        iprop((outLoc d ↦[(outA L k).view.set]{fullShare} m (outLoc d)) ∗ (outLoc d ↦[(outB L k).view.set]{fullShare} m (outLoc d))))

/-- What it hands back: the same, its block of the row buffer now at the gathered rows. -/
def tdA (d : Dev nD) (L : grid1.Coords) : sProp 𝕄 :=
  iprop(∃ T : Buf (Elt F) (tabLoc d), ⌜TabOK d T⌝ ∗ (tabLoc d ↦{tq L} T)
    ∗ (idxLoc d ↦[(idxM L).view.set]{fullShare} idxV m d)
    ∗ ∃ f : Buf (Elt F) (outLoc d), ⌜GathOK m d L T f⌝ ∗ bigSep Finset.univ fun k : Fin k1_t1_loop.trips =>
        iprop((outLoc d ↦[(outA L k).view.set]{fullShare} f) ∗ (outLoc d ↦[(outB L k).view.set]{fullShare} f)))

/-- The grid point of vector subcore `i` of SparseCore `c` of the call's grid. -/
abbrev LV (c : Fin ((K (F := F)).nCore 0)) (i : Fin ((K (F := F)).nSub 0)) : grid1.Coords :=
  coordsV (Fin.cast rfl c) (Fin.cast rfl i)

/-- The one SparseCore call: a SparseCore is handed what its sixteen vector subcores are, and hands back what they do. -/
def P : (K (F := F)).Pay (nD := nD) (Val := Elt F) (Name := ℕ) (U := UU) where
  st := fun q d c => match q, c with
    | 0, c => bigSep Finset.univ fun i : Fin ((K (F := F)).nSub 0) => goA m TabOK d (LV c i)
  dn := fun q d c => match q, c with
    | 0, c => bigSep Finset.univ fun i : Fin ((K (F := F)).nSub 0) => tdA m TabOK d (LV c i)
  go := fun q d c i => match q, c, i with
    | 0, c, i => goA m TabOK d (LV c i)
  td := fun q d c i => match q, c, i with
    | 0, c, i => tdA m TabOK d (LV c i)
  x := fun _ _ => iprop(emp)

instance goA_storable (d : Dev nD) (L : grid1.Coords) : BI.Storable (upEmb : UEmb _ 𝕄) (goA m TabOK d L) := by
  unfold goA; infer_instance
instance tdA_storable (d : Dev nD) (L : grid1.Coords) : BI.Storable (upEmb : UEmb _ 𝕄) (tdA m TabOK d L) := by
  unfold tdA; infer_instance

instance P_storable : (P (F := F) m TabOK).IsStorable where
  st q d c := match q, c with
    | 0, c => (inferInstance : BI.Storable (upEmb : UEmb _ 𝕄) (bigSep Finset.univ fun i : Fin ((K (F := F)).nSub 0) => goA m TabOK d (LV c i)))
  dn q d c := match q, c with
    | 0, c => (inferInstance : BI.Storable (upEmb : UEmb _ 𝕄) (bigSep Finset.univ fun i : Fin ((K (F := F)).nSub 0) => tdA m TabOK d (LV c i)))
  go q d c i := match q, c, i with
    | 0, c, i => (inferInstance : BI.Storable (upEmb : UEmb _ 𝕄) (goA m TabOK d (LV c i)))
  td q d c i := match q, c, i with
    | 0, c, i => (inferInstance : BI.Storable (upEmb : UEmb _ 𝕄) (tdA m TabOK d (LV c i)))

end Cert.Proof.KB

end
-- ==== Proof.BSplit.lean ====
/-
  How the three arrays of the SparseCore call split among the 32 vector subcores and join again.

  The table goes out as 32 read shares beside a remainder; the index list is cut into the 32 consecutive blocks of
  25600 positions; the row buffer is cut into the 3200 consecutive chunks of 256 rows, two per trip of a vector
  subcore's loop. On the way back the shares rejoin (every holder agrees with the remainder's contents), and the
  chunks, each returned at its own contents, join into one array that agrees with each on its chunks.
-/
import proofs.«217421_g60146722013857_cont_9to1c4b_519_37_alg».proof.Proof.BCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

namespace Split

/-! ## The element sets, in arithmetic -/

/-- The vector subcores of the call: (SparseCore, subcore). -/
abbrev Tl (F : FTy → Type) : Type := Fin ((K (F := F)).nCore 0) × Fin ((K (F := F)).nSub 0)

theorem base_LV (c : Fin ((K (F := F)).nCore 0)) (i : Fin ((K (F := F)).nSub 0)) :
    baseOf (LV (F := F) c i) = 51200 * i.val + 25600 * c.val := rfl

/-- A vector subcore's block of the index list is the 25600 positions from its base. -/
theorem mem_idxSet (L : grid1.Coords) (x : S819200.Idx) :
    x ∈ (idxM L).view.set ↔ baseOf L ≤ (x 0).val ∧ (x 0).val < baseOf L + 25600 := by
  show x ∈ ((View.whole (main_v1_scv : Ref sig .scVector)).slice (Rect.unit (s := S819200) (k1_off1 L) S25600.size (k1_off1_inb L))).set ↔ _
  rw [View.set_slice, show ∀ (A : Finset S819200.Idx), A.map (View.whole (main_v1_scv : Ref sig .scVector)).emb = A from fun A => Finset.map_refl,
    Rect.mem_set_unit]
  have e : k1_off1 L 0 = baseOf L := by rw [k1_off1_eq]; rfl
  have s : S25600.size 0 = 25600 := rfl
  constructor
  · intro h; have h0 := h 0; omega
  · intro h a
    match a with
    | 0 => omega

/-- The even chunk of trip `k`: 256 rows from the block's base plus 512 k, all 128 columns. -/
theorem mem_outA (L : grid1.Coords) (k : Fin k1_t1_loop.trips) (x : S819200x128.Idx) :
    x ∈ (outA L k).view.set ↔ baseOf L + 512 * k.val ≤ (x 0).val ∧ (x 0).val < baseOf L + 512 * k.val + 256 := by
  show x ∈ ((View.whole (main_v11_scv : Ref sig .scVector)).slice (Rect.unit (s := S819200x128) (k1_off4 L k) S256x128.size (k1_off4_inb L k))).set ↔ _
  rw [View.set_slice, show ∀ (A : Finset S819200x128.Idx), A.map (View.whole (main_v11_scv : Ref sig .scVector)).emb = A from fun A => Finset.map_refl,
    Rect.mem_set_unit]
  have e0 : k1_off4 L k 0 = baseOf L + 512 * k.val := by rw [k1_off4_eq]; rfl
  have e1 : k1_off4 L k 1 = 0 := by rw [k1_off4_eq]; rfl
  have s0 : S256x128.size 0 = 256 := rfl
  have s1 : S256x128.size 1 = 128 := rfl
  have x1 : (x 1).val < 128 := (x 1).isLt
  constructor
  · intro h; have h0 := h 0; omega
  · intro h a
    match a with
    | 0 => omega
    | 1 => omega

/-- The odd chunk of trip `k`: the next 256 rows. -/
theorem mem_outB (L : grid1.Coords) (k : Fin k1_t1_loop.trips) (x : S819200x128.Idx) :
    x ∈ (outB L k).view.set ↔ baseOf L + 512 * k.val + 256 ≤ (x 0).val ∧ (x 0).val < baseOf L + 512 * k.val + 512 := by
  show x ∈ ((View.whole (main_v11_scv : Ref sig .scVector)).slice (Rect.unit (s := S819200x128) (k1_off7 L k) S256x128.size (k1_off7_inb L k (cond3_true k)))).set ↔ _
  rw [View.set_slice, show ∀ (A : Finset S819200x128.Idx), A.map (View.whole (main_v11_scv : Ref sig .scVector)).emb = A from fun A => Finset.map_refl,
    Rect.mem_set_unit]
  have e0 : k1_off7 L k 0 = baseOf L + 512 * k.val + 256 := by rw [k1_off7_eq]; rfl
  have e1 : k1_off7 L k 1 = 0 := by rw [k1_off7_eq]; rfl
  have s0 : S256x128.size 0 = 256 := rfl
  have s1 : S256x128.size 1 = 128 := rfl
  have x1 : (x 1).val < 128 := (x 1).isLt
  constructor
  · intro h; have h0 := h 0; omega
  · intro h a
    match a with
    | 0 => omega
    | 1 => omega

/-- The two chunks of a trip: 512 consecutive rows. -/
abbrev outP (L : grid1.Coords) (k : Fin k1_t1_loop.trips) : Finset S819200x128.Idx := (outA L k).view.set ∪ (outB L k).view.set

theorem mem_outP (L : grid1.Coords) (k : Fin k1_t1_loop.trips) (x : S819200x128.Idx) :
    x ∈ outP L k ↔ baseOf L + 512 * k.val ≤ (x 0).val ∧ (x 0).val < baseOf L + 512 * k.val + 512 := by
  rw [Finset.mem_union, mem_outA, mem_outB]; omega

theorem outAB_disjoint (L : grid1.Coords) (k : Fin k1_t1_loop.trips) : Disjoint (outA L k).view.set (outB L k).view.set :=
  Finset.disjoint_left.mpr fun x hA hB => by rw [mem_outA] at hA; rw [mem_outB] at hB; omega

/-! ## The blocks are pairwise disjoint and cover -/

/-- A vector subcore's block of the index list, as a set of positions. -/
abbrev idxS (L : grid1.Coords) : Finset S819200.Idx := (idxM L).view.set

theorem mem_idxS_LV (c : Fin ((K (F := F)).nCore 0)) (i : Fin ((K (F := F)).nSub 0)) (x : S819200.Idx) :
    x ∈ idxS (LV (F := F) c i) ↔ 51200 * i.val + 25600 * c.val ≤ (x 0).val ∧ (x 0).val < 51200 * i.val + 25600 * c.val + 25600 :=
  mem_idxSet (LV (F := F) c i) x

theorem mem_outP_LV (c : Fin ((K (F := F)).nCore 0)) (i : Fin ((K (F := F)).nSub 0)) (k : Fin k1_t1_loop.trips) (x : S819200x128.Idx) :
    x ∈ outP (LV (F := F) c i) k ↔ 51200 * i.val + 25600 * c.val + 512 * k.val ≤ (x 0).val ∧ (x 0).val < 51200 * i.val + 25600 * c.val + 512 * k.val + 512 :=
  mem_outP (LV (F := F) c i) k x

theorem idx_disjoint : ∀ t ∈ (Finset.univ : Finset (Tl F)), ∀ t' ∈ (Finset.univ : Finset (Tl F)), t ≠ t' →
    Disjoint (idxS (LV (F := F) t.1 t.2)) (idxS (LV (F := F) t'.1 t'.2)) := by
  rintro ⟨c, i⟩ - ⟨c', i'⟩ - hne
  refine Finset.disjoint_left.mpr fun x hx hx' => hne ?_
  have h1 := (mem_idxS_LV (F := F) c i x).mp hx
  have h2 := (mem_idxS_LV (F := F) c' i' x).mp hx'
  have hc : c.val < 2 := c.isLt
  have hc' : c'.val < 2 := c'.isLt
  have hi : i.val < 16 := i.isLt
  have hi' : i'.val < 16 := i'.isLt
  have ec : c.val = c'.val := by omega
  have ei : i.val = i'.val := by omega
  exact Prod.ext (Fin.ext ec) (Fin.ext ei)

theorem idx_cover : (Finset.univ : Finset (Tl F)).biUnion (fun t => idxS (LV (F := F) t.1 t.2)) = Finset.univ := by
  refine Finset.eq_univ_iff_forall.mpr fun x => Finset.mem_biUnion.mpr ?_
  have hx : (x 0).val < 819200 := (x 0).isLt
  have hc : (x 0).val % 51200 / 25600 < 2 := by omega
  have hi : (x 0).val / 51200 < 16 := by omega
  refine ⟨((⟨(x 0).val % 51200 / 25600, hc⟩, ⟨(x 0).val / 51200, hi⟩) : Tl F), Finset.mem_univ _, ?_⟩
  refine (mem_idxS_LV (F := F) ⟨(x 0).val % 51200 / 25600, hc⟩ ⟨(x 0).val / 51200, hi⟩ x).mpr ?_
  show 51200 * ((x 0).val / 51200) + 25600 * ((x 0).val % 51200 / 25600) ≤ (x 0).val
    ∧ (x 0).val < 51200 * ((x 0).val / 51200) + 25600 * ((x 0).val % 51200 / 25600) + 25600
  omega

theorem out_disjoint : ∀ u ∈ (Finset.univ : Finset (Tl F × Fin k1_t1_loop.trips)), ∀ u' ∈ (Finset.univ : Finset (Tl F × Fin k1_t1_loop.trips)), u ≠ u' →
    Disjoint (outP (LV (F := F) u.1.1 u.1.2) u.2) (outP (LV (F := F) u'.1.1 u'.1.2) u'.2) := by
  rintro ⟨⟨c, i⟩, k⟩ - ⟨⟨c', i'⟩, k'⟩ - hne
  refine Finset.disjoint_left.mpr fun x hx hx' => hne ?_
  have h1 := (mem_outP_LV (F := F) c i k x).mp hx
  have h2 := (mem_outP_LV (F := F) c' i' k' x).mp hx'
  have hc : c.val < 2 := c.isLt
  have hc' : c'.val < 2 := c'.isLt
  have hi : i.val < 16 := i.isLt
  have hi' : i'.val < 16 := i'.isLt
  have hk : k.val < 50 := lt_of_lt_of_eq k.isLt trips_eq
  have hk' : k'.val < 50 := lt_of_lt_of_eq k'.isLt trips_eq
  have ec : c.val = c'.val := by omega
  have ei : i.val = i'.val := by omega
  have ek : k.val = k'.val := by omega
  exact Prod.ext (Prod.ext (Fin.ext ec) (Fin.ext ei)) (Fin.ext ek)

theorem out_cover : (Finset.univ : Finset (Tl F × Fin k1_t1_loop.trips)).biUnion (fun u => outP (LV (F := F) u.1.1 u.1.2) u.2) = Finset.univ := by
  refine Finset.eq_univ_iff_forall.mpr fun x => Finset.mem_biUnion.mpr ?_
  have hx : (x 0).val < 819200 := (x 0).isLt
  have hc : (x 0).val % 51200 / 25600 < 2 := by omega
  have hi : (x 0).val / 51200 < 16 := by omega
  have hk : (x 0).val % 25600 / 512 < k1_t1_loop.trips := by rw [trips_eq]; omega
  refine ⟨((((⟨(x 0).val % 51200 / 25600, hc⟩, ⟨(x 0).val / 51200, hi⟩) : Tl F), ⟨(x 0).val % 25600 / 512, hk⟩) : Tl F × Fin k1_t1_loop.trips),
    Finset.mem_univ _, ?_⟩
  refine (mem_outP_LV (F := F) ⟨(x 0).val % 51200 / 25600, hc⟩ ⟨(x 0).val / 51200, hi⟩ ⟨(x 0).val % 25600 / 512, hk⟩ x).mpr ?_
  show 51200 * ((x 0).val / 51200) + 25600 * ((x 0).val % 51200 / 25600) + 512 * ((x 0).val % 25600 / 512) ≤ (x 0).val
    ∧ (x 0).val < 51200 * ((x 0).val / 51200) + 25600 * ((x 0).val % 51200 / 25600) + 512 * ((x 0).val % 25600 / 512) + 512
  omega

/-! ## The arrays as separating conjunctions over the vector subcores -/

/-- The vector subcores, numbered as their read shares of the table are. -/
def tileEquiv : Tl F ≃ Fin 32 where
  toFun t := tileNo (LV (F := F) t.1 t.2)
  invFun j := (⟨j.val / 16, by show _ < 2; omega⟩, ⟨j.val % 16, by show _ < 16; omega⟩)
  left_inv := by
    rintro ⟨c, i⟩
    have hi : i.val < 16 := i.isLt
    exact Prod.ext (Fin.ext (by show (16 * c.val + i.val) / 16 = c.val; omega)) (Fin.ext (by show (16 * c.val + i.val) % 16 = i.val; omega))
  right_inv := by
    intro j
    exact Fin.ext (by show 16 * (j.val / 16) + j.val % 16 = j.val; omega)

/-- The 32 read shares of the table, one per vector subcore. -/
theorem tab_toks (d : Dev nD) (T : Buf (Elt F) (tabLoc d)) :
    (bigSep Finset.univ fun j : Fin 32 => (tabLoc d ↦{Transfers.shareTok fullShare 32 j} T : sProp 𝕄))
      = bigSep Finset.univ fun t : Tl F => (tabLoc d ↦{tq (LV (F := F) t.1 t.2)} T : sProp 𝕄) :=
  bigSep_univ_equiv (tileEquiv (F := F)) _

/-- The index list is its 32 blocks. -/
theorem idx_blocks (d : Dev nD) (f : Buf (Elt F) (idxLoc d)) :
    (idxLoc d ↦{fullShare} f : sProp 𝕄) = bigSep Finset.univ fun t : Tl F => idxLoc d ↦[(idxM (LV (F := F) t.1 t.2)).view.set]{fullShare} f := by
  rw [← idx_cover (F := F), pointsTo_biUnion Finset.univ (ℓ := idxLoc d) (fun t : Tl F => idxS (LV (F := F) t.1 t.2)) (idx_disjoint (F := F))]

/-- A trip's 512 rows are its two chunks. -/
theorem out_pair (d : Dev nD) (f : Buf (Elt F) (outLoc d)) (L : grid1.Coords) (k : Fin k1_t1_loop.trips) :
    (outLoc d ↦[outP L k]{fullShare} f : sProp 𝕄)
      = iprop((outLoc d ↦[(outA L k).view.set]{fullShare} f) ∗ (outLoc d ↦[(outB L k).view.set]{fullShare} f)) := by
  have hu : (outLoc d ↦[(outA L k).view.set ∪ (outB L k).view.set]{fullShare} f : sProp 𝕄)
      ⊣⊢ iprop((outLoc d ↦[(outA L k).view.set]{fullShare} f) ∗ outLoc d ↦[(outB L k).view.set]{fullShare} f) := pointsTo_union (outAB_disjoint L k)
  exact BI.equiv_iff.mp ⟨hu.1, hu.2⟩

/-- The row buffer is, per vector subcore and per trip, the trip's two chunks. -/
theorem out_chunks (d : Dev nD) (f : Buf (Elt F) (outLoc d)) :
    (outLoc d ↦{fullShare} f : sProp 𝕄) = bigSep Finset.univ fun t : Tl F => bigSep Finset.univ fun k : Fin k1_t1_loop.trips =>
      iprop((outLoc d ↦[(outA (LV (F := F) t.1 t.2) k).view.set]{fullShare} f) ∗ (outLoc d ↦[(outB (LV (F := F) t.1 t.2) k).view.set]{fullShare} f)) := by
  rw [← out_cover (F := F), pointsTo_biUnion Finset.univ (ℓ := outLoc d) (fun u : Tl F × Fin k1_t1_loop.trips => outP (LV (F := F) u.1.1 u.1.2) u.2) (out_disjoint (F := F)),
    bigSep_univ_prod]
  exact bigSep_congr fun t _ => bigSep_congr fun k _ => out_pair d f (LV (F := F) t.1 t.2) k

/-! ## Handing out -/

variable [FloatOps F] (m : (ℓ : Loc nD τ sig) → Buf (Elt F) ℓ) (TabOK : (d : Dev nD) → Buf (Elt F) (tabLoc d) → Prop)

/-- What a vector subcore is handed, the table's contents named. -/
def goT (d : Dev nD) (L : grid1.Coords) (T : Buf (Elt F) (tabLoc d)) : sProp 𝕄 :=
  iprop((tabLoc d ↦{tq L} T) ∗ (idxLoc d ↦[(idxM L).view.set]{fullShare} idxV m d)
    ∗ bigSep Finset.univ fun k : Fin k1_t1_loop.trips =>
        iprop((outLoc d ↦[(outA L k).view.set]{fullShare} m (outLoc d)) ∗ (outLoc d ↦[(outB L k).view.set]{fullShare} m (outLoc d))))

theorem goA_of_goT (d : Dev nD) (L : grid1.Coords) (T : Buf (Elt F) (tabLoc d)) (hT : TabOK d T) : goT m d L T ⊢ goA m TabOK d L := by
  unfold goT goA
  iintro H
  iexists T
  isplitr
  · ipureintro; exact hT
  · iexact H

theorem tiles_of_parts (d : Dev nD) (T : Buf (Elt F) (tabLoc d)) (hT : TabOK d T) :
    iprop((bigSep Finset.univ fun t : Tl F => (tabLoc d ↦{tq (LV (F := F) t.1 t.2)} T : sProp 𝕄))
      ∗ (bigSep Finset.univ fun t : Tl F => (idxLoc d ↦[(idxM (LV (F := F) t.1 t.2)).view.set]{fullShare} idxV m d : sProp 𝕄))
      ∗ (bigSep Finset.univ fun t : Tl F => bigSep Finset.univ fun k : Fin k1_t1_loop.trips =>
          iprop((outLoc d ↦[(outA (LV (F := F) t.1 t.2) k).view.set]{fullShare} m (outLoc d)) ∗ (outLoc d ↦[(outB (LV (F := F) t.1 t.2) k).view.set]{fullShare} m (outLoc d)))))
      ⊢ (bigSep Finset.univ fun c : Fin ((K (F := F)).nCore 0) => bigSep Finset.univ fun i : Fin ((K (F := F)).nSub 0) => goA m TabOK d (LV c i) : sProp 𝕄) := by
  have h : (bigSep Finset.univ fun t : Tl F => goT m d (LV (F := F) t.1 t.2) T)
      ⊢ (bigSep Finset.univ fun c : Fin ((K (F := F)).nCore 0) => bigSep Finset.univ fun i : Fin ((K (F := F)).nSub 0) => goA m TabOK d (LV c i) : sProp 𝕄) := by
    rw [bigSep_univ_prod]
    exact bigSep_mono fun c _ => bigSep_mono fun i _ => goA_of_goT m TabOK d (LV c i) T hT
  unfold goT at h
  rw [bigSep_sep', bigSep_sep'] at h
  exact h

/-! ## Taking back -/

/-- A grid point is the one of its own two coordinates. -/
theorem LV_eta (L : grid1.Coords) : LV (F := F) (Fin.cast rfl (L 0)) (Fin.cast rfl (L 1)) = L := by
  funext a
  match a with
  | 0 => exact Fin.ext rfl
  | 1 => exact Fin.ext rfl

/-- What a vector subcore hands back, the table's contents named. -/
def tdT (d : Dev nD) (L : grid1.Coords) (T : Buf (Elt F) (tabLoc d)) : sProp 𝕄 :=
  iprop((tabLoc d ↦{tq L} T) ∗ (idxLoc d ↦[(idxM L).view.set]{fullShare} idxV m d)
    ∗ ∃ f : Buf (Elt F) (outLoc d), ⌜GathOK m d L T f⌝ ∗ bigSep Finset.univ fun k : Fin k1_t1_loop.trips =>
        iprop((outLoc d ↦[(outA L k).view.set]{fullShare} f) ∗ (outLoc d ↦[(outB L k).view.set]{fullShare} f)))

/-- Beside the remainder share of the table, a returned read share is at the remainder's contents. -/
theorem tdT_of_tdA (d : Dev nD) (L : grid1.Coords) (T : Buf (Elt F) (tabLoc d)) :
    iprop((tabLoc d ↦{Transfers.shareDrop fullShare 32} T) ∗ tdA m TabOK d L)
      ⊢ iprop((tabLoc d ↦{Transfers.shareDrop fullShare 32} T) ∗ tdT m d L T) := by
  unfold tdA tdT
  iintro ⟨Hd, %T', -, Ht, Hi, %f, %hf, Ho⟩
  ihave Hag := (persistent_entails_right pointsTo_agree) $$ [Hd Ht]
  · isplitl [Hd]; · iexact Hd
    iexact Ht
  icases Hag with ⟨%hag, Hd, Ht⟩
  have hTT : T' = T := funext fun x => ((hag x (Finset.mem_inter.mpr ⟨Finset.mem_univ _, Finset.mem_univ _⟩)).1).symm
  subst hTT
  isplitl [Hd]; · iexact Hd
  isplitl [Ht]; · iexact Ht
  isplitl [Hi]; · iexact Hi
  iexists f
  isplitr
  · ipureintro; exact hf
  · iexact Ho

/-- A step that gives back the assertion it uses may be taken at every summand in turn. -/
theorem bigSep_frame_mono {I : Type} [DecidableEq I] (s : Finset I) (R : sProp 𝕄) (Φ Ψ : I → sProp 𝕄)
    (h : ∀ i ∈ s, iprop(R ∗ Φ i) ⊢ iprop(R ∗ Ψ i)) : iprop(R ∗ bigSep s Φ) ⊢ iprop(R ∗ bigSep s Ψ) := by
  induction s using Finset.induction_on with
  | empty => rw [bigSep_empty, bigSep_empty]
  | insert i s hi ih =>
    have e : bigSep (insert i s) Φ = iprop(Φ i ∗ bigSep s Φ) := bigSep_insert hi
    have e' : bigSep (insert i s) Ψ = iprop(Ψ i ∗ bigSep s Ψ) := bigSep_insert hi
    rw [e, e']
    iintro ⟨HR, Hi, Hs⟩
    ihave H := (h i (Finset.mem_insert_self i s)) $$ [HR Hi]
    · isplitl [HR]; · iexact HR
      iexact Hi
    icases H with ⟨HR, Hi⟩
    ihave H := (ih fun j hj => h j (Finset.mem_insert_of_mem hj)) $$ [HR Hs]
    · isplitl [HR]; · iexact HR
      iexact Hs
    icases H with ⟨HR, Hs⟩
    isplitl [HR]; · iexact HR
    isplitl [Hi]; · iexact Hi
    iexact Hs

/-- The chunks, each vector subcore's at contents of its own, join into one array that has every block gathered. -/
theorem out_join (d : Dev nD) (T : Buf (Elt F) (tabLoc d)) :
    (bigSep Finset.univ fun t : Tl F => iprop(∃ f : Buf (Elt F) (outLoc d), ⌜GathOK m d (LV (F := F) t.1 t.2) T f⌝
        ∗ bigSep Finset.univ fun k : Fin k1_t1_loop.trips =>
          iprop((outLoc d ↦[(outA (LV (F := F) t.1 t.2) k).view.set]{fullShare} f) ∗ (outLoc d ↦[(outB (LV (F := F) t.1 t.2) k).view.set]{fullShare} f))))
      ⊢ (iprop(∃ f : Buf (Elt F) (outLoc d), ⌜∀ L : grid1.Coords, GathOK m d L T f⌝ ∗ (outLoc d ↦{fullShare} f)) : sProp 𝕄) := by
  have : ∀ _ : Tl F, Nonempty (Buf (Elt F) (outLoc d)) := fun _ => ⟨m (outLoc d)⟩
  refine (bigSep_exists_pi Finset.univ (fun (t : Tl F) (f : Buf (Elt F) (outLoc d)) => iprop(⌜GathOK m d (LV (F := F) t.1 t.2) T f⌝
        ∗ bigSep Finset.univ fun k : Fin k1_t1_loop.trips =>
          iprop((outLoc d ↦[(outA (LV (F := F) t.1 t.2) k).view.set]{fullShare} f) ∗ (outLoc d ↦[(outB (LV (F := F) t.1 t.2) k).view.set]{fullShare} f))))).trans ?_
  iintro ⟨%fs, H⟩
  ihave H' := (bigSep_pure_sep Finset.univ (fun t : Tl F => GathOK m d (LV (F := F) t.1 t.2) T (fs t))
      (fun t : Tl F => bigSep Finset.univ fun k : Fin k1_t1_loop.trips =>
          iprop((outLoc d ↦[(outA (LV (F := F) t.1 t.2) k).view.set]{fullShare} fs t) ∗ (outLoc d ↦[(outB (LV (F := F) t.1 t.2) k).view.set]{fullShare} fs t)))) $$ H
  icases H' with ⟨%hG, H⟩
  have e : (bigSep Finset.univ fun t : Tl F => bigSep Finset.univ fun k : Fin k1_t1_loop.trips =>
        iprop((outLoc d ↦[(outA (LV (F := F) t.1 t.2) k).view.set]{fullShare} fs t) ∗ (outLoc d ↦[(outB (LV (F := F) t.1 t.2) k).view.set]{fullShare} fs t)))
      = (bigSep Finset.univ fun u : Tl F × Fin k1_t1_loop.trips => (outLoc d ↦[outP (LV (F := F) u.1.1 u.1.2) u.2]{fullShare} fs u.1 : sProp 𝕄)) := by
    rw [bigSep_univ_prod (fun u : Tl F × Fin k1_t1_loop.trips => (outLoc d ↦[outP (LV (F := F) u.1.1 u.1.2) u.2]{fullShare} fs u.1 : sProp 𝕄))]
    exact bigSep_congr fun t _ => bigSep_congr fun k _ => (out_pair d (fs t) (LV (F := F) t.1 t.2) k).symm
  ihave H2 := (Entails.of_eq e) $$ H
  ihave H3 := (pointsTo_biUnion_join (ℓ := outLoc d) (q := fullShare) (Val := Elt F) Finset.univ
      (fun u : Tl F × Fin k1_t1_loop.trips => outP (LV (F := F) u.1.1 u.1.2) u.2) (fun u => fs u.1) (m (outLoc d)) (out_disjoint (F := F))) $$ H2
  icases H3 with ⟨%g, %hg, Hg⟩
  rw [out_cover (F := F)]
  iexists g
  isplitr
  · ipureintro
    intro L p k hlo hhi
    obtain ⟨t, hL⟩ : ∃ t : Tl F, LV (F := F) t.1 t.2 = L := ⟨(Fin.cast rfl (L 0), Fin.cast rfl (L 1)), LV_eta L⟩
    have hk : (p.val - baseOf L) / 512 < k1_t1_loop.trips := by rw [trips_eq]; omega
    have hmem : ix2 p k ∈ outP (LV (F := F) t.1 t.2) ⟨(p.val - baseOf L) / 512, hk⟩ := by
      rw [hL, mem_outP]
      show baseOf L + 512 * ((p.val - baseOf L) / 512) ≤ p.val ∧ p.val < baseOf L + 512 * ((p.val - baseOf L) / 512) + 512
      omega
    have hgx := hg (t, ⟨(p.val - baseOf L) / 512, hk⟩) (Finset.mem_univ _) (ix2 p k) hmem
    have hGt := hG t (Finset.mem_univ _)
    rw [hL] at hGt
    exact hgx.trans (hGt p k hlo hhi)
  · iexact Hg

end Split

open Split

theorem st_of_arrays [FloatOps F] (m : (ℓ : Loc nD τ sig) → Buf (Elt F) ℓ) (TabOK : (d : Dev nD) → Buf (Elt F) (tabLoc d) → Prop) (d : Dev nD)
    (T : Buf (Elt F) (tabLoc d)) (hT : TabOK d T) :
    (iprop((tabLoc d ↦{fullShare} T) ∗ (idxLoc d ↦{fullShare} idxV m d) ∗ (outLoc d ↦{fullShare} m (outLoc d))) : sProp 𝕄)
      ⊢ iprop((tabLoc d ↦{Transfers.shareDrop fullShare 32} T) ∗ bigSep Finset.univ fun c : Fin ((K (F := F)).nCore 0) => (P m TabOK).st 0 d c) := by
  show _ ⊢ iprop((tabLoc d ↦{Transfers.shareDrop fullShare 32} T)
    ∗ bigSep Finset.univ fun c : Fin ((K (F := F)).nCore 0) => bigSep Finset.univ fun i : Fin ((K (F := F)).nSub 0) => goA m TabOK d (LV c i))
  rw [idx_blocks (F := F) d (idxV m d), out_chunks (F := F) d (m (outLoc d))]
  refine (sep_mono_left (Transfers.pointsTo_toks_split fullShare 32)).trans ?_
  rw [tab_toks (F := F) d T]
  iintro ⟨⟨Hd, Ht⟩, Hi, Ho⟩
  isplitl [Hd]; · iexact Hd
  iapply (tiles_of_parts m TabOK d T hT)
  isplitl [Ht]; · iexact Ht
  isplitl [Hi]; · iexact Hi
  iexact Ho

theorem vecSplit [FloatOps F] (m : (ℓ : Loc nD τ sig) → Buf (Elt F) ℓ) (TabOK : (d : Dev nD) → Buf (Elt F) (tabLoc d) → Prop) :
    (K (F := F)).VecSplit' (P m TabOK) 0 := by
  intro d c
  show (bigSep Finset.univ fun i : Fin ((K (F := F)).nSub 0) => goA m TabOK d (LV c i)) ⊢ |={Set.univ}=> iprop(
      (bigSep Finset.univ fun i : Fin ((K (F := F)).nSub 0) => goA m TabOK d (LV c i))
      ∗ ((bigSep Finset.univ fun i : Fin ((K (F := F)).nSub 0) => tdA m TabOK d (LV c i))
          -∗ bigSep Finset.univ fun i : Fin ((K (F := F)).nSub 0) => tdA m TabOK d (LV c i)))
  iintro H; imodintro
  isplitl [H]; · iexact H
  iintro H; iexact H

theorem arrays_of_dn [FloatOps F] (m : (ℓ : Loc nD τ sig) → Buf (Elt F) ℓ) (TabOK : (d : Dev nD) → Buf (Elt F) (tabLoc d) → Prop) (d : Dev nD)
    (T : Buf (Elt F) (tabLoc d)) :
    (iprop((tabLoc d ↦{Transfers.shareDrop fullShare 32} T) ∗ bigSep Finset.univ fun c : Fin ((K (F := F)).nCore 0) => (P m TabOK).dn 0 d c) : sProp 𝕄)
      ⊢ iprop(∃ f : Buf (Elt F) (outLoc d), ⌜∀ L : grid1.Coords, GathOK m d L T f⌝ ∗ (tabLoc d ↦{fullShare} T) ∗ (idxLoc d ↦{fullShare} idxV m d) ∗ (outLoc d ↦{fullShare} f)) := by
  have e0 : (bigSep Finset.univ fun c : Fin ((K (F := F)).nCore 0) => bigSep Finset.univ fun i : Fin ((K (F := F)).nSub 0) => tdA m TabOK d (LV c i) : sProp 𝕄)
      = bigSep Finset.univ fun t : Tl F => tdA m TabOK d (LV (F := F) t.1 t.2) :=
    (bigSep_univ_prod (fun t : Tl F => tdA m TabOK d (LV (F := F) t.1 t.2))).symm
  refine (sep_mono_right (Entails.of_eq e0)).trans ?_
  refine (bigSep_frame_mono Finset.univ _ _ (fun t : Tl F => tdT m d (LV (F := F) t.1 t.2) T)
    fun t _ => tdT_of_tdA m TabOK d (LV (F := F) t.1 t.2) T).trans ?_
  unfold tdT
  rw [bigSep_sep', bigSep_sep', ← tab_toks (F := F) d T, ← idx_blocks (F := F) d (idxV m d)]
  iintro ⟨Hd, Ht, Hi, Ho⟩
  ihave Ho' := (out_join m d T) $$ Ho
  icases Ho' with ⟨%f, %hf, Ho⟩
  iexists f
  isplitr
  · ipureintro; exact hf
  isplitl [Hd Ht]
  · iapply (Transfers.pointsTo_toks_join fullShare 32)
    isplitl [Hd]; · iexact Hd
    iexact Ht
  isplitl [Hi]; · iexact Hi
  iexact Ho

end Cert.Proof.KB

end
-- ==== Proof.BMain.lean ====
/-
  The run of the whole program, from the launch: the SparseCore launch theorem applied to the program, with @main on the
  TensorCore as three stretches of host operations around the first pipelined call, the SparseCore call and the second
  pipelined call. Each pipelined call enters as ONE hypothesis — from the unscoped arrays held at any contents it runs
  and leaves them as found but for its output array, whose contents satisfy a stated predicate —, so that what @main
  computes is read off a chain of valuations W1 … W5 over the launch memory.
-/
import proofs.«217421_g60146722013857_cont_9to1c4b_519_37_alg».proof.Proof.BCommon
import proofs.«217421_g60146722013857_cont_9to1c4b_519_37_alg».proof.Proof.BSplit
import Idealize.ShloMosaic.Lib.Pipeline.Frame

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_split held_sdiff_result held_congr wp_hlo_within)

variable {F : FTy → Type} [FloatOps F]

local notation "𝕄" => MT nD τ sig (HIx 1) (Elt F) ℕ UU ℕ

/-- Array y of the TensorCore of device d. -/
abbrev yLoc (d : Dev nD) (y : Ref sig .tc) : Loc nD τ sig := (SparseCore.T d).loc y
abbrev v12Loc (d : Dev nD) : Loc nD τ sig := (SparseCore.T d).loc main_v12
abbrev v13Loc (d : Dev nD) : Loc nD τ sig := (SparseCore.T d).loc main_v13

/-! ## The pipelined calls' ghost state and the launch element -/

abbrev adm : (p : Fin 2) → (pcfgs (F := F) p).Adm := fun p => (cfgs p).toPCfg_adm

/-- The pipelined calls' staging-cell ghost state on device d, as the launch deals it. -/
abbrev GG (d : Dev nD) : sProp 𝕄 := Pipeline.ghostOn (pcfgs (F := F)) adm EP Finset.univ d

def u₀ : UU := (initOf (K (F := F)).hsCells (K (F := F)).hsToks,
  (initOf (Pipeline.cells cfgs cellOf_inj) (Pipeline.launchToks cfgs cellOf_inj), (1 : Counters)))

/-- The TensorCore owes nothing at a kernel's own index: all it owes are start signals, at a call's index. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-! ## A pipelined call as a step of @main -/

set_option backward.isDefEq.respectTransparency.types false in
/-- A pipelined call of @main as one step on the TensorCore, in the program's extended signature: the call is the lift of
    the pipelines' own entry, which the library's rule for a region runs from the region's thread state and the pipeline's ghost state. -/
theorem region_step [∀ e, Nonempty (Elt F e)]
    {rdats : (p : Fin 2) → (c : Dev nD) → Pipeline.RDat τ (Elt F) (HIx 1) ℕ UU ℕ (Pipeline.pin (pcfgs (F := F)) adm p) c} {p : Fin 2}
    (R : Pipeline.RDat.RegionSeg (pcfgs (F := F)) adm rdats (none : HIx 1) (defs₀ (F := F)) 𝒱₀ (K (F := F)).L (K (F := F)).lev p)
    (d : Dev nD) (Φ : PUnit → sProp 𝕄) :
    iprop((iprop(boundary (SparseCore.T d) ∗ R.post d) -∗ Φ ⟨⟩) ∗ boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Pipeline.entry p)) ())) Φ := by
  iintro ⟨Hk, Hrest⟩
  iapply ((K (F := F)).wp_liftProg (D (F := F)) 𝒱 (SparseCore.T d) Set.univ none (Prog.lift (.customCall (Pipeline.entry p) ())) Φ)
  iapply (Pipeline.RDat.RegionSeg.wp (pcfgs (F := F)) adm rdats (none : HIx 1) cellOf_inj EP (defs₀ (F := F)) 𝒱₀ (K (F := F)).L (K (F := F)).lev R d none
    (fun u h => nomatch h) (fun x => .ret x) Φ)
  isplitl [Hk]
  · iintro H
    rw [wp_ret]; imodintro
    iapply Hk; iexact H
  · iexact Hrest

/-- What a pipelined call p with output array y is asked: from the level facts, the region boundary, every unscoped array of
    the TensorCore held whole at W, the core's dues O (none at a kernel's own index) and the pipeline's ghost state, the call
    runs, and its continuation is entered with the boundary, the arrays at W but y at contents Y of which Post holds, and
    the same dues, the newly recorded waits all at a kernel's own index. -/
def RegSpec (p : Fin 2) (y : Ref sig .tc)
    (Post : (d : Dev nD) → Valuation τ sig (Elt F) → Buf (Elt F) (yLoc d y) → Prop) : Prop :=
  ∀ (d : Dev nD) (W : Valuation τ sig (Elt F)) (O : CellTallies nD τ sig (HIx 1)) (Wt : Waits sig (HIx 1)), (∀ g, O g none = 0) →
  ∀ (Φ : PUnit → sProp 𝕄),
    iprop(levAts (K (F := F)).L (K (F := F)).lev ∗ boundary (SparseCore.T d) ∗ held (SparseCore.T d) (Pipeline.ucRefs τ sig) W ∗ owes (SparseCore.T d) O Wt
        ∗ Pipeline.cellsGhost (Pipeline.pin (pcfgs (F := F)) adm) EP p d ∗ Pipeline.toksInit (Pipeline.pin (pcfgs (F := F)) adm) EP p d
        ∗ (∀ (Y : Buf (Elt F) (yLoc d y)) (Wt' : Waits sig (HIx 1)),
            iprop(⌜Post d W Y ∧ ∀ q ∈ Wt', q ∈ Wt ∨ q.2 = none⌝ ∗ boundary (SparseCore.T d)
              ∗ held (SparseCore.T d) (Pipeline.ucRefs τ sig) (Function.update W (Proc.devRef .tc y) Y) ∗ owes (SparseCore.T d) O Wt') -∗ Φ ⟨⟩))
      ⊢ wp frame (wpE ((K (F := F)).defs (D (F := F))) 𝒱 (SparseCore.T d) none) Set.univ
          (Prog.lift (.customCall (SparseCore.inner (Pipeline.entry p)) ())) Φ

/-! ## @main's host operations, stretch by stretch -/

/-- Before the first call: the token words transposed and flattened, the embedding transposed, the 64 x 64 identity. -/
abbrev ops0 : List (HloOp τ sig (Elt F)) := [
  StableHlo.unary main_arg0 main_v0 ((transpose S200x4096 [1, 0] · transposes_S4096x200_S200x4096_1_0) : (⟨S4096x200, .i32⟩ : BufTy).Contents (Elt F) → (⟨S200x4096, .i32⟩ : BufTy).Contents (Elt F)),
  StableHlo.reshape main_v0 main_v1 rfl shapeCasts_S200x4096_S819200,
  StableHlo.unary main_arg2 main_v2 ((transpose S64x1000000 [1, 0] · transposes_S1000000x64_S64x1000000_1_0) : (⟨S1000000x64, .f32⟩ : BufTy).Contents (Elt F) → (⟨S64x1000000, .f32⟩ : BufTy).Contents (Elt F)),
  StableHlo.nullary main_v3 (iotaInDim S64x64 32 0),
  StableHlo.nullary main_v4 (iotaInDim S64x64 32 1),
  StableHlo.nullary main_c (constantI S_ 32 0#32),
  StableHlo.unary main_c main_v5 (broadcastInDim S64x64 ![] bcast_S_S64x64 : (⟨S_, .i32⟩ : BufTy).Contents (Elt F) → (⟨S64x64, .i32⟩ : BufTy).Contents (Elt F)),
  StableHlo.binary main_v3 main_v5 main_v6 (addi : (⟨S64x64, .i32⟩ : BufTy).Contents (Elt F) → (⟨S64x64, .i32⟩ : BufTy).Contents (Elt F) → (⟨S64x64, .i32⟩ : BufTy).Contents (Elt F)),
  StableHlo.binary main_v6 main_v4 main_v7 (cmpi .eq : (⟨S64x64, .i32⟩ : BufTy).Contents (Elt F) → (⟨S64x64, .i32⟩ : BufTy).Contents (Elt F) → (⟨S64x64, .i1⟩ : BufTy).Contents (Elt F)),
  StableHlo.unary main_v7 main_v8 (uitofp .f32 : (⟨S64x64, .i1⟩ : BufTy).Contents (Elt F) → (⟨S64x64, .f32⟩ : BufTy).Contents (Elt F))]
/-- Between the first call and the SparseCore call: the bias as a column. -/
abbrev ops1 : List (HloOp τ sig (Elt F)) := [StableHlo.reshape main_arg4 main_v10 rfl shapeCasts_S64_S64x1]
/-- After the second call: its result transposed into the token-major layout. -/
abbrev ops2 : List (HloOp τ sig (Elt F)) := [
  StableHlo.unary main_v12 main_v13 ((transpose S4096x200x64 [2, 0, 1] · transposes_S200x64x4096_S4096x200x64_2_0_1) : (⟨S200x64x4096, .f32⟩ : BufTy).Contents (Elt F) → (⟨S4096x200x64, .f32⟩ : BufTy).Contents (Elt F))]

/-- @main is these stretches around its three calls. -/
theorem main_eq (d : Dev nD) : main (F := F) d =
    (StableHlo.seq ops0 >>= fun _ => Prog.lift (.customCall (SparseCore.inner (Pipeline.entry 0)) ()) >>= fun _ =>
      StableHlo.seq ops1 >>= fun _ => sc.run d 0 >>= fun _ => Prog.lift (.customCall (SparseCore.inner (Pipeline.entry 1)) ()) >>= fun _ =>
      (StableHlo.seq ops2 >>= fun _ => pure ⟨⟩)) := by
  chain_rfl

theorem ops0_sub : (ops0 (F := F)).Forall fun op => op.bufs ⊆ StableHlo.tcRefs τ sig := by
  simp only [List.Forall]; repeat' constructor
  all_goals simp
theorem ops1_sub : (ops1 (F := F)).Forall fun op => op.bufs ⊆ StableHlo.tcRefs τ sig := by
  simp only [List.Forall]; simp
theorem ops2_sub : (ops2 (F := F)).Forall fun op => op.bufs ⊆ StableHlo.tcRefs τ sig := by
  simp only [List.Forall]; simp
theorem ops0_fresh : (ops0 (F := F)).Forall fun op => op.fresh = ∅ := by
  simp only [List.Forall]; repeat' constructor
theorem ops1_fresh : (ops1 (F := F)).Forall fun op => op.fresh = ∅ := by
  simp only [List.Forall]; repeat' constructor
theorem ops2_fresh : (ops2 (F := F)).Forall fun op => op.fresh = ∅ := by
  simp only [List.Forall]; repeat' constructor

/-! ## The arrays' contents from call to call -/

variable (m : (ℓ : Loc nD τ sig) → Buf (Elt F) ℓ) (ρ : Dev nD → PrngReg)

abbrev v9' : DevRef τ sig := Proc.devRef .tc (main_v9 : Ref sig .tc)
abbrev v1' : DevRef τ sig := Proc.devRef .tc (main_v1 : Ref sig .tc)
abbrev v11' : DevRef τ sig := Proc.devRef .tc (main_v11 : Ref sig .tc)
abbrev v12' : DevRef τ sig := Proc.devRef .tc (main_v12 : Ref sig .tc)
abbrev v13' : DevRef τ sig := Proc.devRef .tc (main_v13 : Ref sig .tc)

/-- At launch; -/
abbrev V0 (d : Dev nD) : Valuation τ sig (Elt F) := fun b => m (d, b)
/-- as the first call finds them; -/
abbrev W1 (d : Dev nD) : Valuation τ sig (Elt F) := StableHlo.after ops0 (V0 m d)
/-- as the SparseCore call finds them, the table at what the first call left; -/
abbrev W2 (d : Dev nD) (Tb : Buf (Elt F) (tabLoc d)) : Valuation τ sig (Elt F) := StableHlo.after ops1 (Function.update (W1 m d) v9' Tb)
/-- as the second call finds them, the row buffer at what the vector subcores left; -/
abbrev W3 (d : Dev nD) (Tb : Buf (Elt F) (tabLoc d)) (f : Buf (Elt F) (outLoc d)) : Valuation τ sig (Elt F) := Function.update (W2 m d Tb) v11' f
/-- and at the return. -/
abbrev W5 (d : Dev nD) (Tb : Buf (Elt F) (tabLoc d)) (f : Buf (Elt F) (outLoc d)) (Y : Buf (Elt F) (v12Loc d)) : Valuation τ sig (Elt F) :=
  StableHlo.after ops2 (Function.update (W3 m d Tb f) v12' Y)

variable (Tab0 : (d : Dev nD) → Valuation τ sig (Elt F) → Buf (Elt F) (tabLoc d) → Prop)
variable (Res2 : (d : Dev nD) → Valuation τ sig (Elt F) → Buf (Elt F) (v12Loc d) → Prop)

/-- What the table's contents satisfy when the SparseCore call is made. -/
abbrev TabOK : (d : Dev nD) → Buf (Elt F) (tabLoc d) → Prop := fun d Tb => Tab0 d (W1 m d) Tb

/-- What the result array holds at the return: the last valuation's, over SOME table, row buffer and second-call output
    that the three calls may have left. -/
def ResOK (d : Dev nD) (R : Buf (Elt F) (v13Loc d)) : Prop :=
  ∃ (Tb : Buf (Elt F) (tabLoc d)) (f : Buf (Elt F) (outLoc d)) (Y : Buf (Elt F) (v12Loc d)),
    Tab0 d (W1 m d) Tb ∧ (∀ L : grid1.Coords, GathOK m d L Tb f) ∧ Res2 d (W3 m d Tb f) Y ∧ R = W5 m d Tb f Y v13'

/-! ## Which arrays a stretch writes, and what the others keep -/

abbrev ops0_W : List (Ref sig .tc) := [main_v0, main_v1, main_v2, main_v3, main_v4, main_c, main_v5, main_v6, main_v7, main_v8]
abbrev ops1_W : List (Ref sig .tc) := [main_v10]
abbrev ops2_W : List (Ref sig .tc) := [main_v13]

theorem ops0_writes : (ops0 (F := F)).Forall fun op => op.writes ⊆ (ops0_W.map (Proc.devRef (τ := τ) .tc)).toFinset := by
  simp only [List.Forall]; repeat' constructor
  all_goals (simp only [StableHlo.nullary_writes, StableHlo.unary_writes, StableHlo.binary_writes, StableHlo.reshape_writes, Finset.singleton_subset_iff, List.mem_toFinset]; exact List.mem_map_of_mem (by decide))
theorem ops1_writes : (ops1 (F := F)).Forall fun op => op.writes ⊆ (ops1_W.map (Proc.devRef (τ := τ) .tc)).toFinset := by
  simp only [List.Forall]; exact (by simp only [StableHlo.reshape_writes, Finset.singleton_subset_iff, List.mem_toFinset]; exact List.mem_map_of_mem (by decide))
theorem ops2_writes : (ops2 (F := F)).Forall fun op => op.writes ⊆ (ops2_W.map (Proc.devRef (τ := τ) .tc)).toFinset := by
  simp only [List.Forall]; exact (by simp only [StableHlo.unary_writes, Finset.singleton_subset_iff, List.mem_toFinset]; exact List.mem_map_of_mem (by decide))

/-- The table, when the SparseCore call is made, is what the first call left; -/
theorem W2_tab (d : Dev nD) (Tb : Buf (Elt F) (tabLoc d)) : W2 m d Tb v9' = Tb := by
  refine (StableHlo.after_of_writes_sub ops1 _ ops1_writes (r := main_v9) (by decide)).trans ?_
  exact Function.update_self _ _ _
/-- the index list is the token words transposed and flattened; -/
theorem W2_idx (d : Dev nD) (Tb : Buf (Elt F) (tabLoc d)) : W2 m d Tb v1' = idxV m d := by
  refine (StableHlo.after_of_writes_sub ops1 _ ops1_writes (r := main_v1) (by decide)).trans ?_
  refine (Function.update_of_ne (show v1' ≠ v9' by decide) _ _).trans ?_
  show StableHlo.after ops0 (V0 m d) v1' = idxV m d
  unfold idxV
  after_results
  rfl
/-- the row buffer is as launched. -/
theorem W2_out (d : Dev nD) (Tb : Buf (Elt F) (tabLoc d)) : W2 m d Tb v11' = m (outLoc d) := by
  refine (StableHlo.after_of_writes_sub ops1 _ ops1_writes (r := main_v11) (by decide)).trans ?_
  refine (Function.update_of_ne (show v11' ≠ v9' by decide) _ _).trans ?_
  exact StableHlo.after_of_writes_sub ops0 _ ops0_writes (r := main_v11) (by decide)

/-- An array that no stretch writes and no call outputs is, at the return, as launched. -/
theorem W5_keep (d : Dev nD) (Tb : Buf (Elt F) (tabLoc d)) (f : Buf (Elt F) (outLoc d)) (Y : Buf (Elt F) (v12Loc d)) (r : Ref sig .tc)
    (h : r ∉ ops0_W ++ [main_v9, main_v10, main_v11, main_v12, main_v13]) :
    W5 m d Tb f Y (Proc.devRef .tc r) = m (d, Proc.devRef .tc r) := by
  have hne : ∀ y : Ref sig .tc, y ∈ ops0_W ++ [main_v9, main_v10, main_v11, main_v12, main_v13] → (Proc.devRef .tc r : DevRef τ sig) ≠ Proc.devRef .tc y :=
    fun y hy e => h (by rw [Proc.devRef_injective _ e]; exact hy)
  refine (StableHlo.after_of_writes_sub ops2 _ ops2_writes (r := r) (fun hm => h (by rw [List.mem_singleton.mp hm]; decide))).trans ?_
  refine (Function.update_of_ne (hne main_v12 (by simp)) _ _).trans ?_
  refine (Function.update_of_ne (hne main_v11 (by simp)) _ _).trans ?_
  refine (StableHlo.after_of_writes_sub ops1 _ ops1_writes (r := r) (fun hm => h (by rw [List.mem_singleton.mp hm]; decide))).trans ?_
  refine (Function.update_of_ne (hne main_v9 (by simp)) _ _).trans ?_
  exact StableHlo.after_of_writes_sub ops0 _ ops0_writes (r := r) (fun hm => h (List.mem_append_left _ hm))

/-! ## The held arrays, one taken out -/

theorem held_take (d : Dev nD) {S : Finset (DevRef τ sig)} {b : DevRef τ sig} (hb : b ∈ S) (W : Valuation τ sig (Elt F)) :
    (held (SparseCore.T d) S W : sProp 𝕄) = iprop((((d, b) : Loc nD τ sig) ↦{fullShare} W b) ∗ held (SparseCore.T d) (S.erase b) W) := by
  unfold held; exact SparseCore.bigSep_erase' hb

theorem held_erase_update (d : Dev nD) (S : Finset (DevRef τ sig)) (b : DevRef τ sig) (W : Valuation τ sig (Elt F)) (x) :
    (held (SparseCore.T d) (S.erase b) (Function.update W b x) : sProp 𝕄) = held (SparseCore.T d) (S.erase b) W :=
  held_congr _ fun b' hb' => Function.update_of_ne (Finset.ne_of_mem_erase hb') _ _

/-! ## The launch element -/

theorem bigSep_emp' {I : Type} (s : Finset I) : (bigSep s fun _ => iprop(emp)) = (iprop(emp) : sProp 𝕄) := bigSep_emp_const s

variable (TabOK' : (d : Dev nD) → Buf (Elt F) (tabLoc d) → Prop)

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (P m TabOK').x q thr) := by
  unfold u₀
  iintro Hu
  ihave H := (ownU_pair (initOf (K (F := F)).hsCells (K (F := F)).hsToks)
    ((initOf (Pipeline.cells cfgs cellOf_inj) (Pipeline.launchToks cfgs cellOf_inj), (1 : Counters)) : UP × Counters)) $$ Hu
  icases H with ⟨HH, HR⟩
  ihave H2 := (own_pair_emb (embR : Emb (UP × Counters) (MT nD τ sig (HIx 1) (Elt F) ℕ UU ℕ))
    (initOf (Pipeline.cells cfgs cellOf_inj) (Pipeline.launchToks cfgs cellOf_inj)) (1 : Counters)) $$ HR
  icases H2 with ⟨HP, -⟩
  ihave HP' := (Entails.of_eq (show (BI.own (((Emb.inl : Emb UP (UP × Counters)).trans (embR : Emb (UP × Counters) (MT nD τ sig (HIx 1) (Elt F) ℕ UU ℕ)))
      (initOf (Pipeline.cells cfgs cellOf_inj) (Pipeline.launchToks cfgs cellOf_inj))) : sProp 𝕄)
      = BI.own ((EP (F := F)) (initOf (Pipeline.cells cfgs cellOf_inj) (Pipeline.launchToks cfgs cellOf_inj))) from rfl)) $$ HP
  imod (Pipeline.fund_ghost (nD := nD) (τ := τ) (Val := Elt F) (Ix := HIx 1) (Name := ℕ) (U := UU) (Lvl := ℕ) cfgs (EP (F := F)) cellOf_inj) $$ HP' with ⟨Hg, Ht⟩
  imodintro
  isplitl [HH]; · iexact HH
  isplitl [Hg Ht]
  · have e : (iprop((bigSep Finset.univ fun c : Dev nD => bigSep Finset.univ fun p : Fin 2 => (Pipeline.cellsGhost cfgs (EP (F := F)) p c : sProp 𝕄))
        ∗ (bigSep Finset.univ fun c : Dev nD => bigSep Finset.univ fun p : Fin 2 => (Pipeline.toksInit cfgs (EP (F := F)) p c : sProp 𝕄))) : sProp 𝕄)
        = bigSep Finset.univ fun d : Dev nD => GG (F := F) d := by
      rw [← bigSep_sep']
      exact bigSep_congr fun c _ => (bigSep_sep' _ _ _).symm
    iapply (Entails.of_eq e)
    isplitl [Hg] <;> iassumption
  · rw [show (bigSep Finset.univ fun thr : Thread nD τ => bigSep Finset.univ fun q : Fin 1 => (P (F := F) m TabOK').x q thr) = bigSep Finset.univ fun _ => (iprop(emp) : sProp 𝕄) from
      bigSep_congr fun _ _ => bigSep_univ_of_subsingleton (0 : Fin 1), bigSep_emp']
    iempintro

/-! ## What @main leaves the claim -/

variable (ResOK' : (d : Dev nD) → Buf (Elt F) (v13Loc d) → Prop)

abbrev argPts (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_arg3 ↦{fullShare} m ((SparseCore.T d).loc main_arg3))
    ∗ ((SparseCore.T d).loc main_arg4 ↦{fullShare} m ((SparseCore.T d).loc main_arg4)))

/-- The five arguments at their launch contents, the result at contents of which ResOK' holds. -/
abbrev FIN (d : Dev nD) : sProp 𝕄 :=
  iprop(argPts m d ∗ ∃ R : Buf (Elt F) (v13Loc d), ⌜ResOK' d R⌝ ∗ (v13Loc d ↦{fullShare} R))

def fq (d : Dev nD) (s' : Phys nD τ sig (Elt F)) : Prop :=
  ResOK' d (s'.mem.mem (v13Loc d))
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)
    ∧ s'.mem.mem ((SparseCore.T d).loc main_arg4) = m ((SparseCore.T d).loc main_arg4)

set_option maxRecDepth 16384 in
theorem hfin (d : Dev nD) (s' : Phys nD τ sig (Elt F)) : iprop(FIN m ResOK' d ∗ SI s') ⊢ (⌜fq m ResOK' d s'⌝ : sProp 𝕄) := by
  iintro ⟨⟨⟨H0, H1, H2, H3, H4⟩, %R, %hR, HR⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (persistent_entails_right (SI_pointsTo_agree (st := s') (ℓ := (SparseCore.T d).loc main_arg3) (I := Finset.univ) (q := fullShare) (f := m ((SparseCore.T d).loc main_arg3)))) $$ [HSI H3]
  · isplitl [HSI] <;> iassumption
  icases H with ⟨%h3, HSI, -⟩
  ihave H := (persistent_entails_right (SI_pointsTo_agree (st := s') (ℓ := (SparseCore.T d).loc main_arg4) (I := Finset.univ) (q := fullShare) (f := m ((SparseCore.T d).loc main_arg4)))) $$ [HSI H4]
  · isplitl [HSI] <;> iassumption
  icases H with ⟨%h4, HSI, -⟩
  ihave H := (SI_pointsTo_agree (st := s') (ℓ := v13Loc d) (I := Finset.univ) (q := fullShare) (f := R)) $$ [HSI HR]
  · isplitl [HSI] <;> iassumption
  icases H with %hR'
  ipureintro
  refine ⟨?_, funext fun i => h0 i (Finset.mem_univ i), funext fun i => h1 i (Finset.mem_univ i), funext fun i => h2 i (Finset.mem_univ i),
    funext fun i => h3 i (Finset.mem_univ i), funext fun i => h4 i (Finset.mem_univ i)⟩
  rw [show s'.mem.mem (v13Loc d) = R from funext fun i => hR' i (Finset.mem_univ i)]
  exact hR

/-! ## @main on the TensorCore -/

theorem unscoped_held (d : Dev nD) :
    (unscopedBufs d (fun b => m ((SparseCore.T d).loc b)) : sProp 𝕄) = held (SparseCore.T d) (Pipeline.ucRefs τ sig) (V0 m d) :=
  Pipeline.unscopedBufs_held d (V0 m d)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem ghost_split (d : Dev nD) : (GG (F := F) d : sProp 𝕄)
    = iprop((Pipeline.cellsGhost (Pipeline.pin (pcfgs (F := F)) adm) EP 0 d ∗ Pipeline.toksInit (Pipeline.pin (pcfgs (F := F)) adm) EP 0 d)
        ∗ (Pipeline.cellsGhost (Pipeline.pin (pcfgs (F := F)) adm) EP 1 d ∗ Pipeline.toksInit (Pipeline.pin (pcfgs (F := F)) adm) EP 1 d)) := by
  show Pipeline.PerCore.ghostOn (pcfgs (F := F)) (fun _ => adm) EP Finset.univ d = _
  unfold Pipeline.PerCore.ghostOn
  rw [show (Finset.univ : Finset (Fin 2)) = {0, 1} by decide, SparseCore.bigSep_insert' (by decide), bigSep_singleton]

/-- Recorded waits stay bounded when the new ones all sit at a kernel's own index (level 0). -/
theorem wbelow_ext {thr : Thread nD τ} {W W' : Waits sig (HIx 1)} {b : ℕ} (hW : (K (F := F)).WBelow thr W b)
    (h : ∀ q ∈ W', q ∈ W ∨ q.2 = none) : (K (F := F)).WBelow thr W' b := fun p hp =>
  (h p hp).elim (hW p) fun e => by rw [e]; exact Nat.zero_le _

theorem mem_er {S : Finset (DevRef τ sig)} {b c : DevRef τ sig} (h : b ∈ S) (n : b ≠ c) : b ∈ S.erase c := Finset.mem_erase.mpr ⟨n, h⟩

/-- The SparseCore call's three arrays taken out of the held ones, at what the call finds in them. -/
theorem held_three (d : Dev nD) (Tb : Buf (Elt F) (tabLoc d)) :
    (held (SparseCore.T d) (Pipeline.ucRefs τ sig) (W2 m d Tb) : sProp 𝕄)
      = iprop((tabLoc d ↦{fullShare} Tb) ∗ (idxLoc d ↦{fullShare} idxV m d) ∗ (outLoc d ↦{fullShare} m (outLoc d))
          ∗ held (SparseCore.T d) ((((Pipeline.ucRefs τ sig).erase v9').erase v1').erase v11') (W2 m d Tb)) := by
  rw [held_take d (b := v9') (mem_uc main_v9 (by decide)) (W2 m d Tb),
    held_take d (b := v1') (mem_er (mem_uc main_v1 (by decide)) (by decide)) (W2 m d Tb),
    held_take d (b := v11') (mem_er (mem_er (mem_uc main_v11 (by decide)) (by decide)) (by decide)) (W2 m d Tb),
    W2_tab, W2_idx, W2_out]

/-- And put back, the row buffer at what the vector subcores left. -/
theorem held_three' (d : Dev nD) (Tb : Buf (Elt F) (tabLoc d)) (f : Buf (Elt F) (outLoc d)) :
    (iprop((tabLoc d ↦{fullShare} Tb) ∗ (idxLoc d ↦{fullShare} idxV m d) ∗ (outLoc d ↦{fullShare} f)
          ∗ held (SparseCore.T d) ((((Pipeline.ucRefs τ sig).erase v9').erase v1').erase v11') (W2 m d Tb)) : sProp 𝕄)
      = held (SparseCore.T d) (Pipeline.ucRefs τ sig) (W3 m d Tb f) := by
  rw [held_take d (b := v9') (mem_uc main_v9 (by decide)) (W3 m d Tb f),
    held_take d (b := v1') (mem_er (mem_uc main_v1 (by decide)) (by decide)) (W3 m d Tb f),
    held_take d (b := v11') (mem_er (mem_er (mem_uc main_v11 (by decide)) (by decide)) (by decide)) (W3 m d Tb f),
    held_erase_update d (((Pipeline.ucRefs τ sig).erase v9').erase v1') v11' (W2 m d Tb) f,
    show W3 m d Tb f v9' = Tb from (Function.update_of_ne (show v9' ≠ v11' by decide) _ _).trans (W2_tab m d Tb),
    show W3 m d Tb f v1' = idxV m d from (Function.update_of_ne (show v1' ≠ v11' by decide) _ _).trans (W2_idx m d Tb),
    show W3 m d Tb f v11' = f from Function.update_self _ _ _]

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)

/-- At the return: the five arguments as launched, the result at the last valuation's, and the rest. -/
theorem held_six (d : Dev nD) (Tb : Buf (Elt F) (tabLoc d)) (f : Buf (Elt F) (outLoc d)) (Y : Buf (Elt F) (v12Loc d)) :
    (held (SparseCore.T d) (Pipeline.ucRefs τ sig) (W5 m d Tb f Y) : sProp 𝕄)
      = iprop(((SparseCore.T d).loc main_arg0 ↦{fullShare} m ((SparseCore.T d).loc main_arg0))
          ∗ ((SparseCore.T d).loc main_arg1 ↦{fullShare} m ((SparseCore.T d).loc main_arg1))
          ∗ ((SparseCore.T d).loc main_arg2 ↦{fullShare} m ((SparseCore.T d).loc main_arg2))
          ∗ ((SparseCore.T d).loc main_arg3 ↦{fullShare} m ((SparseCore.T d).loc main_arg3))
          ∗ ((SparseCore.T d).loc main_arg4 ↦{fullShare} m ((SparseCore.T d).loc main_arg4))
          ∗ (v13Loc d ↦{fullShare} W5 m d Tb f Y v13')
          ∗ held (SparseCore.T d) (((((((Pipeline.ucRefs τ sig).erase a0').erase a1').erase a2').erase a3').erase a4').erase v13') (W5 m d Tb f Y)) := by
  rw [held_take d (b := a0') (mem_uc main_arg0 (by decide)) (W5 m d Tb f Y),
    held_take d (b := a1') (mem_er (mem_uc main_arg1 (by decide)) (by decide)) (W5 m d Tb f Y),
    held_take d (b := a2') (mem_er (mem_er (mem_uc main_arg2 (by decide)) (by decide)) (by decide)) (W5 m d Tb f Y),
    held_take d (b := a3') (mem_er (mem_er (mem_er (mem_uc main_arg3 (by decide)) (by decide)) (by decide)) (by decide)) (W5 m d Tb f Y),
    held_take d (b := a4') (mem_er (mem_er (mem_er (mem_er (mem_uc main_arg4 (by decide)) (by decide)) (by decide)) (by decide)) (by decide)) (W5 m d Tb f Y),
    held_take d (b := v13') (mem_er (mem_er (mem_er (mem_er (mem_er (mem_uc main_v13 (by decide)) (by decide)) (by decide)) (by decide)) (by decide)) (by decide)) (W5 m d Tb f Y),
    W5_keep m d Tb f Y main_arg0 (by decide), W5_keep m d Tb f Y main_arg1 (by decide), W5_keep m d Tb f Y main_arg2 (by decide),
    W5_keep m d Tb f Y main_arg3 (by decide), W5_keep m d Tb f Y main_arg4 (by decide)]

set_option backward.isDefEq.respectTransparency.types false in
set_option maxRecDepth 16384 in
/-- @main on the TensorCore of device d: the first stretch, the first call, the bias column, the SparseCore call on the
    table, the index list and the row buffer split among the vector subcores and joined again, the second call, the last
    transpose; the arguments and the result read off the last valuation. -/
theorem hmain [∀ e, Nonempty (Elt F e)] (h0 : RegSpec (F := F) 0 main_v9 Tab0) (h2 : RegSpec (F := F) 1 main_v12 Res2)
    (hsplit : ∀ (d : Dev nD) (Tb : Buf (Elt F) (tabLoc d)), Tab0 d (W1 m d) Tb →
      ((iprop((tabLoc d ↦{fullShare} Tb) ∗ (idxLoc d ↦{fullShare} idxV m d) ∗ (outLoc d ↦{fullShare} m (outLoc d))) : sProp 𝕄)
        ⊢ iprop((tabLoc d ↦{Transfers.shareDrop fullShare 32} Tb) ∗ bigSep Finset.univ fun c : Fin ((K (F := F)).nCore 0) => (P m (TabOK m Tab0)).st 0 d c)))
    (hjoin : ∀ (d : Dev nD) (Tb : Buf (Elt F) (tabLoc d)),
      ((iprop((tabLoc d ↦{Transfers.shareDrop fullShare 32} Tb) ∗ bigSep Finset.univ fun c : Fin ((K (F := F)).nCore 0) => (P m (TabOK m Tab0)).dn 0 d c) : sProp 𝕄)
        ⊢ iprop(∃ f : Buf (Elt F) (outLoc d), ⌜∀ L : grid1.Coords, GathOK m d L Tb f⌝ ∗ (tabLoc d ↦{fullShare} Tb) ∗ (idxLoc d ↦{fullShare} idxV m d) ∗ (outLoc d ↦{fullShare} f))))
    (κ : GSem nD τ sig → ℕ) (d : Dev nD) :
    iprop((K (F := F)).ctx EH (P m (TabOK m Tab0)) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m (ResOK m Tab0 Res2) d) := by
  obtain ⟨R0, hst0⟩ : ∃ R : sProp 𝕄, (K (F := F)).tcSt EH d 0
      = iprop((∃ W, ⌜(K (F := F)).WBelow (SparseCore.T d) W (8 * 0)⌝ ∗ owes (SparseCore.T d) ((K (F := F)).Otc d 0) W) ∗ R) :=
    ⟨_, by unfold SparseCore.Cfg.tcSt; rfl⟩
  obtain ⟨R1, hst1⟩ : ∃ R : sProp 𝕄, (K (F := F)).tcSt EH d 1
      = iprop((∃ W, ⌜(K (F := F)).WBelow (SparseCore.T d) W (8 * 1)⌝ ∗ owes (SparseCore.T d) ((K (F := F)).Otc d 1) W) ∗ R) :=
    ⟨_, by unfold SparseCore.Cfg.tcSt; rfl⟩
  have hS0 := fun op h => Pipeline.sub_ucRefs op ((List.forall_iff_forall_mem.mp (ops0_sub (F := F))) op h)
  have hS1 := fun op h => Pipeline.sub_ucRefs op ((List.forall_iff_forall_mem.mp (ops1_sub (F := F))) op h)
  have hS2 := fun op h => Pipeline.sub_ucRefs op ((List.forall_iff_forall_mem.mp (ops2_sub (F := F))) op h)
  rw [main_eq]
  unfold SparseCore.Cfg.tcRes
  rw [unscoped_held, ghost_split, hst0]
  iintro ⟨#Hctx, ⟨⟨%Wt, %hWt, HO⟩, Hr0⟩, ⟨Hb, Hheld, -, -⟩, ⟨Hg0, Ht0⟩, Hg1, Ht1⟩
  ihave #Hlev := (SparseCore.Cfg.ctx_levAts κ) $$ Hctx
  -- the first stretch of host operations
  iapply (StableHlo.wp_seq (defs := (K (F := F)).defs (D (F := F))) 𝒱 none Set.univ d (Pipeline.ucRefs τ sig) _ (ops0 (F := F)) hS0
      (fun op h => (List.forall_iff_forall_mem.mp ops0_fresh) op h) (V0 m d)) $$ [Hb Hheld]
  · isplitl [Hb] <;> iassumption
  iintro ⟨Hb, Hheld⟩
  -- the first pipelined call: the table
  rw [wp_bind]
  iapply (h0 d (W1 m d) ((K (F := F)).Otc d 0) Wt (Otc_none d 0) _)
  isplitr; · iexact Hlev
  isplitl [Hb]; · iexact Hb
  isplitl [Hheld]; · iexact Hheld
  isplitl [HO]; · iexact HO
  isplitl [Hg0]; · iexact Hg0
  isplitl [Ht0]; · iexact Ht0
  iintro %Tb %Wt1 ⟨%hp1, Hb, Hheld, HO⟩
  obtain ⟨hTb, hWt1⟩ := hp1
  -- the bias as a column
  iapply (StableHlo.wp_seq (defs := (K (F := F)).defs (D (F := F))) 𝒱 none Set.univ d (Pipeline.ucRefs τ sig) _ (ops1 (F := F)) hS1
      (fun op h => (List.forall_iff_forall_mem.mp ops1_fresh) op h) (Function.update (W1 m d) v9' Tb)) $$ [Hb Hheld]
  · isplitl [Hb] <;> iassumption
  iintro ⟨Hb, Hheld⟩
  -- the SparseCore call: its three arrays out of the held ones, split among the vector subcores
  ihave Hh := (Entails.of_eq (held_three m d Tb)) $$ Hheld
  icases Hh with ⟨Htab, Hidx, Hout, Hrest⟩
  ihave Hs := (hsplit d Tb hTb) $$ [Htab Hidx Hout]
  · isplitl [Htab]; · iexact Htab
    isplitl [Hidx] <;> iassumption
  icases Hs with ⟨Hrem, Hsts⟩
  rw [wp_bind]
  iapply ((K (F := F)).wp_run (D (F := F)) 𝒱 (EH := EH) (P := P m (TabOK m Tab0)) κ d 0) $$ [HO Hr0 Hsts Hb Hrest Hrem Hg1 Ht1]
  isplitr; · iexact Hctx
  isplitl [HO Hr0]
  · rw [show ((0 : Fin 1) : ℕ) = 0 from rfl, hst0]
    isplitl [HO]
    · iexists Wt1; isplitr
      · ipureintro; exact wbelow_ext hWt hWt1
      · iexact HO
    · iexact Hr0
  isplitl [Hsts]; · iexact Hsts
  iintro ⟨Hst, Hdn⟩
  ihave Hst' := (Entails.of_eq (show (K (F := F)).tcSt EH d ((0 : Fin 1).val + 1) = _ from hst1)) $$ Hst
  icases Hst' with ⟨⟨%Wt2, %hWt2, HO⟩, Hr1⟩
  ihave Hj := (hjoin d Tb) $$ [Hrem Hdn]
  · isplitl [Hrem] <;> iassumption
  icases Hj with ⟨%f, %hf, Htab, Hidx, Hout⟩
  ihave Hheld := (Entails.of_eq (held_three' m d Tb f)) $$ [Htab Hidx Hout Hrest]
  · isplitl [Htab]; · iexact Htab
    isplitl [Hidx]; · iexact Hidx
    isplitl [Hout] <;> iassumption
  -- the second pipelined call: the projection
  rw [wp_bind]
  iapply (h2 d (W3 m d Tb f) ((K (F := F)).Otc d 1) Wt2 (Otc_none d 1) _)
  isplitr; · iexact Hlev
  isplitl [Hb]; · iexact Hb
  isplitl [Hheld]; · iexact Hheld
  isplitl [HO]; · iexact HO
  isplitl [Hg1]; · iexact Hg1
  isplitl [Ht1]; · iexact Ht1
  iintro %Y %Wt3 ⟨%hp3, Hb, Hheld, HO⟩
  obtain ⟨hY, hWt3⟩ := hp3
  -- the last transpose
  iapply (StableHlo.wp_seq (defs := (K (F := F)).defs (D (F := F))) 𝒱 none Set.univ d (Pipeline.ucRefs τ sig) _ (ops2 (F := F)) hS2
      (fun op h => (List.forall_iff_forall_mem.mp ops2_fresh) op h) (Function.update (W3 m d Tb f) v12' Y)) $$ [Hb Hheld]
  · isplitl [Hb] <;> iassumption
  iintro ⟨Hb, Hheld⟩
  rw [wp_pure]
  imodintro
  rw [hst1]
  isplitl [HO Hr1]
  · isplitl [HO]
    · iexists Wt3; isplitr
      · ipureintro; exact wbelow_ext hWt2 hWt3
      · iexact HO
    · iexact Hr1
  · ihave Hh := (Entails.of_eq (held_six m d Tb f Y)) $$ Hheld
    icases Hh with ⟨H0, H1, H2, H3, H4, H13, -⟩
    isplitl [H0 H1 H2 H3 H4]
    · isplitl [H0]; · iexact H0
      isplitl [H1]; · iexact H1
      isplitl [H2]; · iexact H2
      isplitl [H3]; · iexact H3
      iexact H4
    iexists (W5 m d Tb f Y v13'); isplitr
    · ipureintro; exact ⟨Tb, f, Y, hTb, hf, hY, rfl⟩
    · iexact H13

/-! ## The program's run -/

def QC : PUnit × MemSt nD τ sig (Elt F) → Prop := fun r => ∀ c : Dev nD,
  ResOK' c (r.2.mem (v13Loc c))
    ∧ r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ r.2.mem ((SparseCore.T c).loc main_arg3) = m ((SparseCore.T c).loc main_arg3)
    ∧ r.2.mem ((SparseCore.T c).loc main_arg4) = m ((SparseCore.T c).loc main_arg4)

/-- THE RUN. Given each pipelined call as a step of @main (h0, h2) and the vector subcores' task (htile), every weakly fair
    execution of the program from memory m with all counters zero terminates, nothing faulting, and every final memory
    holds the five arguments as launched and, in the result array, contents of which ResOK holds. -/
theorem run_main [∀ e, Nonempty (Elt F e)] (h0 : RegSpec (F := F) 0 main_v9 Tab0) (h2 : RegSpec (F := F) 1 main_v12 Res2)
    (htile : (K (F := F)).TileObl (D (F := F)) 𝒱 (P m (TabOK m Tab0)) v₀ 0) :
    θ_run (Cert.Kernel.defs (F := F)) (Cert.Kernel.threads (F := F)) ⟨m, fun _ => 0, ρ⟩ (QC m (ResOK m Tab0 Res2)) :=
  SparseCore.Cfg.θ_run_sc (K := K (F := F)) (D := D (F := F)) (𝒱 := 𝒱) (EH := EH) (P := P m (TabOK m Tab0)) facts v₀
    (fun q hq => match q with | 0 => nomatch hq)
    (fun q _ => match q with | 0 => htile)
    (fun q _ => match q with | 0 => SparseCore.Cfg.VecSplit.of_plain (vecSplit m (TabOK m Tab0)))
    m ρ main (fun d => GG (F := F) d) (FIN m (ResOK m Tab0 Res2)) (u₀ (F := F)) (sep_elim_left.trans (hu₀ m (TabOK m Tab0)))
    (hmain m ρ Tab0 Res2 h0 h2 (fun d Tb hTb => st_of_arrays m (TabOK m Tab0) d Tb hTb) (fun d Tb => arrays_of_dn m (TabOK m Tab0) d Tb))
    (fq m (ResOK m Tab0 Res2)) (hfin m (ResOK m Tab0 Res2)) (QC m (ResOK m Tab0 Res2)) (fun _ h => h)

end Cert.Proof.KB

end
-- ==== Proof.BMainG.lean ====
/-
  The run of the whole program over ANY account of what the SparseCore call's handshakes carry: the payload record PP and
  what is said of the gathered rows (Gath) are parameters, so that the same proof of @main serves the claim about values
  (the rows named) and the claims that name none (every array at contents not stated).
-/
import proofs.«217421_g60146722013857_cont_9to1c4b_519_37_alg».proof.Proof.BMain

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_split held_sdiff_result held_congr wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)
variable (Tab0 : (d : Dev nD) → Valuation τ sig (Elt F) → Buf (Elt F) (tabLoc d) → Prop)
variable (Res2 : (d : Dev nD) → Valuation τ sig (Elt F) → Buf (Elt F) (v12Loc d) → Prop)
variable (PP : (K (F := F)).Pay (nD := nD) (Val := Elt F) (Name := ℕ) (U := UU)) [PP.IsStorable]
variable (Gath : (d : Dev nD) → Buf (Elt F) (tabLoc d) → Buf (Elt F) (outLoc d) → Prop)

/-- What the result array holds at the return: the last valuation's, over SOME table, row buffer and second-call output
    that the three calls may have left. -/
def ResOKG (d : Dev nD) (R : Buf (Elt F) (v13Loc d)) : Prop :=
  ∃ (Tb : Buf (Elt F) (tabLoc d)) (f : Buf (Elt F) (outLoc d)) (Y : Buf (Elt F) (v12Loc d)),
    Tab0 d (W1 m d) Tb ∧ Gath d Tb f ∧ Res2 d (W3 m d Tb f) Y ∧ R = W5 m d Tb f Y v13'

/-! ## The launch element -/

theorem hu₀G (hx : ∀ q thr, PP.x q thr = (iprop(emp) : sProp 𝕄)) : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => PP.x q thr) := by
  unfold u₀
  iintro Hu
  ihave H := (ownU_pair (initOf (K (F := F)).hsCells (K (F := F)).hsToks)
    ((initOf (Pipeline.cells cfgs cellOf_inj) (Pipeline.launchToks cfgs cellOf_inj), (1 : Counters)) : UP × Counters)) $$ Hu
  icases H with ⟨HH, HR⟩
  ihave H2 := (own_pair_emb (embR : Emb (UP × Counters) (MT nD τ sig (HIx 1) (Elt F) ℕ UU ℕ))
    (initOf (Pipeline.cells cfgs cellOf_inj) (Pipeline.launchToks cfgs cellOf_inj)) (1 : Counters)) $$ HR
  icases H2 with ⟨HP, -⟩
  ihave HP' := (Entails.of_eq (show (BI.own (((Emb.inl : Emb UP (UP × Counters)).trans (embR : Emb (UP × Counters) (MT nD τ sig (HIx 1) (Elt F) ℕ UU ℕ)))
      (initOf (Pipeline.cells cfgs cellOf_inj) (Pipeline.launchToks cfgs cellOf_inj))) : sProp 𝕄)
      = BI.own ((EP (F := F)) (initOf (Pipeline.cells cfgs cellOf_inj) (Pipeline.launchToks cfgs cellOf_inj))) from rfl)) $$ HP
  imod (Pipeline.fund_ghost (nD := nD) (τ := τ) (Val := Elt F) (Ix := HIx 1) (Name := ℕ) (U := UU) (Lvl := ℕ) cfgs (EP (F := F)) cellOf_inj) $$ HP' with ⟨Hg, Ht⟩
  imodintro
  isplitl [HH]; · iexact HH
  isplitl [Hg Ht]
  · have e : (iprop((bigSep Finset.univ fun c : Dev nD => bigSep Finset.univ fun p : Fin 2 => (Pipeline.cellsGhost cfgs (EP (F := F)) p c : sProp 𝕄))
        ∗ (bigSep Finset.univ fun c : Dev nD => bigSep Finset.univ fun p : Fin 2 => (Pipeline.toksInit cfgs (EP (F := F)) p c : sProp 𝕄))) : sProp 𝕄)
        = bigSep Finset.univ fun d : Dev nD => GG (F := F) d := by
      rw [← bigSep_sep']
      exact bigSep_congr fun c _ => (bigSep_sep' _ _ _).symm
    iapply (Entails.of_eq e)
    isplitl [Hg] <;> iassumption
  · rw [show (bigSep Finset.univ fun thr : Thread nD τ => bigSep Finset.univ fun q : Fin 1 => PP.x q thr) = bigSep Finset.univ fun _ => (iprop(emp) : sProp 𝕄) from
      bigSep_congr fun thr _ => (bigSep_univ_of_subsingleton (0 : Fin 1)).trans (hx 0 thr), bigSep_emp']
    iempintro

/-! ## @main on the TensorCore -/

set_option backward.isDefEq.respectTransparency.types false in
set_option maxRecDepth 16384 in
/-- @main on the TensorCore of device d: the first stretch, the first call, the bias column, the SparseCore call on the
    table, the index list and the row buffer split among the vector subcores and joined again, the second call, the last
    transpose; the arguments and the result read off the last valuation. -/
theorem hmainG [∀ e, Nonempty (Elt F e)] (h0 : RegSpec (F := F) 0 main_v9 Tab0) (h2 : RegSpec (F := F) 1 main_v12 Res2)
    (hsplit : ∀ (d : Dev nD) (Tb : Buf (Elt F) (tabLoc d)), Tab0 d (W1 m d) Tb →
      ((iprop((tabLoc d ↦{fullShare} Tb) ∗ (idxLoc d ↦{fullShare} idxV m d) ∗ (outLoc d ↦{fullShare} m (outLoc d))) : sProp 𝕄)
        ⊢ iprop((tabLoc d ↦{Transfers.shareDrop fullShare 32} Tb) ∗ bigSep Finset.univ fun c : Fin ((K (F := F)).nCore 0) => PP.st 0 d c)))
    (hjoin : ∀ (d : Dev nD) (Tb : Buf (Elt F) (tabLoc d)),
      ((iprop((tabLoc d ↦{Transfers.shareDrop fullShare 32} Tb) ∗ bigSep Finset.univ fun c : Fin ((K (F := F)).nCore 0) => PP.dn 0 d c) : sProp 𝕄)
        ⊢ iprop(∃ f : Buf (Elt F) (outLoc d), ⌜Gath d Tb f⌝ ∗ (tabLoc d ↦{fullShare} Tb) ∗ (idxLoc d ↦{fullShare} idxV m d) ∗ (outLoc d ↦{fullShare} f))))
    (κ : GSem nD τ sig → ℕ) (d : Dev nD) :
    iprop((K (F := F)).ctx EH PP κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m (ResOKG m Tab0 Res2 Gath) d) := by
  obtain ⟨R0, hst0⟩ : ∃ R : sProp 𝕄, (K (F := F)).tcSt EH d 0
      = iprop((∃ W, ⌜(K (F := F)).WBelow (SparseCore.T d) W (8 * 0)⌝ ∗ owes (SparseCore.T d) ((K (F := F)).Otc d 0) W) ∗ R) :=
    ⟨_, by unfold SparseCore.Cfg.tcSt; rfl⟩
  obtain ⟨R1, hst1⟩ : ∃ R : sProp 𝕄, (K (F := F)).tcSt EH d 1
      = iprop((∃ W, ⌜(K (F := F)).WBelow (SparseCore.T d) W (8 * 1)⌝ ∗ owes (SparseCore.T d) ((K (F := F)).Otc d 1) W) ∗ R) :=
    ⟨_, by unfold SparseCore.Cfg.tcSt; rfl⟩
  have hS0 := fun op h => Pipeline.sub_ucRefs op ((List.forall_iff_forall_mem.mp (ops0_sub (F := F))) op h)
  have hS1 := fun op h => Pipeline.sub_ucRefs op ((List.forall_iff_forall_mem.mp (ops1_sub (F := F))) op h)
  have hS2 := fun op h => Pipeline.sub_ucRefs op ((List.forall_iff_forall_mem.mp (ops2_sub (F := F))) op h)
  rw [main_eq]
  unfold SparseCore.Cfg.tcRes
  rw [unscoped_held, ghost_split, hst0]
  iintro ⟨#Hctx, ⟨⟨%Wt, %hWt, HO⟩, Hr0⟩, ⟨Hb, Hheld, -, -⟩, ⟨Hg0, Ht0⟩, Hg1, Ht1⟩
  ihave #Hlev := (SparseCore.Cfg.ctx_levAts κ) $$ Hctx
  -- the first stretch of host operations
  iapply (StableHlo.wp_seq (defs := (K (F := F)).defs (D (F := F))) 𝒱 none Set.univ d (Pipeline.ucRefs τ sig) _ (ops0 (F := F)) hS0
      (fun op h => (List.forall_iff_forall_mem.mp ops0_fresh) op h) (V0 m d)) $$ [Hb Hheld]
  · isplitl [Hb] <;> iassumption
  iintro ⟨Hb, Hheld⟩
  -- the first pipelined call: the table
  rw [wp_bind]
  iapply (h0 d (W1 m d) ((K (F := F)).Otc d 0) Wt (Otc_none d 0) _)
  isplitr; · iexact Hlev
  isplitl [Hb]; · iexact Hb
  isplitl [Hheld]; · iexact Hheld
  isplitl [HO]; · iexact HO
  isplitl [Hg0]; · iexact Hg0
  isplitl [Ht0]; · iexact Ht0
  iintro %Tb %Wt1 ⟨%hp1, Hb, Hheld, HO⟩
  obtain ⟨hTb, hWt1⟩ := hp1
  -- the bias as a column
  iapply (StableHlo.wp_seq (defs := (K (F := F)).defs (D (F := F))) 𝒱 none Set.univ d (Pipeline.ucRefs τ sig) _ (ops1 (F := F)) hS1
      (fun op h => (List.forall_iff_forall_mem.mp ops1_fresh) op h) (Function.update (W1 m d) v9' Tb)) $$ [Hb Hheld]
  · isplitl [Hb] <;> iassumption
  iintro ⟨Hb, Hheld⟩
  -- the SparseCore call: its three arrays out of the held ones, split among the vector subcores
  ihave Hh := (Entails.of_eq (held_three m d Tb)) $$ Hheld
  icases Hh with ⟨Htab, Hidx, Hout, Hrest⟩
  ihave Hs := (hsplit d Tb hTb) $$ [Htab Hidx Hout]
  · isplitl [Htab]; · iexact Htab
    isplitl [Hidx] <;> iassumption
  icases Hs with ⟨Hrem, Hsts⟩
  rw [wp_bind]
  iapply ((K (F := F)).wp_run (D (F := F)) 𝒱 (EH := EH) (P := PP) κ d 0) $$ [HO Hr0 Hsts Hb Hrest Hrem Hg1 Ht1]
  isplitr; · iexact Hctx
  isplitl [HO Hr0]
  · rw [show ((0 : Fin 1) : ℕ) = 0 from rfl, hst0]
    isplitl [HO]
    · iexists Wt1; isplitr
      · ipureintro; exact wbelow_ext hWt hWt1
      · iexact HO
    · iexact Hr0
  isplitl [Hsts]; · iexact Hsts
  iintro ⟨Hst, Hdn⟩
  ihave Hst' := (Entails.of_eq (show (K (F := F)).tcSt EH d ((0 : Fin 1).val + 1) = _ from hst1)) $$ Hst
  icases Hst' with ⟨⟨%Wt2, %hWt2, HO⟩, Hr1⟩
  ihave Hj := (hjoin d Tb) $$ [Hrem Hdn]
  · isplitl [Hrem] <;> iassumption
  icases Hj with ⟨%f, %hf, Htab, Hidx, Hout⟩
  ihave Hheld := (Entails.of_eq (held_three' m d Tb f)) $$ [Htab Hidx Hout Hrest]
  · isplitl [Htab]; · iexact Htab
    isplitl [Hidx]; · iexact Hidx
    isplitl [Hout] <;> iassumption
  -- the second pipelined call: the projection
  rw [wp_bind]
  iapply (h2 d (W3 m d Tb f) ((K (F := F)).Otc d 1) Wt2 (Otc_none d 1) _)
  isplitr; · iexact Hlev
  isplitl [Hb]; · iexact Hb
  isplitl [Hheld]; · iexact Hheld
  isplitl [HO]; · iexact HO
  isplitl [Hg1]; · iexact Hg1
  isplitl [Ht1]; · iexact Ht1
  iintro %Y %Wt3 ⟨%hp3, Hb, Hheld, HO⟩
  obtain ⟨hY, hWt3⟩ := hp3
  -- the last transpose
  iapply (StableHlo.wp_seq (defs := (K (F := F)).defs (D (F := F))) 𝒱 none Set.univ d (Pipeline.ucRefs τ sig) _ (ops2 (F := F)) hS2
      (fun op h => (List.forall_iff_forall_mem.mp ops2_fresh) op h) (Function.update (W3 m d Tb f) v12' Y)) $$ [Hb Hheld]
  · isplitl [Hb] <;> iassumption
  iintro ⟨Hb, Hheld⟩
  rw [wp_pure]
  imodintro
  rw [hst1]
  isplitl [HO Hr1]
  · isplitl [HO]
    · iexists Wt3; isplitr
      · ipureintro; exact wbelow_ext hWt2 hWt3
      · iexact HO
    · iexact Hr1
  · ihave Hh := (Entails.of_eq (held_six m d Tb f Y)) $$ Hheld
    icases Hh with ⟨H0, H1, H2, H3, H4, H13, -⟩
    isplitl [H0 H1 H2 H3 H4]
    · isplitl [H0]; · iexact H0
      isplitl [H1]; · iexact H1
      isplitl [H2]; · iexact H2
      isplitl [H3]; · iexact H3
      iexact H4
    iexists (W5 m d Tb f Y v13'); isplitr
    · ipureintro; exact ⟨Tb, f, Y, hTb, hf, hY, rfl⟩
    · iexact H13

/-! ## The program's run -/

/-- THE RUN. Given each pipelined call as a step of @main (h0, h2), the vector subcores' task (htile), the split of a
    SparseCore's operands among them (hvec) and of the call's arrays among the SparseCores (hsplit, hjoin): every weakly fair
    execution of the program from memory m with all counters zero terminates, nothing faulting, and every final memory
    holds the five arguments as launched and, in the result array, contents of which ResOKG holds. -/
theorem run_mainG [∀ e, Nonempty (Elt F e)] (hx : ∀ q thr, PP.x q thr = (iprop(emp) : sProp 𝕄)) (hheld : PP.held = ∅)
    (h0 : RegSpec (F := F) 0 main_v9 Tab0) (h2 : RegSpec (F := F) 1 main_v12 Res2)
    (htile : (K (F := F)).TileObl (D (F := F)) 𝒱 PP v₀ 0) (hvec : (K (F := F)).VecSplit' PP 0)
    (hsplit : ∀ (d : Dev nD) (Tb : Buf (Elt F) (tabLoc d)), Tab0 d (W1 m d) Tb →
      ((iprop((tabLoc d ↦{fullShare} Tb) ∗ (idxLoc d ↦{fullShare} idxV m d) ∗ (outLoc d ↦{fullShare} m (outLoc d))) : sProp 𝕄)
        ⊢ iprop((tabLoc d ↦{Transfers.shareDrop fullShare 32} Tb) ∗ bigSep Finset.univ fun c : Fin ((K (F := F)).nCore 0) => PP.st 0 d c)))
    (hjoin : ∀ (d : Dev nD) (Tb : Buf (Elt F) (tabLoc d)),
      ((iprop((tabLoc d ↦{Transfers.shareDrop fullShare 32} Tb) ∗ bigSep Finset.univ fun c : Fin ((K (F := F)).nCore 0) => PP.dn 0 d c) : sProp 𝕄)
        ⊢ iprop(∃ f : Buf (Elt F) (outLoc d), ⌜Gath d Tb f⌝ ∗ (tabLoc d ↦{fullShare} Tb) ∗ (idxLoc d ↦{fullShare} idxV m d) ∗ (outLoc d ↦{fullShare} f)))) :
    θ_run (Cert.Kernel.defs (F := F)) (Cert.Kernel.threads (F := F)) ⟨m, fun _ => 0, ρ⟩ (QC m (ResOKG m Tab0 Res2 Gath)) :=
  SparseCore.Cfg.θ_run_sc (K := K (F := F)) (D := D (F := F)) (𝒱 := 𝒱) (EH := EH) (P := PP) facts v₀
    (fun q hq => match q with | 0 => nomatch hq)
    (fun q _ => match q with | 0 => htile)
    (fun q _ => match q with | 0 => SparseCore.Cfg.VecSplit.of_plain hvec)
    m ρ main (fun d => GG (F := F) d) (FIN m (ResOKG m Tab0 Res2 Gath)) (u₀ (F := F)) (sep_elim_left.trans (hu₀G PP hx))
    (hmainG m ρ Tab0 Res2 PP Gath h0 h2 hsplit hjoin)
    (fq m (ResOKG m Tab0 Res2 Gath)) (hfin m (ResOKG m Tab0 Res2 Gath)) (QC m (ResOKG m Tab0 Res2 Gath)) (fun _ h => h) hheld

end Cert.Proof.KB

end
-- ==== Proof.BReg0.lean ====
/-
  The pipelined calls as steps of @main, first in the form that says nothing of what a call writes: from every unscoped
  array held at W, the dues and the pipeline's ghost state, the call runs and hands back the arrays as found but for its
  output array, at contents not named. The proof data constrain nothing (every window's buffer may be left at anything);
  an input array is never written back, so it ends as it began; the core's dues pass through unchanged, its new waits all
  at a kernel's own index.
-/
import proofs.«217421_g60146722013857_cont_9to1c4b_519_37_alg».proof.Proof.BMain

noncomputable section

namespace Cert.Proof.KB

open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_congr)

variable {F : FTy → Type} [FloatOps F]

local notation "𝕄" => MT nD τ sig (HIx 1) (Elt F) ℕ UU ℕ

variable (W : Valuation τ sig (Elt F)) (O : CellTallies nD τ sig (HIx 1)) (Wt : Waits sig (HIx 1))

/-- Proof data that constrain nothing, for the first call: -/
def rdF0 (c : Dev nD) : Pipeline.RDat τ (Elt F) (HIx 1) ℕ UU ℕ cfg0 c where
  A w := W (Pipeline.arrRef spec0 w)
  after _ _ _ _ := True
  Φ _ := Pipeline.scopedRest spec0 c
  q _ := fullShare
  owed _ := O
  recorded _ := {p | p ∈ Wt ∨ p.2 = none}
/-- and for the second. -/
def rdF2 (c : Dev nD) : Pipeline.RDat τ (Elt F) (HIx 1) ℕ UU ℕ cfg2 c where
  A w := W (Pipeline.arrRef spec2 w)
  after _ _ _ _ := True
  Φ _ := Pipeline.scopedRest spec2 c
  q _ := fullShare
  owed _ := O
  recorded _ := {p | p ∈ Wt ∨ p.2 = none}

def rdF : (p : Fin 2) → (c : Dev nD) → Pipeline.RDat τ (Elt F) (HIx 1) ℕ UU ℕ (Pipeline.pin (pcfgs (F := F)) adm p) c
  | ⟨0, _⟩ => fun c => rdF0 W O Wt c
  | ⟨1, _⟩ => fun c => rdF2 W O Wt c

set_option maxHeartbeats 1000000 in
/-- The first call's body at any point, on buffers at any contents: three loads and a store of part of the output's buffer. -/
theorem body0 (c : Dev nD) : (rdF0 W O Wt c).BodyObligation (defs₀ (F := F)) 𝒱₀ (none : HIx 1) Set.univ := fun t Y hY => by
  rw [bigSep_W0, bigSep_W0]
  show _ ⊢ wp frame _ _ (bodyAt0 t) _
  unfold bodyAt0
  simp only [cc0_prep_kernel_eq_skeleton]; unfold cc0_prep_kernel_skel
  unfold owns
  rw [show (rdF0 W O Wt c).Φ t.succ = (rdF0 W O Wt c).Φ t.castSucc from rfl,
    show (rdF0 W O Wt c).owesAt none t.succ = (rdF0 W O Wt c).owesAt none t.castSucc from rfl]
  iintro ⟨HΦ, HO, ⟨%f0, %hf0, H0⟩, ⟨%f1, %hf1, H1⟩, ⟨%f2, %hf2, H2⟩⟩
  sl_exec
  sl_step
  isplitl [HΦ]; · iexact HΦ
  isplitl [HO]; · iexact HO
  isplitl [H0]
  · iexists _; isplitr
    swap
    · iexists _; isplitr
      swap; · iexact H0
      ipureintro; rfl
    ipureintro; exact True.intro
  isplitl [H1]
  · iexists _; isplitr
    swap
    · iexists _; isplitr
      swap; · iexact H1
      ipureintro; rfl
    ipureintro; exact True.intro
  iexists _; isplitr
  swap
  · iexists _; isplitr
    swap; · iexact H2
    ipureintro; rfl
  ipureintro; exact True.intro

theorem rdF0_share (c : Dev nD) (w : Fin cfg0.W) : (rdF0 W O Wt c).share w = fullShare := by
  unfold Pipeline.RDat.share; split <;> rfl

/-- A call's arrays at contents Fs and the unscoped rest at V are the core's unscoped arrays at any valuation V' that has
    the call's arrays at Fs and agrees with V off them (the exact proof data's lemma, said of relational data). -/
theorem unscopedBufs_of_rarrays {p : Fin 2} (hw : Pipeline.WinFacts (Pipeline.pin (pcfgs (F := F)) adm p).spec)
    (harr : ∀ w, ((Pipeline.pin (pcfgs (F := F)) adm p).spec w).arr.IsWhole) (c : Dev nD)
    (rdats : (p : Fin 2) → (c : Dev nD) → Pipeline.RDat τ (Elt F) (HIx 1) ℕ UU ℕ (Pipeline.pin (pcfgs (F := F)) adm p) c)
    (hshare : ∀ w, (rdats p c).share w = fullShare)
    (V V' : (b : Ref sig .tc) → Buf (Elt F) ((c.tc : Thread nD τ).loc b))
    (Fs : (w : Fin (Pipeline.pin (pcfgs (F := F)) adm p).W) → Buf (Elt F) (((Pipeline.pin (pcfgs (F := F)) adm p).spec w).arr.view.loc (c.tc : Thread nD τ)))
    (hF : ∀ w, Fs w = V' (Pipeline.arrRef (Pipeline.pin (pcfgs (F := F)) adm p).spec w))
    (hrest : ∀ b, b ∉ Finset.univ.image (Pipeline.arrRef (Pipeline.pin (pcfgs (F := F)) adm p).spec) → V' b = V b) :
    (iprop((rdats p c).arrays Fs ∗ Pipeline.unscopedRest (Pipeline.pin (pcfgs (F := F)) adm p).spec c V) : sProp 𝕄) ⊢ unscopedBufs c V' := by
  rw [Pipeline.unscopedBufs_split (Pipeline.pin (pcfgs (F := F)) adm) p hw.arr_unscoped hw.arr_inj c V',
    Pipeline.RDat.arrays_eq (pcfgs (F := F)) adm rdats p c harr hshare]
  refine sep_mono (Entails.of_eq (bigSep_congr fun w _ => by rw [hF])) (Entails.of_eq ?_)
  unfold Pipeline.unscopedRest
  exact bigSep_congr fun b hb => by rw [hrest b (Finset.mem_sdiff.mp hb).2]

set_option backward.isDefEq.respectTransparency.types false in
/-- The first call over the thread state "every unscoped array held at W, the dues O": entered from it, left at it
    with the table at contents not named. -/
def R0 (hO : ∀ g, O g none = 0) :
    Pipeline.RDat.RegionSeg (pcfgs (F := F)) adm (rdF W O Wt) (none : HIx 1) (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body0 W O Wt c
  hwaits c := Pipeline.RDat.cellsWaits_intro (Pipeline.pin (pcfgs (F := F)) adm) (rdF W O Wt) (none : HIx 1) 0 c
    (fun w s t => (K (F := F)).mayWait_none _ hO)
  pre c := iprop(held (c.tc : Thread nD τ) (Pipeline.ucRefs τ sig) W ∗ owes (c.tc : Thread nD τ) O Wt)
  post c := iprop(∃ (Y : Buf (Elt F) (yLoc c main_v9)) (Wt' : Waits sig (HIx 1)), ⌜∀ q ∈ Wt', q ∈ Wt ∨ q.2 = none⌝
      ∗ held (c.tc : Thread nD τ) (Pipeline.ucRefs τ sig) (Function.update W v9' Y) ∗ owes (c.tc : Thread nD τ) O Wt')
  X _ := iprop(emp)
  Y _ := iprop(emp)
  Z c := Pipeline.unscopedRest spec0 c (fun b => W b)
  hentry c := by
    rw [Pipeline.ownSems0_none]
    have hsplit := Pipeline.RDat.arrays_of_unscopedBufs (p := 0) (pcfgs (F := F)) adm (rdF W O Wt) launch0.win launch0.arr_whole c
      (rdF0_share W O Wt c) (fun b => W b) (fun _ => rfl)
    rw [Pipeline.unscopedBufs_held] at hsplit
    iintro ⟨⟨Hub, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · iexists Wt; isplitr
      · ipureintro; exact fun p hp => Set.mem_union_left _ (Or.inl (Finset.mem_coe.mp hp))
      · iexact HO
    isplitr; · iempintro
    iexact Hrest
  hin c := by
    show _ ⊢ Pipeline.scopedRest spec0 c
    iintro ⟨-, -, Hr⟩; iexact Hr
  hout c := by
    rw [Pipeline.ownSems0_none]
    show Pipeline.scopedRest spec0 c ⊢ _
    iintro Hr
    isplitr; · iempintro
    isplitr; · iempintro
    iexact Hr
  hexit c := by
    have e0 := Pipeline.RDat.ArrAt_in (rd := rdF0 W O Wt c) (0 : Fin cfg0.W) rfl cfg0.N
    have e1 := Pipeline.RDat.ArrAt_in (rd := rdF0 W O Wt c) (1 : Fin cfg0.W) rfl cfg0.N
    show iprop((rdF0 W O Wt c).arraysAt cfg0.N ∗ (rdF0 W O Wt c).owesAt none (Fin.last cfg0.N) ∗ emp
        ∗ Pipeline.unscopedRest spec0 c (fun b => W b)) ⊢ _
    unfold Pipeline.RDat.arraysAt
    rw [bigSep_W0, e0, e1]
    iintro ⟨⟨⟨%F0, %h0, Ha0⟩, ⟨%F1, %h1, Ha1⟩, %F2, -, Ha2⟩, ⟨%Wt', %hWt', HO⟩, -, Hrest⟩
    subst h0 h1
    imodintro
    iexists F2, Wt'
    isplitr
    · ipureintro; intro q hq
      rcases hWt' (Finset.mem_coe.mpr hq) with h | ⟨w, s, rfl⟩
      · exact h
      · exact Or.inr rfl
    isplitr [HO]
    · iapply (Entails.of_eq (Pipeline.unscopedBufs_held c (Function.update W v9' F2)))
      iapply (unscopedBufs_of_rarrays (p := 0) launch0.win launch0.arr_whole c (rdF W O Wt) (rdF0_share W O Wt c) (fun b => W b)
        (fun b => Function.update W v9' F2 b)
        (fun w => Function.update W v9' F2 (Proc.devRef .tc (Pipeline.arrRef spec0 w)))
        (fun _ => rfl)
        (fun b hb => Function.update_of_ne (fun e => hb (Finset.mem_image.mpr ⟨2, Finset.mem_univ _, (Proc.devRef_injective _ e).symm⟩)) _ _))
      isplitr [Hrest]
      · unfold Pipeline.RDat.arrays
        rw [bigSep_W0]
        beta_reduce
        rw [show Function.update W v9' F2 (Proc.devRef .tc (Pipeline.arrRef spec0 0)) = (rdF0 W O Wt c).A 0 from
            Function.update_of_ne (show (Proc.devRef .tc (main_v2 : Ref sig .tc) : DevRef τ sig) ≠ v9' by decide) F2 W,
          show Function.update W v9' F2 (Proc.devRef .tc (Pipeline.arrRef spec0 1)) = (rdF0 W O Wt c).A 1 from
            Function.update_of_ne (show (Proc.devRef .tc (main_v8 : Ref sig .tc) : DevRef τ sig) ≠ v9' by decide) F2 W,
          show Function.update W v9' F2 (Proc.devRef .tc (Pipeline.arrRef spec0 2)) = F2 from Function.update_self v9' F2 W]
        isplitl [Ha0]; · iexact Ha0
        isplitl [Ha1]; · iexact Ha1
        iexact Ha2
      · iexact Hrest
    · iexact HO

/-- The first call as a step of @main, its output not named. -/
theorem reg0_frame [∀ e, Nonempty (Elt F e)] : RegSpec (F := F) 0 main_v9 (fun _ _ _ => True) := by
  intro d W O Wt hO Φ
  have hstep := region_step (R0 W O Wt hO) d Φ
  dsimp only [R0] at hstep
  iintro ⟨#Hlev, Hb, Hheld, HO, Hg, Ht, Hk⟩
  iapply hstep
  isplitl [Hk]
  · iintro ⟨Hb, %Y, %Wt', %hW, Hheld, HO⟩
    ispecialize Hk $$ %Y
    ispecialize Hk $$ %Wt'
    iapply Hk
    isplitr
    · ipureintro; exact ⟨True.intro, hW⟩
    isplitl [Hb]; · iexact Hb
    isplitl [Hheld]; · iexact Hheld
    iexact HO
  isplitl [Hb]; · iexact Hb
  isplitl [Hheld HO]
  · isplitl [Hheld]; · iexact Hheld
    iexact HO
  isplitr; · iexact Hlev
  isplitl [Hg]; · iexact Hg
  iexact Ht

end Cert.Proof.KB

end
-- ==== Proof.BReg2F.lean ====
/-
  The second pipelined call as a step of @main, in the form that says nothing of what it writes (as the first call's, in
  the module this one imports): six loads and two stores on buffers at any contents; the three input arrays end as they
  began, the output array at contents not named.
-/
import proofs.«217421_g60146722013857_cont_9to1c4b_519_37_alg».proof.Proof.BReg0

noncomputable section

namespace Cert.Proof.KB

open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_congr)

variable {F : FTy → Type} [FloatOps F]

local notation "𝕄" => MT nD τ sig (HIx 1) (Elt F) ℕ UU ℕ

variable (W : Valuation τ sig (Elt F)) (O : CellTallies nD τ sig (HIx 1)) (Wt : Waits sig (HIx 1))

set_option maxHeartbeats 1000000 in
/-- The second call's body at any point, on buffers at any contents. -/
theorem body2 (c : Dev nD) : (rdF2 W O Wt c).BodyObligation (defs₀ (F := F)) 𝒱₀ (none : HIx 1) Set.univ := fun t Y hY => by
  rw [bigSep_W2, bigSep_W2]
  show _ ⊢ wp frame _ _ (bodyAt2 t) _
  unfold bodyAt2
  simp only [cc2_mm_kernel_eq_skeleton]; unfold cc2_mm_kernel_skel
  unfold owns
  rw [show (rdF2 W O Wt c).Φ t.succ = (rdF2 W O Wt c).Φ t.castSucc from rfl,
    show (rdF2 W O Wt c).owesAt none t.succ = (rdF2 W O Wt c).owesAt none t.castSucc from rfl]
  iintro ⟨HΦ, HO, ⟨%f0, %hf0, H0⟩, ⟨%f1, %hf1, H1⟩, ⟨%f2, %hf2, H2⟩, ⟨%f3, %hf3, H3⟩⟩
  sl_exec
  sl_step
  isplitl [HΦ]; · iexact HΦ
  isplitl [HO]; · iexact HO
  isplitl [H0]
  · iexists _; isplitr
    swap
    · iexists _; isplitr
      swap; · iexact H0
      ipureintro; rfl
    ipureintro; exact True.intro
  isplitl [H1]
  · iexists _; isplitr
    swap
    · iexists _; isplitr
      swap; · iexact H1
      ipureintro; rfl
    ipureintro; exact True.intro
  isplitl [H2]
  · iexists _; isplitr
    swap
    · iexists _; isplitr
      swap; · iexact H2
      ipureintro; rfl
    ipureintro; exact True.intro
  iexists _; isplitr
  swap
  · iexists _; isplitr
    swap; · iexact H3
    ipureintro; rfl
  ipureintro; exact True.intro

theorem rdF2_share (c : Dev nD) (w : Fin cfg2.W) : (rdF2 W O Wt c).share w = fullShare := by
  unfold Pipeline.RDat.share; split <;> rfl

set_option backward.isDefEq.respectTransparency.types false in
/-- The second call over the thread state "every unscoped array held at W, the dues O": entered from it, left at it
    with the call's output array at contents not named. -/
def R2 (hO : ∀ g, O g none = 0) :
    Pipeline.RDat.RegionSeg (pcfgs (F := F)) adm (rdF W O Wt) (none : HIx 1) (defs₀ (F := F)) 𝒱₀ (K (F := F)).L (K (F := F)).lev 1 where
  win := launch2.win.to₀
  block_pos := launch2.block_pos
  stage_whole := launch2.stage_whole
  K := PEmpty
  osem k := k.elim
  ho := Pipeline.OwnSemFacts.none _
  hbody c := body2 W O Wt c
  hwaits c := Pipeline.RDat.cellsWaits_intro (Pipeline.pin (pcfgs (F := F)) adm) (rdF W O Wt) (none : HIx 1) 1 c
    (fun w s t => (K (F := F)).mayWait_none _ hO)
  pre c := iprop(held (c.tc : Thread nD τ) (Pipeline.ucRefs τ sig) W ∗ owes (c.tc : Thread nD τ) O Wt)
  post c := iprop(∃ (Y : Buf (Elt F) (yLoc c main_v12)) (Wt' : Waits sig (HIx 1)), ⌜∀ q ∈ Wt', q ∈ Wt ∨ q.2 = none⌝
      ∗ held (c.tc : Thread nD τ) (Pipeline.ucRefs τ sig) (Function.update W v12' Y) ∗ owes (c.tc : Thread nD τ) O Wt')
  X _ := iprop(emp)
  Y _ := iprop(emp)
  Z c := Pipeline.unscopedRest spec2 c (fun b => W b)
  hentry c := by
    rw [Pipeline.ownSems0_none]
    have hsplit := Pipeline.RDat.arrays_of_unscopedBufs (p := 1) (pcfgs (F := F)) adm (rdF W O Wt) launch2.win launch2.arr_whole c
      (rdF2_share W O Wt c) (fun b => W b) (fun _ => rfl)
    rw [Pipeline.unscopedBufs_held] at hsplit
    iintro ⟨⟨Hub, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · iexists Wt; isplitr
      · ipureintro; exact fun p hp => Set.mem_union_left _ (Or.inl (Finset.mem_coe.mp hp))
      · iexact HO
    isplitr; · iempintro
    iexact Hrest
  hin c := by
    show _ ⊢ Pipeline.scopedRest spec2 c
    iintro ⟨-, -, Hr⟩; iexact Hr
  hout c := by
    rw [Pipeline.ownSems0_none]
    show Pipeline.scopedRest spec2 c ⊢ _
    iintro Hr
    isplitr; · iempintro
    isplitr; · iempintro
    iexact Hr
  hexit c := by
    have e0 := Pipeline.RDat.ArrAt_in (rd := rdF2 W O Wt c) (0 : Fin cfg2.W) rfl cfg2.N
    have e1 := Pipeline.RDat.ArrAt_in (rd := rdF2 W O Wt c) (1 : Fin cfg2.W) rfl cfg2.N
    have e2 := Pipeline.RDat.ArrAt_in (rd := rdF2 W O Wt c) (2 : Fin cfg2.W) rfl cfg2.N
    show iprop((rdF2 W O Wt c).arraysAt cfg2.N ∗ (rdF2 W O Wt c).owesAt none (Fin.last cfg2.N) ∗ emp
        ∗ Pipeline.unscopedRest spec2 c (fun b => W b)) ⊢ _
    unfold Pipeline.RDat.arraysAt
    rw [bigSep_W2, e0, e1, e2]
    iintro ⟨⟨⟨%F0, %h0, Ha0⟩, ⟨%F1, %h1, Ha1⟩, ⟨%F2, %h2, Ha2⟩, %F3, -, Ha3⟩, ⟨%Wt', %hWt', HO⟩, -, Hrest⟩
    subst h0 h1 h2
    imodintro
    iexists F3, Wt'
    isplitr
    · ipureintro; intro q hq
      rcases hWt' (Finset.mem_coe.mpr hq) with h | ⟨w, s, rfl⟩
      · exact h
      · exact Or.inr rfl
    isplitr [HO]
    · iapply (Entails.of_eq (Pipeline.unscopedBufs_held c (Function.update W v12' F3)))
      iapply (unscopedBufs_of_rarrays (p := 1) launch2.win launch2.arr_whole c (rdF W O Wt) (rdF2_share W O Wt c) (fun b => W b)
        (fun b => Function.update W v12' F3 b)
        (fun w => Function.update W v12' F3 (Proc.devRef .tc (Pipeline.arrRef spec2 w)))
        (fun _ => rfl)
        (fun b hb => Function.update_of_ne (fun e => hb (Finset.mem_image.mpr ⟨3, Finset.mem_univ _, (Proc.devRef_injective _ e).symm⟩)) _ _))
      isplitr [Hrest]
      · unfold Pipeline.RDat.arrays
        rw [bigSep_W2]
        beta_reduce
        rw [show Function.update W v12' F3 (Proc.devRef .tc (Pipeline.arrRef spec2 0)) = (rdF2 W O Wt c).A 0 from
            Function.update_of_ne (show (Proc.devRef .tc (main_v11 : Ref sig .tc) : DevRef τ sig) ≠ v12' by decide) F3 W,
          show Function.update W v12' F3 (Proc.devRef .tc (Pipeline.arrRef spec2 1)) = (rdF2 W O Wt c).A 1 from
            Function.update_of_ne (show (Proc.devRef .tc (main_arg3 : Ref sig .tc) : DevRef τ sig) ≠ v12' by decide) F3 W,
          show Function.update W v12' F3 (Proc.devRef .tc (Pipeline.arrRef spec2 2)) = (rdF2 W O Wt c).A 2 from
            Function.update_of_ne (show (Proc.devRef .tc (main_v10 : Ref sig .tc) : DevRef τ sig) ≠ v12' by decide) F3 W,
          show Function.update W v12' F3 (Proc.devRef .tc (Pipeline.arrRef spec2 3)) = F3 from Function.update_self v12' F3 W]
        isplitl [Ha0]; · iexact Ha0
        isplitl [Ha1]; · iexact Ha1
        isplitl [Ha2]; · iexact Ha2
        iexact Ha3
      · iexact Hrest
    · iexact HO

/-- The second call as a step of @main, its output not named. -/
theorem reg2_frame [∀ e, Nonempty (Elt F e)] : RegSpec (F := F) 1 main_v12 (fun _ _ _ => True) := by
  intro d W O Wt hO Φ
  have hstep := region_step (R2 W O Wt hO) d Φ
  dsimp only [R2] at hstep
  iintro ⟨#Hlev, Hb, Hheld, HO, Hg, Ht, Hk⟩
  iapply hstep
  isplitl [Hk]
  · iintro ⟨Hb, %Y, %Wt', %hW, Hheld, HO⟩
    ispecialize Hk $$ %Y
    ispecialize Hk $$ %Wt'
    iapply Hk
    isplitr
    · ipureintro; exact ⟨True.intro, hW⟩
    isplitl [Hb]; · iexact Hb
    isplitl [Hheld]; · iexact Hheld
    iexact HO
  isplitl [Hb]; · iexact Hb
  isplitl [Hheld HO]
  · isplitl [Hheld]; · iexact Hheld
    iexact HO
  isplitr; · iexact Hlev
  isplitl [Hg]; · iexact Hg
  iexact Ht

end Cert.Proof.KB

end
-- ==== Proof.BTileFrame.lean ====
/-
  The body obligation of the lookup's SparseCore kernel, the gathered contents left unnamed: every vector subcore's
  task runs to its end from what it is handed — a read share of the table, its block of the index list, its block of
  the row buffer chunk by chunk — to the same with each chunk at SOME contents. The index block is fetched; chunk 0's
  gather into rows A starts; trip k starts the gather of chunk 2k+1 into rows B, waits for chunk 2k, copies rows A out,
  starts the gather of chunk 2k+2 into rows A (k < 49), waits for chunk 2k+1, copies rows B out. Two gathers are in
  flight at once: each borrows half of the subcore's share of the table and half of the index scratch.
-/
import proofs.«217421_g60146722013857_cont_9to1c4b_519_37_alg».proof.Proof.BCommon

noncomputable section

namespace Cert.Proof.KB
namespace Frame

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "tV" => (Memref.whole Cert.Kernel.main_v9_scv : Memref Cert.Kernel.sig Kind.scVector Space.hbm Cert.Kernel.S1000000x128 EltTy.f32)
local notation "iV" => (Memref.whole Cert.Kernel.main_v1_scv : Memref Cert.Kernel.sig Kind.scVector Space.hbm Cert.Kernel.S819200 EltTy.i32)
local notation "oV" => (Memref.whole Cert.Kernel.main_v11_scv : Memref Cert.Kernel.sig Kind.scVector Space.hbm Cert.Kernel.S819200x128 EltTy.f32)
local notation "sI" => (Memref.whole Cert.Kernel.cc1_scratch0 : Memref Cert.Kernel.sig Kind.scVector Space.vmem Cert.Kernel.S25600 EltTy.i32)
local notation "sA" => (Memref.whole Cert.Kernel.cc1_scratch1 : Memref Cert.Kernel.sig Kind.scVector Space.vmem Cert.Kernel.S256x128 EltTy.f32)
local notation "sB" => (Memref.whole Cert.Kernel.cc1_scratch2 : Memref Cert.Kernel.sig Kind.scVector Space.vmem Cert.Kernel.S256x128 EltTy.f32)

/-! ## The index list is in range wherever the token words are -/

/-- Every word of the index list is one of the token words (the list is their transpose, flattened). -/
theorem idx_in_range [FloatOps F] (m : (ℓ : Loc nD τ sig) → Buf (Elt F) ℓ) (h : ∀ (d : Dev nD) j, (m (idsLoc d) j).toNat < 1000000) :
    ∀ (d : Dev nD) p, (idxV m d p).toNat < 1000000 := by
  intro d p
  unfold idxV shapeCast transpose
  exact h d _

variable (m : (ℓ : Loc nD τ sig) → Buf (Elt F) ℓ)
variable [FloatOps F]

/-! ## A vector subcore's thread, semaphores and scratch -/

section Tile

variable (d : Dev nD) (L : grid1.Coords)

abbrev cV : Fin τ.nSC := (L 0).castLE hcore1
abbrev jV : Fin τ.nSub := (L 1).castLE hsub1
/-- The thread of the vector subcore at grid point `L`. -/
abbrev TH : Thread nD τ := V d (cV L) (jV L)

abbrev cellGA : GSem nD τ sig := (TH d L, .dma cc1_scratch3.sem)
abbrev cellGB : GSem nD τ sig := (TH d L, .dma cc1_scratch4.sem)
abbrev cell0 : GSem nD τ sig := (TH d L, .dma cc1_scoped0.sem)
abbrev cell1 : GSem nD τ sig := (TH d L, .dma cc1_scoped1.sem)
abbrev cell2 : GSem nD τ sig := (TH d L, .dma cc1_scoped2.sem)

theorem cell_ne {a b : DmaSem sig} (h : a ≠ b) : ((TH d L, SemLoc.dma a) : GSem nD τ sig) ≠ (TH d L, SemLoc.dma b) :=
  fun e => h (SemLoc.dma.inj (Prod.mk.inj e).2)

theorem cell_own (a : DmaSem sig) (h : (SemLoc.dma a : SemLoc sig).isScoped .scVector = true) :
    ((TH d L, SemLoc.dma a) : GSem nD τ sig) ∈ ownCells (TH d L) := (mem_ownCells (g := (TH d L, SemLoc.dma a))).mpr ⟨rfl, h⟩

theorem ownSems0_V :
    (ownSems0 (TH d L) : sProp 𝕄)
      = iprop(semVal (cellGA d L) 0 ∗ semVal (cellGB d L) 0 ∗ semVal (cell0 d L) 0 ∗ semVal (cell1 d L) 0 ∗ semVal (cell2 d L) 0
          ∗ bigSep (((((ownCells (TH d L)).erase (cellGA d L)).erase (cellGB d L)).erase (cell0 d L)).erase (cell1 d L) |>.erase (cell2 d L))
              fun g => semVal g 0) := by
  unfold SparseCore.Cfg.ownSems0
  have oA := cell_own d L cc1_scratch3.sem (by decide)
  have oB := cell_own d L cc1_scratch4.sem (by decide)
  have o0 := cell_own d L cc1_scoped0.sem (by decide)
  have o1 := cell_own d L cc1_scoped1.sem (by decide)
  have o2 := cell_own d L cc1_scoped2.sem (by decide)
  have nBA := cell_ne d L (show cc1_scratch4.sem ≠ cc1_scratch3.sem by decide)
  have n0A := cell_ne d L (show cc1_scoped0.sem ≠ cc1_scratch3.sem by decide)
  have n0B := cell_ne d L (show cc1_scoped0.sem ≠ cc1_scratch4.sem by decide)
  have n1A := cell_ne d L (show cc1_scoped1.sem ≠ cc1_scratch3.sem by decide)
  have n1B := cell_ne d L (show cc1_scoped1.sem ≠ cc1_scratch4.sem by decide)
  have n10 := cell_ne d L (show cc1_scoped1.sem ≠ cc1_scoped0.sem by decide)
  have n2A := cell_ne d L (show cc1_scoped2.sem ≠ cc1_scratch3.sem by decide)
  have n2B := cell_ne d L (show cc1_scoped2.sem ≠ cc1_scratch4.sem by decide)
  have n20 := cell_ne d L (show cc1_scoped2.sem ≠ cc1_scoped0.sem by decide)
  have n21 := cell_ne d L (show cc1_scoped2.sem ≠ cc1_scoped1.sem by decide)
  rw [SparseCore.bigSep_erase' oA,
    SparseCore.bigSep_erase' (Finset.mem_erase.mpr ⟨nBA, oB⟩),
    SparseCore.bigSep_erase' (Finset.mem_erase.mpr ⟨n0B, Finset.mem_erase.mpr ⟨n0A, o0⟩⟩),
    SparseCore.bigSep_erase' (Finset.mem_erase.mpr ⟨n10, Finset.mem_erase.mpr ⟨n1B, Finset.mem_erase.mpr ⟨n1A, o1⟩⟩⟩),
    SparseCore.bigSep_erase' (Finset.mem_erase.mpr ⟨n21, Finset.mem_erase.mpr ⟨n20, Finset.mem_erase.mpr ⟨n2B, Finset.mem_erase.mpr ⟨n2A, o2⟩⟩⟩⟩)]

/-- The three scratch buffers are among the subcore's own: they are them, at some contents, and the rest. -/
theorem ownBufs_V :
    (ownBufs (TH d L) : sProp 𝕄)
      = iprop((∃ f, (TH d L).loc cc1_scratch0 ↦{fullShare} f) ∗ (∃ f, (TH d L).loc cc1_scratch1 ↦{fullShare} f)
          ∗ (∃ f, (TH d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

variable (TabOK : (d : Dev nD) → Buf (Elt F) (tabLoc d) → Prop)

/-- What a vector subcore hands back, the gathered contents left unnamed: the table share, its block of the index
    list, and each chunk of its block of the row buffer at some contents. -/
def tdA' (d : Dev nD) (L : grid1.Coords) : sProp 𝕄 :=
  iprop(∃ T : Buf (Elt F) (tabLoc d), ⌜TabOK d T⌝ ∗ (tabLoc d ↦{tq L} T)
    ∗ (idxLoc d ↦[(idxM L).view.set]{fullShare} idxV m d)
    ∗ bigSep Finset.univ fun k : Fin k1_t1_loop.trips =>
        iprop((∃ f, outLoc d ↦[(outA L k).view.set]{fullShare} f) ∗ (∃ f, outLoc d ↦[(outB L k).view.set]{fullShare} f)))

/-- The arrays as the subcore's memrefs address them are the TensorCore's arrays, and its scratch its own. -/
theorem pts_idx (f : Buf (Elt F) (idxLoc d)) :
    ((idxM L).view.loc (TH d L) ↦[(idxM L).view.set]{fullShare} f : sProp 𝕄) = idxLoc d ↦[(idxM L).view.set]{fullShare} f := rfl
theorem pts_tab (q : PosShare TreeShare) (f : Buf (Elt F) (tabLoc d)) :
    ((tV).view.loc (TH d L) ↦{q} f : sProp 𝕄) = tabLoc d ↦{q} f := rfl
theorem pts_outA (k : Fin k1_t1_loop.trips) (f : Buf (Elt F) (outLoc d)) :
    ((outA L k).view.loc (TH d L) ↦[(outA L k).view.set]{fullShare} f : sProp 𝕄) = outLoc d ↦[(outA L k).view.set]{fullShare} f := rfl
theorem pts_outB (k : Fin k1_t1_loop.trips) (f : Buf (Elt F) (outLoc d)) :
    ((outB L k).view.loc (TH d L) ↦[(outB L k).view.set]{fullShare} f : sProp 𝕄) = outLoc d ↦[(outB L k).view.set]{fullShare} f := rfl
theorem pts_sI (q : PosShare TreeShare) (f : Buf (Elt F) ((TH d L).loc cc1_scratch0)) :
    ((sI).view.loc (TH d L) ↦{q} f : sProp 𝕄) = (TH d L).loc cc1_scratch0 ↦{q} f := rfl
theorem pts_sA (f : Buf (Elt F) ((TH d L).loc cc1_scratch1)) :
    ((sA).view.loc (TH d L) ↦{fullShare} f : sProp 𝕄) = (TH d L).loc cc1_scratch1 ↦{fullShare} f := rfl
theorem pts_sB (f : Buf (Elt F) ((TH d L).loc cc1_scratch2)) :
    ((sB).view.loc (TH d L) ↦{fullShare} f : sProp 𝕄) = (TH d L).loc cc1_scratch2 ↦{fullShare} f := rfl

/-- Words written whole into the index scratch, each in range, read in range through any slice of it. -/
theorem fetched_inb {w : S25600.Idx → Elt F .i32} (hw : ∀ y, (w y).toNat < 1000000) (fi0 : (sI).view.ty.Contents (Elt F))
    (r : Rect S25600) (hr : ∀ a, r.stride a = 1) (x : r.shape.Idx) :
    (View.read (Elt F) ((sI).slice r hr).view (View.write (Elt F) (sI).view fi0 w Finset.univ) x).toNat < 1000000 := by
  have e : View.read (Elt F) ((sI).slice r hr).view (View.write (Elt F) (sI).view fi0 w Finset.univ) x
      = View.read (Elt F) (sI).view (View.write (Elt F) (sI).view fi0 w Finset.univ) (r.emb x) := rfl
  rw [e, View.read_write_of_mem _ _ (Finset.mem_univ _)]; exact hw _

/-- Elements carved out of a buffer and the rest, at the same contents, are the buffer whole. -/
theorem rejoin {ℓ : Loc nD τ sig} (I : Finset (Idx ℓ)) (q : PosShare TreeShare) (f : Buf (Elt F) ℓ) :
    iprop((ℓ ↦[I]{q} f) ∗ ℓ ↦[Finset.univ \ I]{q} f) ⊢ (ℓ ↦{q} f : sProp 𝕄) :=
  (pointsTo_split_subset (Finset.subset_univ I)).2

/-- A wait at the default index recorded keeps the recorded waits within the bound. -/
theorem waits_ins {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact h p hp

/-- The words of the index scratch are in range, read through any slice of it. -/
structure InRange (fI : Buf (Elt F) ((sI).view.loc (TH d L))) : Prop where
  h : ∀ (r : Rect S25600) (hr : ∀ a, r.stride a = 1) (x : r.shape.Idx), (View.read (Elt F) ((sI).slice r hr).view fI x).toNat < 1000000

/-- An assertion set aside, kept as it is. -/
def hide (P : sProp 𝕄) : sProp 𝕄 := P
theorem hide_eq (P : sProp 𝕄) : hide P = P := rfl

/-- The table's and the index scratch's read shares of the two gathers in flight at once. -/
abbrev qTa : PosShare TreeShare := (tq L).left
abbrev qTb : PosShare TreeShare := (tq L).right
abbrev qIa : PosShare TreeShare := fullShare.left
abbrev qIb : PosShare TreeShare := fullShare.right

variable (O : CellTallies nD τ sig (HIx 1)) (W : Waits sig (HIx 1))
variable (T : Buf (Elt F) (tabLoc d)) (fI : Buf (Elt F) ((sI).view.loc (TH d L)))

/-- A gather into rows A in flight: its flight delivers rows A at some contents, the elements of the index scratch and
    of the table it borrowed; what it did not borrow stays beside it. -/
def flA : sProp 𝕄 :=
  iprop(∃ (ga : Buf (Elt F) ((sA).view.loc (TH d L))) (So : Finset (Idx ((sI).view.loc (TH d L)))) (St : Finset (Idx ((tV).view.loc (TH d L)))),
    Transfers.Flight (countersEmb : UEmb Counters 𝕄) (TH d L) (SemLoc.dma cc1_scratch3.sem) default 1048576
        iprop((((sA).view.loc (TH d L) ↦[(sA).view.set]{fullShare} ga) ∗ ((sI).view.loc (TH d L) ↦[So]{qIa} fI)) ∗ ((tV).view.loc (TH d L) ↦[St]{qTa L} T))
      ∗ ((tV).view.loc (TH d L) ↦[Finset.univ \ St]{qTa L} T)
      ∗ ((sA).view.loc (TH d L) ↦[Finset.univ \ (sA).view.set]{fullShare} ga)
      ∗ ((sI).view.loc (TH d L) ↦[Finset.univ \ So]{qIa} fI))

/-- Rows A idle: the buffer, its semaphore at zero, the shares back. -/
def idleA : sProp 𝕄 :=
  iprop((∃ ga, (sA).view.loc (TH d L) ↦{fullShare} ga) ∗ semVal (cellGA d L) 0
    ∗ ((tV).view.loc (TH d L) ↦{qTa L} T) ∗ ((sI).view.loc (TH d L) ↦{qIa} fI))

/-- The chunks of the subcore's block of the row buffer, each at some contents. -/
def outChunks : sProp 𝕄 :=
  bigSep Finset.univ fun k : Fin k1_t1_loop.trips =>
    iprop((∃ f, (outA L k).view.loc (TH d L) ↦[(outA L k).view.set]{fullShare} f) ∗ (∃ f, (outB L k).view.loc (TH d L) ↦[(outB L k).view.set]{fullShare} f))

/-- Before trip `k`: rows B, its semaphore and its shares idle; the copy-out semaphores at zero; the chunks; the gather of
    chunk `2 k` in flight into rows A (none left after the last trip); what the subcore owes. -/
def Inv (k : Nat) (_ : PUnit) : sProp 𝕄 :=
  iprop(Transfers.MayWaits (TH d L) (none : HIx 1) O
    ∗ ((tV).view.loc (TH d L) ↦{qTb L} T) ∗ ((sI).view.loc (TH d L) ↦{qIb} fI)
    ∗ (∃ gb, (sB).view.loc (TH d L) ↦{fullShare} gb) ∗ semVal (cellGB d L) 0
    ∗ semVal (cell1 d L) 0 ∗ semVal (cell2 d L) 0
    ∗ outChunks d L
    ∗ (if k < 50 then flA d L T fI else idleA d L T fI)
    ∗ ∃ W', ⌜∀ p ∈ W', p ∈ W ∨ p.2 = none⌝ ∗ owes (TH d L) O W')

set_option maxRecDepth 65536 in
set_option maxHeartbeats 4000000 in
/-- One trip of the loop, from the invariant before it to the invariant after it. -/
theorem trip (hI : InRange d L fI) (k : Fin k1_t1_loop.trips) (u : PUnit) :
    Inv d L O W T fI k.val u
      ⊢ wp frame (wpE (defs₀ (F := F)) 𝒱₀ (TH d L) none) Set.univ
          (k1_t1_body L tV (Memref.isWhole_whole _) iV (Memref.isWhole_whole _) oV (Memref.isWhole_whole _)
            sI (Memref.isWhole_whole _) sA (Memref.isWhole_whole _) sB (Memref.isWhole_whole _) cc1_scratch3 cc1_scratch4 cc1_scoped0 cc1_scoped1 cc1_scoped2 k u)
          (Inv d L O W T fI (k.val + 1)) := by
  have hk50 : k.val < 50 := trips_eq ▸ k.isLt
  have k1_h1 : k1_cond1 k = 1#1 := cond1_true k
  have k1_h3 : k1_cond3 k = 1#1 := cond3_true k
  unfold Inv
  rw [if_pos hk50]
  unfold flA outChunks
  unfold k1_t1_body
  iintro ⟨#Hmw, HtB, HiB, ⟨%gb, Hsb⟩, HcB, Hc1, Hc2, HOUT, HFLA, %W', %hW', HO⟩
  ihave HOUT' := (Transfers.bigSep_univ_out k _) $$ HOUT
  icases HOUT' with ⟨HK, Hout⟩
  icases HK with ⟨⟨%fa, HoA⟩, ⟨%fb, HoB⟩⟩
  icases HFLA with ⟨%ga, %So, %St, HcA, HtAr, HsaR, HiAr⟩
  ihave HtArH := (Entails.of_eq (hide_eq (F := F) _).symm) $$ HtAr
  ihave HiArH := (Entails.of_eq (hide_eq (F := F) _).symm) $$ HiAr
  have hinB := hI.h (Rect.unit (s := S25600) (k1_off2 k) S256.size (k1_off2_inb k k1_h1)) (fun _ => rfl)
  rcases Nat.lt_or_ge k.val 49 with h49 | h49
  · have k1_h2 : k1_cond2 k = 1#1 := (cond2_iff k).2 h49
    rw [if_pos (show k.val + 1 < 50 by omega)]
    -- chunk 2k+1's gather starts; chunk 2k has landed in rows A
    sl_exec
    icases HcA_dst with ⟨HsaD, HiAD⟩
    ihave Hsa := (rejoin (F := F) _ _ _) $$ [HsaD HsaR]
    · isplitl [HsaD]; · iexact HsaD
      iexact HsaR
    -- rows A go out to chunk 2k of the block
    sl_exec
    ihave HtAr := (Entails.of_eq (hide_eq (F := F) _)) $$ HtArH
    ihave HiAr := (Entails.of_eq (hide_eq (F := F) _)) $$ HiArH
    ihave HtA := (rejoin (F := F) _ _ _) $$ [HcA_src HtAr]
    · isplitl [HcA_src]; · iexact HcA_src
      iexact HtAr
    ihave HiA := (rejoin (F := F) _ _ _) $$ [HiAD HiAr]
    · isplitl [HiAD]; · iexact HiAD
      iexact HiAr
    ihave HtBH := (Entails.of_eq (hide_eq (F := F) _).symm) $$ HtB
    ihave HiBH := (Entails.of_eq (hide_eq (F := F) _).symm) $$ HiB
    ihave HcBH := (Entails.of_eq (hide_eq (F := F) _).symm) $$ HcB
    have hinA := hI.h (Rect.unit (s := S25600) (k1_off5 k) S256.size (k1_off5_inb k k1_h2)) (fun _ => rfl)
    -- chunk 2k+2's gather starts into rows A
    sl_exec
    ihave HtB := (Entails.of_eq (hide_eq (F := F) _)) $$ HtBH
    ihave HiB := (Entails.of_eq (hide_eq (F := F) _)) $$ HiBH
    ihave HcB := (Entails.of_eq (hide_eq (F := F) _)) $$ HcBH
    -- chunk 2k+1 has landed in rows B, which go out to chunk 2k+1 of the block
    sl_exec
    sl_step
    isplitl [Hmw]; · iexact Hmw
    isplitl [HtB]; · iexact HtB
    isplitl [HiB]; · iexact HiB
    isplitl [Hsb]; · iexists _; iexact Hsb
    isplitl [HcB]; · iexact HcB
    isplitl [Hc1]; · iexact Hc1
    isplitl [Hc2]; · iexact Hc2
    isplitl [HoA HoB Hout]
    · iapply (Transfers.bigSep_univ_in k _)
      isplitl [HoA HoB]
      · isplitl [HoA]
        · iexists _; iexact HoA
        · iexists _; iexact HoB
      · iexact Hout
    isplitl [HcA HtA Hsa HiA]
    · iexists _; iexists _; iexists _
      isplitl [HcA]; · iexact HcA
      isplitl [HtA]; · iexact HtA
      isplitl [Hsa]; · iexact Hsa
      iexact HiA
    iexists _; isplitr
    rotate_left
    · iexact HO
    · ipureintro; exact waits_ins (waits_ins (waits_ins (waits_ins hW' _) _) _) _
  · have k1_h2 : ¬ k1_cond2 k = 1#1 := fun h => absurd ((cond2_iff k).1 h) (by omega)
    rw [if_neg (show ¬ k.val + 1 < 50 by omega)]
    unfold idleA
    -- chunk 2k+1's gather starts; chunk 2k has landed in rows A
    sl_exec
    icases HcA_dst with ⟨HsaD, HiAD⟩
    ihave Hsa := (rejoin (F := F) _ _ _) $$ [HsaD HsaR]
    · isplitl [HsaD]; · iexact HsaD
      iexact HsaR
    -- rows A go out to chunk 2k; no further gather; rows B land and go out to chunk 2k+1
    sl_exec
    ihave HtAr := (Entails.of_eq (hide_eq (F := F) _)) $$ HtArH
    ihave HiAr := (Entails.of_eq (hide_eq (F := F) _)) $$ HiArH
    ihave HtA := (rejoin (F := F) _ _ _) $$ [HcA_src HtAr]
    · isplitl [HcA_src]; · iexact HcA_src
      iexact HtAr
    ihave HiA := (rejoin (F := F) _ _ _) $$ [HiAD HiAr]
    · isplitl [HiAD]; · iexact HiAD
      iexact HiAr
    sl_step
    isplitl [Hmw]; · iexact Hmw
    isplitl [HtB]; · iexact HtB
    isplitl [HiB]; · iexact HiB
    isplitl [Hsb]; · iexists _; iexact Hsb
    isplitl [HcB]; · iexact HcB
    isplitl [Hc1]; · iexact Hc1
    isplitl [Hc2]; · iexact Hc2
    isplitl [HoA HoB Hout]
    · iapply (Transfers.bigSep_univ_in k _)
      isplitl [HoA HoB]
      · isplitl [HoA]
        · iexists _; iexact HoA
        · iexists _; iexact HoB
      · iexact Hout
    isplitl [Hsa HcA HtA HiA]
    · isplitl [Hsa]; · iexists _; iexact Hsa
      isplitl [HcA]; · iexact HcA
      isplitl [HtA]; · iexact HtA
      iexact HiA
    iexists _; isplitr
    rotate_left
    · iexact HO
    · ipureintro; exact waits_ins (waits_ins (waits_ins (waits_ins hW' _) _) _) _

theorem chunk_launch (k : Fin k1_t1_loop.trips) :
    (iprop((outLoc d ↦[(outA L k).view.set]{fullShare} m (outLoc d)) ∗ (outLoc d ↦[(outB L k).view.set]{fullShare} m (outLoc d))) : sProp 𝕄)
      ⊢ iprop((∃ f, (outA L k).view.loc (TH d L) ↦[(outA L k).view.set]{fullShare} f) ∗ (∃ f, (outB L k).view.loc (TH d L) ↦[(outB L k).view.set]{fullShare} f)) := by
  iintro ⟨HA, HB⟩
  isplitl [HA]
  · iexists _; iexact HA
  · iexists _; iexact HB

/-- The launch contents of the chunks are some contents. -/
theorem outChunks_of_launch :
    (bigSep Finset.univ fun k : Fin k1_t1_loop.trips =>
        iprop((outLoc d ↦[(outA L k).view.set]{fullShare} m (outLoc d)) ∗ (outLoc d ↦[(outB L k).view.set]{fullShare} m (outLoc d))) : sProp 𝕄)
      ⊢ outChunks d L := by
  unfold outChunks
  exact BI.bigSep_mono fun k _ => chunk_launch m d L k

/-- The two halves of the table's share are the share; of the index scratch's, the scratch outright. -/
theorem tab_join : (iprop(((tV).view.loc (TH d L) ↦{qTa L} T) ∗ ((tV).view.loc (TH d L) ↦{qTb L} T)) : sProp 𝕄) ⊢ (tabLoc d ↦{tq L} T : sProp 𝕄) :=
  (pointsTo_share (PosShare.mem_left_op_right (tq L))).2
theorem sI_join (f : Buf (Elt F) ((sI).view.loc (TH d L))) :
    (iprop(((sI).view.loc (TH d L) ↦{qIa} f) ∗ ((sI).view.loc (TH d L) ↦{qIb} f)) : sProp 𝕄) ⊢ ((TH d L).loc cc1_scratch0 ↦{fullShare} f : sProp 𝕄) :=
  (pointsTo_share (PosShare.mem_left_op_right fullShare)).2

set_option maxRecDepth 65536 in
set_option maxHeartbeats 4000000 in
/-- The kernel on one vector subcore: the index block fetched, the first gather started, the fifty trips by the
    invariant, and at the end everything idle again. -/
theorem tile_body (hF : (K (F := F)).Facts) (hin : ∀ (d : Dev nD) p, (idxV m d p).toNat < 1000000)
    (hO : ∀ g, O g none = 0) :
    iprop(levAts (K (F := F)).L (K (F := F)).lev ∗ emp ∗ goA m TabOK d L
        ∗ scopedBufs (TH d L) ∗ scopedSems0 (TH d L) ∗ owes (TH d L) O W)
      ⊢ wp frame (wpE (defs₀ (F := F)) 𝒱₀ (TH d L) none) Set.univ
          (cc1_gather_kernel L tV (Memref.isWhole_whole _) iV (Memref.isWhole_whole _) oV (Memref.isWhole_whole _)
            sI (Memref.isWhole_whole _) sA (Memref.isWhole_whole _) sB (Memref.isWhole_whole _) cc1_scratch3 cc1_scratch4 cc1_scoped0 cc1_scoped1 cc1_scoped2)
          fun _ => iprop(tdA' m TabOK d L ∗ scopedBufs (TH d L) ∗ scopedSems0 (TH d L)
            ∗ ∃ W', ⌜∀ p ∈ W', p ∈ W ∨ p.2 = none⌝ ∗ owes (TH d L) O W') := by
  simp only [cc1_gather_kernel_eq_skeleton]; unfold cc1_gather_kernel_skel
  rw [(K (F := F)).scopedBufs_V hF d (cV L) (jV L), SparseCore.Cfg.scopedSems0_V (Val := Elt F) d (cV L) (jV L), ownSems0_V, ownBufs_V]
  unfold goA
  iintro ⟨#Hlv, -, ⟨%T, %hT, Ht, Hix, Hout⟩, ⟨⟨%fi0, Hsi⟩, ⟨%fa0, Hsa⟩, ⟨%fb0, Hsb⟩, Hbufs⟩, ⟨HcA, HcB, Hc0, Hc1, Hc2, Hsems⟩, HO⟩
  ihave Hmw := ((K (F := F)).mayWaits_none (thr := TH d L) hO) $$ Hlv
  ihave Hix' := (Entails.of_eq (pts_idx (F := F) d L _).symm) $$ Hix
  ihave Hsi' := (Entails.of_eq (pts_sI (F := F) d L _ _).symm) $$ Hsi
  ihave Hsa' := (Entails.of_eq (pts_sA (F := F) d L _).symm) $$ Hsa
  ihave Hsb' := (Entails.of_eq (pts_sB (F := F) d L _).symm) $$ Hsb
  ihave Ht' := (Entails.of_eq (pts_tab (F := F) d L _ _).symm) $$ Ht
  -- the index block comes in
  sl_exec
  have hI : InRange d L (View.write (Elt F) (sI).view fi0 (tile_body.sl.dma0 m d L) Finset.univ) :=
    ⟨fun r hr x => fetched_inb (fun y => hin d _) fi0 r hr x⟩
  -- the shares of the two gathers that are in flight at once
  ihave Hsi2 := (pointsTo_share (PosShare.mem_left_op_right fullShare)).1 $$ Hsi'
  icases Hsi2 with ⟨HiA, HiB⟩
  ihave Ht2 := (pointsTo_share (PosShare.mem_left_op_right (tq L))).1 $$ Ht'
  icases Ht2 with ⟨HtA, HtB⟩
  ihave HiBH := (Entails.of_eq (hide_eq (F := F) _).symm) $$ HiB
  ihave HtBH := (Entails.of_eq (hide_eq (F := F) _).symm) $$ HtB
  have hin0 := hI.h (Rect.unit (s := S25600) ![0] S256.size inb_S25600_S256_0) (fun _ => rfl)
  -- chunk 0's gather starts
  sl_exec
  ihave HiB := (Entails.of_eq (hide_eq (F := F) _)) $$ HiBH
  ihave HtB := (Entails.of_eq (hide_eq (F := F) _)) $$ HtBH
  ihave Hout' := (outChunks_of_launch (F := F) m d L) $$ Hout
  sl_for (Inv d L O W T (View.write (Elt F) (sI).view fi0 (tile_body.sl.dma0 m d L) Finset.univ)) $$ [Hmw HtB HiB Hsb' HcB Hc1 Hc2 Hout' HcA HtA Hsa' HiA HO]
  case region =>
    intro k u
    exact trip d L O W T _ hI k u
  · unfold Inv
    rw [if_pos (show (0 : ℕ) < 50 by decide)]
    unfold flA
    isplitl [Hmw]; · iexact Hmw
    isplitl [HtB]; · iexact HtB
    isplitl [HiB]; · iexact HiB
    isplitl [Hsb']; · iexists _; iexact Hsb'
    isplitl [HcB]; · iexact HcB
    isplitl [Hc1]; · iexact Hc1
    isplitl [Hc2]; · iexact Hc2
    isplitl [Hout']; · iexact Hout'
    isplitl [HcA HtA Hsa' HiA]
    · iexists _; iexists _; iexists _
      isplitl [HcA]; · iexact HcA
      isplitl [HtA]; · iexact HtA
      isplitl [Hsa']; · iexact Hsa'
      iexact HiA
    iexists _; isplitr
    rotate_left
    · iexact HO
    · ipureintro; exact waits_ins (fun p hp => .inl hp) _
  iintro %acc HI
  unfold Inv
  rw [if_neg (show ¬ k1_t1_loop.trips < 50 by rw [trips_eq]; decide)]
  unfold idleA
  icases HI with ⟨-, HtB, HiB, ⟨%gb, Hsb⟩, HcB, Hc1, Hc2, Hout, ⟨⟨%ga, Hsa⟩, HcA, HtA, HiA⟩, %W', %hW', HO⟩
  sl_exec
  sl_step
  isplitl [HtA HtB Hix' Hout]
  · unfold tdA'
    iexists T
    isplitr; · ipureintro; exact hT
    isplitl [HtA HtB]
    · iapply (tab_join (F := F) d L T)
      isplitl [HtA]; · iexact HtA
      iexact HtB
    isplitl [Hix']; · iexact Hix'
    unfold outChunks; iexact Hout
  isplitl [HiA HiB Hsa Hsb Hbufs]
  · isplitl [HiA HiB]
    · iexists _
      iapply (sI_join (F := F) d L _)
      isplitl [HiA]; · iexact HiA
      iexact HiB
    isplitl [Hsa]; · iexists _; iexact Hsa
    isplitl [Hsb]; · iexists _; iexact Hsb
    iexact Hbufs
  isplitl [HcA HcB Hc0 Hc1 Hc2 Hsems]
  · isplitl [HcA]; · iexact HcA
    isplitl [HcB]; · iexact HcB
    isplitl [Hc0]; · iexact Hc0
    isplitl [Hc1]; · iexact Hc1
    isplitl [Hc2]; · iexact Hc2
    iexact Hsems
  iexists W'; isplitr
  · ipureintro; exact hW'
  · iexact HO

end Tile

/-! ## The launch theorem's obligation -/

variable (TabOK : (d : Dev nD) → Buf (Elt F) (tabLoc d) → Prop)

/-- The one SparseCore call, the vector subcores' results at unnamed gathered contents. -/
def P' : (K (F := F)).Pay (nD := nD) (Val := Elt F) (Name := ℕ) (U := UU) where
  st := (P m TabOK).st
  dn := fun q d c => match q, c with
    | 0, c => bigSep Finset.univ fun i : Fin ((K (F := F)).nSub 0) => tdA' m TabOK d (LV c i)
  go := (P m TabOK).go
  td := fun q d c i => match q, c, i with
    | 0, c, i => tdA' m TabOK d (LV c i)
  x := (P m TabOK).x

theorem defs₀_vector (c : Fin τ.nSC) (s : Fin τ.nSub) :
    defs₀ (F := F) (.scVector c s) 1 ()
      = SparseCore.onTile hcore1 hsub1 (fun c s => cc1_gather_kernel (coordsV c s)
          tV (Memref.isWhole_whole _) iV (Memref.isWhole_whole _) oV (Memref.isWhole_whole _)
          sI (Memref.isWhole_whole _) sA (Memref.isWhole_whole _) sB (Memref.isWhole_whole _) cc1_scratch3 cc1_scratch4 cc1_scoped0 cc1_scoped1 cc1_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task, from what it is handed to what it hands back. -/
theorem tileObl' (hF : (K (F := F)).Facts) (hin : ∀ (d : Dev nD) p, (idxV m d p).toNat < 1000000) :
    (K (F := F)).TileObl (D (F := F)) 𝒱 (P' m TabOK) v₀ 0 := by
  intro d c i O W hO _ _
  simp only [show (P' m TabOK).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m d (coordsV ⟨_, hc.1⟩ ⟨_, hc.2⟩) TabOK O W hF hin hO).trans (wp_mono frame _ _ fun _ => obl_post)

end Frame
end Cert.Proof.KB
end
-- ==== Proof.BSplitFrame.lean ====
/-
  The arrays of the SparseCore call joined again when each vector subcore returns its chunks of the row buffer at
  contents of their own, unnamed: the read shares of the table rejoin as before, and the 3200 chunks, each held at
  some contents, join into the whole array at some contents.
-/
import proofs.«217421_g60146722013857_cont_9to1c4b_519_37_alg».proof.Proof.BSplit
import proofs.«217421_g60146722013857_cont_9to1c4b_519_37_alg».proof.Proof.BTileFrame

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

namespace SplitF

open Split

variable [FloatOps F] (m : (ℓ : Loc nD τ sig) → Buf (Elt F) ℓ) (TabOK : (d : Dev nD) → Buf (Elt F) (tabLoc d) → Prop)

/-- What a vector subcore hands back, the table's contents named and the chunks' left unnamed. -/
def tdT' (d : Dev nD) (L : grid1.Coords) (T : Buf (Elt F) (tabLoc d)) : sProp 𝕄 :=
  iprop((tabLoc d ↦{tq L} T) ∗ (idxLoc d ↦[(idxM L).view.set]{fullShare} idxV m d)
    ∗ bigSep Finset.univ fun k : Fin k1_t1_loop.trips =>
        iprop((∃ f, outLoc d ↦[(outA L k).view.set]{fullShare} f) ∗ (∃ f, outLoc d ↦[(outB L k).view.set]{fullShare} f)))

/-- Beside the remainder share of the table, a returned read share is at the remainder's contents. -/
theorem tdT'_of_tdA' (d : Dev nD) (L : grid1.Coords) (T : Buf (Elt F) (tabLoc d)) :
    iprop((tabLoc d ↦{Transfers.shareDrop fullShare 32} T) ∗ Frame.tdA' m TabOK d L)
      ⊢ iprop((tabLoc d ↦{Transfers.shareDrop fullShare 32} T) ∗ tdT' m d L T) := by
  unfold Frame.tdA' tdT'
  iintro ⟨Hd, %T', -, Ht, Hi, Ho⟩
  ihave Hag := (persistent_entails_right pointsTo_agree) $$ [Hd Ht]
  · isplitl [Hd]; · iexact Hd
    iexact Ht
  icases Hag with ⟨%hag, Hd, Ht⟩
  have hTT : T' = T := funext fun x => ((hag x (Finset.mem_inter.mpr ⟨Finset.mem_univ _, Finset.mem_univ _⟩)).1).symm
  subst hTT
  isplitl [Hd]; · iexact Hd
  isplitl [Ht]; · iexact Ht
  isplitl [Hi]; · iexact Hi
  iexact Ho

/-- A trip's two chunks, each at some contents, are its 512 rows at some contents. -/
theorem pair_join (d : Dev nD) (L : grid1.Coords) (k : Fin k1_t1_loop.trips) :
    (iprop((∃ f, outLoc d ↦[(outA L k).view.set]{fullShare} f) ∗ (∃ f, outLoc d ↦[(outB L k).view.set]{fullShare} f)) : sProp 𝕄)
      ⊢ iprop(∃ f : Buf (Elt F) (outLoc d), outLoc d ↦[outP L k]{fullShare} f) := by
  iintro ⟨⟨%f, Hf⟩, ⟨%g, Hg⟩⟩
  iexists ((outB L k).view.set).piecewise g f
  iapply (pointsTo_join (outAB_disjoint L k))
  isplitl [Hf]; · iexact Hf
  iexact Hg

/-- All the chunks, each at some contents, are the row buffer at some contents. -/
theorem out_join' (m0 : (ℓ : Loc nD τ sig) → Buf (Elt F) ℓ) (d : Dev nD) :
    (bigSep Finset.univ fun t : Tl F => bigSep Finset.univ fun k : Fin k1_t1_loop.trips =>
        iprop((∃ f, outLoc d ↦[(outA (LV (F := F) t.1 t.2) k).view.set]{fullShare} f) ∗ (∃ f, outLoc d ↦[(outB (LV (F := F) t.1 t.2) k).view.set]{fullShare} f)))
      ⊢ (iprop(∃ f : Buf (Elt F) (outLoc d), (outLoc d ↦{fullShare} f)) : sProp 𝕄) := by
  have : ∀ _ : Tl F × Fin k1_t1_loop.trips, Nonempty (Buf (Elt F) (outLoc d)) := fun _ => ⟨m0 (outLoc d)⟩
  have h1 : (bigSep Finset.univ fun t : Tl F => bigSep Finset.univ fun k : Fin k1_t1_loop.trips =>
        iprop((∃ f, outLoc d ↦[(outA (LV (F := F) t.1 t.2) k).view.set]{fullShare} f) ∗ (∃ f, outLoc d ↦[(outB (LV (F := F) t.1 t.2) k).view.set]{fullShare} f)))
      ⊢ (bigSep Finset.univ fun u : Tl F × Fin k1_t1_loop.trips =>
          iprop(∃ f : Buf (Elt F) (outLoc d), outLoc d ↦[outP (LV (F := F) u.1.1 u.1.2) u.2]{fullShare} f) : sProp 𝕄) := by
    rw [bigSep_univ_prod (fun u : Tl F × Fin k1_t1_loop.trips =>
          (iprop(∃ f : Buf (Elt F) (outLoc d), outLoc d ↦[outP (LV (F := F) u.1.1 u.1.2) u.2]{fullShare} f) : sProp 𝕄))]
    exact bigSep_mono fun t _ => bigSep_mono fun k _ => pair_join d (LV (F := F) t.1 t.2) k
  refine h1.trans ?_
  refine (bigSep_exists_pi Finset.univ (fun (u : Tl F × Fin k1_t1_loop.trips) (f : Buf (Elt F) (outLoc d)) =>
    (outLoc d ↦[outP (LV (F := F) u.1.1 u.1.2) u.2]{fullShare} f : sProp 𝕄))).trans ?_
  iintro ⟨%fs, H⟩
  ihave H3 := (pointsTo_biUnion_join (ℓ := outLoc d) (q := fullShare) (Val := Elt F) Finset.univ
      (fun u : Tl F × Fin k1_t1_loop.trips => outP (LV (F := F) u.1.1 u.1.2) u.2) fs (m0 (outLoc d)) (out_disjoint (F := F))) $$ H
  icases H3 with ⟨%g, -, Hg⟩
  rw [out_cover (F := F)]
  iexists g
  iexact Hg

instance tdA'_storable (d : Dev nD) (L : grid1.Coords) : BI.Storable (upEmb : UEmb _ 𝕄) (Frame.tdA' m TabOK d L) := by
  unfold Frame.tdA'; infer_instance

end SplitF

open Split SplitF

theorem arrays_of_dn' [FloatOps F] (m : (ℓ : Loc nD τ sig) → Buf (Elt F) ℓ) (TabOK : (d : Dev nD) → Buf (Elt F) (tabLoc d) → Prop) (d : Dev nD)
    (T : Buf (Elt F) (tabLoc d)) :
    (iprop((tabLoc d ↦{Transfers.shareDrop fullShare 32} T) ∗ bigSep Finset.univ fun c : Fin ((K (F := F)).nCore 0) => (Frame.P' m TabOK).dn 0 d c) : sProp 𝕄)
      ⊢ iprop(∃ f : Buf (Elt F) (outLoc d), ⌜True⌝ ∗ (tabLoc d ↦{fullShare} T) ∗ (idxLoc d ↦{fullShare} idxV m d) ∗ (outLoc d ↦{fullShare} f)) := by
  have e0 : (bigSep Finset.univ fun c : Fin ((K (F := F)).nCore 0) => bigSep Finset.univ fun i : Fin ((K (F := F)).nSub 0) => Frame.tdA' m TabOK d (LV c i) : sProp 𝕄)
      = bigSep Finset.univ fun t : Tl F => Frame.tdA' m TabOK d (LV (F := F) t.1 t.2) :=
    (bigSep_univ_prod (fun t : Tl F => Frame.tdA' m TabOK d (LV (F := F) t.1 t.2))).symm
  refine (sep_mono_right (Entails.of_eq e0)).trans ?_
  refine (bigSep_frame_mono Finset.univ _ _ (fun t : Tl F => tdT' m d (LV (F := F) t.1 t.2) T)
    fun t _ => tdT'_of_tdA' m TabOK d (LV (F := F) t.1 t.2) T).trans ?_
  unfold tdT'
  rw [bigSep_sep', bigSep_sep', ← tab_toks (F := F) d T, ← idx_blocks (F := F) d (idxV m d)]
  iintro ⟨Hd, Ht, Hi, Ho⟩
  ihave Ho' := (out_join' m d) $$ Ho
  icases Ho' with ⟨%f, Ho⟩
  iexists f
  isplitr
  · ipureintro; trivial
  isplitl [Hd Ht]
  · iapply (Transfers.pointsTo_toks_join fullShare 32)
    isplitl [Hd]; · iexact Hd
    iexact Ht
  isplitl [Hi]; · iexact Hi
  iexact Ho

theorem vecSplit' [FloatOps F] (m : (ℓ : Loc nD τ sig) → Buf (Elt F) ℓ) (TabOK : (d : Dev nD) → Buf (Elt F) (tabLoc d) → Prop) :
    (K (F := F)).VecSplit' (Frame.P' m TabOK) 0 := by
  intro d c
  show (bigSep Finset.univ fun i : Fin ((K (F := F)).nSub 0) => goA m TabOK d (LV c i)) ⊢ |={Set.univ}=> iprop(
      (bigSep Finset.univ fun i : Fin ((K (F := F)).nSub 0) => goA m TabOK d (LV c i))
      ∗ ((bigSep Finset.univ fun i : Fin ((K (F := F)).nSub 0) => Frame.tdA' m TabOK d (LV c i))
          -∗ bigSep Finset.univ fun i : Fin ((K (F := F)).nSub 0) => Frame.tdA' m TabOK d (LV c i)))
  iintro H; imodintro
  isplitl [H]; · iexact H
  iintro H; iexact H

instance P'_storable [FloatOps F] (m : (ℓ : Loc nD τ sig) → Buf (Elt F) ℓ) (TabOK : (d : Dev nD) → Buf (Elt F) (tabLoc d) → Prop) :
    (Frame.P' (F := F) m TabOK).IsStorable where
  st q d c := match q, c with
    | 0, c => (inferInstance : BI.Storable (upEmb : UEmb _ 𝕄) (bigSep Finset.univ fun i : Fin ((K (F := F)).nSub 0) => goA m TabOK d (LV c i)))
  dn q d c := match q, c with
    | 0, c => (inferInstance : BI.Storable (upEmb : UEmb _ 𝕄) (bigSep Finset.univ fun i : Fin ((K (F := F)).nSub 0) => Frame.tdA' m TabOK d (LV c i)))
  go q d c i := match q, c, i with
    | 0, c, i => (inferInstance : BI.Storable (upEmb : UEmb _ 𝕄) (goA m TabOK d (LV c i)))
  td q d c i := match q, c, i with
    | 0, c, i => (inferInstance : BI.Storable (upEmb : UEmb _ 𝕄) (Frame.tdA' m TabOK d (LV c i)))

end Cert.Proof.KB

end
-- ==== Proof.BFrame.lean ====
/-
  The frame of the kernel program as printed: under the precondition (which puts every index word inside the table) every
  weakly fair execution terminates, nothing faulting, and the five argument arrays end unchanged. It is the run of the
  whole program with nothing said of any array's contents: each pipelined call as a step of @main, the vector subcores'
  task with its gathered rows unnamed, the call's arrays split among them and joined again.
-/
import proofs.«217421_g60146722013857_cont_9to1c4b_519_37_alg».proof.Defs
import proofs.«217421_g60146722013857_cont_9to1c4b_519_37_alg».proof.Proof.BMainG
import proofs.«217421_g60146722013857_cont_9to1c4b_519_37_alg».proof.Proof.BReg2F
import proofs.«217421_g60146722013857_cont_9to1c4b_519_37_alg».proof.Proof.BTileFrame
import proofs.«217421_g60146722013857_cont_9to1c4b_519_37_alg».proof.Proof.BSplitFrame
import proofs.«217421_g60146722013857_cont_9to1c4b_519_37_alg».proof.Proof.PreDecode
import proofs.«217421_g60146722013857_cont_9to1c4b_519_37_alg».proof.Proof.Gen.Pre_input_domain

noncomputable section

namespace Cert.Proof.KB

open Cert.Kernel Cert.Kernel.Gen
open Idealize.ShloMosaic Idealize.SL.Sem
open Idealize.SL Idealize.SL.BI
open scoped Idealize.SL.BI

/-- The run with no value named, at any float instance: the arguments end as launched. -/
theorem run_frame {F : FTy → Type} [FloatOps F] [∀ e, Nonempty (Elt F e)] (m : (ℓ : Loc nD τ sig) → Buf (Elt F) ℓ) (ρ : Dev nD → PrngReg)
    (hids : ∀ (d : Dev nD) j, (m (idsLoc d) j).toNat < 1000000) :
    θ_run (Cert.Kernel.defs (F := F)) (Cert.Kernel.threads (F := F)) ⟨m, fun _ => 0, ρ⟩
      (QC m (ResOKG m (fun _ _ _ => True) (fun _ _ _ => True) (fun _ _ _ => True))) :=
  run_mainG m ρ (fun _ _ _ => True) (fun _ _ _ => True) (Frame.P' m (fun _ _ => True)) (fun _ _ _ => True)
    (fun _ _ => rfl) rfl reg0_frame reg2_frame
    (Frame.tileObl' m (fun _ _ => True) facts (Frame.idx_in_range m hids))
    (vecSplit' m (fun _ _ => True))
    (fun d Tb _ => st_of_arrays m (fun _ _ => True) d Tb True.intro)
    (fun d Tb => arrays_of_dn' m (fun _ _ => True) d Tb)

/-- Cert.frame_Kernel (Defs.lean). -/
theorem frame_Kernel : Cert.frame_Kernel := fun m ρ hpre =>
  (θ_run Cert.Kernel.defs _ _).mono (fun _ h c => (h c).2)
    (run_frame (F := Bits) m ρ fun d j => Cert.Proof.PreD.ids_lt (F := Bits) _ _ _ _ _ (hpre d) j)

end Cert.Proof.KB

end
-- ==== Proof.RefRun.lean ====
/-
  The reference's run, written out by hand.

  The reference is a straight line of 27 array operations once its two calls are unfolded at their call
  sites: the table lookup (an index below zero has the table's height added, the row is gathered
  at the index clamped into the table, and the gathered row is kept where the wrapped index lies in the
  table and replaced by a not-a-number elsewhere), then the product with W over the last axis, then the
  bias broadcast over the token axes and added.

  Every weakly fair execution of that line terminates, the result buffer holds the operations' composed
  term of the argument arrays (`term` below), and the five arguments are unchanged.
-/
import proofs.«217421_g60146722013857_cont_9to1c4b_519_37_alg».proof.ReferenceIdeal
import Idealize.ShloMosaic.Lib.StableHlo.Run

noncomputable section

namespace Cert.Proof.Ref

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- The line's 27 operations in order: the lookup's 23 (the select of the index wrap is the inner call's
    one operation, written into that call's buffer), then the product, the two broadcasts of the bias and
    the sum. -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 1000000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 999999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg2) main_call0.v5 main_call0.v13 (fun x i => Host.gather gather_S1000000x64_S4096x200x1_S4096x200x64_2_0_n_n_0_2_164 x i),
    TRef.unary main_call0.v12 main_call0.v14 (broadcastInDim S4096x200x64 ![0, 1] bcast_S4096x200_S4096x200x64_0_1),
    TRef.nullary main_call0.cst (constant S_ .f32 0x7FC00000#32),
    TRef.unary main_call0.cst main_call0.v15 (broadcastInDim S4096x200x64 ![] bcast_S_S4096x200x64),
    TRef.ternary main_call0.v14 main_call0.v13 main_call0.v15 main_call0.v16 select,
    binary main_v0 main_arg3 main_v1 ((fun l r => Host.dotGeneral dot_S4096x200x64_S64x64_S4096x200x64_2_0_01_1_n_n none l r) : (⟨S4096x200x64, .f32⟩ : BufTy).Contents (Elt F) → (⟨S64x64, .f32⟩ : BufTy).Contents (Elt F) → (⟨S4096x200x64, .f32⟩ : BufTy).Contents (Elt F)),
    unary main_arg4 main_v2 (broadcastInDim S1x1x64 ![2] bcast_S64_S1x1x64_2 : (⟨S64, .f32⟩ : BufTy).Contents (Elt F) → (⟨S1x1x64, .f32⟩ : BufTy).Contents (Elt F)),
    unary main_v2 main_v3 (broadcastInDim S4096x200x64 ![0, 1, 2] bcast_S1x1x64_S4096x200x64_0_1_2 : (⟨S1x1x64, .f32⟩ : BufTy).Contents (Elt F) → (⟨S4096x200x64, .f32⟩ : BufTy).Contents (Elt F)),
    binary main_v1 main_v3 main_v4 (addf : (⟨S4096x200x64, .f32⟩ : BufTy).Contents (Elt F) → (⟨S4096x200x64, .f32⟩ : BufTy).Contents (Elt F) → (⟨S4096x200x64, .f32⟩ : BufTy).Contents (Elt F)) ]

/-- The program is that line: the two functions' bodies unfolded at their calls, the sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., unary_bufs_sub .., unary_bufs_sub .., binary_bufs_sub ..⟩

/-- The token words with the wrap of a negative index applied: a word below zero has the table's height added. -/
def wrapped (ids : IVec S4096x200 32) : IVec S4096x200 32 :=
  select (cmpi .slt ids (broadcastInDim S4096x200 ![] bcast_S_S4096x200 (constantI S_ 32 0#32)))
    (addi ids (broadcastInDim S4096x200 ![] bcast_S_S4096x200 (constantI S_ 32 1000000#32))) ids

/-- The wrapped words as the gather's index array: one index per token. -/
def idx (ids : IVec S4096x200 32) : IVec S4096x200x1 32 :=
  broadcastInDim S4096x200x1 ![0, 1] bcast_S4096x200_S4096x200x1_0_1 (wrapped ids)

/-- Per token, whether the wrapped word lies in the table: both range comparisons, reduced over the index axis. -/
def mask (ids : IVec S4096x200 32) : IVec S4096x200 1 :=
  Host.reduce IntOp.andi
    (andi (cmpi .sge (idx ids) (broadcastInDim S4096x200x1 ![] bcast_S_S4096x200x1 (constantI S_ 32 0#32)))
      (cmpi .sle (idx ids) (broadcastInDim S4096x200x1 ![0, 1, 2] bcast_S1x1x1_S4096x200x1_0_1_2
        (broadcastInDim S1x1x1 ![2] bcast_S1_S1x1x1_2 (constantI S1 32 999999#32)))))
    (constantI S_ 1 1#1) reducesTo_S4096x200x1_S4096x200_d2 h_S_

/-- The looked-up rows: the gathered row where the mask holds, the not-a-number constant elsewhere. -/
def taken (ids : IVec S4096x200 32) (emb : FVec F S1000000x64 .f32) : FVec F S4096x200x64 .f32 :=
  select (broadcastInDim S4096x200x64 ![0, 1] bcast_S4096x200_S4096x200x64_0_1 (mask ids))
    (Host.gather gather_S1000000x64_S4096x200x1_S4096x200x64_2_0_n_n_0_2_164 emb (idx ids))
    (broadcastInDim S4096x200x64 ![] bcast_S_S4096x200x64 (constant S_ .f32 0x7FC00000#32))

/-- The operations' composed term of the arguments: the looked-up rows times W, plus the bias broadcast over the tokens. -/
def term (ids : IVec S4096x200 32) (emb : FVec F S1000000x64 .f32) (W : FVec F S64x64 .f32) (b : FVec F S64 .f32) :
    FVec F S4096x200x64 .f32 :=
  addf (Host.dotGeneral dot_S4096x200x64_S64x64_S4096x200x64_2_0_01_1_n_n none (taken ids emb) W)
    (broadcastInDim S4096x200x64 ![0, 1, 2] bcast_S1x1x64_S4096x200x64_0_1_2
      (broadcastInDim S1x1x64 ![2] bcast_S64_S1x1x64_2 b))

/-- The same 27 operations, each written over its buffers directly. -/
abbrev opsU : List (HloOp τ sig (Elt F)) :=
  [ nullary main_call0_c (constantI S_ 32 0#32 : (⟨S_, .i32⟩ : BufTy).Contents (Elt F)),
    unary main_call0_c main_call0_v0 (broadcastInDim S4096x200 ![] bcast_S_S4096x200 : (⟨S_, .i32⟩ : BufTy).Contents (Elt F) → (⟨S4096x200, .i32⟩ : BufTy).Contents (Elt F)),
    binary main_arg0 main_call0_v0 main_call0_v1 (cmpi .slt : (⟨S4096x200, .i32⟩ : BufTy).Contents (Elt F) → (⟨S4096x200, .i32⟩ : BufTy).Contents (Elt F) → (⟨S4096x200, .i1⟩ : BufTy).Contents (Elt F)),
    nullary main_call0_c_0 (constantI S_ 32 1000000#32 : (⟨S_, .i32⟩ : BufTy).Contents (Elt F)),
    unary main_call0_c_0 main_call0_v2 (broadcastInDim S4096x200 ![] bcast_S_S4096x200 : (⟨S_, .i32⟩ : BufTy).Contents (Elt F) → (⟨S4096x200, .i32⟩ : BufTy).Contents (Elt F)),
    binary main_arg0 main_call0_v2 main_call0_v3 (addi : (⟨S4096x200, .i32⟩ : BufTy).Contents (Elt F) → (⟨S4096x200, .i32⟩ : BufTy).Contents (Elt F) → (⟨S4096x200, .i32⟩ : BufTy).Contents (Elt F)),
    ternary main_call0_v1 main_call0_v3 main_arg0 main_call0_v4 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)),
    unary main_call0_v4 main_call0_v5 (broadcastInDim S4096x200x1 ![0, 1] bcast_S4096x200_S4096x200x1_0_1 : (⟨S4096x200, .i32⟩ : BufTy).Contents (Elt F) → (⟨S4096x200x1, .i32⟩ : BufTy).Contents (Elt F)),
    nullary main_call0_c_1 (constantI S1 32 999999#32 : (⟨S1, .i32⟩ : BufTy).Contents (Elt F)),
    nullary main_call0_c_2 (constantI S_ 32 0#32 : (⟨S_, .i32⟩ : BufTy).Contents (Elt F)),
    unary main_call0_c_2 main_call0_v6 (broadcastInDim S4096x200x1 ![] bcast_S_S4096x200x1 : (⟨S_, .i32⟩ : BufTy).Contents (Elt F) → (⟨S4096x200x1, .i32⟩ : BufTy).Contents (Elt F)),
    binary main_call0_v5 main_call0_v6 main_call0_v7 (cmpi .sge : (⟨S4096x200x1, .i32⟩ : BufTy).Contents (Elt F) → (⟨S4096x200x1, .i32⟩ : BufTy).Contents (Elt F) → (⟨S4096x200x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S4096x200x1 ![0, 1, 2] bcast_S1x1x1_S4096x200x1_0_1_2 : (⟨S1x1x1, .i32⟩ : BufTy).Contents (Elt F) → (⟨S4096x200x1, .i32⟩ : BufTy).Contents (Elt F)),
    binary main_call0_v5 main_call0_v9 main_call0_v10 (cmpi .sle : (⟨S4096x200x1, .i32⟩ : BufTy).Contents (Elt F) → (⟨S4096x200x1, .i32⟩ : BufTy).Contents (Elt F) → (⟨S4096x200x1, .i1⟩ : BufTy).Contents (Elt F)),
    binary main_call0_v7 main_call0_v10 main_call0_v11 (andi : (⟨S4096x200x1, .i1⟩ : BufTy).Contents (Elt F) → (⟨S4096x200x1, .i1⟩ : BufTy).Contents (Elt F) → (⟨S4096x200x1, .i1⟩ : BufTy).Contents (Elt F)),
    nullary main_call0_c_3 (constantI S_ 1 1#1 : (⟨S_, .i1⟩ : BufTy).Contents (Elt F)),
    binary main_call0_v11 main_call0_c_3 main_call0_v12 ((fun x v => Host.reduce IntOp.andi x v reducesTo_S4096x200x1_S4096x200_d2 h_S_) : (⟨S4096x200x1, .i1⟩ : BufTy).Contents (Elt F) → (⟨S_, .i1⟩ : BufTy).Contents (Elt F) → (⟨S4096x200, .i1⟩ : BufTy).Contents (Elt F)),
    binary main_arg2 main_call0_v5 main_call0_v13 ((fun x i => Host.gather gather_S1000000x64_S4096x200x1_S4096x200x64_2_0_n_n_0_2_164 x i) : (⟨S1000000x64, .f32⟩ : BufTy).Contents (Elt F) → (⟨S4096x200x1, .i32⟩ : BufTy).Contents (Elt F) → (⟨S4096x200x64, .f32⟩ : BufTy).Contents (Elt F)),
    unary main_call0_v12 main_call0_v14 (broadcastInDim S4096x200x64 ![0, 1] bcast_S4096x200_S4096x200x64_0_1 : (⟨S4096x200, .i1⟩ : BufTy).Contents (Elt F) → (⟨S4096x200x64, .i1⟩ : BufTy).Contents (Elt F)),
    nullary main_call0_cst (constant S_ .f32 0x7FC00000#32 : (⟨S_, .f32⟩ : BufTy).Contents (Elt F)),
    unary main_call0_cst main_call0_v15 (broadcastInDim S4096x200x64 ![] bcast_S_S4096x200x64 : (⟨S_, .f32⟩ : BufTy).Contents (Elt F) → (⟨S4096x200x64, .f32⟩ : BufTy).Contents (Elt F)),
    ternary main_call0_v14 main_call0_v13 main_call0_v15 main_v0 (select : (⟨S4096x200x64, .i1⟩ : BufTy).Contents (Elt F) → (⟨S4096x200x64, .f32⟩ : BufTy).Contents (Elt F) → (⟨S4096x200x64, .f32⟩ : BufTy).Contents (Elt F) → (⟨S4096x200x64, .f32⟩ : BufTy).Contents (Elt F)),
    binary main_v0 main_arg3 main_v1 ((fun l r => Host.dotGeneral dot_S4096x200x64_S64x64_S4096x200x64_2_0_01_1_n_n none l r) : (⟨S4096x200x64, .f32⟩ : BufTy).Contents (Elt F) → (⟨S64x64, .f32⟩ : BufTy).Contents (Elt F) → (⟨S4096x200x64, .f32⟩ : BufTy).Contents (Elt F)),
    unary main_arg4 main_v2 (broadcastInDim S1x1x64 ![2] bcast_S64_S1x1x64_2 : (⟨S64, .f32⟩ : BufTy).Contents (Elt F) → (⟨S1x1x64, .f32⟩ : BufTy).Contents (Elt F)),
    unary main_v2 main_v3 (broadcastInDim S4096x200x64 ![0, 1, 2] bcast_S1x1x64_S4096x200x64_0_1_2 : (⟨S1x1x64, .f32⟩ : BufTy).Contents (Elt F) → (⟨S4096x200x64, .f32⟩ : BufTy).Contents (Elt F)),
    binary main_v1 main_v3 main_v4 (addf : (⟨S4096x200x64, .f32⟩ : BufTy).Contents (Elt F) → (⟨S4096x200x64, .f32⟩ : BufTy).Contents (Elt F) → (⟨S4096x200x64, .f32⟩ : BufTy).Contents (Elt F)) ]

set_option maxRecDepth 8192 in
set_option maxHeartbeats 400000 in
attribute [local irreducible] Host.reduce Host.gather in
/-- The fold of the line at the result buffer is the composed term of the launch contents of the arguments: the two
    spellings of the 27 operations are the same list, and over the second the fold is read off operation by operation,
    each result at its own buffer its function's value, every other buffer untouched. -/
theorem out_eq (V : Valuation τ sig (Elt F)) :
    after ops V (main_v4 : DevRef τ sig)
      = term (V (main_arg0 : DevRef τ sig)) (V (main_arg2 : DevRef τ sig)) (V (main_arg3 : DevRef τ sig)) (V (main_arg4 : DevRef τ sig)) := by
  show after opsU V (main_v4 : DevRef τ sig) = _
  after_results
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results
theorem arg4_eq (V : Valuation τ sig (Elt F)) : after ops V (main_arg4 : DevRef τ sig) = V (main_arg4 : DevRef τ sig) := by
  after_results

/-- The frame alone: every weakly fair execution of the reference terminates and leaves the five arguments unchanged. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_arg0).trans (arg0_eq _), (h c main_arg1).trans (arg1_eq _),
      (h c main_arg2).trans (arg2_eq _), (h c main_arg3).trans (arg3_eq _), (h c main_arg4).trans (arg4_eq _)⟩)
    (run_seq scopedRefs_eq scopedSems_eq defs main (fun _ => ops) main_eq (fun _ => ops_sub) m ρ)

/-- On every device, for any float values, from any memory with zero counters: every weakly fair execution of
    the reference terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
          = term (m ((c.tc : Thread nD τ).loc main_arg0)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v4).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.Proof.Ref

end
-- ==== Proof.KTile.lean ====
/-
  The body obligation of the lookup's SparseCore kernel: every vector subcore's task runs to its end from what it is
  handed — a read share of the table, its block of the index list, its block of the row buffer chunk by chunk at the
  launch contents — to the same with its block of the row buffer at the gathered rows: position p, column j holds the
  table's row that position p's index word names.

  The index block is fetched; chunk 0's gather into rows A starts; trip k starts the gather of chunk 2k+1 into rows B,
  waits for chunk 2k, copies rows A out, starts the gather of chunk 2k+2 into rows A (k < 49), waits for chunk 2k+1,
  copies rows B out. Two gathers are in flight at once: each borrows half of the subcore's share of the table and half
  of the index scratch. The invariant before trip k: rows B idle, the chunks of trips below k at the gathered row
  buffer and the others at the launch contents, and the gather of chunk 2k in flight into rows A, delivering rows that
  hold chunk 2k.
-/
import proofs.«217421_g60146722013857_cont_9to1c4b_519_37_alg».proof.Proof.KCommon
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "tV" => (Memref.whole Cert.KernelIdeal.main_v9_scv : Memref Cert.KernelIdeal.sig Kind.scVector Space.hbm Cert.KernelIdeal.S1000000x128 EltTy.f32)
local notation "iV" => (Memref.whole Cert.KernelIdeal.main_v1_scv : Memref Cert.KernelIdeal.sig Kind.scVector Space.hbm Cert.KernelIdeal.S819200 EltTy.i32)
local notation "oV" => (Memref.whole Cert.KernelIdeal.main_v11_scv : Memref Cert.KernelIdeal.sig Kind.scVector Space.hbm Cert.KernelIdeal.S819200x128 EltTy.f32)
local notation "sI" => (Memref.whole Cert.KernelIdeal.cc1_scratch0 : Memref Cert.KernelIdeal.sig Kind.scVector Space.vmem Cert.KernelIdeal.S25600 EltTy.i32)
local notation "sA" => (Memref.whole Cert.KernelIdeal.cc1_scratch1 : Memref Cert.KernelIdeal.sig Kind.scVector Space.vmem Cert.KernelIdeal.S256x128 EltTy.f32)
local notation "sB" => (Memref.whole Cert.KernelIdeal.cc1_scratch2 : Memref Cert.KernelIdeal.sig Kind.scVector Space.vmem Cert.KernelIdeal.S256x128 EltTy.f32)

/-! ## The index list is in range wherever the token words are -/

/-- Every word of the index list is one of the token words (the list is their transpose, flattened). -/
theorem idx_in_range [FloatOps F] (m : (ℓ : Loc nD τ sig) → Buf (Elt F) ℓ) (h : ∀ (d : Dev nD) j, (m (idsLoc d) j).toNat < 1000000) :
    ∀ (d : Dev nD) p, (idxV m d p).toNat < 1000000 := by
  intro d p
  unfold idxV shapeCast transpose
  exact h d _

variable (m : (ℓ : Loc nD τ sig) → Buf (Elt F) ℓ)
variable [FloatOps F]

/-! ## A vector subcore's thread, semaphores and scratch -/

section Tile

variable (d : Dev nD) (L : grid1.Coords)

abbrev cV : Fin τ.nSC := (L 0).castLE hcore1
abbrev jV : Fin τ.nSub := (L 1).castLE hsub1
/-- The thread of the vector subcore at grid point `L`. -/
abbrev TH : Thread nD τ := V d (cV L) (jV L)

abbrev cellGA : GSem nD τ sig := (TH d L, .dma cc1_scratch3.sem)
abbrev cellGB : GSem nD τ sig := (TH d L, .dma cc1_scratch4.sem)
abbrev cell0 : GSem nD τ sig := (TH d L, .dma cc1_scoped0.sem)
abbrev cell1 : GSem nD τ sig := (TH d L, .dma cc1_scoped1.sem)
abbrev cell2 : GSem nD τ sig := (TH d L, .dma cc1_scoped2.sem)

theorem cell_ne {a b : DmaSem sig} (h : a ≠ b) : ((TH d L, SemLoc.dma a) : GSem nD τ sig) ≠ (TH d L, SemLoc.dma b) :=
  fun e => h (SemLoc.dma.inj (Prod.mk.inj e).2)

theorem cell_own (a : DmaSem sig) (h : (SemLoc.dma a : SemLoc sig).isScoped .scVector = true) :
    ((TH d L, SemLoc.dma a) : GSem nD τ sig) ∈ ownCells (TH d L) := (mem_ownCells (g := (TH d L, SemLoc.dma a))).mpr ⟨rfl, h⟩

theorem ownSems0_V :
    (ownSems0 (TH d L) : sProp 𝕄)
      = iprop(semVal (cellGA d L) 0 ∗ semVal (cellGB d L) 0 ∗ semVal (cell0 d L) 0 ∗ semVal (cell1 d L) 0 ∗ semVal (cell2 d L) 0
          ∗ bigSep (((((ownCells (TH d L)).erase (cellGA d L)).erase (cellGB d L)).erase (cell0 d L)).erase (cell1 d L) |>.erase (cell2 d L))
              fun g => semVal g 0) := by
  unfold SparseCore.Cfg.ownSems0
  have oA := cell_own d L cc1_scratch3.sem (by decide)
  have oB := cell_own d L cc1_scratch4.sem (by decide)
  have o0 := cell_own d L cc1_scoped0.sem (by decide)
  have o1 := cell_own d L cc1_scoped1.sem (by decide)
  have o2 := cell_own d L cc1_scoped2.sem (by decide)
  have nBA := cell_ne d L (show cc1_scratch4.sem ≠ cc1_scratch3.sem by decide)
  have n0A := cell_ne d L (show cc1_scoped0.sem ≠ cc1_scratch3.sem by decide)
  have n0B := cell_ne d L (show cc1_scoped0.sem ≠ cc1_scratch4.sem by decide)
  have n1A := cell_ne d L (show cc1_scoped1.sem ≠ cc1_scratch3.sem by decide)
  have n1B := cell_ne d L (show cc1_scoped1.sem ≠ cc1_scratch4.sem by decide)
  have n10 := cell_ne d L (show cc1_scoped1.sem ≠ cc1_scoped0.sem by decide)
  have n2A := cell_ne d L (show cc1_scoped2.sem ≠ cc1_scratch3.sem by decide)
  have n2B := cell_ne d L (show cc1_scoped2.sem ≠ cc1_scratch4.sem by decide)
  have n20 := cell_ne d L (show cc1_scoped2.sem ≠ cc1_scoped0.sem by decide)
  have n21 := cell_ne d L (show cc1_scoped2.sem ≠ cc1_scoped1.sem by decide)
  rw [SparseCore.bigSep_erase' oA,
    SparseCore.bigSep_erase' (Finset.mem_erase.mpr ⟨nBA, oB⟩),
    SparseCore.bigSep_erase' (Finset.mem_erase.mpr ⟨n0B, Finset.mem_erase.mpr ⟨n0A, o0⟩⟩),
    SparseCore.bigSep_erase' (Finset.mem_erase.mpr ⟨n10, Finset.mem_erase.mpr ⟨n1B, Finset.mem_erase.mpr ⟨n1A, o1⟩⟩⟩),
    SparseCore.bigSep_erase' (Finset.mem_erase.mpr ⟨n21, Finset.mem_erase.mpr ⟨n20, Finset.mem_erase.mpr ⟨n2B, Finset.mem_erase.mpr ⟨n2A, o2⟩⟩⟩⟩)]

/-- The three scratch buffers are among the subcore's own: they are them, at some contents, and the rest. -/
theorem ownBufs_V :
    (ownBufs (TH d L) : sProp 𝕄)
      = iprop((∃ f, (TH d L).loc cc1_scratch0 ↦{fullShare} f) ∗ (∃ f, (TH d L).loc cc1_scratch1 ↦{fullShare} f)
          ∗ (∃ f, (TH d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-- The arrays as the subcore's memrefs address them are the TensorCore's arrays, and its scratch its own. -/
theorem pts_idx (f : Buf (Elt F) (idxLoc d)) :
    ((idxM L).view.loc (TH d L) ↦[(idxM L).view.set]{fullShare} f : sProp 𝕄) = idxLoc d ↦[(idxM L).view.set]{fullShare} f := rfl
theorem pts_tab (q : PosShare TreeShare) (f : Buf (Elt F) (tabLoc d)) :
    ((tV).view.loc (TH d L) ↦{q} f : sProp 𝕄) = tabLoc d ↦{q} f := rfl
theorem pts_outA (k : Fin k1_t1_loop.trips) (f : Buf (Elt F) (outLoc d)) :
    ((outA L k).view.loc (TH d L) ↦[(outA L k).view.set]{fullShare} f : sProp 𝕄) = outLoc d ↦[(outA L k).view.set]{fullShare} f := rfl
theorem pts_outB (k : Fin k1_t1_loop.trips) (f : Buf (Elt F) (outLoc d)) :
    ((outB L k).view.loc (TH d L) ↦[(outB L k).view.set]{fullShare} f : sProp 𝕄) = outLoc d ↦[(outB L k).view.set]{fullShare} f := rfl
theorem pts_sI (q : PosShare TreeShare) (f : Buf (Elt F) ((TH d L).loc cc1_scratch0)) :
    ((sI).view.loc (TH d L) ↦{q} f : sProp 𝕄) = (TH d L).loc cc1_scratch0 ↦{q} f := rfl
theorem pts_sA (f : Buf (Elt F) ((TH d L).loc cc1_scratch1)) :
    ((sA).view.loc (TH d L) ↦{fullShare} f : sProp 𝕄) = (TH d L).loc cc1_scratch1 ↦{fullShare} f := rfl
theorem pts_sB (f : Buf (Elt F) ((TH d L).loc cc1_scratch2)) :
    ((sB).view.loc (TH d L) ↦{fullShare} f : sProp 𝕄) = (TH d L).loc cc1_scratch2 ↦{fullShare} f := rfl

/-- Words written whole into the index scratch, each in range, read in range through any slice of it. -/
theorem fetched_inb {w : S25600.Idx → Elt F .i32} (hw : ∀ y, (w y).toNat < 1000000) (fi0 : (sI).view.ty.Contents (Elt F))
    (r : Rect S25600) (hr : ∀ a, r.stride a = 1) (x : r.shape.Idx) :
    (View.read (Elt F) ((sI).slice r hr).view (View.write (Elt F) (sI).view fi0 w Finset.univ) x).toNat < 1000000 := by
  have e : View.read (Elt F) ((sI).slice r hr).view (View.write (Elt F) (sI).view fi0 w Finset.univ) x
      = View.read (Elt F) (sI).view (View.write (Elt F) (sI).view fi0 w Finset.univ) (r.emb x) := rfl
  rw [e, View.read_write_of_mem _ _ (Finset.mem_univ _)]; exact hw _

/-- Elements carved out of a buffer and the rest, at the same contents, are the buffer whole. -/
theorem rejoin {ℓ : Loc nD τ sig} (I : Finset (Idx ℓ)) (q : PosShare TreeShare) (f : Buf (Elt F) ℓ) :
    iprop((ℓ ↦[I]{q} f) ∗ ℓ ↦[Finset.univ \ I]{q} f) ⊢ (ℓ ↦{q} f : sProp 𝕄) :=
  (pointsTo_split_subset (Finset.subset_univ I)).2

/-- A wait at the default index recorded keeps the recorded waits within the bound. -/
theorem waits_ins {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact h p hp

/-! ## The gathered values -/

variable (T : Buf (Elt F) (tabLoc d))

/-- The gathered row buffer: position p, column j holds the table's row that position p's index word names. -/
def Gf : Buf (Elt F) (outLoc d) :=
  fun (x : (⟨2, ![819200, 128]⟩ : Shape).Idx) =>
    T (ix2 (rowN (idxV m d (ix1 (⟨(x 0).val, (x 0).isLt⟩ : Fin 819200)))) (⟨(x 1).val, (x 1).isLt⟩ : Fin 128))

theorem gathOK_Gf : GathOK m d L T (Gf m d T) := fun _ _ _ _ => rfl

theorem Gf_apply (x : (⟨2, ![819200, 128]⟩ : Shape).Idx) (q : Fin 819200) (j : Fin 128) (hq : (x 0).val = q.val) (hj : (x 1).val = j.val) :
    Gf m d T x = T (ix2 (rowN (idxV m d (ix1 q))) j) := by
  have eq : (⟨(x 0).val, (x 0).isLt⟩ : Fin 819200) = q := Fin.ext hq
  have ej : (⟨(x 1).val, (x 1).isLt⟩ : Fin 128) = j := Fin.ext hj
  show T (ix2 (rowN (idxV m d (ix1 (⟨(x 0).val, (x 0).isLt⟩ : Fin 819200)))) (⟨(x 1).val, (x 1).isLt⟩ : Fin 128)) = _
  rw [eq, ej]

/-- A row buffer holds chunk `c` of the subcore's block: row p, column j is the table's row named by the word of
    position `base + 256 c + p`. -/
def RowsOK (c : Nat) (g : S256x128.Idx → Elt F .f32) : Prop :=
  ∀ (q : Fin 819200) (p : Fin 256) (j : Fin 128), q.val = baseOf L + 256 * c + p.val → g (ix2 p j) = T (ix2 (rowN (idxV m d (ix1 q))) j)

/-- The index scratch holds the subcore's block of the index list. -/
def FetchedOK (fI : S25600.Idx → Elt F .i32) : Prop :=
  ∀ (q : Fin 819200) (j : Fin 25600), q.val = baseOf L + j.val → fI (ix1 j) = idxV m d (ix1 q)

set_option maxRecDepth 65536 in
/-- The block copied whole into the index scratch is the block. -/
theorem fetched_ok (fi0 : S25600.Idx → Elt F .i32) :
    FetchedOK m d L (View.write (Elt F) (sI).view fi0 (ReadAs.same.apply (View.read (Elt F) (idxM L).view (idxV m d))) Finset.univ) := by
  intro q j hq
  have e1 := View.read_write_of_mem (v := (sI).view) fi0 (ReadAs.same.apply (View.read (Elt F) (idxM L).view (idxV m d))) (Finset.mem_univ (ix1 j))
  refine Eq.trans e1 ?_
  show idxV m d ((idxM L).view.emb (ix1 j)) = idxV m d (ix1 q)
  refine congrArg (idxV m d) (funext fun a => Fin.ext ?_)
  match a with
  | ⟨0, _⟩ =>
    show (k1_off1 L) 0 + 1 * j.val = q.val
    rw [k1_off1_eq]
    simp only [baseOf] at hq
    simp only [Matrix.cons_val_zero]
    omega

/-- Two contents a view reads alike are the same assertion of the view's elements. -/
theorem pointsTo_view_congr {sp : Space} {S : Shape} {e : EltTy} (c : Thread nD τ) (v : View sig c.2.kind sp S e) (q : PosShare TreeShare)
    (f g : v.ty.Contents (Elt F)) (h : ∀ y : S.Idx, v.read (Elt F) f y = v.read (Elt F) g y) :
    (v.loc c ↦[v.set]{q} f : sProp 𝕄) = v.loc c ↦[v.set]{q} g :=
  pointsTo_congr fun i hi => by
    obtain ⟨y, rfl⟩ := View.exists_emb_of_mem_set v hi
    have h' := h y
    rw [View.read_apply, View.read_apply] at h'
    exact eq_of_heq (((cast_heq _ _).symm.trans (heq_of_eq h')).trans (cast_heq _ _))

/-- Rows that hold chunk `c`, at an element of the row buffer at position `base + 256 c + p`, column j, are the
    gathered row buffer there. -/
theorem chunk_core (c : Nat) {g : S256x128.Idx → Elt F .f32} (hg : RowsOK m d L T c g) (x : (⟨2, ![819200, 128]⟩ : Shape).Idx)
    (p : Fin 256) (j : Fin 128) (h0 : (x 0).val = baseOf L + 256 * c + p.val) (h1 : (x 1).val = j.val) : g (ix2 p j) = Gf m d T x :=
  (hg ⟨(x 0).val, (x 0).isLt⟩ p j h0).trans (Gf_apply m d T x _ j rfl h1).symm

set_option maxRecDepth 65536 in
set_option maxHeartbeats 4000000 in
/-- The even chunk of trip k written whole with rows that hold chunk 2k is the gathered row buffer there. -/
theorem chunkA_val (k : Fin k1_t1_loop.trips) {g : S256x128.Idx → Elt F .f32} (hg : RowsOK m d L T (2 * k.val) g) (f0 : Buf (Elt F) (outLoc d)) :
    ((outA L k).view.loc (TH d L) ↦[(outA L k).view.set]{fullShare} (outA L k).view.writes (Elt F) f0 [⟨Rect.whole S256x128, g⟩] : sProp 𝕄)
      = (outA L k).view.loc (TH d L) ↦[(outA L k).view.set]{fullShare} Gf m d T := by
  refine pointsTo_view_congr (TH d L) (outA L k).view _ _ _ fun y => ?_
  refine (congrFun (View.read_writes_whole (outA L k).view f0 g) y).trans ?_
  obtain ⟨p, j, rfl⟩ : ∃ (p : Fin 256) (j : Fin 128), y = ix2 p j := ⟨y 0, y 1, eq_ix2 y⟩
  refine (chunk_core m d L T _ hg ((outA L k).view.emb (ix2 p j)) p j ?_ ?_).trans ?_
  · show (k1_off4 L k) 0 + 1 * p.val = _
    rw [k1_off4_eq]; simp only [baseOf, Matrix.cons_val_zero]; omega
  · show (k1_off4 L k) 1 + 1 * j.val = _
    rw [k1_off4_eq]; simp
  · rfl

set_option maxRecDepth 65536 in
set_option maxHeartbeats 4000000 in
/-- The odd chunk of trip k written whole with rows that hold chunk 2k+1 is the gathered row buffer there. -/
theorem chunkB_val (k : Fin k1_t1_loop.trips) {g : S256x128.Idx → Elt F .f32} (hg : RowsOK m d L T (2 * k.val + 1) g) (f0 : Buf (Elt F) (outLoc d)) :
    ((outB L k).view.loc (TH d L) ↦[(outB L k).view.set]{fullShare} (outB L k).view.writes (Elt F) f0 [⟨Rect.whole S256x128, g⟩] : sProp 𝕄)
      = (outB L k).view.loc (TH d L) ↦[(outB L k).view.set]{fullShare} Gf m d T := by
  refine pointsTo_view_congr (TH d L) (outB L k).view _ _ _ fun y => ?_
  refine (congrFun (View.read_writes_whole (outB L k).view f0 g) y).trans ?_
  obtain ⟨p, j, rfl⟩ : ∃ (p : Fin 256) (j : Fin 128), y = ix2 p j := ⟨y 0, y 1, eq_ix2 y⟩
  refine (chunk_core m d L T _ hg ((outB L k).view.emb (ix2 p j)) p j ?_ ?_).trans ?_
  · show (k1_off7 L k) 0 + 1 * p.val = _
    rw [k1_off7_eq]; simp only [baseOf, Matrix.cons_val_zero]; omega
  · show (k1_off7 L k) 1 + 1 * j.val = _
    rw [k1_off7_eq]; simp
  · rfl

set_option maxRecDepth 65536 in
set_option maxHeartbeats 4000000 in
/-- The rows a gather lands for the slice of the index scratch at offset 256 c are chunk c: row p is the table's row
    named by the word of position `base + 256 c + p`. -/
theorem gather_val {fI : S25600.Idx → Elt F .i32} (hfI : FetchedOK m d L fI) (hinw : ∀ (d : Dev nD) p, (idxV m d p).toNat < 1000000) (c : Nat)
    (off : Fin S25600.rank → Nat) (hb : ∀ a, off a + S256.size a ≤ S25600.size a) (hr : ∀ a, (Rect.unit (s := S25600) off S256.size hb).stride a = 1)
    (hoff : off 0 = 256 * c)
    (hg : S1000000x128.Gathers 0 S256x128) (hn : S256.numel = S256x128.size hg.axis')
    (hin : ∀ x, (View.read (Elt F) ((sI).slice (Rect.unit (s := S25600) off S256.size hb) hr).view fI x).toNat < S1000000x128.size hg.axis)
    (hr' : ∀ a, (Rect.unit (s := S1000000x128) ![0, 0] S1000000x128.size inb_S1000000x128_S1000000x128_0_0).stride a = 1) :
    RowsOK m d L T c (SparseCore.gatherPayload hg
      (View.read (Elt F) ((tV).slice (Rect.unit (s := S1000000x128) ![0, 0] S1000000x128.size inb_S1000000x128_S1000000x128_0_0) hr').view T)
      (SparseCore.rows (View.read (Elt F) ((sI).slice (Rect.unit (s := S25600) off S256.size hb) hr).view fI) hn hin)) := by
  intro q p j hq
  -- the word of row p of the list is the word of position q
  have hp : S256.rowMajor.symm (Fin.cast hn.symm p) = ix1 p := by
    rw [Equiv.symm_apply_eq]; apply Fin.ext; rw [Shape.rowMajor_val_one]; rfl
  have hj : off 0 + 1 * p.val < 25600 := by
    have := hb 0; simp only [Matrix.cons_val_zero] at this; have := p.isLt; omega
  have hw : View.read (Elt F) ((sI).slice (Rect.unit (s := S25600) off S256.size hb) hr).view fI (ix1 p) = idxV m d (ix1 q) := by
    refine Eq.trans ?_ (hfI q ⟨off 0 + 1 * p.val, hj⟩ (by simp only []; omega))
    show fI _ = fI _
    refine congrArg fI (funext fun a => ?_)
    match a with | ⟨0, _⟩ => rfl
  have hrow : (SparseCore.rows (View.read (Elt F) ((sI).slice (Rect.unit (s := S25600) off S256.size hb) hr).view fI) hn hin p).val
      = (idxV m d (ix1 q)).toNat := by
    have e : (SparseCore.rows (View.read (Elt F) ((sI).slice (Rect.unit (s := S25600) off S256.size hb) hr).view fI) hn hin p).val
        = (View.read (Elt F) ((sI).slice (Rect.unit (s := S25600) off S256.size hb) hr).view fI (S256.rowMajor.symm (Fin.cast hn.symm p))).toNat := rfl
    rw [e, hp, hw]
  have hlt := hinw d (ix1 q)
  unfold SparseCore.gatherPayload
  show T _ = T _
  refine congrArg T (funext fun a => Fin.ext ?_)
  match a with
  | ⟨0, _⟩ =>
    have e0 := congrArg Fin.val (Shape.Gathers.idx_axis hg (SparseCore.rows (View.read (Elt F) ((sI).slice (Rect.unit (s := S25600) off S256.size hb) hr).view fI) hn hin) (ix2 p j))
    show 0 + 1 * _ = (idxV m d (ix1 q)).toNat % 1000000
    rw [Nat.mod_eq_of_lt hlt, ← hrow]
    simpa using e0
  | ⟨1, _⟩ =>
    have e1 := Shape.Gathers.idx_of_ne hg (SparseCore.rows (View.read (Elt F) ((sI).slice (Rect.unit (s := S25600) off S256.size hb) hr).view fI) hn hin) (ix2 p j) ⟨1, by decide⟩ (by decide)
    show 0 + 1 * _ = j.val
    simpa using e1

/-- A row buffer written whole with what a gather lands for the slice of the index scratch at offset 256 c holds chunk c. -/
theorem rows_ok {fI : S25600.Idx → Elt F .i32} (hfI : FetchedOK m d L fI) (hinw : ∀ (d : Dev nD) p, (idxV m d p).toNat < 1000000)
    (v : View sig Kind.scVector Space.vmem S256x128 EltTy.f32) (g0 : v.ty.Contents (Elt F)) (c : Nat)
    (off : Fin S25600.rank → Nat) (hb : ∀ a, off a + S256.size a ≤ S25600.size a) (hr : ∀ a, (Rect.unit (s := S25600) off S256.size hb).stride a = 1)
    (hoff : off 0 = 256 * c)
    (hg : S1000000x128.Gathers 0 S256x128) (hn : S256.numel = S256x128.size hg.axis')
    (hin : ∀ x, (View.read (Elt F) ((sI).slice (Rect.unit (s := S25600) off S256.size hb) hr).view fI x).toNat < S1000000x128.size hg.axis)
    (hr' : ∀ a, (Rect.unit (s := S1000000x128) ![0, 0] S1000000x128.size inb_S1000000x128_S1000000x128_0_0).stride a = 1) :
    RowsOK m d L T c (View.read (Elt F) v (v.writes (Elt F) g0 [⟨Rect.whole S256x128, SparseCore.gatherPayload hg
      (View.read (Elt F) ((tV).slice (Rect.unit (s := S1000000x128) ![0, 0] S1000000x128.size inb_S1000000x128_S1000000x128_0_0) hr').view T)
      (SparseCore.rows (View.read (Elt F) ((sI).slice (Rect.unit (s := S25600) off S256.size hb) hr).view fI) hn hin)⟩])) := by
  rw [View.read_writes_whole]
  exact gather_val m d L T hfI hinw c off hb hr hoff hg hn hin hr'

/-- The words of the index scratch are in range, read through any slice of it. -/
structure InRange (fI : Buf (Elt F) ((sI).view.loc (TH d L))) : Prop where
  h : ∀ (r : Rect S25600) (hr : ∀ a, r.stride a = 1) (x : r.shape.Idx), (View.read (Elt F) ((sI).slice r hr).view fI x).toNat < 1000000

/-- An assertion set aside, kept as it is. -/
def hide (P : sProp 𝕄) : sProp 𝕄 := P
theorem hide_eq (P : sProp 𝕄) : hide P = P := rfl

/-- The table's and the index scratch's read shares of the two gathers in flight at once. -/
abbrev qTa : PosShare TreeShare := (tq L).left
abbrev qTb : PosShare TreeShare := (tq L).right
abbrev qIa : PosShare TreeShare := fullShare.left
abbrev qIb : PosShare TreeShare := fullShare.right

variable (O : CellTallies nD τ sig (HIx 1)) (W : Waits sig (HIx 1))
variable (fI : Buf (Elt F) ((sI).view.loc (TH d L)))

/-- The gather of chunk `c` into rows A in flight: its flight delivers rows A at contents that hold chunk `c`, and the
    elements of the index scratch and of the table it borrowed; what it did not borrow stays beside it. -/
def flA (c : Nat) : sProp 𝕄 :=
  iprop(∃ (ga : Buf (Elt F) ((sA).view.loc (TH d L))) (So : Finset (Idx ((sI).view.loc (TH d L)))) (St : Finset (Idx ((tV).view.loc (TH d L)))),
    ⌜RowsOK m d L T c (View.read (Elt F) (sA).view ga)⌝
      ∗ Transfers.Flight (countersEmb : UEmb Counters 𝕄) (TH d L) (SemLoc.dma cc1_scratch3.sem) default 1048576
        iprop((((sA).view.loc (TH d L) ↦[(sA).view.set]{fullShare} ga) ∗ ((sI).view.loc (TH d L) ↦[So]{qIa} fI)) ∗ ((tV).view.loc (TH d L) ↦[St]{qTa L} T))
      ∗ ((tV).view.loc (TH d L) ↦[Finset.univ \ St]{qTa L} T)
      ∗ ((sA).view.loc (TH d L) ↦[Finset.univ \ (sA).view.set]{fullShare} ga)
      ∗ ((sI).view.loc (TH d L) ↦[Finset.univ \ So]{qIa} fI))

/-- Rows A idle: the buffer, its semaphore at zero, the shares back. -/
def idleA : sProp 𝕄 :=
  iprop((∃ ga, (sA).view.loc (TH d L) ↦{fullShare} ga) ∗ semVal (cellGA d L) 0
    ∗ ((tV).view.loc (TH d L) ↦{qTa L} T) ∗ ((sI).view.loc (TH d L) ↦{qIa} fI))

/-- What the chunks of trip `k'` hold before trip `n`: the gathered rows once written, the launch contents before. -/
def cont (n : Nat) (k' : Fin k1_t1_loop.trips) : Buf (Elt F) (outLoc d) := if k'.val < n then Gf m d T else m (outLoc d)

theorem cont_self (k : Fin k1_t1_loop.trips) : cont m d T k.val k = m (outLoc d) := if_neg (Nat.lt_irrefl _)
theorem cont_succ_self (k : Fin k1_t1_loop.trips) : cont m d T (k.val + 1) k = Gf m d T := if_pos (Nat.lt_succ_self _)
theorem cont_succ_of_ne {k k' : Fin k1_t1_loop.trips} (h : k' ≠ k) : cont m d T (k.val + 1) k' = cont m d T k.val k' := by
  have : k'.val ≠ k.val := fun e => h (Fin.ext e)
  unfold cont
  by_cases h1 : k'.val < k.val
  · rw [if_pos h1, if_pos (by omega)]
  · rw [if_neg h1, if_neg (by omega)]
theorem cont_zero (k' : Fin k1_t1_loop.trips) : cont m d T 0 k' = m (outLoc d) := if_neg (Nat.not_lt_zero _)
theorem cont_trips (k' : Fin k1_t1_loop.trips) : cont m d T k1_t1_loop.trips k' = Gf m d T := if_pos k'.isLt

/-- The two chunks of trip `k'` at given contents. -/
def chunkPair (f : Buf (Elt F) (outLoc d)) (k' : Fin k1_t1_loop.trips) : sProp 𝕄 :=
  iprop(((outA L k').view.loc (TH d L) ↦[(outA L k').view.set]{fullShare} f) ∗ ((outB L k').view.loc (TH d L) ↦[(outB L k').view.set]{fullShare} f))

theorem chunkPair_eq (f : Buf (Elt F) (outLoc d)) (k' : Fin k1_t1_loop.trips) :
    chunkPair d L f k' = iprop(((outA L k').view.loc (TH d L) ↦[(outA L k').view.set]{fullShare} f) ∗ ((outB L k').view.loc (TH d L) ↦[(outB L k').view.set]{fullShare} f)) := rfl

/-- The chunks of the subcore's block of the row buffer before trip `n`. -/
def outChunks (n : Nat) : sProp 𝕄 :=
  bigSep Finset.univ fun k' : Fin k1_t1_loop.trips => chunkPair d L (cont m d T n k') k'

/-- The chunks before trip k are trip k's at the launch contents and the others; -/
theorem outChunks_take (k : Fin k1_t1_loop.trips) :
    outChunks m d L T k.val ⊢ iprop(chunkPair d L (m (outLoc d)) k ∗ bigSep (Finset.univ.erase k) fun k' => chunkPair d L (cont m d T k.val k') k') := by
  unfold outChunks
  refine (Transfers.bigSep_univ_out k _).trans (Entails.of_eq ?_)
  rw [cont_self]

/-- trip k's at the gathered rows and the others are the chunks before trip k + 1. -/
theorem outChunks_put (k : Fin k1_t1_loop.trips) :
    iprop(chunkPair d L (Gf m d T) k ∗ bigSep (Finset.univ.erase k) fun k' => chunkPair d L (cont m d T k.val k') k') ⊢ outChunks m d L T (k.val + 1) := by
  unfold outChunks
  refine Entails.trans (Entails.of_eq ?_) (Transfers.bigSep_univ_in k _)
  rw [cont_succ_self]
  congr 1
  exact BI.bigSep_congr fun k' hk' => by rw [cont_succ_of_ne m d T (Finset.mem_erase.mp hk').1]

/-- Before trip `k`: rows B, its semaphore and its shares idle; the copy-out semaphores at zero; the chunks; the gather of
    chunk `2 k` in flight into rows A (none left after the last trip); what the subcore owes. -/
def Inv (k : Nat) (_ : PUnit) : sProp 𝕄 :=
  iprop(Transfers.MayWaits (TH d L) (none : HIx 1) O
    ∗ ((tV).view.loc (TH d L) ↦{qTb L} T) ∗ ((sI).view.loc (TH d L) ↦{qIb} fI)
    ∗ (∃ gb, (sB).view.loc (TH d L) ↦{fullShare} gb) ∗ semVal (cellGB d L) 0
    ∗ semVal (cell1 d L) 0 ∗ semVal (cell2 d L) 0
    ∗ outChunks m d L T k
    ∗ (if k < 50 then flA m d L T fI (2 * k) else idleA d L T fI)
    ∗ ∃ W', ⌜∀ p ∈ W', p ∈ W ∨ p.2 = none⌝ ∗ owes (TH d L) O W')

/-- At the launch contents the chunks are the chunks before trip 0; -/
theorem outChunks_zero :
    (bigSep Finset.univ fun k : Fin k1_t1_loop.trips =>
        iprop((outLoc d ↦[(outA L k).view.set]{fullShare} m (outLoc d)) ∗ (outLoc d ↦[(outB L k).view.set]{fullShare} m (outLoc d))) : sProp 𝕄)
      ⊢ outChunks m d L T 0 := by
  unfold outChunks
  exact Entails.of_eq (BI.bigSep_congr fun k _ => by rw [cont_zero]; rfl)

/-- after the last trip they are all at the gathered row buffer. -/
theorem outChunks_full :
    outChunks m d L T k1_t1_loop.trips ⊢
      (bigSep Finset.univ fun k : Fin k1_t1_loop.trips =>
        iprop((outLoc d ↦[(outA L k).view.set]{fullShare} Gf m d T) ∗ (outLoc d ↦[(outB L k).view.set]{fullShare} Gf m d T)) : sProp 𝕄) := by
  unfold outChunks
  exact Entails.of_eq (BI.bigSep_congr fun k _ => by rw [cont_trips]; rfl)

set_option maxRecDepth 65536 in
set_option maxHeartbeats 8000000 in
/-- One trip of the loop, from the invariant before it to the invariant after it. -/
theorem trip (hfI : FetchedOK m d L fI) (hinw : ∀ (d : Dev nD) p, (idxV m d p).toNat < 1000000) (hI : InRange d L fI)
    (k : Fin k1_t1_loop.trips) (u : PUnit) :
    Inv m d L T O W fI k.val u
      ⊢ wp frame (wpE (defs₀ (F := F)) 𝒱₀ (TH d L) none) Set.univ
          (k1_t1_body L tV (Memref.isWhole_whole _) iV (Memref.isWhole_whole _) oV (Memref.isWhole_whole _)
            sI (Memref.isWhole_whole _) sA (Memref.isWhole_whole _) sB (Memref.isWhole_whole _) cc1_scratch3 cc1_scratch4 cc1_scoped0 cc1_scoped1 cc1_scoped2 k u)
          (Inv m d L T O W fI (k.val + 1)) := by
  have hk50 : k.val < 50 := trips_eq ▸ k.isLt
  have k1_h1 : k1_cond1 k = 1#1 := cond1_true k
  have k1_h3 : k1_cond3 k = 1#1 := cond3_true k
  unfold Inv
  rw [if_pos hk50]
  unfold flA
  unfold k1_t1_body
  iintro ⟨#Hmw, HtB, HiB, ⟨%gb, Hsb⟩, HcB, Hc1, Hc2, HOUT, HFLA, %W', %hW', HO⟩
  ihave HOUT' := (outChunks_take (F := F) m d L T k) $$ HOUT
  icases HOUT' with ⟨HK, Hout⟩
  ihave HK' := (Entails.of_eq (chunkPair_eq (F := F) d L _ k)) $$ HK
  icases HK' with ⟨HoA, HoB⟩
  icases HFLA with ⟨%ga, %So, %St, %hga, HcA, HtAr, HsaR, HiAr⟩
  ihave HtArH := (Entails.of_eq (hide_eq (F := F) _).symm) $$ HtAr
  ihave HiArH := (Entails.of_eq (hide_eq (F := F) _).symm) $$ HiAr
  have hinB := hI.h (Rect.unit (s := S25600) (k1_off2 k) S256.size (k1_off2_inb k k1_h1)) (fun _ => rfl)
  rcases Nat.lt_or_ge k.val 49 with h49 | h49
  · have k1_h2 : k1_cond2 k = 1#1 := (cond2_iff k).2 h49
    rw [if_pos (show k.val + 1 < 50 by omega)]
    -- chunk 2k+1's gather starts; chunk 2k has landed in rows A
    sl_exec
    icases HcA_dst with ⟨HsaD, HiAD⟩
    ihave Hsa := (rejoin (F := F) _ _ _) $$ [HsaD HsaR]
    · isplitl [HsaD]; · iexact HsaD
      iexact HsaR
    -- rows A go out to chunk 2k of the block
    sl_exec
    ihave HtAr := (Entails.of_eq (hide_eq (F := F) _)) $$ HtArH
    ihave HiAr := (Entails.of_eq (hide_eq (F := F) _)) $$ HiArH
    ihave HtA := (rejoin (F := F) _ _ _) $$ [HcA_src HtAr]
    · isplitl [HcA_src]; · iexact HcA_src
      iexact HtAr
    ihave HiA := (rejoin (F := F) _ _ _) $$ [HiAD HiAr]
    · isplitl [HiAD]; · iexact HiAD
      iexact HiAr
    ihave HtBH := (Entails.of_eq (hide_eq (F := F) _).symm) $$ HtB
    ihave HiBH := (Entails.of_eq (hide_eq (F := F) _).symm) $$ HiB
    ihave HcBH := (Entails.of_eq (hide_eq (F := F) _).symm) $$ HcB
    have hinA := hI.h (Rect.unit (s := S25600) (k1_off5 k) S256.size (k1_off5_inb k k1_h2)) (fun _ => rfl)
    -- chunk 2k+2's gather starts into rows A
    sl_exec
    ihave HtB := (Entails.of_eq (hide_eq (F := F) _)) $$ HtBH
    ihave HiB := (Entails.of_eq (hide_eq (F := F) _)) $$ HiBH
    ihave HcB := (Entails.of_eq (hide_eq (F := F) _)) $$ HcBH
    -- chunk 2k+1 has landed in rows B, which go out to chunk 2k+1 of the block
    sl_exec
    sl_step
    isplitl [Hmw]; · iexact Hmw
    isplitl [HtB]; · iexact HtB
    isplitl [HiB]; · iexact HiB
    isplitl [Hsb]; · iexists _; iexact Hsb
    isplitl [HcB]; · iexact HcB
    isplitl [Hc1]; · iexact Hc1
    isplitl [Hc2]; · iexact Hc2
    isplitl [HoA HoB Hout]
    · iapply (outChunks_put (F := F) m d L T k)
      isplitl [HoA HoB]
      · iapply (Entails.of_eq (chunkPair_eq (F := F) d L _ k).symm)
        isplitl [HoA]
        · iapply (Entails.of_eq (chunkA_val (F := F) m d L T k (g := View.read (Elt F) (sA).view ga) hga (m (outLoc d))))
          iexact HoA
        · iapply (Entails.of_eq (chunkB_val (F := F) m d L T k
            (rows_ok (F := F) m d L T hfI hinw (sB).view gb (2 * k.val + 1) (k1_off2 k) (k1_off2_inb k k1_h1) (fun _ => rfl)
            (by rw [k1_off2_eq]; simp only [Matrix.cons_val_zero]; omega) gathers_S1000000x128_S256x128 rfl hinB (fun _ => rfl)) (m (outLoc d))))
          iexact HoB
      · iexact Hout
    isplitl [HcA HtA Hsa HiA]
    · iexists _; iexists _; iexists _
      isplitr
      rotate_left
      · isplitl [HcA]; · iexact HcA
        isplitl [HtA]; · iexact HtA
        isplitl [Hsa]; · iexact Hsa
        iexact HiA
      · ipureintro
        exact rows_ok (F := F) m d L T hfI hinw (sA).view ga (2 * (k.val + 1)) (k1_off5 k) (k1_off5_inb k k1_h2) (fun _ => rfl)
          (by rw [k1_off5_eq]; simp only [Matrix.cons_val_zero]; omega) gathers_S1000000x128_S256x128 rfl hinA (fun _ => rfl)
    iexists _; isplitr
    rotate_left
    · iexact HO
    · ipureintro; exact waits_ins (waits_ins (waits_ins (waits_ins hW' _) _) _) _
  · have k1_h2 : ¬ k1_cond2 k = 1#1 := fun h => absurd ((cond2_iff k).1 h) (by omega)
    rw [if_neg (show ¬ k.val + 1 < 50 by omega)]
    unfold idleA
    -- chunk 2k+1's gather starts; chunk 2k has landed in rows A
    sl_exec
    icases HcA_dst with ⟨HsaD, HiAD⟩
    ihave Hsa := (rejoin (F := F) _ _ _) $$ [HsaD HsaR]
    · isplitl [HsaD]; · iexact HsaD
      iexact HsaR
    -- rows A go out to chunk 2k; no further gather; rows B land and go out to chunk 2k+1
    sl_exec
    ihave HtAr := (Entails.of_eq (hide_eq (F := F) _)) $$ HtArH
    ihave HiAr := (Entails.of_eq (hide_eq (F := F) _)) $$ HiArH
    ihave HtA := (rejoin (F := F) _ _ _) $$ [HcA_src HtAr]
    · isplitl [HcA_src]; · iexact HcA_src
      iexact HtAr
    ihave HiA := (rejoin (F := F) _ _ _) $$ [HiAD HiAr]
    · isplitl [HiAD]; · iexact HiAD
      iexact HiAr
    sl_step
    isplitl [Hmw]; · iexact Hmw
    isplitl [HtB]; · iexact HtB
    isplitl [HiB]; · iexact HiB
    isplitl [Hsb]; · iexists _; iexact Hsb
    isplitl [HcB]; · iexact HcB
    isplitl [Hc1]; · iexact Hc1
    isplitl [Hc2]; · iexact Hc2
    isplitl [HoA HoB Hout]
    · iapply (outChunks_put (F := F) m d L T k)
      isplitl [HoA HoB]
      · iapply (Entails.of_eq (chunkPair_eq (F := F) d L _ k).symm)
        isplitl [HoA]
        · iapply (Entails.of_eq (chunkA_val (F := F) m d L T k (g := View.read (Elt F) (sA).view ga) hga (m (outLoc d))))
          iexact HoA
        · iapply (Entails.of_eq (chunkB_val (F := F) m d L T k
            (rows_ok (F := F) m d L T hfI hinw (sB).view gb (2 * k.val + 1) (k1_off2 k) (k1_off2_inb k k1_h1) (fun _ => rfl)
            (by rw [k1_off2_eq]; simp only [Matrix.cons_val_zero]; omega) gathers_S1000000x128_S256x128 rfl hinB (fun _ => rfl)) (m (outLoc d))))
          iexact HoB
      · iexact Hout
    isplitl [Hsa HcA HtA HiA]
    · isplitl [Hsa]; · iexists _; iexact Hsa
      isplitl [HcA]; · iexact HcA
      isplitl [HtA]; · iexact HtA
      iexact HiA
    iexists _; isplitr
    rotate_left
    · iexact HO
    · ipureintro; exact waits_ins (waits_ins (waits_ins (waits_ins hW' _) _) _) _

variable (TabOK : (d : Dev nD) → Buf (Elt F) (tabLoc d) → Prop)

/-- The two halves of the table's share are the share; of the index scratch's, the scratch outright. -/
theorem tab_join : (iprop(((tV).view.loc (TH d L) ↦{qTa L} T) ∗ ((tV).view.loc (TH d L) ↦{qTb L} T)) : sProp 𝕄) ⊢ (tabLoc d ↦{tq L} T : sProp 𝕄) :=
  (pointsTo_share (PosShare.mem_left_op_right (tq L))).2
theorem sI_join (f : Buf (Elt F) ((sI).view.loc (TH d L))) :
    (iprop(((sI).view.loc (TH d L) ↦{qIa} f) ∗ ((sI).view.loc (TH d L) ↦{qIb} f)) : sProp 𝕄) ⊢ ((TH d L).loc cc1_scratch0 ↦{fullShare} f : sProp 𝕄) :=
  (pointsTo_share (PosShare.mem_left_op_right fullShare)).2

set_option maxRecDepth 65536 in
set_option maxHeartbeats 8000000 in
/-- The kernel on one vector subcore: the index block fetched, the first gather started, the fifty trips by the
    invariant, and at the end everything idle again and the block of the row buffer at the gathered rows. -/
theorem tile_body (hF : (K (F := F)).Facts) (hin : ∀ (d : Dev nD) p, (idxV m d p).toNat < 1000000)
    (hO : ∀ g, O g none = 0) :
    iprop(levAts (K (F := F)).L (K (F := F)).lev ∗ emp ∗ goA m TabOK d L
        ∗ scopedBufs (TH d L) ∗ scopedSems0 (TH d L) ∗ owes (TH d L) O W)
      ⊢ wp frame (wpE (defs₀ (F := F)) 𝒱₀ (TH d L) none) Set.univ
          (cc1_gather_kernel L tV (Memref.isWhole_whole _) iV (Memref.isWhole_whole _) oV (Memref.isWhole_whole _)
            sI (Memref.isWhole_whole _) sA (Memref.isWhole_whole _) sB (Memref.isWhole_whole _) cc1_scratch3 cc1_scratch4 cc1_scoped0 cc1_scoped1 cc1_scoped2)
          fun _ => iprop(tdA m TabOK d L ∗ scopedBufs (TH d L) ∗ scopedSems0 (TH d L)
            ∗ ∃ W', ⌜∀ p ∈ W', p ∈ W ∨ p.2 = none⌝ ∗ owes (TH d L) O W') := by
  simp only [cc1_gather_kernel_eq_skeleton]; unfold cc1_gather_kernel_skel
  rw [(K (F := F)).scopedBufs_V hF d (cV L) (jV L), SparseCore.Cfg.scopedSems0_V (Val := Elt F) d (cV L) (jV L), ownSems0_V, ownBufs_V]
  unfold goA
  iintro ⟨#Hlv, -, ⟨%T, %hT, Ht, Hix, Hout⟩, ⟨⟨%fi0, Hsi⟩, ⟨%fa0, Hsa⟩, ⟨%fb0, Hsb⟩, Hbufs⟩, ⟨HcA, HcB, Hc0, Hc1, Hc2, Hsems⟩, HO⟩
  ihave Hmw := ((K (F := F)).mayWaits_none (thr := TH d L) hO) $$ Hlv
  ihave Hix' := (Entails.of_eq (pts_idx (F := F) d L _).symm) $$ Hix
  ihave Hsi' := (Entails.of_eq (pts_sI (F := F) d L _ _).symm) $$ Hsi
  ihave Hsa' := (Entails.of_eq (pts_sA (F := F) d L _).symm) $$ Hsa
  ihave Hsb' := (Entails.of_eq (pts_sB (F := F) d L _).symm) $$ Hsb
  ihave Ht' := (Entails.of_eq (pts_tab (F := F) d L _ _).symm) $$ Ht
  -- the index block comes in
  sl_exec
  have hfI : FetchedOK m d L (View.write (Elt F) (sI).view fi0 (tile_body.sl.dma0 m d L) Finset.univ) := fetched_ok m d L fi0
  have hI : InRange d L (View.write (Elt F) (sI).view fi0 (tile_body.sl.dma0 m d L) Finset.univ) :=
    ⟨fun r hr x => fetched_inb (fun y => hin d _) fi0 r hr x⟩
  -- the shares of the two gathers that are in flight at once
  ihave Hsi2 := (pointsTo_share (PosShare.mem_left_op_right fullShare)).1 $$ Hsi'
  icases Hsi2 with ⟨HiA, HiB⟩
  ihave Ht2 := (pointsTo_share (PosShare.mem_left_op_right (tq L))).1 $$ Ht'
  icases Ht2 with ⟨HtA, HtB⟩
  ihave HiBH := (Entails.of_eq (hide_eq (F := F) _).symm) $$ HiB
  ihave HtBH := (Entails.of_eq (hide_eq (F := F) _).symm) $$ HtB
  have hin0 := hI.h (Rect.unit (s := S25600) ![0] S256.size inb_S25600_S256_0) (fun _ => rfl)
  -- chunk 0's gather starts
  sl_exec
  ihave HiB := (Entails.of_eq (hide_eq (F := F) _)) $$ HiBH
  ihave HtB := (Entails.of_eq (hide_eq (F := F) _)) $$ HtBH
  ihave Hout' := (outChunks_zero (F := F) m d L T) $$ Hout
  sl_for (Inv m d L T O W (View.write (Elt F) (sI).view fi0 (tile_body.sl.dma0 m d L) Finset.univ)) $$ [Hmw HtB HiB Hsb' HcB Hc1 Hc2 Hout' HcA HtA Hsa' HiA HO]
  case region =>
    intro k u
    exact trip m d L T O W _ hfI hin hI k u
  · unfold Inv
    rw [if_pos (show (0 : ℕ) < 50 by decide)]
    unfold flA
    isplitl [Hmw]; · iexact Hmw
    isplitl [HtB]; · iexact HtB
    isplitl [HiB]; · iexact HiB
    isplitl [Hsb']; · iexists _; iexact Hsb'
    isplitl [HcB]; · iexact HcB
    isplitl [Hc1]; · iexact Hc1
    isplitl [Hc2]; · iexact Hc2
    isplitl [Hout']; · iexact Hout'
    isplitl [HcA HtA Hsa' HiA]
    · iexists _; iexists _; iexists _
      isplitr
      rotate_left
      · isplitl [HcA]; · iexact HcA
        isplitl [HtA]; · iexact HtA
        isplitl [Hsa']; · iexact Hsa'
        iexact HiA
      · ipureintro
        exact rows_ok (F := F) m d L T hfI hin (sA).view fa0 (2 * 0) ![0] inb_S25600_S256_0 (fun _ => rfl)
          (by decide) gathers_S1000000x128_S256x128 rfl hin0 (fun _ => rfl)
    iexists _; isplitr
    rotate_left
    · iexact HO
    · ipureintro; exact waits_ins (fun p hp => .inl hp) _
  iintro %acc HI
  unfold Inv
  rw [if_neg (show ¬ k1_t1_loop.trips < 50 by rw [trips_eq]; decide)]
  unfold idleA
  icases HI with ⟨-, HtB, HiB, ⟨%gb, Hsb⟩, HcB, Hc1, Hc2, Hout, ⟨⟨%ga, Hsa⟩, HcA, HtA, HiA⟩, %W', %hW', HO⟩
  sl_exec
  sl_step
  isplitl [HtA HtB Hix' Hout]
  · unfold tdA
    iexists T
    isplitr; · ipureintro; exact hT
    isplitl [HtA HtB]
    · iapply (tab_join (F := F) d L T)
      isplitl [HtA]; · iexact HtA
      iexact HtB
    isplitl [Hix']; · iexact Hix'
    iexists (Gf m d T)
    isplitr; · ipureintro; exact gathOK_Gf m d L T
    iapply (outChunks_full (F := F) m d L T)
    iexact Hout
  isplitl [HiA HiB Hsa Hsb Hbufs]
  · isplitl [HiA HiB]
    · iexists _
      iapply (sI_join (F := F) d L _)
      isplitl [HiA]; · iexact HiA
      iexact HiB
    isplitl [Hsa]; · iexists _; iexact Hsa
    isplitl [Hsb]; · iexists _; iexact Hsb
    iexact Hbufs
  isplitl [HcA HcB Hc0 Hc1 Hc2 Hsems]
  · isplitl [HcA]; · iexact HcA
    isplitl [HcB]; · iexact HcB
    isplitl [Hc0]; · iexact Hc0
    isplitl [Hc1]; · iexact Hc1
    isplitl [Hc2]; · iexact Hc2
    iexact Hsems
  iexists W'; isplitr
  · ipureintro; exact hW'
  · iexact HO

end Tile

/-! ## The launch theorem's obligation -/

variable (TabOK : (d : Dev nD) → Buf (Elt F) (tabLoc d) → Prop)

theorem defs₀_vector (c : Fin τ.nSC) (s : Fin τ.nSub) :
    defs₀ (F := F) (.scVector c s) 1 ()
      = SparseCore.onTile hcore1 hsub1 (fun c s => cc1_gather_kernel (coordsV c s)
          tV (Memref.isWhole_whole _) iV (Memref.isWhole_whole _) oV (Memref.isWhole_whole _)
          sI (Memref.isWhole_whole _) sA (Memref.isWhole_whole _) sB (Memref.isWhole_whole _) cc1_scratch3 cc1_scratch4 cc1_scoped0 cc1_scoped1 cc1_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task, from what it is handed to what it hands back. -/
theorem tileObl (hF : (K (F := F)).Facts) (hin : ∀ (d : Dev nD) p, (idxV m d p).toNat < 1000000) :
    (K (F := F)).TileObl (D (F := F)) 𝒱 (P m TabOK) v₀ 0 := by
  intro d c i O W hO _ _
  simp only [show (P m TabOK).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m d (coordsV ⟨_, hc.1⟩ ⟨_, hc.2⟩) O W TabOK hF hin hO).trans (wp_mono frame _ _ fun _ => obl_post)

end Cert.Proof.KI
end
-- ==== Proof.KReg2.lean ====
/-
  The second pipelined call as a step of @main: on each of its 100 grid points the body multiplies the two 4096-row
  halves of the point's 8192 gathered rows (their first 64 columns) by the 64 x 64 matrix, adds the bias column, and
  stores the two 64 x 4096 results as rows 2 t and 2 t + 1 of the output.
-/
import proofs.«217421_g60146722013857_cont_9to1c4b_519_37_alg».proof.Proof.KMain
import Idealize.ShloMosaic.Lib.Pipeline.FrameBody
import Idealize.ShloMosaic.Lib.Pipeline.RegionsLoop
import Idealize.ShloMosaic.Lib.Pipeline.FrameSuffix
import Idealize.ShloMosaic.Lib.Pipeline.Value

set_option maxRecDepth 16384

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_split held_sdiff_result held_congr wp_hlo_within)
open Idealize.ShloMosaic.Pipeline (Dat Cfg Window BodyObligation cellOf)

variable {F : FTy → Type} [FloatOps F]

local notation "𝕄" => MT nD τ sig (HIx 1) (Elt F) ℕ UU ℕ

namespace Reg2

/-! ## The body's accesses and what it leaves in the output block -/

abbrev rIn : Rect S8192x128 := Rect.unit (s := S8192x128) ![0, 0] S8192x64.size inb_S8192x128_S8192x64_0_0
abbrev rBias : Rect S64x1 := Rect.unit (s := S64x1) ![0, 0] S64x1.size inb_S64x1_S64x1_0_0
abbrev rMat : Rect S64x64 := Rect.unit (s := S64x64) ![0, 0] S64x64.size inb_S64x64_S64x64_0_0
abbrev rLo : Rect S2x64x4096 := Rect.unit (s := S2x64x4096) ![0, 0, 0] S1x64x4096.size inb_S2x64x4096_S1x64x4096_0_0_0
abbrev rHi : Rect S2x64x4096 := Rect.unit (s := S2x64x4096) ![1, 0, 0] S1x64x4096.size inb_S2x64x4096_S1x64x4096_1_0_0

/-- The unscoped arrays of a TensorCore as the call finds them. -/
abbrev VW (W : Valuation τ sig (Elt F)) (c : Dev nD) : (b : Ref sig .tc) → Buf (Elt F) ((SparseCore.T c : Thread nD τ).loc b) := fun b => W (Proc.devRef .tc b)

/-- Window `w`'s block at grid point `t`, read off its array as the call finds it. -/
def iblk (W : Valuation τ sig (Elt F)) (c : Dev nD) (w : Fin cfg2.W) (t : Fin cfg2.N) : ((cfg2.win w).xblock (cfg2.grid.coords t)).Idx → Elt F (cfg2.win w).elt :=
  ((cfg2.win w).blk t).view.read (Elt F) (VW W c (Pipeline.arrRef spec2 w))

/-- The grid point that writes row `l` of the output: two rows a point. -/
def ptOf (l : Fin 200) : Fin cfg2.N := ⟨l.val / 2, by
  have h : l.val < 200 := l.isLt
  show l.val / 2 < grid2.N
  rw [N_2]; omega⟩

end Reg2

/-- What the second call leaves in its output array, said of the valuation it was entered with: row `l` is, at (e, r),
    the product of the 64 x 64 matrix with the even (l even) or odd (l odd) 4096-row half of the 8192 gathered rows of
    grid point l / 2 (their first 64 columns), plus the bias column. -/
def Res2 (d : Dev nD) (W : Valuation τ sig (Elt F)) (Y : Buf (Elt F) (v12Loc d)) : Prop :=
  ∀ (l : Fin 200) (e : Fin 64) (r : Fin 4096),
    Y (ix3 l e r) = if l.val % 2 = 0
      then k2_pay3 (View.ld (Reg2.iblk W d 0 (Reg2.ptOf l)) Reg2.rIn) (View.ld (Reg2.iblk W d 2 (Reg2.ptOf l)) Reg2.rBias)
        (View.ld (Reg2.iblk W d 1 (Reg2.ptOf l)) Reg2.rMat) (ix3 (0 : Fin 1) e r)
      else k2_pay4 (View.ld (Reg2.iblk W d 0 (Reg2.ptOf l)) Reg2.rIn) (View.ld (Reg2.iblk W d 2 (Reg2.ptOf l)) Reg2.rBias)
        (View.ld (Reg2.iblk W d 1 (Reg2.ptOf l)) Reg2.rMat) (ix3 (0 : Fin 1) e r)

namespace Reg2

variable [∀ e, Nonempty (Elt F e)]

/-- The output block after the body, from the rows block `x0`, the matrix `x1` and the bias column `x2`: row 0 the
    product over the first 4096 rows, row 1 over the last 4096 (the later store listed first). -/
def outBlk (x0 : Vec F S8192x128 .f32) (x1 : Vec F S64x64 .f32) (x2 : Vec F S64x1 .f32) : Vec F S2x64x4096 .f32 :=
  View.canon [⟨rHi, k2_pay4 (View.ld x0 rIn) (View.ld x2 rBias) (View.ld x1 rMat)⟩,
    ⟨rLo, k2_pay3 (View.ld x0 rIn) (View.ld x2 rBias) (View.ld x1 rMat)⟩]

/-- The two stores tile the block. -/
theorem outBlk_cover (p0 p1 : Vec F S1x64x4096 .f32) (y : S2x64x4096.Idx) :
    ∃ pc ∈ ([⟨rHi, p0⟩, ⟨rLo, p1⟩] : List (View.Piece (Elt F) S2x64x4096 .f32)), y ∈ pc.1.set :=
  View.cover_of_tiled [⟨rHi, p0⟩, ⟨rLo, p1⟩] S1x64x4096.size (by rfl) y

set_option maxHeartbeats 1000000 in
/-- The body on whole staging memrefs: the three inputs read and left as they were, the output block left at `outBlk`. -/
theorem sound_k2 (c : Dev nD) (E : Set ℕ) (i : grid2.Coords)
    (a1 : Memref sig .tc .vmem S8192x128 .f32) (h1 : a1.IsWhole) (a2 : Memref sig .tc .vmem S64x64 .f32) (h2 : a2.IsWhole)
    (a3 : Memref sig .tc .vmem S64x1 .f32) (h3 : a3.IsWhole) (a4 : Memref sig .tc .vmem S2x64x4096 .f32) (h4 : a4.IsWhole)
    (x0 : Vec F S8192x128 .f32) (x1 : Vec F S64x64 .f32) (x2 : Vec F S64x1 .f32) (Kc : PUnit → sProp 𝕄) :
    iprop(owns (SparseCore.T c) a1 fullShare x0 ∗ owns (SparseCore.T c) a2 fullShare x1 ∗ owns (SparseCore.T c) a3 fullShare x2
        ∗ (∃ d, owns (SparseCore.T c) a4 fullShare d)
        ∗ (iprop(owns (SparseCore.T c) a1 fullShare x0 ∗ owns (SparseCore.T c) a2 fullShare x1 ∗ owns (SparseCore.T c) a3 fullShare x2
            ∗ owns (SparseCore.T c) a4 fullShare (outBlk x0 x1 x2)) -∗ Kc ⟨⟩))
      ⊢ wp frame (wpE (defs₀ (F := F)) Variants.none (SparseCore.T c) none) E (cc2_mm_kernel i a1 h1 a2 h2 a3 h3 a4 h4) Kc := by
  simp only [cc2_mm_kernel_eq_skeleton]; unfold cc2_mm_kernel_skel
  unfold owns
  iintro ⟨⟨%f1, %e1, H1⟩, ⟨%f2, %e2, H2⟩, ⟨%f3, %e3, H3⟩, ⟨%d4, %f4, -, H4⟩, Hk⟩
  subst e1; subst e2; subst e3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outBlk_cover _ _)

/-! ## The windows' blocks and the call's proof data -/

variable (W : Valuation τ sig (Elt F)) (O : CellTallies nD τ sig (HIx 1)) (Wt : Waits sig (HIx 1))

/-- The call's proof data on a core: the arrays as found; after the body each input's buffer at its block and the
    output's at `outBlk` of them; the invariant the scoped buffers no window stages; the core's dues `O` throughout, its
    recorded waits the ones it came with or at a kernel's own index. -/
def dat2 (c : Dev nD) : Dat τ (Elt F) (HIx 1) ℕ UU ℕ cfg2 c where
  A w := VW W c (Pipeline.arrRef spec2 w)
  after w t := match w with
    | ⟨0, _⟩ => iblk W c 0 t
    | ⟨1, _⟩ => iblk W c 1 t
    | ⟨2, _⟩ => iblk W c 2 t
    | ⟨3, _⟩ => outBlk (iblk W c 0 t) (iblk W c 1 t) (iblk W c 2 t)
  Φ _ := Pipeline.scopedRest spec2 c
  q _ := fullShare
  owed _ := O
  recorded _ := {p | p ∈ Wt ∨ p.2 = none}

theorem A_eq2 (c : Dev nD) (w : Fin cfg2.W) : (dat2 W O Wt c).A w = VW W c (Pipeline.arrRef spec2 w) := by dsimp only [dat2]
theorem after2_0 (c : Dev nD) (t : Fin cfg2.N) : (dat2 W O Wt c).after 0 t = iblk W c 0 t := by dsimp only [dat2]
theorem after2_1 (c : Dev nD) (t : Fin cfg2.N) : (dat2 W O Wt c).after 1 t = iblk W c 1 t := by dsimp only [dat2]
theorem after2_2 (c : Dev nD) (t : Fin cfg2.N) : (dat2 W O Wt c).after 2 t = iblk W c 2 t := by dsimp only [dat2]
theorem after2_3 (c : Dev nD) (t : Fin cfg2.N) :
    (dat2 W O Wt c).after 3 t = outBlk (iblk W c 0 t) (iblk W c 1 t) (iblk W c 2 t) := by dsimp only [dat2]

/-- An input's current staging buffer holds its block at every point, fetched there or not. -/
theorem before2_0 (c : Dev nD) (t : Fin cfg2.N) (d) : (dat2 W O Wt c).before 0 t d = iblk W c 0 t :=
  ((dat2 W O Wt c).before_in_eq_fetched 0 rfl (fun _ => rfl) (fun _ _ _ => rfl)
      (fun t => by rw [after2_0]; unfold Dat.blockOf iblk; rw [A_eq2]; try rfl) t d).trans
    (by unfold Dat.fetched Dat.blockOf iblk; rw [A_eq2]; try rfl)
theorem before2_1 (c : Dev nD) (t : Fin cfg2.N) (d) : (dat2 W O Wt c).before 1 t d = iblk W c 1 t :=
  ((dat2 W O Wt c).before_in_eq_fetched 1 rfl (fun _ => rfl) (fun _ _ _ => rfl)
      (fun t => by rw [after2_1]; unfold Dat.blockOf iblk; rw [A_eq2]; try rfl) t d).trans
    (by unfold Dat.fetched Dat.blockOf iblk; rw [A_eq2]; try rfl)
theorem before2_2 (c : Dev nD) (t : Fin cfg2.N) (d) : (dat2 W O Wt c).before 2 t d = iblk W c 2 t :=
  ((dat2 W O Wt c).before_in_eq_fetched 2 rfl (fun _ => rfl) (fun _ _ _ => rfl)
      (fun t => by rw [after2_2]; unfold Dat.blockOf iblk; rw [A_eq2]; try rfl) t d).trans
    (by unfold Dat.fetched Dat.blockOf iblk; rw [A_eq2]; try rfl)

/-! ## The body obligation -/

def bodyPre (c : Dev nD) (t : Fin cfg2.N) : sProp 𝕄 :=
  iprop((dat2 W O Wt c).Φ t.castSucc ∗ (dat2 W O Wt c).owesAt (none : HIx 1) t.castSucc
    ∗ (∃ d, owns (SparseCore.T c) (st2_0 t) fullShare ((dat2 W O Wt c).before 0 t d))
    ∗ (∃ d, owns (SparseCore.T c) (st2_1 t) fullShare ((dat2 W O Wt c).before 1 t d))
    ∗ (∃ d, owns (SparseCore.T c) (st2_2 t) fullShare ((dat2 W O Wt c).before 2 t d))
    ∗ (∃ d, owns (SparseCore.T c) (st2_3 t) fullShare ((dat2 W O Wt c).before 3 t d)))

def bodyPost (c : Dev nD) (t : Fin cfg2.N) : sProp 𝕄 :=
  iprop((dat2 W O Wt c).Φ t.succ ∗ (dat2 W O Wt c).owesAt (none : HIx 1) t.succ
    ∗ owns (SparseCore.T c) (st2_0 t) fullShare ((dat2 W O Wt c).after 0 t)
    ∗ owns (SparseCore.T c) (st2_1 t) fullShare ((dat2 W O Wt c).after 1 t)
    ∗ owns (SparseCore.T c) (st2_2 t) fullShare ((dat2 W O Wt c).after 2 t)
    ∗ owns (SparseCore.T c) (st2_3 t) fullShare ((dat2 W O Wt c).after 3 t))

/-- The body at any point: the inputs' buffers hold their blocks, so the body's triple applies; the invariant and the
    core's dues pass through unread. -/
theorem sound_body2 (c : Dev nD) (t : Fin cfg2.N) :
    bodyPre W O Wt c t ⊢ wp frame (wpE (defs₀ (F := F)) Variants.none (SparseCore.T c) none) Set.univ (bodyAt2 t) (fun _ => bodyPost W O Wt c t) := by
  unfold bodyPre bodyPost bodyAt2
  simp only [before2_0, before2_1, before2_2]
  rw [show (dat2 W O Wt c).Φ t.succ = (dat2 W O Wt c).Φ t.castSucc from rfl,
    show (dat2 W O Wt c).owesAt (none : HIx 1) t.succ = (dat2 W O Wt c).owesAt (none : HIx 1) t.castSucc from rfl,
    after2_0, after2_1, after2_2, after2_3]
  iintro ⟨HΦ, Ho, ⟨%d0, H0⟩, ⟨%d1, H1⟩, ⟨%d2, H2⟩, ⟨%d3, H3⟩⟩
  iapply (sound_k2 c Set.univ _ _ _ _ _ _ _ _ _ (iblk W c 0 t) (iblk W c 1 t) (iblk W c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 W O Wt c) (defs₀ (F := F)) Variants.none (none : HIx 1) Set.univ := fun t => by
  rw [bigSep_W2, bigSep_W2]
  exact sound_body2 W O Wt c t

/-! ## The exit contents, and data for both pipelined calls -/

theorem ne_v12_0 : (Proc.devRef .tc (Pipeline.arrRef spec2 0) : DevRef τ sig) ≠ v12' := by decide
theorem ne_v12_1 : (Proc.devRef .tc (Pipeline.arrRef spec2 1) : DevRef τ sig) ≠ v12' := by decide
theorem ne_v12_2 : (Proc.devRef .tc (Pipeline.arrRef spec2 2) : DevRef τ sig) ≠ v12' := by decide

set_option backward.isDefEq.respectTransparency.types false in
/-- The arrays at the exit: the inputs as found, the output at what the write-backs left. -/
theorem hF2 (c : Dev nD) : ∀ w, (dat2 W O Wt c).arrAt w cfg2.N
      = VW (Function.update W v12' ((dat2 W O Wt c).arrAt 3 cfg2.N)) c (Pipeline.arrRef spec2 w)
  | ⟨0, _⟩ => ((dat2 W O Wt c).arrAt_in 0 rfl _).trans ((A_eq2 W O Wt c 0).trans (Function.update_of_ne ne_v12_0 _ W).symm)
  | ⟨1, _⟩ => ((dat2 W O Wt c).arrAt_in 1 rfl _).trans ((A_eq2 W O Wt c 1).trans (Function.update_of_ne ne_v12_1 _ W).symm)
  | ⟨2, _⟩ => ((dat2 W O Wt c).arrAt_in 2 rfl _).trans ((A_eq2 W O Wt c 2).trans (Function.update_of_ne ne_v12_2 _ W).symm)
  | ⟨3, _⟩ => by
    show (dat2 W O Wt c).arrAt 3 cfg2.N = Function.update W v12' ((dat2 W O Wt c).arrAt 3 cfg2.N) v12'
    rw [Function.update_self]

theorem hrest2 (c : Dev nD) (Y : Buf (Elt F) (v12Loc c)) :
    ∀ b : Ref sig .tc, b ∉ Finset.univ.image (Pipeline.arrRef spec2) → VW (Function.update W v12' Y) c b = VW W c b :=
  fun b hb => Function.update_of_ne (fun e => hb (Finset.mem_image.mpr ⟨3, Finset.mem_univ _, (Proc.devRef_injective _ e).symm⟩)) _ _

/-- Data for the first call, which this module does not run: its arrays as found, nothing said of its blocks. -/
def dat0' (c : Dev nD) : Dat τ (Elt F) (HIx 1) ℕ UU ℕ cfg0 c where
  A w := VW W c (Pipeline.arrRef spec0 w)
  after _ _ := fun _ => Classical.arbitrary _
  Φ _ := iprop(emp)
  q _ := fullShare
  owed _ := 0

def pdats2 : (p : Fin 2) → (c : Dev nD) → Dat τ (Elt F) (HIx 1) ℕ UU ℕ (Pipeline.pin (pcfgs (F := F)) adm p) c
  | ⟨0, _⟩ => fun c => dat0' W c
  | ⟨1, _⟩ => fun c => dat2 W O Wt c

/-! ## The call as a region -/

/-- The thread state the call is entered from: every unscoped array at `W`, the core's dues; -/
def pre2 (c : Dev nD) : sProp 𝕄 := iprop(held (SparseCore.T c) (Pipeline.ucRefs τ sig) W ∗ owes (SparseCore.T c) O Wt)
/-- and the one it leaves: the output array at what the write-backs made of it, the dues the same. -/
def post2 (c : Dev nD) : sProp 𝕄 :=
  iprop(∃ (Y : Buf (Elt F) (v12Loc c)) (Wt' : Waits sig (HIx 1)),
      ⌜Y = (dat2 W O Wt c).arrAt 3 cfg2.N ∧ ∀ q ∈ Wt', q ∈ Wt ∨ q.2 = none⌝
      ∗ held (SparseCore.T c) (Pipeline.ucRefs τ sig) (Function.update W v12' Y) ∗ owes (SparseCore.T c) O Wt')

set_option backward.isDefEq.respectTransparency.types false in
/-- The second call over the TensorCore's thread state: entered from every unscoped array at `W` and the core's dues,
    left with the output array at what the write-backs made of it and the same dues. -/
def reg2 (hO : ∀ g, O g none = 0) :
    Pipeline.RegionSeg (pcfgs (F := F)) adm (pdats2 W O Wt) (none : HIx 1) (defs₀ (F := F)) 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 W O Wt c).loose
  hwaits c := Pipeline.cellsWaits_intro (Pipeline.pin (pcfgs (F := F)) adm) (pdats2 W O Wt) (none : HIx 1) 1 c
    fun w s t => (K (F := F)).mayWait_none _ hO
  pre c := pre2 W O Wt c
  post c := post2 W O Wt c
  X _ := iprop(emp)
  Y _ := iprop(emp)
  Z c := Pipeline.unscopedRest (Ix := HIx 1) (Name := ℕ) (U := UU) (Lvl := ℕ) spec2 c (VW W c)
  hentry c := by
    unfold pre2
    rw [Pipeline.ownSems0_none]
    have hsplit := Pipeline.arrays_of_unscopedBufs (p := 1) (pcfgs (F := F)) adm (pdats2 W O Wt) launch2.win launch2.arr_whole c
      ((pdats2 W O Wt 1 c).share_full fun _ => rfl) (VW W c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Wt; isplitr; · ipureintro; exact fun p hp => Or.inl (Or.inl hp)
      iexact HO
    isplitr; · iempintro
    iexact Hrest
  hin c := by
    rw [show (pdats2 W O Wt 1 c).Φ 0 = Pipeline.scopedRest spec2 c from rfl]
    iintro ⟨-, -, Hr⟩
    iexact Hr
  hout c := by
    rw [Pipeline.ownSems0_none, show (pdats2 W O Wt 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats2 W O Wt) ((pdats2 W O Wt 1 c).share_full fun _ => rfl)
      (VW W c) (VW (Function.update W v12' ((dat2 W O Wt c).arrAt 3 cfg2.N)) c) ((pdats2 W O Wt 1 c).arrAt · cfg2.N)
      (hF2 W O Wt c) (hrest2 W c _)
    rw [Pipeline.unscopedBufs_held] at hjoin
    iintro ⟨Ha, HO, -, Hrest⟩
    imodintro
    unfold post2 Pipeline.Dat.owesAt Pipeline.owesWithin
    icases HO with ⟨%W', %hW', HO⟩
    iexists ((dat2 W O Wt c).arrAt 3 cfg2.N), W'
    isplitr
    · ipureintro
      refine ⟨rfl, fun q hq => ?_⟩
      rcases hW' hq with h | ⟨w, s, e⟩
      · exact h
      · cases e; exact Or.inr rfl
    isplitl [Ha Hrest]
    · iapply hjoin; isplitl [Ha] <;> iassumption
    iexact HO

/-! ## From the blocks to the array -/

/-- The output window's block index at grid point `t` is (t, 0, 0): decided over the grid. -/
theorem idx3 : ∀ t : Fin cfg2.N, win2_3.index t (0 : Fin 3) = t.val ∧ win2_3.index t (1 : Fin 3) = 0 ∧ win2_3.index t (2 : Fin 3) = 0 :=
  (by decide +kernel : ∀ t : Fin grid2.N, _)

/-- The grid point that writes row `i 0` of the output. -/
def pt (i : S200x64x4096.Idx) : Fin cfg2.N := ⟨(i 0).val / 2, by
  have h : (i 0).val < 200 := (i 0).isLt
  show (i 0).val / 2 < grid2.N
  rw [N_2]; omega⟩

/-- The output array at the exit: row l is row l % 2 of the block its grid point l / 2 leaves. -/
def G2 (c : Dev nD) : S200x64x4096.Idx → Elt F .f32 := fun i =>
  outBlk (iblk W c 0 (pt i)) (iblk W c 1 (pt i)) (iblk W c 2 (pt i))
    (ix3 (⟨(i 0).val % 2, Nat.mod_lt _ (by decide)⟩ : Fin 2) (⟨(i 1).val, (i 1).isLt⟩ : Fin 64) (⟨(i 2).val, (i 2).isLt⟩ : Fin 4096))

theorem G2_at (c : Dev nD) (t : Fin cfg2.N) (i : S200x64x4096.Idx) (j : S2x64x4096.Idx)
    (h0 : (i 0).val = 2 * t.val + (j 0).val) (h1 : (i 1).val = (j 1).val) (h2 : (i 2).val = (j 2).val) :
    G2 W c i = outBlk (iblk W c 0 t) (iblk W c 1 t) (iblk W c 2 t) j := by
  have hj0 : (j 0).val < 2 := (j 0).isLt
  have hp : pt i = t := Fin.ext (by show (i 0).val / 2 = t.val; omega)
  unfold G2
  rw [hp]
  congr 1
  funext a
  match a with
  | 0 => exact Fin.ext (by show (i 0).val % 2 = (j 0).val; omega)
  | 1 => exact Fin.ext h1
  | 2 => exact Fin.ext h2

/-- Reading block t of an array of the output's shape: the array at the block's index in it. -/
theorem read_blk3 (t : Fin cfg2.N) (G : S200x64x4096.Idx → Elt F .f32) (j : ((cfg2.win 3).xblock (cfg2.grid.coords t)).Idx) :
    ((cfg2.win 3).blk t).view.read (Elt F) G j = G (((cfg2.win 3).blk t).view.emb j) := rfl

/-- What a point writes back of the output window is what the body left, index by index. -/
theorem flushed3_apply (c : Dev nD) (dat : Dat τ (Elt F) (HIx 1) ℕ UU ℕ cfg2 c) (t : Fin cfg2.N)
    (j : ((cfg2.win 3).xblock (cfg2.grid.coords t)).Idx) :
    dat.flushed 3 t j = dat.after 3 t ((cfg2.win 3).xinj (cfg2.grid.coords t) j) := rfl

theorem emb3_val (t : Fin cfg2.N) (j : ((cfg2.win 3).xblock (cfg2.grid.coords t)).Idx) (a : Fin 3) :
    ((((cfg2.win 3).blk t).view.emb j) a).val = win2_3.index t a * S2x64x4096.size a + 1 * (j a).val := rfl

set_option maxHeartbeats 1000000 in
/-- What grid point t writes back is block t of the array G2. -/
theorem flushed3_eq (c : Dev nD) (t : Fin cfg2.N) :
    (dat2 W O Wt c).flushed 3 t = ((cfg2.win 3).blk t).view.read (Elt F) (G2 W c) := by
  obtain ⟨e0, e1, e2⟩ := idx3 t
  funext j
  rw [flushed3_apply c (dat2 W O Wt c) t j, after2_3, read_blk3 t (G2 W c) j]
  refine (G2_at W c t _ _ ?_ ?_ ?_).symm
  · rw [emb3_val t j 0]
    show win2_3.index t (0 : Fin 3) * 2 + 1 * (j 0).val = 2 * t.val + (j 0).val; omega
  · rw [emb3_val t j 1]
    show win2_3.index t (1 : Fin 3) * 64 + 1 * (j 1).val = (j 1).val; omega
  · rw [emb3_val t j 2]
    show win2_3.index t (2 : Fin 3) * 4096 + 1 * (j 2).val = (j 2).val; omega

theorem mem_blk3 (t : Fin cfg2.N) (i : S200x64x4096.Idx) :
    i ∈ ((cfg2.win 3).blk t).view.set ↔ ∀ a : Fin 3, win2_3.index t a * S2x64x4096.size a ≤ (i a).val
      ∧ (i a).val < win2_3.index t a * S2x64x4096.size a + S2x64x4096.size a := by
  show i ∈ ((View.whole main_v12).slice (win2_3.rect t)).set ↔ _
  rw [View.set_slice_whole, Rect.mem_set_unit]
  exact Iff.rfl

/-- Every index of the output is in the block of the grid point of its row. -/
theorem cover3 (i : S200x64x4096.Idx) : ∃ t : Fin cfg2.N, (cfg2.win 3).flush t = true ∧ i ∈ ((cfg2.win 3).blk t).view.set := by
  refine ⟨pt i, flush2_3 _, ?_⟩
  rw [mem_blk3]
  obtain ⟨e0, e1, e2⟩ := idx3 (pt i)
  have hp : (pt i).val = (i 0).val / 2 := rfl
  have h1 : (i 1).val < 64 := (i 1).isLt
  have h2 : (i 2).val < 4096 := (i 2).isLt
  intro a
  match a with
  | ⟨0, _⟩ => show win2_3.index (pt i) (0 : Fin 3) * 2 ≤ (i 0).val ∧ (i 0).val < win2_3.index (pt i) (0 : Fin 3) * 2 + 2; omega
  | ⟨1, _⟩ => show win2_3.index (pt i) (1 : Fin 3) * 64 ≤ (i 1).val ∧ (i 1).val < win2_3.index (pt i) (1 : Fin 3) * 64 + 64; omega
  | ⟨2, _⟩ => show win2_3.index (pt i) (2 : Fin 3) * 4096 ≤ (i 2).val ∧ (i 2).val < win2_3.index (pt i) (2 : Fin 3) * 4096 + 4096; omega

/-- The output array after the call. -/
theorem final3 (c : Dev nD) : (dat2 W O Wt c).arrAt 3 cfg2.N = G2 W c :=
  (dat2 W O Wt c).arrAt_eq_of_cover 3 (G2 W c) (fun t _ => flushed3_eq W O Wt c t) (cover3)

/-! ## The output block at an index -/

theorem rHi_emb (e : Fin 64) (r : Fin 4096) : rHi.emb (ix3 (0 : Fin 1) e r) = ix3 (1 : Fin 2) e r := by
  funext a
  match a with
  | ⟨0, _⟩ => exact Fin.ext (by rw [Rect.emb_apply]; rfl)
  | ⟨1, _⟩ => exact Fin.ext (by rw [Rect.emb_apply]; show 0 + 1 * e.val = e.val; omega)
  | ⟨2, _⟩ => exact Fin.ext (by rw [Rect.emb_apply]; show 0 + 1 * r.val = r.val; omega)

theorem rLo_emb (e : Fin 64) (r : Fin 4096) : rLo.emb (ix3 (0 : Fin 1) e r) = ix3 (0 : Fin 2) e r := by
  funext a
  match a with
  | ⟨0, _⟩ => exact Fin.ext (by rw [Rect.emb_apply]; rfl)
  | ⟨1, _⟩ => exact Fin.ext (by rw [Rect.emb_apply]; show 0 + 1 * e.val = e.val; omega)
  | ⟨2, _⟩ => exact Fin.ext (by rw [Rect.emb_apply]; show 0 + 1 * r.val = r.val; omega)

/-- Row 1 of the block is the later store's payload, -/
theorem outBlk_hi (x0 : Vec F S8192x128 .f32) (x1 : Vec F S64x64 .f32) (x2 : Vec F S64x1 .f32) (e : Fin 64) (r : Fin 4096) :
    outBlk x0 x1 x2 (ix3 (1 : Fin 2) e r) = k2_pay4 (View.ld x0 rIn) (View.ld x2 rBias) (View.ld x1 rMat) (ix3 (0 : Fin 1) e r) := by
  unfold outBlk
  rw [← rHi_emb e r]
  exact View.canon_cons_emb rHi _ _ _

set_option maxHeartbeats 1000000 in
/-- row 0 the earlier one's. -/
theorem outBlk_lo (x0 : Vec F S8192x128 .f32) (x1 : Vec F S64x64 .f32) (x2 : Vec F S64x1 .f32) (e : Fin 64) (r : Fin 4096) :
    outBlk x0 x1 x2 (ix3 (0 : Fin 2) e r) = k2_pay3 (View.ld x0 rIn) (View.ld x2 rBias) (View.ld x1 rMat) (ix3 (0 : Fin 1) e r) := by
  have hn : ix3 (0 : Fin 2) e r ∉ rHi.set := fun h => by
    have h0 := (Rect.mem_set_unit.mp h) 0
    exact Nat.not_succ_le_zero 0 h0.1
  have h1 := View.canon_cons_emb (Val := Elt F) (e := .f32) rLo (k2_pay3 (View.ld x0 rIn) (View.ld x2 rBias) (View.ld x1 rMat) : rLo.shape.Idx → Elt F .f32) [] (ix3 (0 : Fin 1) e r)
  rw [rLo_emb] at h1
  unfold outBlk
  exact (View.canon_cons_of_not_mem (Val := Elt F)
    (⟨rHi, k2_pay4 (View.ld x0 rIn) (View.ld x2 rBias) (View.ld x1 rMat)⟩ : View.Piece (Elt F) S2x64x4096 .f32)
    [(⟨rLo, k2_pay3 (View.ld x0 rIn) (View.ld x2 rBias) (View.ld x1 rMat)⟩ : View.Piece (Elt F) S2x64x4096 .f32)] hn).trans h1

/-- The array the call leaves is the one `Res2` describes. -/
theorem res2_G (d : Dev nD) : Res2 d W (G2 W d) := by
  intro l e r
  by_cases h : l.val % 2 = 0
  · rw [if_pos h]
    have hidx : (ix3 (⟨(ix3 l e r 0).val % 2, Nat.mod_lt _ (by decide)⟩ : Fin 2) (⟨(ix3 l e r 1).val, (ix3 l e r 1).isLt⟩ : Fin 64)
        (⟨(ix3 l e r 2).val, (ix3 l e r 2).isLt⟩ : Fin 4096) : S2x64x4096.Idx) = ix3 (0 : Fin 2) e r := by
      funext a
      match a with
      | ⟨0, _⟩ => exact Fin.ext h
      | ⟨1, _⟩ => rfl
      | ⟨2, _⟩ => rfl
    exact (congrArg (outBlk (iblk W d 0 (ptOf l)) (iblk W d 1 (ptOf l)) (iblk W d 2 (ptOf l))) hidx).trans (outBlk_lo _ _ _ e r)
  · rw [if_neg h]
    have h1 : l.val % 2 = 1 := by omega
    have hidx : (ix3 (⟨(ix3 l e r 0).val % 2, Nat.mod_lt _ (by decide)⟩ : Fin 2) (⟨(ix3 l e r 1).val, (ix3 l e r 1).isLt⟩ : Fin 64)
        (⟨(ix3 l e r 2).val, (ix3 l e r 2).isLt⟩ : Fin 4096) : S2x64x4096.Idx) = ix3 (1 : Fin 2) e r := by
      funext a
      match a with
      | ⟨0, _⟩ => exact Fin.ext h1
      | ⟨1, _⟩ => rfl
      | ⟨2, _⟩ => rfl
    exact (congrArg (outBlk (iblk W d 0 (ptOf l)) (iblk W d 1 (ptOf l)) (iblk W d 2 (ptOf l))) hidx).trans (outBlk_hi _ _ _ e r)

omit [FloatOps F] in
set_option backward.isDefEq.respectTransparency.types false in
/-- A pipelined call as a step, its record's thread states named. -/
theorem region_step' [FloatOps F] {rdats : (p : Fin 2) → (c : Dev nD) → Pipeline.RDat τ (Elt F) (HIx 1) ℕ UU ℕ (Pipeline.pin (pcfgs (F := F)) adm p) c} {p : Fin 2}
    (R : Pipeline.RDat.RegionSeg (pcfgs (F := F)) adm rdats (none : HIx 1) (defs₀ (F := F)) 𝒱₀ (K (F := F)).L (K (F := F)).lev p)
    (d : Dev nD) (Φ : PUnit → sProp 𝕄) (pre post : sProp 𝕄) (hpre : R.pre d = pre) (hpost : R.post d = post) :
    iprop((iprop(boundary (SparseCore.T d) ∗ post) -∗ Φ ⟨⟩) ∗ boundary (SparseCore.T d) ∗ pre ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Pipeline.entry p)) ())) Φ := by
  subst hpre; subst hpost; exact region_step R d Φ

end Reg2

open Reg2 in
set_option backward.isDefEq.respectTransparency.types false in
/-- The second pipelined call as a step of @main. -/
theorem reg2_spec [∀ e, Nonempty (Elt F e)] : RegSpec (F := F) 1 main_v12 (Res2 (F := F)) := by
  intro d W O Wt hO Φ
  refine BIBase.Entails.trans ?_ (region_step' ((reg2 W O Wt hO).toR (pcfgs (F := F)) adm (pdats2 W O Wt) (none : HIx 1) (defs₀ (F := F)) 𝒱₀
    (K (F := F)).L (K (F := F)).lev) d Φ (pre2 W O Wt d) (post2 W O Wt d) rfl rfl)
  unfold pre2 post2
  iintro ⟨Hl, Hb, Hh, Ho, Hg, Ht, Hk⟩
  isplitl [Hk]
  · iintro ⟨Hb, %Y, %Wt', %hY, Hh, Ho⟩
    iapply Hk $$ %Y %Wt'
    isplitr
    · ipureintro
      refine ⟨?_, hY.2⟩
      rw [hY.1, final3]
      exact res2_G W d
    isplitl [Hb]; · iexact Hb
    isplitl [Hh]; · iexact Hh
    iexact Ho
  isplitl [Hb]; · iexact Hb
  isplitl [Hh Ho]
  · isplitl [Hh]; · iexact Hh
    iexact Ho
  isplitl [Hl]; · iexact Hl
  isplitl [Hg]; · iexact Hg
  iexact Ht

end Cert.Proof.KI

end
-- ==== Proof.KValSpec.lean ====
/-
  What the first pipelined call leaves in the table, said at the ideal instance: row v of the table holds, in its first 64
  columns, the products of column v of the transposed embedding with the 64 x 64 matrix the call was given (the identity,
  as @main builds it — so that row v is row v of the embedding).
-/
import proofs.«217421_g60146722013857_cont_9to1c4b_519_37_alg».proof.Proof.KMainG

noncomputable section

namespace Cert.Proof.KI

open Cert.KernelIdeal Cert.KernelIdeal.Gen
open Idealize.ShloMosaic Idealize.SL.Sem
open Idealize.ShloMosaic.ValueIdx

abbrev v2' : DevRef τ sig := Proc.devRef .tc (main_v2 : Ref sig .tc)
abbrev v8' : DevRef τ sig := Proc.devRef .tc (main_v8 : Ref sig .tc)
abbrev v10' : DevRef τ sig := Proc.devRef .tc (main_v10 : Ref sig .tc)

/-- Entry (v, e), e < 64, of the table is the sum over k < 64 of the transposed embedding's (k, v) times the matrix's (k, e). -/
def Tab0I (d : Dev nD) (W : Valuation τ sig (Elt Ideal)) (Tb : Buf (Elt Ideal) (tabLoc d)) : Prop :=
  ∀ (v : Fin 1000000) (e : Fin 64),
    @id EReal (Tb (ix2 v (⟨e.val, by omega⟩ : Fin 128))) = ∑ k : Fin 64, @id EReal (W v2' (ix2 k v)) * @id EReal (W v8' (ix2 k e))

/-- The gathered rows, every vector subcore's block. -/
abbrev GathAll (m : (ℓ : Loc nD τ sig) → Buf (Elt Ideal) ℓ) (d : Dev nD) (Tb : Buf (Elt Ideal) (tabLoc d)) (f : Buf (Elt Ideal) (outLoc d)) : Prop :=
  ∀ L : grid1.Coords, GathOK m d L Tb f

end Cert.Proof.KI

end
-- ==== Proof.Spec.lean ====
/-
  The function both programs compute, stated once over the argument arrays.

  For token position (r, l) the word ids[r, l] names a row of the embedding table (the word read as a signed
  number and clamped into the table's 1000000 rows); that row, a vector of 64 numbers, is multiplied by the
  64 x 64 matrix W and the bias b is added:

      G ids emb W b (r, l, e) = (sum over k < 64 of emb[row(ids[r, l]), k] * W[k, e]) + b[e]

  on the extended reals.
-/
import Idealize.ShloMosaic.PureOps.Ideal
import Idealize.ShloMosaic.Lib.ValueIdx

noncomputable section

namespace Cert.Proof.Spec

open Idealize.ShloMosaic Idealize.ShloMosaic.ValueIdx

abbrev SIds : Shape := ⟨2, ![4096, 200]⟩
abbrev SEmb : Shape := ⟨2, ![1000000, 64]⟩
abbrev SW : Shape := ⟨2, ![64, 64]⟩
abbrev SB : Shape := ⟨1, ![64]⟩
abbrev SOut : Shape := ⟨3, ![4096, 200, 64]⟩

/-- The table row a token word names: the word read signed, clamped into the table's rows. -/
def rowOf (w : BitVec 32) : Fin 1000000 := ⟨min w.toInt.toNat 999999, by omega⟩

/-- A word that is a row number already names that row. -/
theorem rowOf_val_of_lt (w : BitVec 32) (h : w.toNat < 1000000) : (rowOf w).val = w.toNat := by
  have e : w.toInt = (w.toNat : Int) := by
    rw [BitVec.toInt_eq_toNat_cond]; have := h; split <;> omega
  show min w.toInt.toNat 999999 = w.toNat
  rw [e]; simp only [Int.toNat_natCast]; omega

/-- The embedding row of token (r, l), multiplied by W, plus the bias. -/
def G (ids : IVec SIds 32) (emb : FVec Ideal SEmb .f32) (W : FVec Ideal SW .f32) (b : FVec Ideal SB .f32) :
    FVec Ideal SOut .f32 :=
  fun i => ((∑ k : Fin 64, (emb (ix2 (rowOf (ids (ix2 (i 0 : Fin 4096) (i 1 : Fin 200)))) k) : EReal)
      * (W (ix2 k (i 2 : Fin 64)) : EReal)) + (b (ix1 (i 2 : Fin 64)) : EReal) : EReal)

theorem G_apply (ids : IVec SIds 32) (emb : FVec Ideal SEmb .f32) (W : FVec Ideal SW .f32) (b : FVec Ideal SB .f32)
    (r : Fin 4096) (l : Fin 200) (e : Fin 64) :
    G ids emb W b (ix3 r l e)
      = ((∑ k : Fin 64, (emb (ix2 (rowOf (ids (ix2 r l))) k) : EReal) * (W (ix2 k e) : EReal)) + (b (ix1 e) : EReal) : EReal) := rfl

end Cert.Proof.Spec

end
-- ==== Proof.KFinal.lean ====
/-
  The last step of the value claim on the kernel side, at the ideal instance: what the run leaves in the result array
  is the function G of the argument arrays.

  The run leaves the result array at the last valuation's contents, over SOME table Tb, row buffer f and second-call
  output Y of which three facts are known: the table's row v is the product of column v of the transposed embedding
  with the matrix the first call was given; every vector subcore's block of the row buffer holds the table's rows its
  index words name; and Y at (l, e, r) is the product of W's column e with row 4096 l + r of the row buffer, plus the
  bias at e. Read at an index (r, l, e) and chained, these say: the result there is the sum over k of
  W[k, e] * embedding[row(ids[r, l]), k], plus b[e] — which is G, once the products are commuted.
-/
import proofs.«217421_g60146722013857_cont_9to1c4b_519_37_alg».proof.Proof.KValSpec
import proofs.«217421_g60146722013857_cont_9to1c4b_519_37_alg».proof.Proof.Spec
import Idealize.ShloMosaic.Lib.Pipeline.Value

noncomputable section

namespace Cert.Proof.KI

open Cert.KernelIdeal Cert.KernelIdeal.Gen
open Idealize.ShloMosaic Idealize.SL.Sem
open Idealize.ShloMosaic.ValueIdx

variable (m : (ℓ : Loc nD τ sig) → Buf (Elt Ideal) ℓ) (d : Dev nD)

/-- Position 4096 l + r of the flattened list. -/
abbrev posOf (l : Fin 200) (r : Fin 4096) : Fin 819200 := ⟨4096 * l.val + r.val, by omega⟩

/-- (5) The index list at position 4096 l + r is the token word of (r, l). -/
theorem idxV_apply (l : Fin 200) (r : Fin 4096) : idxV m d (ix1 (posOf l r)) = m (idsLoc d) (ix2 r l) := by
  unfold idxV
  rw [shapeCast_apply _ _ (ix1 (posOf l r)) (ix2 l r) (by
    rw [Shape.rowMajor_val_two, Shape.rowMajor_val_one]
    show l.val * 4096 + r.val = 4096 * l.val + r.val
    omega)]
  exact transpose_apply _ _ _ (ix2 l r) (ix2 r l) (fun b => match b with | ⟨0, _⟩ => rfl | ⟨1, _⟩ => rfl)

/-- (7) A word below the table's height names the same row either way. -/
theorem rowN_eq_rowOf (w : BitVec 32) (h : w.toNat < 1000000) : rowN w = Cert.Proof.Spec.rowOf w := by
  refine Fin.ext ?_
  rw [Cert.Proof.Spec.rowOf_val_of_lt w h]
  show w.toNat % 1000000 = w.toNat
  exact Nat.mod_eq_of_lt h

section Vals
variable (Tb : Buf (Elt Ideal) (tabLoc d)) (f : Buf (Elt Ideal) (outLoc d)) (Y : Buf (Elt Ideal) (v12Loc d))

/-- (3) W is untouched by every stretch and every call. -/
theorem W3_a3 : W3 m d Tb f a3' = m ((SparseCore.T d).loc main_arg3) := by
  refine (Function.update_of_ne (show a3' ≠ v11' by decide) _ _).trans ?_
  refine (StableHlo.after_of_writes_sub ops1 _ ops1_writes (r := main_arg3) (by decide)).trans ?_
  refine (Function.update_of_ne (show a3' ≠ v9' by decide) _ _).trans ?_
  exact StableHlo.after_of_writes_sub ops0 _ ops0_writes (r := main_arg3) (by decide)

/-- (3) The row buffer is what the vector subcores left. -/
theorem W3_v11 : W3 m d Tb f v11' = f := Function.update_self _ _ _

/-- (3) The bias as a column reads the bias. -/
theorem W3_v10 (e : Fin 64) : W3 m d Tb f v10' (ix2 e (0 : Fin 1)) = m ((SparseCore.T d).loc main_arg4) (ix1 e) := by
  have h1 : W3 m d Tb f v10' = StableHlo.after ops1 (Function.update (W1 m d) v9' Tb) v10' :=
    Function.update_of_ne (show v10' ≠ v11' by decide) _ _
  have h2 : (Function.update (W1 m d) v9' Tb) a4' = m ((SparseCore.T d).loc main_arg4) := by
    refine (Function.update_of_ne (show a4' ≠ v9' by decide) _ _).trans ?_
    exact StableHlo.after_of_writes_sub ops0 _ ops0_writes (r := main_arg4) (by decide)
  rw [h1]
  have h3 : StableHlo.after ops1 (Function.update (W1 m d) v9' Tb) v10'
      = shapeCast S64x1 ((Function.update (W1 m d) v9' Tb) a4') shapeCasts_S64_S64x1 := by
    after_results <;> rfl
  rw [h3, h2]
  exact shapeCast_apply _ _ (ix2 e (0 : Fin 1)) (ix1 e) (by
    rw [Shape.rowMajor_val_two, Shape.rowMajor_val_one]
    show e.val = e.val * 1 + 0
    omega)

/-- (1) The result at (r, l, e) is the second call's output at (l, e, r). -/
theorem W5_v13 (r : Fin 4096) (l : Fin 200) (e : Fin 64) : W5 m d Tb f Y v13' (ix3 r l e) = Y (ix3 l e r) := by
  have h3 : W5 m d Tb f Y v13'
      = transpose S4096x200x64 [2, 0, 1] ((Function.update (W3 m d Tb f) v12' Y) v12') transposes_S200x64x4096_S4096x200x64_2_0_1 := by
    after_results <;> rfl
  rw [h3, Function.update_self]
  exact transpose_apply _ _ _ (ix3 r l e) (ix3 l e r) (fun b => match b with | ⟨0, _⟩ => rfl | ⟨1, _⟩ => rfl | ⟨2, _⟩ => rfl)

/-- (6a) The transposed embedding at (k, v) is the embedding at (v, k). -/
theorem W1_v2 (k : Fin 64) (v : Fin 1000000) : W1 m d v2' (ix2 k v) = m ((SparseCore.T d).loc main_arg2) (ix2 v k) := by
  have h3 : W1 m d v2' = transpose S64x1000000 [1, 0] (V0 m d a2') transposes_S1000000x64_S64x1000000_1_0 := by
    after_results <;> rfl
  rw [h3]
  exact transpose_apply _ _ _ (ix2 k v) (ix2 v k) (fun b => match b with | ⟨0, _⟩ => rfl | ⟨1, _⟩ => rfl)

/-- (4) The row buffer at position p holds the table's row that position's index word names: the fact of the vector
    subcore whose block of 25600 positions holds p. -/
theorem f_apply (hG : ∀ L : grid1.Coords, GathOK m d L Tb f) (p : Fin 819200) (k : Fin 128) :
    f (ix2 p k) = Tb (ix2 (rowN (idxV m d (ix1 p))) k) := by
  have hp := p.isLt
  let c : Fin (grid1.bound 0) := ⟨(p.val / 25600) % 2, by show _ < 2; omega⟩
  let s : Fin (grid1.bound 1) := ⟨(p.val / 25600) / 2, by show _ < 16; omega⟩
  have hb : baseOf (coordsV c s) = 51200 * ((p.val / 25600) / 2) + 25600 * ((p.val / 25600) % 2) := rfl
  exact hG (coordsV c s) p k (by rw [hb]; omega) (by rw [hb]; omega)

/-- The word comparing row number a with column number b is 1 on the diagonal and 0 off it. -/
theorem delta_word (a b : Fin 64) :
    IntOp.cmpi .eq (IntOp.addi (BitVec.ofNat 32 a.val) 0#32) (BitVec.ofNat 32 b.val) = if a = b then 1#1 else 0#1 := by
  have hadd : IntOp.addi (BitVec.ofNat 32 a.val) 0#32 = BitVec.ofNat 32 a.val := by
    show BitVec.ofNat 32 a.val + 0#32 = _
    simp
  rw [hadd]
  by_cases h : a = b
  · subst h; rw [if_pos rfl]; exact IntOp.cmpi_eq.2 rfl
  · rw [if_neg h]
    apply eq_zero_of_ne_one
    rw [IntOp.cmpi_eq]
    intro e
    apply h
    apply Fin.ext
    have e' := congrArg BitVec.toNat e
    simp only [BitVec.toNat_ofNat] at e'
    have := a.isLt; have := b.isLt
    omega

/-- (6b) The matrix the first call is given is the 64 x 64 identity. -/
theorem W1_v8 (a b : Fin 64) : @id EReal (W1 m d v8' (ix2 a b)) = if a = b then 1 else 0 := by
  have h3 : W1 m d v8' = (uitofp .f32 (cmpi .eq (addi (iotaInDim S64x64 32 0) (broadcastInDim S64x64 ![] bcast_S_S64x64 (constantI S_ 32 0#32)))
      (iotaInDim S64x64 32 1)) : FVec Ideal S64x64 .f32) := by
    after_results <;> rfl
  rw [h3]
  show (((IntOp.cmpi .eq (IntOp.addi (BitVec.ofNat 32 a.val) 0#32) (BitVec.ofNat 32 b.val)).toNat : ℝ) : EReal) = _
  rw [delta_word]
  split <;> simp

/-- (6) Row v of the table holds, in its first 64 columns, row v of the embedding. -/
theorem tab_row (hT : Tab0I d (W1 m d) Tb) (v : Fin 1000000) (k : Fin 64) :
    @id EReal (Tb (ix2 v (⟨k.val, by omega⟩ : Fin 128))) = @id EReal (m ((SparseCore.T d).loc main_arg2) (ix2 v k)) := by
  rw [hT v k, Finset.sum_eq_single k]
  · rw [W1_v2, W1_v8, if_pos rfl, mul_one]
  · intro b _ hb
    rw [W1_v8, if_neg hb, mul_zero]
  · intro h
    exact absurd (Finset.mem_univ k) h

end Vals

/-- The kernel's result is G: the last stretch transposes the second call's output into the token-major layout; that
    output at (l, e, r) is the product of W's column e with row 4096 l + r of the row buffer, plus the bias at e; the row
    buffer's row is the table's row the position's index word names; the position's index word is the token word of
    (r, l); the table's row is the embedding's row; and a token word below the table's height names the same row whether
    it is reduced modulo the height or clamped. -/
theorem resok_eq_G (m : (ℓ : Loc nD τ sig) → Buf (Elt Ideal) ℓ) (d : Dev nD)
    (Res2X : (d : Dev nD) → Valuation τ sig (Elt Ideal) → Buf (Elt Ideal) (v12Loc d) → Prop)
    (hres2 : ∀ (W : Valuation τ sig (Elt Ideal)) (Y : Buf (Elt Ideal) (v12Loc d)), Res2X d W Y → ∀ (l : Fin 200) (e : Fin 64) (r : Fin 4096),
        @id EReal (Y (ix3 l e r)) = (∑ k : Fin 64, @id EReal (W a3' (ix2 k e)) * @id EReal (W v11' (ix2 (⟨4096 * l.val + r.val, by omega⟩ : Fin 819200) (⟨k.val, by omega⟩ : Fin 128)))) + @id EReal (W v10' (ix2 e (0 : Fin 1))))
    (hids : ∀ j, (m (idsLoc d) j).toNat < 1000000)
    (R : Buf (Elt Ideal) (v13Loc d)) (h : ResOKG m Tab0I Res2X (GathAll m) d R) :
    R = Cert.Proof.Spec.G (m (idsLoc d)) (m ((SparseCore.T d).loc main_arg2)) (m ((SparseCore.T d).loc main_arg3)) (m ((SparseCore.T d).loc main_arg4)) := by
  obtain ⟨Tb, f, Y, hT, hG, hY, rfl⟩ := h
  funext i
  obtain ⟨r, l, e, rfl⟩ : ∃ (r : Fin 4096) (l : Fin 200) (e : Fin 64), i = ix3 r l e := ⟨i 0, i 1, i 2, eq_ix3 i⟩
  rw [W5_v13, Cert.Proof.Spec.G_apply]
  refine (hres2 _ Y hY l e r).trans ?_
  rw [W3_a3, W3_v11, W3_v10]
  have hrow : ∀ k : Fin 64, @id EReal (f (ix2 (⟨4096 * l.val + r.val, by omega⟩ : Fin 819200) (⟨k.val, by omega⟩ : Fin 128)))
      = @id EReal (m ((SparseCore.T d).loc main_arg2) (ix2 (Cert.Proof.Spec.rowOf (m (idsLoc d) (ix2 r l))) k)) := by
    intro k
    rw [f_apply m d Tb f hG, show (⟨4096 * l.val + r.val, by omega⟩ : Fin 819200) = posOf l r from rfl, idxV_apply,
      rowN_eq_rowOf _ (hids _)]
    exact tab_row m d Tb hT _ k
  simp only [hrow]
  exact congrArg₂ (· + ·) (Finset.sum_congr rfl fun k _ => mul_comm _ _) rfl

end Cert.Proof.KI

end
-- ==== Proof.RefValue.lean ====
/-
  The reference's result is the function G.

  The reference's run ends with the result buffer at the composed term of its 27 operations (`term`). Under
  the hypothesis that every token word, read unsigned, is below the table's height 1000000, that term is
  G at every index (r, l, e):

  * the wrap of a negative index does nothing (the word is non-negative), so the index array holds the
    token word itself;
  * both range comparisons hold at every token, so the reduction by "and" over the index axis is 1
    everywhere and the select keeps the gathered row;
  * the gather at (r, l, e) reads the table at (the word read signed and clamped into the table, e): axis 0
    of the table takes the clamped start index (it is collapsed, so no offset), axis 1 takes the offset
    coordinate e (it has no start component);
  * the product with W contracts the row's 64 columns against W's rows: a sum over k < 64;
  * the bias, broadcast over the two token axes, reads b at e.
-/
import proofs.«217421_g60146722013857_cont_9to1c4b_519_37_alg».proof.Proof.RefRun
import proofs.«217421_g60146722013857_cont_9to1c4b_519_37_alg».proof.Proof.Spec
import Idealize.ShloMosaic.PureOps.Ideal.Laws
import Idealize.ShloMosaic.PureOps.Reduce
import Idealize.ShloMosaic.Lib.Affine
import Idealize.ShloMosaic.Lib.ValueIdx

noncomputable section

namespace Cert.Proof.Ref

open Cert.ReferenceIdeal Idealize.ShloMosaic Idealize.ShloMosaic.ValueIdx Idealize.ShloMosaic.TcCoe Idealize.SL.Sem
open Cert.ReferenceIdeal.Facts₀

section Lemmas
variable [Cert.ReferenceIdeal.Facts]

/-! ## Words: a word below 1000000 is non-negative when read signed, and at most 999999 -/

/-- Such a word reads the same signed and unsigned. -/
theorem word_toInt (v : BitVec 32) (h : v.toNat < 1000000) : v.toInt = (v.toNat : Int) := by
  rw [BitVec.toInt_eq_toNat_cond]; split <;> omega

theorem word_not_neg (v : BitVec 32) (h : v.toNat < 1000000) : IntOp.cmpi .slt v 0#32 = 0#1 := by
  apply eq_zero_of_ne_one
  rw [IntOp.cmpi_slt, word_toInt v h, show (0#32 : BitVec 32).toInt = 0 from by decide]; omega

theorem word_ge (v : BitVec 32) (h : v.toNat < 1000000) : IntOp.cmpi .sge v 0#32 = 1#1 := by
  rw [IntOp.cmpi_sge, word_toInt v h, show (0#32 : BitVec 32).toInt = 0 from by decide]; omega

theorem word_le (v : BitVec 32) (h : v.toNat < 1000000) : IntOp.cmpi .sle v 999999#32 = 1#1 := by
  rw [IntOp.cmpi_sle, word_toInt v h, show (999999#32 : BitVec 32).toInt = 999999 from by decide]; omega

/-! ## A reduction by and of an array of ones -/

/-- A left fold by and over ones, started at one, is one. -/
theorem foldl_andi_one {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by and, from the initial value one, of an array whose every element is one, is one everywhere. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_one x hx _

/-! ## The index chain at a token -/

section Index
variable (ids : IVec S4096x200 32)

/-- A token word that names a row is not wrapped. -/
theorem wrapped_apply (r : Fin 4096) (l : Fin 200) (h : (ids (ix2 r l)).toNat < 1000000) :
    wrapped ids (ix2 r l) = ids (ix2 r l) := by
  show Scalar.select (IntOp.cmpi .slt (ids (ix2 r l)) 0#32) _ (ids (ix2 r l)) = _
  rw [word_not_neg _ h, select_zero]

/-- The index array at a token is the wrapped word of that token. -/
theorem idx_apply (r : Fin 4096) (l : Fin 200) (z : Fin 1) : idx ids (ix3 r l z) = wrapped ids (ix2 r l) := by
  unfold idx broadcastInDim
  congr 1
  funext a
  match a with
  | ⟨0, _⟩ => rfl
  | ⟨1, _⟩ => rfl

/-- When every token word names a row, every token passes both range comparisons. -/
theorem mask_apply (hids : ∀ j, (ids j).toNat < 1000000) (r : Fin 4096) (l : Fin 200) : mask ids (ix2 r l) = 1#1 := by
  unfold mask
  apply reduce_andi_one
  · intro i
    obtain ⟨r', l', z, rfl⟩ : ∃ (r' : Fin 4096) (l' : Fin 200) (z : Fin 1), i = ix3 r' l' z := ⟨i 0, i 1, i 2, eq_ix3 i⟩
    show IntOp.andi (IntOp.cmpi .sge (idx ids (ix3 r' l' z)) 0#32) (IntOp.cmpi .sle (idx ids (ix3 r' l' z)) 999999#32) = 1#1
    rw [idx_apply, wrapped_apply ids _ _ (hids _), word_ge _ (hids _), word_le _ (hids _)]
    decide
  · rfl

end Index

/-! ## The gather at a token and a column -/

section Gather
variable {α : Type}

/-- The lookup's gather: axis 0 of the table indexed and collapsed, axis 1 copied whole as the result's last axis. -/
abbrev gd := gather_S1000000x64_S4096x200x1_S4096x200x64_2_0_n_n_0_2_164

/-- A start index has one component. -/
theorem gd_sim_len : gd.startIndexMap.length = 1 := rfl

/-- The start-indices index a token reads its one start component at. -/
theorem siIdx_eq (r : Fin 4096) (l : Fin 200) (e : Fin 64) (c : Fin gd.startIndexMap.length) :
    gd.siIdx (ix3 r l e) c = ix3 r l (0 : Fin 1) := by
  have hc : c.val = 0 := by have := c.isLt; have h1 := gd_sim_len; omega
  funext b; refine Fin.ext ?_
  match b with
  | ⟨0, _⟩ => rfl
  | ⟨1, _⟩ => rfl
  | ⟨2, _⟩ => exact hc

/-- THE GATHER READ AT (r, l, e): the table at (the start index of token (r, l), read signed and clamped into the
    table's rows; column e). -/
theorem gather_apply (x : S1000000x64.Idx → α) (ix : IVec S4096x200x1 32) (r : Fin 4096) (l : Fin 200) (e : Fin 64) :
    Host.gather gd x ix (ix3 r l e) = x (ix2 (Cert.Proof.Spec.rowOf (ix (ix3 r l (0 : Fin 1)))) e) := by
  unfold Host.gather
  congr 1
  funext a
  refine Fin.ext ?_
  show gd.start (ix3 r l e) ix a + gd.batchCoord (ix3 r l e) a + gd.offCoord (ix3 r l e) a = _
  rw [GatherDims.batchCoord_eq_zero _ _ _ List.not_mem_nil]
  match a with
  | ⟨0, h0⟩ =>
    have hmem : (⟨0, h0⟩ : Fin S1000000x64.rank) ∈ gd.startIndexMap := List.mem_singleton.mpr rfl
    rw [GatherDims.offCoord_eq_zero _ _ _ (fun h => ((GatherDims.mem_sKept _ _).mp h).1 (List.mem_singleton.mpr rfl))]
    simp only [Nat.add_zero]
    unfold GatherDims.start
    rw [dif_pos hmem, siIdx_eq]
    rfl
  | ⟨1, h1⟩ =>
    have hs : gd.start (ix3 r l e) ix ⟨1, h1⟩ = 0 := by
      unfold GatherDims.start
      rw [dif_neg]
      exact fun h => Nat.one_ne_zero (congrArg Fin.val (List.mem_singleton.1 h))
    have hk : (⟨1, h1⟩ : Fin S1000000x64.rank) ∈ gd.sKept := by
      rw [GatherDims.mem_sKept]
      exact ⟨fun h => Nat.one_ne_zero (congrArg Fin.val (List.mem_singleton.1 h)), List.not_mem_nil⟩
    have ho : gd.offCoord (ix3 r l e) ⟨1, h1⟩ = e.val := by
      unfold GatherDims.offCoord
      rw [dif_pos hk]
      rfl
    rw [hs, ho]
    show 0 + 0 + e.val = e.val
    omega

end Gather

/-! ## The product with W at a token and a column -/

section Dot

/-- The product's dimension numbers: the row's last axis against W's first. -/
abbrev dd := dot_S4096x200x64_S64x64_S4096x200x64_2_0_01_1_n_n

/-- The contraction runs over the 64 columns of a row. -/
abbrev ce : dd.contr.Idx ≃ Fin 64 := contrEquiv1 dd 64 rfl rfl

/-- At result index (r, l, e) and contraction index k the left operand is read at (r, l, k) … -/
theorem lhsIdx_eq (r : Fin 4096) (l : Fin 200) (e k : Fin 64) : dd.lhsIdx (ix3 r l e) (ce.symm k) = ix3 r l k := by
  funext a; refine Fin.ext ?_
  match a with
  | ⟨0, _⟩ => simp [DotDims.lhsIdx, dd, dot_S4096x200x64_S64x64_S4096x200x64_2_0_01_1_n_n]; rfl
  | ⟨1, _⟩ => simp [DotDims.lhsIdx, dd, dot_S4096x200x64_S64x64_S4096x200x64_2_0_01_1_n_n]; rfl
  | ⟨2, _⟩ => simp [DotDims.lhsIdx, dd, dot_S4096x200x64_S64x64_S4096x200x64_2_0_01_1_n_n]; exact contrEquiv1_symm_val dd 64 rfl rfl k

/-- … and W at (k, e). -/
theorem rhsIdx_eq (r : Fin 4096) (l : Fin 200) (e k : Fin 64) : dd.rhsIdx (ix3 r l e) (ce.symm k) = ix2 k e := by
  funext a; refine Fin.ext ?_
  match a with
  | ⟨0, _⟩ => simp [DotDims.rhsIdx, dd, dot_S4096x200x64_S64x64_S4096x200x64_2_0_01_1_n_n]; exact contrEquiv1_symm_val dd 64 rfl rfl k
  | ⟨1, _⟩ => simp [DotDims.rhsIdx, dd, dot_S4096x200x64_S64x64_S4096x200x64_2_0_01_1_n_n]; rfl

/-- THE PRODUCT READ AT (r, l, e): the sum over the 64 columns k of A[r, l, k] * W[k, e]. -/
theorem dot_apply (A : FVec Ideal S4096x200x64 .f32) (W : FVec Ideal S64x64 .f32) (r : Fin 4096) (l : Fin 200) (e : Fin 64) :
    Host.dotGeneral dd none A W (ix3 r l e) = ∑ k : Fin 64, A (ix3 r l k) * W (ix2 k e) := by
  simp only [Host.dotGeneral]
  rw [Ideal.dotGeneral_apply, ← Equiv.sum_comp ce.symm]
  refine Finset.sum_congr rfl fun k _ => ?_
  rw [lhsIdx_eq, rhsIdx_eq]

end Dot

/-! ## The composed term at an index -/

section Value
variable (ids : IVec S4096x200 32) (emb : FVec Ideal S1000000x64 .f32) (W : FVec Ideal S64x64 .f32) (b : FVec Ideal S64 .f32)

/-- The mask broadcast over the columns reads the token's mask. -/
theorem maskB_apply (r : Fin 4096) (l : Fin 200) (e : Fin 64) :
    broadcastInDim S4096x200x64 ![0, 1] bcast_S4096x200_S4096x200x64_0_1 (mask ids) (ix3 r l e) = mask ids (ix2 r l) := by
  unfold broadcastInDim
  congr 1
  funext a
  match a with
  | ⟨0, _⟩ => rfl
  | ⟨1, _⟩ => rfl

/-- The looked-up row of token (r, l) at column e is the table's row named by the token word, at column e. -/
theorem taken_apply (hids : ∀ j, (ids j).toNat < 1000000) (r : Fin 4096) (l : Fin 200) (e : Fin 64) :
    taken ids emb (ix3 r l e) = emb (ix2 (Cert.Proof.Spec.rowOf (ids (ix2 r l))) e) := by
  unfold taken
  rw [select_apply, maskB_apply, mask_apply ids hids, select_one, gather_apply, idx_apply, wrapped_apply ids r l (hids _)]

/-- The bias broadcast over the two token axes reads b at the column. -/
theorem bias_apply (r : Fin 4096) (l : Fin 200) (e : Fin 64) :
    broadcastInDim S4096x200x64 ![0, 1, 2] bcast_S1x1x64_S4096x200x64_0_1_2
        (broadcastInDim S1x1x64 ![2] bcast_S64_S1x1x64_2 b) (ix3 r l e) = b (ix1 e) := by
  unfold broadcastInDim
  congr 1
  funext a
  match a with
  | ⟨0, _⟩ => rfl

/-- The composed term is G. -/
theorem term_eq_G (hids : ∀ j, (ids j).toNat < 1000000) : term ids emb W b = Cert.Proof.Spec.G ids emb W b := by
  funext i
  obtain ⟨r, l, e, rfl⟩ : ∃ (r : Fin 4096) (l : Fin 200) (e : Fin 64), i = ix3 r l e := ⟨i 0, i 1, i 2, eq_ix3 i⟩
  rw [Cert.Proof.Spec.G_apply]
  unfold term
  rw [addf_apply, dot_apply, bias_apply]
  simp only [taken_apply ids emb hids]

end Value

end Lemmas

/-! ## The run, with the result stated as G -/

/-- From any memory whose token words all name rows of the table: every weakly fair execution of the reference
    terminates with the result at G of the arguments and the five arguments unchanged. -/
theorem run_G [Cert.ReferenceIdeal.Facts] (m : (ℓ : Loc Cert.ReferenceIdeal.nD Cert.ReferenceIdeal.τ Cert.ReferenceIdeal.sig) → Buf (Elt Ideal) ℓ)
    (g : Dev Cert.ReferenceIdeal.nD → PrngReg)
    (hids : ∀ (c : Dev Cert.ReferenceIdeal.nD) j, (m ((c.tc : Thread Cert.ReferenceIdeal.nD Cert.ReferenceIdeal.τ).loc Cert.ReferenceIdeal.main_arg0) j).toNat < 1000000) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v4) = Cert.Proof.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run (Cert.ReferenceIdeal.defs (F := Ideal)) _ _).mono
    (fun _ h c => ⟨(h c).1.trans (term_eq_G _ _ _ _ (hids c)), (h c).2⟩)
    (run (F := Ideal) m g)

end Cert.Proof.Ref

end
-- ==== Proof.KAlg.lean ====
/-
  The value claim: at the ideal instance the kernel program and the reference, run from memories that agree on the five
  argument arrays, end with equal results and unchanged arguments.

  Both results are the one function G of the arguments (the embedding row each token word names, times W, plus the bias).
  On the kernel side the run leaves the result array at contents built from SOME table, row buffer and second-call output
  of which the three calls' facts hold, and those facts chain to G. On the reference side the run's composed term is G
  once every token word names a row of the table. The precondition gives that of the kernel's token words, and the
  reference's are the same words. Two facts enter as hypotheses: what the first pipelined call leaves in the table, and
  the second call's output read at an index.
-/
import proofs.«217421_g60146722013857_cont_9to1c4b_519_37_alg».proof.Defs
import proofs.«217421_g60146722013857_cont_9to1c4b_519_37_alg».proof.Proof.KMain
import proofs.«217421_g60146722013857_cont_9to1c4b_519_37_alg».proof.Proof.KTile
import proofs.«217421_g60146722013857_cont_9to1c4b_519_37_alg».proof.Proof.KReg2
import proofs.«217421_g60146722013857_cont_9to1c4b_519_37_alg».proof.Proof.KFinal
import proofs.«217421_g60146722013857_cont_9to1c4b_519_37_alg».proof.Proof.RefValue
import proofs.«217421_g60146722013857_cont_9to1c4b_519_37_alg».proof.Proof.PreDecode
import proofs.«217421_g60146722013857_cont_9to1c4b_519_37_alg».proof.Proof.Gen.Pre_input_domain
import proofs.«217421_g60146722013857_cont_9to1c4b_519_37_alg».proof.Proof.Gen.ReferenceIdeal

noncomputable section

namespace Cert.Proof.KI

open Cert.KernelIdeal Cert.KernelIdeal.Gen
open Idealize.ShloMosaic Idealize.SL.Sem
open Idealize.ShloMosaic.ValueIdx

/-- Cert.algebraic_KernelIdeal_ReferenceIdeal (Defs.lean), from the first call's table fact and the second call's output
    read at an index. -/
theorem algebraic
    (hreg0 : RegSpec (F := Ideal) 0 main_v9 Tab0I)
    (hres2 : ∀ (d : Dev nD) (W : Valuation τ sig (Elt Ideal)) (Y : Buf (Elt Ideal) (v12Loc d)), Res2 (F := Ideal) d W Y → ∀ (l : Fin 200) (e : Fin 64) (r : Fin 4096),
        @id EReal (Y (ix3 l e r)) = (∑ k : Fin 64, @id EReal (W a3' (ix2 k e)) * @id EReal (W v11' (ix2 (⟨4096 * l.val + r.val, by omega⟩ : Fin 819200) (⟨k.val, by omega⟩ : Fin 128)))) + @id EReal (W v10' (ix2 e (0 : Fin 1)))) :
    Cert.algebraic_KernelIdeal_ReferenceIdeal := by
  intro m g m' g' hpre hagree
  -- every token word of the kernel's memory names a row of the table
  have hids : ∀ (d : Dev nD) j, (m (idsLoc d) j).toNat < 1000000 :=
    fun d j => Cert.Proof.PreD.ids_lt (F := Ideal) _ _ _ _ _ (hpre d) j
  -- and the reference's token words are the same words
  have hids' : ∀ (c : Dev Cert.ReferenceIdeal.nD) j,
      (m' ((c.tc : Thread Cert.ReferenceIdeal.nD Cert.ReferenceIdeal.τ).loc Cert.ReferenceIdeal.main_arg0) j).toNat < 1000000 := by
    intro c j
    rw [(hagree c).1]
    exact hids c j
  refine ⟨fun c => Cert.Proof.Spec.G (m (idsLoc c)) (m ((SparseCore.T c).loc main_arg2)) (m ((SparseCore.T c).loc main_arg3))
    (m ((SparseCore.T c).loc main_arg4)), ?_, ?_⟩
  · exact (θ_run Cert.KernelIdeal.defs _ _).mono
      (fun _ h c => ⟨resok_eq_G m c (Res2 (F := Ideal)) (hres2 c) (hids c) _ (h c).1, (h c).2⟩)
      (run_main (F := Ideal) m g Tab0I (Res2 (F := Ideal)) hreg0 reg2_spec (tileObl m _ facts (idx_in_range m hids)))
  · exact (θ_run Cert.ReferenceIdeal.defs _ _).mono
      (fun _ h c => ⟨by
          rw [(h c).1, (hagree c).1, (hagree c).2.2.1, (hagree c).2.2.2.1, (hagree c).2.2.2.2], (h c).2⟩)
      (Cert.Proof.Ref.run_G m' g' hids')

end Cert.Proof.KI

end
-- ==== Proof.KReg0V0.lean ====
/-
  The first pipelined call's proof data at the ideal instance, with what it writes said: the two input windows' buffers
  are left as found; the table's buffer is left with, in row r and column e < 64 of every row r whose table row
  8192 t + r exists, the sum over k < 64 of the transposed embedding's (k, 8192 t + r) times the matrix's (k, e) — nothing
  is said of the other 64 columns (never written) nor of the rows past the table's end (never written back).
-/
import proofs.«217421_g60146722013857_cont_9to1c4b_519_37_alg».proof.Proof.KValSpec
import proofs.«217421_g60146722013857_cont_9to1c4b_519_37_alg».proof.Proof.KReg0

noncomputable section

namespace Cert.Proof.KI

open Cert.KernelIdeal Cert.KernelIdeal.Gen
open Idealize.ShloMosaic Idealize.ShloMosaic.TcCoe Idealize.SL.Sem
open Idealize.ShloMosaic.SparseCore.Cfg (HIx)
open Idealize.SL Idealize.SL.RA Idealize.SL.BI
open scoped Idealize.SL.BI
open Idealize.ShloMosaic.Rounds
open Idealize.ShloMosaic.ValueIdx

variable (W : Valuation τ sig (Elt Ideal)) (O : CellTallies nD τ sig (HIx 1)) (Wt : Waits sig (HIx 1))

/-- Entry (v, e) of the table as the call computes it. -/
def tabVal (v : Fin 1000000) (e : Fin 64) : EReal := ∑ k : Fin 64, @id EReal (W v2' (ix2 k v)) * @id EReal (W v8' (ix2 k e))

/-- What the body may leave in the table's buffer at point t. -/
def after2 (t : Fin cfg0.N) (X : S8192x128.Idx → Elt Ideal .f32) : Prop :=
  ∀ (r : Fin 8192) (e : Fin 64) (h : 8192 * t.val + r.val < 1000000),
    @id EReal (X (ix2 r (⟨e.val, by omega⟩ : Fin 128))) = tabVal W ⟨8192 * t.val + r.val, h⟩ e

def rdV0 (c : Dev nD) : Pipeline.RDat τ (Elt Ideal) (HIx 1) ℕ UU ℕ cfg0 c where
  A w := W (Pipeline.arrRef spec0 w)
  after w t := match w with
    | ⟨0, _⟩ => fun Y X => X = Y
    | ⟨1, _⟩ => fun Y X => X = Y
    | ⟨2, _⟩ => fun _ X => after2 W t X
  Φ _ := Pipeline.scopedRest spec0 c
  q _ := fullShare
  owed _ := O
  recorded _ := {p | p ∈ Wt ∨ p.2 = none}

theorem rdV0_after0 (c : Dev nD) (t : Fin cfg0.N) (Y X) : (rdV0 W O Wt c).after 0 t Y X = (X = Y) := rfl
theorem rdV0_after1 (c : Dev nD) (t : Fin cfg0.N) (Y X) : (rdV0 W O Wt c).after 1 t Y X = (X = Y) := rfl
theorem rdV0_after2 (c : Dev nD) (t : Fin cfg0.N) (Y X) : (rdV0 W O Wt c).after 2 t Y X = after2 W t X := rfl

/-- The family over both calls: the first with its value said, the second constraining nothing (unused here). -/
def rdV : (p : Fin 2) → (c : Dev nD) → Pipeline.RDat τ (Elt Ideal) (HIx 1) ℕ UU ℕ (Pipeline.pin (pcfgs (F := Ideal)) adm p) c
  | ⟨0, _⟩ => fun c => rdV0 W O Wt c
  | ⟨1, _⟩ => fun c => rdF2 W O Wt c

end Cert.Proof.KI

end
-- ==== Proof.KFinds0.lean ====
/-
  What the first pipelined call's body finds in its two input buffers, at the ideal instance: the transposed embedding's
  block, just fetched, holds at (k, r) the array's entry (k, 8192 t + r) wherever that column exists; the matrix's buffer,
  fetched whole at the first point and left as found at every point, holds the matrix.
-/
import proofs.«217421_g60146722013857_cont_9to1c4b_519_37_alg».proof.Proof.KReg0V0

noncomputable section

namespace Cert.Proof.KI

open Cert.KernelIdeal Cert.KernelIdeal.Gen
open Idealize.ShloMosaic Idealize.ShloMosaic.TcCoe Idealize.SL.Sem
open Idealize.ShloMosaic.SparseCore.Cfg (HIx)
open Idealize.SL Idealize.SL.RA Idealize.SL.BI
open scoped Idealize.SL.BI
open Idealize.ShloMosaic.Rounds
open Idealize.ShloMosaic.ValueIdx

variable (W : Valuation τ sig (Elt Ideal)) (O : CellTallies nD τ sig (HIx 1)) (Wt : Waits sig (HIx 1))

/-- The embedding's window: block t is columns 8192 t … of all 64 rows, cut at column 1000000. -/
theorem idx0_0 : ∀ t : Fin grid0.N, win0_0.index t 0 = 0 ∧ win0_0.index t 1 = t.val := by decide +kernel
theorem xs0_0 : ∀ t : Fin grid0.N, win0_0.xsize (grid0.coords t) 0 = 64 ∧ win0_0.xsize (grid0.coords t) 1 = min 8192 (1000000 - 8192 * t.val) := by decide +kernel
/-- The matrix's window: the whole 64 x 64 array at every point, uncut. -/
theorem idx0_1 : ∀ t : Fin grid0.N, win0_1.index t 0 = 0 ∧ win0_1.index t 1 = 0 := by decide +kernel
theorem xs0_1 : ∀ t : Fin grid0.N, win0_1.xsize (grid0.coords t) 0 = 64 ∧ win0_1.xsize (grid0.coords t) 1 = 64 := by decide +kernel

/-- A just-fetched embedding block at (k, r), column 8192 t + r inside the array. -/
theorem fetched0_apply (c : Dev nD) (t : Fin cfg0.N) (d) (k : Fin 64) (r : Fin 8192) (h : 8192 * t.val + r.val < 1000000) :
    (rdV0 W O Wt c).fetched 0 t d (ix2 k r) = W v2' (ix2 k (⟨8192 * t.val + r.val, h⟩ : Fin 1000000)) := by
  have hm : win0_0.moved (grid0.coords t) (ix2 k r) = true := (win0_0.moved_iff _ _).mpr fun a => by
    match a with
    | ⟨0, _⟩ => show k.val < win0_0.xsize (grid0.coords t) 0; rw [(xs0_0 t).1]; exact k.isLt
    | ⟨1, _⟩ => show r.val < win0_0.xsize (grid0.coords t) 1; rw [(xs0_0 t).2]; have := r.isLt; omega
  show win0_0.fill (grid0.coords t) d ((rdV0 W O Wt c).blockOf 0 t) (ix2 k r) = _
  unfold Pipeline.Window.fill
  rw [dif_pos hm]
  show (win0_0.blk t).view.read (Elt Ideal) (W (Pipeline.arrRef spec0 0)) _ = _
  refine ((View.read_apply _ _).trans (cast_eq _ _)).trans ?_
  show W v2' _ = W v2' _
  refine congrArg (W v2') (funext fun a => Fin.ext ?_)
  match a with
  | ⟨0, _⟩ =>
    show win0_0.index t 0 * 64 + 1 * k.val = k.val
    rw [(idx0_0 t).1]; omega
  | ⟨1, _⟩ =>
    show win0_0.index t 1 * 8192 + 1 * r.val = 8192 * t.val + r.val
    rw [(idx0_0 t).2]; omega

theorem fetched1_apply (c : Dev nD) (t : Fin cfg0.N) (d) (k e : Fin 64) :
    (rdV0 W O Wt c).fetched 1 t d (ix2 k e) = W v8' (ix2 k e) := by
  have hm : win0_1.moved (grid0.coords t) (ix2 k e) = true := (win0_1.moved_iff _ _).mpr fun a => by
    match a with
    | ⟨0, _⟩ => show k.val < win0_1.xsize (grid0.coords t) 0; rw [(xs0_1 t).1]; exact k.isLt
    | ⟨1, _⟩ => show e.val < win0_1.xsize (grid0.coords t) 1; rw [(xs0_1 t).2]; exact e.isLt
  show win0_1.fill (grid0.coords t) d ((rdV0 W O Wt c).blockOf 1 t) (ix2 k e) = _
  unfold Pipeline.Window.fill
  rw [dif_pos hm]
  show (win0_1.blk t).view.read (Elt Ideal) (W (Pipeline.arrRef spec0 1)) _ = _
  refine ((View.read_apply _ _).trans (cast_eq _ _)).trans ?_
  show W v8' _ = W v8' _
  refine congrArg (W v8') (funext fun a => Fin.ext ?_)
  match a with
  | ⟨0, _⟩ =>
    show win0_1.index t 0 * 64 + 1 * k.val = k.val
    rw [(idx0_1 t).1]; omega
  | ⟨1, _⟩ =>
    show win0_1.index t 1 * 64 + 1 * e.val = e.val
    rw [(idx0_1 t).2]; omega

/-- What the body finds in the embedding's buffer. -/
theorem finds0 (c : Dev nD) (t : Fin cfg0.N) (Y0) (hY : (rdV0 W O Wt c).Finds 0 t Y0)
    (k : Fin 64) (r : Fin 8192) (h : 8192 * t.val + r.val < 1000000) :
    Y0 (ix2 k r) = W v2' (ix2 k (⟨8192 * t.val + r.val, h⟩ : Fin 1000000)) := by
  obtain ⟨d, rfl⟩ := ((rdV0 W O Wt c).finds_of_fetch (fetch0_0 t) Y0).mp hY
  exact fetched0_apply W O Wt c t d k r h

/-- What it finds in the matrix's: by induction on the point, fetched at point 0 and left as found ever since. -/
theorem finds1 (c : Dev nD) : ∀ (n : Nat) (t : Fin cfg0.N), t.val = n → ∀ Y1, (rdV0 W O Wt c).Finds 1 t Y1 →
    ∀ k e : Fin 64, Y1 (ix2 k e) = W v8' (ix2 k e)
  | 0, t, ht, Y1, hY, k, e => by
    have hf : (cfg0.win 1).fetch t = true := (fetch0_1 t).mpr (by rw [ht])
    obtain ⟨d, rfl⟩ := ((rdV0 W O Wt c).finds_of_fetch hf Y1).mp hY
    exact fetched1_apply W O Wt c t d k e
  | n + 1, t, ht, Y1, hY, k, e => by
    have h123 : t.val < 123 := t.isLt
    have hf : (cfg0.win 1).fetch t = false := by
      cases hb : (cfg0.win 1).fetch t with
      | false => rfl
      | true => have := (fetch0_1 t).mp hb; omega
    have hfl : (cfg0.win 1).flush ⟨t.val - 1, Nat.lt_of_le_of_lt (Nat.sub_le _ _) t.isLt⟩ = false := by
      simp [Pipeline.Window.flush]
    rcases ((rdV0 W O Wt c).finds_of_pos hf (by omega) Y1).mp hY with hfl' | ⟨Y, hYf, hYa⟩
    · rw [hfl] at hfl'; exact absurd hfl' Bool.false_ne_true
    · rw [rdV0_after1] at hYa
      subst hYa
      exact finds1 c n ⟨t.val - 1, Nat.lt_of_le_of_lt (Nat.sub_le _ _) t.isLt⟩ (by show t.val - 1 = n; omega) _ hYf k e

end Cert.Proof.KI

end
-- ==== Proof.KPay0.lean ====
/-
  The first pipelined call's arithmetic at the ideal instance: the product of the transposed 64 x 8192 block by the
  64 x 64 matrix, both contracted on their first axis, accumulated into zero, is at (r, e) the sum over k < 64 of
  block (k, r) * matrix (k, e).
-/
import proofs.«217421_g60146722013857_cont_9to1c4b_519_37_alg».proof.Proof.KValSpec
import Idealize.ShloMosaic.PureOps.Ideal.Laws
import Idealize.ShloMosaic.Lib.Pipeline.Value

noncomputable section

namespace Cert.Proof.KI

open Cert.KernelIdeal Cert.KernelIdeal.Gen
open Idealize.ShloMosaic Idealize.SL.Sem
open Idealize.ShloMosaic.ValueIdx

/-- The call's product: contract axis 0 of the block with axis 0 of the matrix. -/
abbrev D0 : DotDims S64x8192 S64x64 S8192x64 := dot_S64x8192_S64x64_S8192x64_0_0_1_1_n_n

theorem d0_rank : (D0).contr.rank = 1 := rfl
theorem d0_size : (D0).contr.size ⟨0, by rw [d0_rank]; exact Nat.one_pos⟩ = 64 := rfl

theorem d0_lhs (r : Fin 8192) (e : Fin 64) (k : Fin 64) :
    (D0).lhsIdx (ix2 r e) ((contrEquiv1 (D0) 64 d0_rank d0_size).symm k) = ix2 k r := by
  have hk := contrEquiv1_symm_val (D0) 64 d0_rank d0_size k
  funext a
  refine Fin.ext ?_
  match a with
  | ⟨0, _⟩ => exact ((D0).lhsIdx_val_of_single (cl := (0 : Fin 2)) rfl _ _).trans hk
  | ⟨1, _⟩ => rfl

theorem d0_rhs (r : Fin 8192) (e : Fin 64) (k : Fin 64) :
    (D0).rhsIdx (ix2 r e) ((contrEquiv1 (D0) 64 d0_rank d0_size).symm k) = ix2 k e := by
  have hk := contrEquiv1_symm_val (D0) 64 d0_rank d0_size k
  funext a
  refine Fin.ext ?_
  match a with
  | ⟨0, _⟩ => exact ((D0).rhsIdx_val_of_single (cr := (0 : Fin 2)) rfl _ _).trans hk
  | ⟨1, _⟩ => rfl

/-- The payload the call stores, at (r, e). -/
theorem pay1_apply (v0 : Vec Ideal S64x8192 .f32) (v2 : Vec Ideal S64x64 .f32) (r : Fin 8192) (e : Fin 64) :
    @id EReal (k0_pay1 (F := Ideal) v0 v2 (ix2 r e)) = ∑ k : Fin 64, @id EReal (v0 (ix2 k r)) * @id EReal (v2 (ix2 k e)) := by
  unfold k0_pay1
  show FloatOps.matmul (D0) none (shapeCast S64x8192 v0 _) (shapeCast S64x64 v2 _) (constant (F := Ideal) S8192x64 .f32 0x00000000#32) (ix2 r e) = _
  rw [Ideal.matmul_constant_zero_apply, ← Equiv.sum_comp (contrEquiv1 (D0) 64 d0_rank d0_size).symm]
  refine Finset.sum_congr rfl fun k _ => ?_
  rw [d0_lhs, d0_rhs, shapeCast_self, shapeCast_self]
  rfl

end Cert.Proof.KI

end
-- ==== Proof.KReg0V.lean ====
/-
  The first pipelined call as a step of @main with its value said, at the ideal instance: it leaves in the table, at
  (v, e) with e < 64, the sum over k < 64 of the transposed embedding's (k, v) times the matrix's (k, e).
-/
import proofs.«217421_g60146722013857_cont_9to1c4b_519_37_alg».proof.Proof.KFinds0
import proofs.«217421_g60146722013857_cont_9to1c4b_519_37_alg».proof.Proof.KPay0

noncomputable section

namespace Cert.Proof.KI

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_congr)

local notation "𝕄" => MT nD τ sig (HIx 1) (Elt Ideal) ℕ UU ℕ

variable (W : Valuation τ sig (Elt Ideal)) (O : CellTallies nD τ sig (HIx 1)) (Wt : Waits sig (HIx 1))

/-- The stored rectangle: the left 64 columns of the 8192 x 128 buffer; its entry (r, e) is the buffer's (r, e). -/
theorem left_emb (r : Fin 8192) (e : Fin 64) :
    (Rect.unit (s := S8192x128) ![0, 0] S8192x64.size inb_S8192x128_S8192x64_0_0).emb (ix2 r e) = ix2 r (⟨e.val, by omega⟩ : Fin 128) := by
  funext a
  refine Fin.ext ?_
  rw [Rect.emb_apply]
  match a with
  | ⟨0, _⟩ => show 0 + 1 * r.val = r.val; omega
  | ⟨1, _⟩ => show 0 + 1 * e.val = e.val; omega

set_option maxHeartbeats 1000000 in
/-- The first call's body at any point: the embedding's block and the matrix as found, their product stored in the left
    half of the table's buffer. -/
theorem bodyV0 (c : Dev nD) : (rdV0 W O Wt c).BodyObligation (defs₀ (F := Ideal)) 𝒱₀ (none : HIx 1) Set.univ := fun t Y hY => by
  have h0 := finds0 W O Wt c t (Y 0) (hY 0)
  have h1 := finds1 W O Wt c t.val t rfl (Y 1) (hY 1)
  rw [bigSep_W0, bigSep_W0]
  show _ ⊢ wp frame _ _ (bodyAt0 t) _
  unfold bodyAt0
  simp only [cc0_prep_kernel_eq_skeleton]; unfold cc0_prep_kernel_skel
  unfold owns
  rw [show (rdV0 W O Wt c).Φ t.succ = (rdV0 W O Wt c).Φ t.castSucc from rfl,
    show (rdV0 W O Wt c).owesAt none t.succ = (rdV0 W O Wt c).owesAt none t.castSucc from rfl]
  iintro ⟨HΦ, HO, ⟨%f0, %hf0, H0⟩, ⟨%f1, %hf1, H1⟩, ⟨%f2, %hf2, H2⟩⟩
  sl_exec
  sl_step
  isplitl [HΦ]; · iexact HΦ
  isplitl [HO]; · iexact HO
  isplitl [H0]
  · iexists _; isplitr
    swap
    · iexists _; isplitr
      swap; · iexact H0
      ipureintro; rfl
    ipureintro; exact hf0
  isplitl [H1]
  · iexists _; isplitr
    swap
    · iexists _; isplitr
      swap; · iexact H1
      ipureintro; rfl
    ipureintro; exact hf1
  iexists _; isplitr
  swap
  · iexists _; isplitr
    swap; · iexact H2
    ipureintro; rfl
  ipureintro
  show after2 W t _
  intro r e h
  rw [← left_emb r e, View.read_writes_cons_emb, pay1_apply]
  unfold tabVal
  refine Finset.sum_congr rfl fun k _ => ?_
  have e0 : bodyV0.sl.v0 c t f0 (ix2 k r) = Y 0 (ix2 k r) := by
    show View.ld (View.read (Elt Ideal) (stage0_0 (cfg0.slots t 0)).view f0)
      (Rect.unit (s := S64x8192) ![0, 0] S64x8192.size inb_S64x8192_S64x8192_0_0) (ix2 k r) = _
    rw [View.ld_unit_zero (S := S64x8192) (by funext a; match a with | ⟨0, _⟩ => rfl | ⟨1, _⟩ => rfl), hf0]
  have e1 : bodyV0.sl.v2 c t f1 (ix2 k e) = Y 1 (ix2 k e) := by
    show View.ld (View.read (Elt Ideal) (stage0_1 (cfg0.slots t 1)).view f1)
      (Rect.unit (s := S64x64) ![0, 0] S64x64.size inb_S64x64_S64x64_0_0) (ix2 k e) = _
    rw [View.ld_unit_zero (S := S64x64) (by funext a; match a with | ⟨0, _⟩ => rfl | ⟨1, _⟩ => rfl), hf1]
  rw [e0, e1, h0 k r h, h1 k e]

theorem rdV0_share (c : Dev nD) (w : Fin cfg0.W) : (rdV0 W O Wt c).share w = fullShare := by
  unfold Pipeline.RDat.share; split <;> rfl

variable (harr : ∀ (c : Dev nD) (F : Buf (Elt Ideal) (tabLoc c)), (rdV0 W O Wt c).ArrAt 2 cfg0.N F → Tab0I c W F)

set_option backward.isDefEq.respectTransparency.types false in
/-- The first call over the thread state "every unscoped array held at W, the dues O": entered from it, left at it
    with the table at contents of which Tab0I holds. -/
def RV0 (hO : ∀ g, O g none = 0) :
    Pipeline.RDat.RegionSeg (pcfgs (F := Ideal)) adm (rdV W O Wt) (none : HIx 1) (defs₀ (F := Ideal)) 𝒱₀ (K (F := Ideal)).L (K (F := Ideal)).lev 0 where
  win := launch0.win.to₀
  block_pos := launch0.block_pos
  stage_whole := launch0.stage_whole
  K := PEmpty
  osem k := k.elim
  ho := Pipeline.OwnSemFacts.none _
  hbody c := bodyV0 W O Wt c
  hwaits c := Pipeline.RDat.cellsWaits_intro (Pipeline.pin (pcfgs (F := Ideal)) adm) (rdV W O Wt) (none : HIx 1) 0 c
    (fun w s t => (K (F := Ideal)).mayWait_none _ hO)
  pre c := iprop(held (c.tc : Thread nD τ) (Pipeline.ucRefs τ sig) W ∗ owes (c.tc : Thread nD τ) O Wt)
  post c := iprop(∃ (Y : Buf (Elt Ideal) (yLoc c main_v9)) (Wt' : Waits sig (HIx 1)), ⌜Tab0I c W Y ∧ ∀ q ∈ Wt', q ∈ Wt ∨ q.2 = none⌝
      ∗ held (c.tc : Thread nD τ) (Pipeline.ucRefs τ sig) (Function.update W v9' Y) ∗ owes (c.tc : Thread nD τ) O Wt')
  X _ := iprop(emp)
  Y _ := iprop(emp)
  Z c := Pipeline.unscopedRest spec0 c (fun b => W b)
  hentry c := by
    rw [Pipeline.ownSems0_none]
    have hsplit := Pipeline.RDat.arrays_of_unscopedBufs (p := 0) (pcfgs (F := Ideal)) adm (rdV W O Wt) launch0.win launch0.arr_whole c
      (rdV0_share W O Wt c) (fun b => W b) (fun _ => rfl)
    rw [Pipeline.unscopedBufs_held] at hsplit
    iintro ⟨⟨Hub, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · iexists Wt; isplitr
      · ipureintro; exact fun p hp => Set.mem_union_left _ (Or.inl (Finset.mem_coe.mp hp))
      · iexact HO
    isplitr; · iempintro
    iexact Hrest
  hin c := by
    show _ ⊢ Pipeline.scopedRest spec0 c
    iintro ⟨-, -, Hr⟩; iexact Hr
  hout c := by
    rw [Pipeline.ownSems0_none]
    show Pipeline.scopedRest spec0 c ⊢ _
    iintro Hr
    isplitr; · iempintro
    isplitr; · iempintro
    iexact Hr
  hexit c := by
    have e0 := Pipeline.RDat.ArrAt_in (rd := rdV0 W O Wt c) (0 : Fin cfg0.W) rfl cfg0.N
    have e1 := Pipeline.RDat.ArrAt_in (rd := rdV0 W O Wt c) (1 : Fin cfg0.W) rfl cfg0.N
    show iprop((rdV0 W O Wt c).arraysAt cfg0.N ∗ (rdV0 W O Wt c).owesAt none (Fin.last cfg0.N) ∗ emp
        ∗ Pipeline.unscopedRest spec0 c (fun b => W b)) ⊢ _
    unfold Pipeline.RDat.arraysAt
    rw [bigSep_W0, e0, e1]
    iintro ⟨⟨⟨%F0, %h0, Ha0⟩, ⟨%F1, %h1, Ha1⟩, %F2, %h2, Ha2⟩, ⟨%Wt', %hWt', HO⟩, -, Hrest⟩
    subst h0 h1
    imodintro
    iexists F2, Wt'
    isplitr
    · ipureintro
      refine ⟨harr c F2 h2, fun q hq => ?_⟩
      rcases hWt' (Finset.mem_coe.mpr hq) with h | ⟨w, s, rfl⟩
      · exact h
      · exact Or.inr rfl
    isplitr [HO]
    · iapply (Entails.of_eq (Pipeline.unscopedBufs_held c (Function.update W v9' F2)))
      iapply (unscopedBufs_of_rarrays (F := Ideal) (p := 0) launch0.win launch0.arr_whole c (rdV W O Wt) (rdV0_share W O Wt c) (fun b => W b)
        (fun b => Function.update W v9' F2 b)
        (fun w => Function.update W v9' F2 (Proc.devRef .tc (Pipeline.arrRef spec0 w)))
        (fun _ => rfl)
        (fun b hb => Function.update_of_ne (fun e => hb (Finset.mem_image.mpr ⟨2, Finset.mem_univ _, (Proc.devRef_injective _ e).symm⟩)) _ _))
      isplitr [Hrest]
      · unfold Pipeline.RDat.arrays
        rw [bigSep_W0]
        beta_reduce
        rw [show Function.update W v9' F2 (Proc.devRef .tc (Pipeline.arrRef spec0 0)) = (rdV0 W O Wt c).A 0 from
            Function.update_of_ne (show (Proc.devRef .tc (main_v2 : Ref sig .tc) : DevRef τ sig) ≠ v9' by decide) F2 W,
          show Function.update W v9' F2 (Proc.devRef .tc (Pipeline.arrRef spec0 1)) = (rdV0 W O Wt c).A 1 from
            Function.update_of_ne (show (Proc.devRef .tc (main_v8 : Ref sig .tc) : DevRef τ sig) ≠ v9' by decide) F2 W,
          show Function.update W v9' F2 (Proc.devRef .tc (Pipeline.arrRef spec0 2)) = F2 from Function.update_self v9' F2 W]
        isplitl [Ha0]; · iexact Ha0
        isplitl [Ha1]; · iexact Ha1
        iexact Ha2
      · iexact Hrest
    · iexact HO

end Cert.Proof.KI

namespace Cert.Proof.KI

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

/-- The first call as a step of @main, the table's contents said (given the array after its write-backs, harr). -/
theorem reg0_val
    (harr : ∀ (W : Valuation τ sig (Elt Ideal)) (O : CellTallies nD τ sig (HIx 1)) (Wt : Waits sig (HIx 1)) (c : Dev nD) (F : Buf (Elt Ideal) (tabLoc c)),
      (rdV0 W O Wt c).ArrAt 2 cfg0.N F → Tab0I c W F) :
    RegSpec (F := Ideal) 0 main_v9 Tab0I := by
  intro d W O Wt hO Φ
  have hstep := region_step (RV0 W O Wt (harr W O Wt) hO) d Φ
  dsimp only [RV0] at hstep
  iintro ⟨#Hlev, Hb, Hheld, HO, Hg, Ht, Hk⟩
  iapply hstep
  isplitl [Hk]
  · iintro ⟨Hb, %Y, %Wt', %hW, Hheld, HO⟩
    ispecialize Hk $$ %Y
    ispecialize Hk $$ %Wt'
    iapply Hk
    isplitr
    · ipureintro; exact hW
    isplitl [Hb]; · iexact Hb
    isplitl [Hheld]; · iexact Hheld
    iexact HO
  isplitl [Hb]; · iexact Hb
  isplitl [Hheld HO]
  · isplitl [Hheld]; · iexact Hheld
    iexact HO
  isplitr; · iexact Hlev
  isplitl [Hg]; · iexact Hg
  iexact Ht

end Cert.Proof.KI

end
-- ==== Proof.KReg0Arr.lean ====
/-
  What the table holds after the first pipelined call's write-backs: every point writes its block of 8192 rows back
  (the last, cut at the table's end, 576 rows), and what it writes is, in the first 64 columns, the rows' values; so
  after the points below n the rows below 8192 n hold their values, and after all 123 points every row does.
-/
import proofs.«217421_g60146722013857_cont_9to1c4b_519_37_alg».proof.Proof.KReg0V0

noncomputable section

namespace Cert.Proof.KI

open Cert.KernelIdeal Cert.KernelIdeal.Gen
open Idealize.ShloMosaic Idealize.ShloMosaic.TcCoe Idealize.SL.Sem
open Idealize.ShloMosaic.SparseCore.Cfg (HIx)
open Idealize.SL Idealize.SL.RA Idealize.SL.BI
open scoped Idealize.SL.BI
open Idealize.ShloMosaic.Rounds
open Idealize.ShloMosaic.ValueIdx

/-- Point u's block of the table starts at row 8192 u, column 0; its part inside the table has
    min(8192, 1000000 − 8192 u) rows and all 128 columns. -/
theorem win2_geom : ∀ u : Fin cfg0.N,
    (cfg0.win 2).index u 0 * (cfg0.win 2).size 0 = 8192 * u.val ∧ (cfg0.win 2).index u 1 * (cfg0.win 2).size 1 = 0
      ∧ (cfg0.win 2).xsize (cfg0.grid.coords u) 0 = min 8192 (1000000 - 8192 * u.val)
      ∧ (cfg0.win 2).xsize (cfg0.grid.coords u) 1 = 128 :=
  (by decide +kernel : ∀ u : Fin grid0.N,
    win0_2.index u 0 * win0_2.size 0 = 8192 * u.val ∧ win0_2.index u 1 * win0_2.size 1 = 0
      ∧ win0_2.xsize (grid0.coords u) 0 = min 8192 (1000000 - 8192 * u.val)
      ∧ win0_2.xsize (grid0.coords u) 1 = 128)

set_option maxRecDepth 65536 in
/-- An element of the table is among those point u writes back iff its row is one of the block's rows inside the
    table (every column is). -/
theorem mem_blk2 (u : Fin cfg0.N) (i : S1000000x128.Idx) :
    i ∈ ((cfg0.win 2).blk u).view.setOn Finset.univ
      ↔ (8192 * u.val ≤ (i 0 : Nat) ∧ (i 0 : Nat) < 8192 * u.val + min 8192 (1000000 - 8192 * u.val)) := by
  obtain ⟨g0, g1, g2, g3⟩ := win2_geom u
  rw [View.setOn_univ]
  show i ∈ ((View.whole main_v9).slice ((cfg0.win 2).rect u)).set ↔ _
  rw [View.set_slice_whole, Rect.mem_set_unit]
  have h1 : (i 1 : Nat) < 128 := (i 1).isLt
  constructor
  · intro h
    have h0 : (cfg0.win 2).index u 0 * (cfg0.win 2).size 0 ≤ (i 0 : Nat)
        ∧ (i 0 : Nat) < (cfg0.win 2).index u 0 * (cfg0.win 2).size 0 + (cfg0.win 2).xsize (cfg0.grid.coords u) 0 := h 0
    rw [g0, g2] at h0; exact h0
  · intro h a
    match a with
    | ⟨0, _⟩ =>
      show (cfg0.win 2).index u 0 * (cfg0.win 2).size 0 ≤ (i 0 : Nat)
        ∧ (i 0 : Nat) < (cfg0.win 2).index u 0 * (cfg0.win 2).size 0 + (cfg0.win 2).xsize (cfg0.grid.coords u) 0
      rw [g0, g2]; exact h
    | ⟨1, _⟩ =>
      show (cfg0.win 2).index u 1 * (cfg0.win 2).size 1 ≤ (i 1 : Nat)
        ∧ (i 1 : Nat) < (cfg0.win 2).index u 1 * (cfg0.win 2).size 1 + (cfg0.win 2).xsize (cfg0.grid.coords u) 1
      rw [g1, g3]; omega

variable (W : Valuation τ sig (Elt Ideal)) (O : CellTallies nD τ sig (HIx 1)) (Wt : Waits sig (HIx 1)) (c : Dev nD)

set_option maxRecDepth 65536 in
/-- After the write-backs of the points below n, the rows below 8192 n hold their values. -/
theorem arrAt_rows : ∀ (n : Nat), n ≤ cfg0.N → ∀ G, (rdV0 W O Wt c).ArrAt 2 n G →
    ∀ (v : Fin 1000000) (e : Fin 64), v.val < 8192 * n → @id EReal (G (ix2 v (⟨e.val, by omega⟩ : Fin 128))) = tabVal W v e
  | 0, _, _, _, v, e, hv => absurd hv (by omega)
  | n + 1, hn, G, hG, v, e, hv => by
    have hn' : n < cfg0.N := hn
    have hG' := hG
    rw [show n + 1 = (⟨n, hn'⟩ : Fin cfg0.N).val + 1 from rfl, Pipeline.RDat.ArrAt_succ, if_pos (flush0_2 _)] at hG'
    obtain ⟨G₀, X, hG₀, ⟨Y, -, hX⟩, rfl⟩ := hG'
    have hX' : after2 W ⟨n, hn'⟩ X := hX
    obtain ⟨g0, g1, g2, g3⟩ := win2_geom ⟨n, hn'⟩
    have r0 : (((ix2 v (⟨e.val, by omega⟩ : Fin 128)) : S1000000x128.Idx) 0 : Nat) = v.val := rfl
    by_cases hlt : v.val < 8192 * n
    · -- a row of an earlier block: this write-back leaves it
      have hnm : (ix2 v (⟨e.val, by omega⟩ : Fin 128) : S1000000x128.Idx) ∉ ((cfg0.win 2).blk ⟨n, hn'⟩).view.setOn Finset.univ := by
        rw [mem_blk2, r0]; intro h; exact absurd h.1 (by show ¬ 8192 * n ≤ v.val; omega)
      rw [View.write_of_not_mem _ _ _ hnm]
      exact arrAt_rows n (Nat.le_of_lt hn') G₀ hG₀ v e hlt
    · -- a row of this block: it takes what the point leaves, cut at the table's end
      have hv1 := v.isLt
      have hmem : (ix2 v (⟨e.val, by omega⟩ : Fin 128) : S1000000x128.Idx) ∈ ((cfg0.win 2).blk ⟨n, hn'⟩).view.setOn Finset.univ := by
        rw [mem_blk2, r0]; show 8192 * n ≤ v.val ∧ v.val < 8192 * n + min 8192 (1000000 - 8192 * n); omega
      obtain ⟨y, -, hy⟩ := Finset.mem_map.mp hmem
      have c0 : (cfg0.win 2).index ⟨n, hn'⟩ 0 * (cfg0.win 2).size 0 + 1 * (y 0 : Nat) = v.val := congrArg Fin.val (congrFun hy 0)
      have c1 : (cfg0.win 2).index ⟨n, hn'⟩ 1 * (cfg0.win 2).size 1 + 1 * (y 1 : Nat) = e.val := congrArg Fin.val (congrFun hy 1)
      rw [g0] at c0; rw [g1] at c1
      have hr : (y 0 : Nat) < 8192 := by
        have h2 : (y 0 : Nat) < (cfg0.win 2).xsize (cfg0.grid.coords ⟨n, hn'⟩) 0 := (y 0).isLt
        rw [g2] at h2; omega
      have hlt2 : 8192 * (⟨n, hn'⟩ : Fin cfg0.N).val + (⟨(y 0 : Nat), hr⟩ : Fin 8192).val < 1000000 := by show 8192 * n + (y 0 : Nat) < 1000000; omega
      have hval := hX' ⟨(y 0 : Nat), hr⟩ e hlt2
      have hx : (cfg0.win 2).xinj (cfg0.grid.coords ⟨n, hn'⟩) y = (ix2 (⟨(y 0 : Nat), hr⟩ : Fin 8192) (⟨e.val, by omega⟩ : Fin 128) : S8192x128.Idx) := by
        funext a
        match a with
        | ⟨0, _⟩ => rfl
        | ⟨1, _⟩ => exact Fin.ext (by show (y 1 : Nat) = e.val; omega)
      rw [← hy, View.write_emb_of_mem _ _ (Finset.mem_univ y)]
      show @id EReal (X ((cfg0.win 2).xinj (cfg0.grid.coords ⟨n, hn'⟩) y)) = _
      rw [hx, hval]
      congr 1
      exact Fin.ext (by show 8192 * n + (y 0 : Nat) = v.val; omega)

/-- After the first pipelined call the table's rows hold their values. -/
theorem arrAt_tab (W : Valuation τ sig (Elt Ideal)) (O : CellTallies nD τ sig (HIx 1)) (Wt : Waits sig (HIx 1)) (c : Dev nD)
    (F : Buf (Elt Ideal) (tabLoc c)) (h : (rdV0 W O Wt c).ArrAt 2 cfg0.N F) : Tab0I c W F := by
  intro v e
  have hN : cfg0.N = 123 := by decide
  exact arrAt_rows W O Wt c cfg0.N (Nat.le_refl _) F h v e (by have := v.isLt; rw [hN]; omega)

end Cert.Proof.KI

end
-- ==== Proof.KReg0S.lean ====
/-
  The first pipelined call as a step of @main at the ideal instance, its value said: the table it leaves holds, at (v, e)
  with e < 64, the sum over k < 64 of the transposed embedding's (k, v) times the matrix's (k, e) — the body's product at each
  point, read through the clipped write-backs of the 123 points.
-/
import proofs.«217421_g60146722013857_cont_9to1c4b_519_37_alg».proof.Proof.KReg0V
import proofs.«217421_g60146722013857_cont_9to1c4b_519_37_alg».proof.Proof.KReg0Arr

noncomputable section

namespace Cert.Proof.KI

open Cert.KernelIdeal Cert.KernelIdeal.Gen
open Idealize.ShloMosaic Idealize.SL.Sem

theorem reg0_spec : RegSpec (F := Ideal) 0 main_v9 Tab0I := reg0_val arrAt_tab

end Cert.Proof.KI

end
-- ==== Proof.KReg2Ideal.lean ====
/-
  The second call's result at the ideal values, index by index: row l of the output at (e, r) is the sum over k of the
  matrix's entry (k, e) times the gathered row 4096 l + r at column k, plus the bias at e.
-/
import proofs.«217421_g60146722013857_cont_9to1c4b_519_37_alg».proof.Proof.KReg2
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.Proof.KI

open Cert.KernelIdeal Cert.KernelIdeal.Gen
open Idealize.ShloMosaic Idealize.SL.Sem
open Idealize.ShloMosaic.ValueIdx
open Idealize.ShloMosaic.Pipeline (Dat Cfg Window)

namespace Reg2I

open Reg2

/-! ## The input windows' block indices, decided over the grid -/

theorem idx_w0 : ∀ t : Fin cfg2.N, win2_0.index t (0 : Fin 2) = t.val ∧ win2_0.index t (1 : Fin 2) = 0 :=
  (by decide +kernel : ∀ t : Fin grid2.N, _)
theorem idx_w1 : ∀ t : Fin cfg2.N, win2_1.index t (0 : Fin 2) = 0 ∧ win2_1.index t (1 : Fin 2) = 0 :=
  (by decide +kernel : ∀ t : Fin grid2.N, _)
theorem idx_w2 : ∀ t : Fin cfg2.N, win2_2.index t (0 : Fin 2) = 0 ∧ win2_2.index t (1 : Fin 2) = 0 :=
  (by decide +kernel : ∀ t : Fin grid2.N, _)

/-! ## The input blocks at an index -/

variable (W : Valuation τ sig (Elt Ideal)) (d : Dev nD)

theorem iblk0_apply (t : Fin cfg2.N) (y : S8192x128.Idx) :
    iblk W d 0 t y = W v11' (((cfg2.win 0).blk t).view.emb y) := rfl
theorem iblk1_apply (t : Fin cfg2.N) (y : S64x64.Idx) :
    iblk W d 1 t y = W a3' (((cfg2.win 1).blk t).view.emb y) := rfl
theorem iblk2_apply (t : Fin cfg2.N) (y : S64x1.Idx) :
    iblk W d 2 t y = W (Proc.devRef .tc main_v10) (((cfg2.win 2).blk t).view.emb y) := rfl

theorem emb0_val (t : Fin cfg2.N) (y : S8192x128.Idx) (a : Fin 2) :
    ((((cfg2.win 0).blk t).view.emb y) a).val = win2_0.index t a * S8192x128.size a + 1 * (y a).val := rfl
theorem emb1_val (t : Fin cfg2.N) (y : S64x64.Idx) (a : Fin 2) :
    ((((cfg2.win 1).blk t).view.emb y) a).val = win2_1.index t a * S64x64.size a + 1 * (y a).val := rfl
theorem emb2_val (t : Fin cfg2.N) (y : S64x1.Idx) (a : Fin 2) :
    ((((cfg2.win 2).blk t).view.emb y) a).val = win2_2.index t a * S64x1.size a + 1 * (y a).val := rfl

/-- The rows the body loads at grid point t: row a, column k of the point's 8192 gathered rows. -/
theorem in_apply (t : Fin cfg2.N) (a : Fin 8192) (k : Fin 64) (h1 : 8192 * t.val + a.val < 819200) (h2 : k.val < 128) :
    View.ld (iblk W d 0 t) rIn (ix2 a k) = W v11' (ix2 (⟨8192 * t.val + a.val, h1⟩ : Fin 819200) (⟨k.val, h2⟩ : Fin 128)) := by
  obtain ⟨e0, e1⟩ := idx_w0 t
  rw [show View.ld (iblk W d 0 t) rIn (ix2 a k) = iblk W d 0 t (rIn.idx (ix2 a k)) from rfl, iblk0_apply]
  refine congrArg (W v11') (funext fun x => Fin.ext ?_)
  match x with
  | ⟨0, _⟩ => rw [emb0_val]; show win2_0.index t (0 : Fin 2) * 8192 + 1 * (0 + 1 * a.val) = 8192 * t.val + a.val; omega
  | ⟨1, _⟩ => rw [emb0_val]; show win2_0.index t (1 : Fin 2) * 128 + 1 * (0 + 1 * k.val) = k.val; omega

/-- The matrix the body loads. -/
theorem mat_apply (t : Fin cfg2.N) (k e : Fin 64) :
    View.ld (iblk W d 1 t) rMat (ix2 k e) = W a3' (ix2 k e) := by
  obtain ⟨e0, e1⟩ := idx_w1 t
  rw [show View.ld (iblk W d 1 t) rMat (ix2 k e) = iblk W d 1 t (rMat.idx (ix2 k e)) from rfl, iblk1_apply]
  refine congrArg (W a3') (funext fun x => Fin.ext ?_)
  match x with
  | ⟨0, _⟩ => rw [emb1_val]; show win2_1.index t (0 : Fin 2) * 64 + 1 * (0 + 1 * k.val) = k.val; omega
  | ⟨1, _⟩ => rw [emb1_val]; show win2_1.index t (1 : Fin 2) * 64 + 1 * (0 + 1 * e.val) = e.val; omega

/-- The bias column the body loads. -/
theorem bias_apply (t : Fin cfg2.N) (e : Fin 64) :
    View.ld (iblk W d 2 t) rBias (ix2 e (0 : Fin 1)) = W (Proc.devRef .tc main_v10) (ix2 e (0 : Fin 1)) := by
  obtain ⟨e0, e1⟩ := idx_w2 t
  rw [show View.ld (iblk W d 2 t) rBias (ix2 e (0 : Fin 1)) = iblk W d 2 t (rBias.idx (ix2 e (0 : Fin 1))) from rfl, iblk2_apply]
  refine congrArg (W (Proc.devRef .tc main_v10)) (funext fun x => Fin.ext ?_)
  match x with
  | ⟨0, _⟩ => rw [emb2_val]; show win2_2.index t (0 : Fin 2) * 64 + 1 * (0 + 1 * e.val) = e.val; omega
  | ⟨1, _⟩ => rw [emb2_val]; show win2_2.index t (1 : Fin 2) * 1 + 1 * (0 + 1 * 0) = 0; omega

/-! ## The payloads at an index -/

omit W d in
/-- The body's matmul, dimension numbers [0],[1],[1],[0] into the zero splat: out[e, r] = ∑ k, lhs[k, e] * rhs[r, k]. -/
theorem mm_apply (A : FVec Ideal S64x64 .f32) (B : FVec Ideal S4096x64 .f32) (e : Fin 64) (r : Fin 4096) :
    matmul dot_S64x64_S4096x64_S64x4096_0_1_1_0_n_n none A B (constant (F := Ideal) S64x4096 .f32 0x00000000#32) (ix2 e r)
      = ∑ k : Fin 64, A (ix2 k e) * B (ix2 r k) := by
  show FloatOps.matmul dot_S64x64_S4096x64_S64x4096_0_1_1_0_n_n none A B (constant (F := Ideal) S64x4096 .f32 0x00000000#32) (ix2 e r) = _
  rw [Ideal.matmul_constant_zero_apply, ← Equiv.sum_comp (contrEquiv1 dot_S64x64_S4096x64_S64x4096_0_1_1_0_n_n 64 rfl rfl).symm]
  refine Finset.sum_congr rfl fun c _ => ?_
  have c2 := contrEquiv1_symm_val dot_S64x64_S4096x64_S64x4096_0_1_1_0_n_n 64 rfl rfl c
  have l2 : dot_S64x64_S4096x64_S64x4096_0_1_1_0_n_n.lhsIdx (ix2 e r) ((contrEquiv1 dot_S64x64_S4096x64_S64x4096_0_1_1_0_n_n 64 rfl rfl).symm c) = ix2 c e := by
    funext ax; apply Fin.ext
    match ax with
    | ⟨0, _⟩ => simp [DotDims.lhsIdx, dot_S64x64_S4096x64_S64x4096_0_1_1_0_n_n]; exact c2
    | ⟨1, _⟩ => simp [DotDims.lhsIdx, dot_S64x64_S4096x64_S64x4096_0_1_1_0_n_n]; rfl
  have r2 : dot_S64x64_S4096x64_S64x4096_0_1_1_0_n_n.rhsIdx (ix2 e r) ((contrEquiv1 dot_S64x64_S4096x64_S64x4096_0_1_1_0_n_n 64 rfl rfl).symm c) = ix2 r c := by
    funext ax; apply Fin.ext
    match ax with
    | ⟨0, _⟩ => simp [DotDims.rhsIdx, dot_S64x64_S4096x64_S64x4096_0_1_1_0_n_n]; rfl
    | ⟨1, _⟩ => simp [DotDims.rhsIdx, dot_S64x64_S4096x64_S64x4096_0_1_1_0_n_n]; exact c2
  rw [l2, r2]

omit W d in
theorem cast3 (v : FVec Ideal S64x4096 .f32) (e : Fin 64) (r : Fin 4096) :
    shapeCast S1x64x4096 v shapeCasts_S64x4096_S1x64x4096 (ix3 (0 : Fin 1) e r) = v (ix2 e r) :=
  (shapeCast_addUnit_apply ![64, 4096] v shapeCasts_S64x4096_S1x64x4096 (ix3 (0 : Fin 1) e r)).trans
    (congrArg v (funext fun a => match a with | ⟨0, _⟩ => rfl | ⟨1, _⟩ => rfl))

omit W d in
theorem bcast_apply (x : FVec Ideal S64x1 .f32) (e : Fin 64) (r : Fin 4096) :
    broadcastTo S64x4096 x broadcasts_S64x1_S64x4096 (ix2 e r) = x (ix2 e (0 : Fin 1)) :=
  broadcastTo_apply x broadcasts_S64x1_S64x4096 (ix2 e r) (ix2 e (0 : Fin 1)) (fun a => match a with | ⟨0, _⟩ => rfl | ⟨1, _⟩ => rfl)

omit W d in
theorem slice_lo (x : FVec Ideal S8192x64 .f32) (r : Fin 4096) (k : Fin 64) (hr : r.val < 8192) :
    extractStridedSlice S4096x64 ![0, 0] x slices_S8192x64_o0_0_S4096x64 (ix2 r k) = x (ix2 (⟨r.val, hr⟩ : Fin 8192) k) :=
  extractStridedSlice_apply ![0, 0] x slices_S8192x64_o0_0_S4096x64 (ix2 r k) (ix2 (⟨r.val, hr⟩ : Fin 8192) k)
    (fun a => match a with
      | ⟨0, _⟩ => by show r.val = 0 + r.val; omega
      | ⟨1, _⟩ => by show k.val = 0 + k.val; omega)

omit W d in
theorem slice_hi (x : FVec Ideal S8192x64 .f32) (r : Fin 4096) (k : Fin 64) (hr : 4096 + r.val < 8192) :
    extractStridedSlice S4096x64 ![4096, 0] x slices_S8192x64_o4096_0_S4096x64 (ix2 r k) = x (ix2 (⟨4096 + r.val, hr⟩ : Fin 8192) k) :=
  extractStridedSlice_apply ![4096, 0] x slices_S8192x64_o4096_0_S4096x64 (ix2 r k) (ix2 (⟨4096 + r.val, hr⟩ : Fin 8192) k)
    (fun a => match a with
      | ⟨0, _⟩ => by show 4096 + r.val = 4096 + r.val; rfl
      | ⟨1, _⟩ => by show k.val = 0 + k.val; omega)

omit W d in
/-- The even row's payload: the product over the first 4096 rows, plus the bias. -/
theorem pay3_apply (x0 : Vec Ideal S8192x64 .f32) (x2 : Vec Ideal S64x1 .f32) (x5 : Vec Ideal S64x64 .f32) (e : Fin 64) (r : Fin 4096)
    (hr : r.val < 8192) :
    k2_pay3 x0 x2 x5 (ix3 (0 : Fin 1) e r)
      = (∑ k : Fin 64, x5 (ix2 k e) * x0 (ix2 (⟨r.val, hr⟩ : Fin 8192) k)) + x2 (ix2 e (0 : Fin 1)) := by
  show shapeCast S1x64x4096 (addf (matmul dot_S64x64_S4096x64_S64x4096_0_1_1_0_n_n none x5
        (extractStridedSlice S4096x64 ![0, 0] (shapeCast S8192x64 x0 shapeCasts_S8192x64_S8192x64) slices_S8192x64_o0_0_S4096x64)
        (constant (F := Ideal) S64x4096 .f32 0x00000000#32))
      (broadcastTo S64x4096 (shapeCast S64x1 x2 shapeCasts_S64x1_S64x1) broadcasts_S64x1_S64x4096))
    shapeCasts_S64x4096_S1x64x4096 (ix3 (0 : Fin 1) e r) = _
  rw [cast3, addf_apply, mm_apply, bcast_apply, shapeCast_self, shapeCast_self]
  congr 1
  exact Finset.sum_congr rfl fun k _ => by rw [slice_lo x0 r k hr]

omit W d in
/-- The odd row's payload: the product over the last 4096 rows, plus the bias. -/
theorem pay4_apply (x0 : Vec Ideal S8192x64 .f32) (x2 : Vec Ideal S64x1 .f32) (x13 : Vec Ideal S64x64 .f32) (e : Fin 64) (r : Fin 4096)
    (hr : 4096 + r.val < 8192) :
    k2_pay4 x0 x2 x13 (ix3 (0 : Fin 1) e r)
      = (∑ k : Fin 64, x13 (ix2 k e) * x0 (ix2 (⟨4096 + r.val, hr⟩ : Fin 8192) k)) + x2 (ix2 e (0 : Fin 1)) := by
  show shapeCast S1x64x4096 (addf (matmul dot_S64x64_S4096x64_S64x4096_0_1_1_0_n_n none x13
        (extractStridedSlice S4096x64 ![4096, 0] (shapeCast S8192x64 x0 shapeCasts_S8192x64_S8192x64) slices_S8192x64_o4096_0_S4096x64)
        (constant (F := Ideal) S64x4096 .f32 0x00000000#32))
      (broadcastTo S64x4096 (shapeCast S64x1 x2 shapeCasts_S64x1_S64x1) broadcasts_S64x1_S64x4096))
    shapeCasts_S64x4096_S1x64x4096 (ix3 (0 : Fin 1) e r) = _
  rw [cast3, addf_apply, mm_apply, bcast_apply, shapeCast_self, shapeCast_self]
  congr 1
  exact Finset.sum_congr rfl fun k _ => by rw [slice_hi x0 r k hr]

end Reg2I

open Reg2 Reg2I in
/-- The second call's result, read at an index, at the ideal values. -/
theorem res2_ideal (d : Dev nD) (W : Valuation τ sig (Elt Ideal)) (Y : Buf (Elt Ideal) (v12Loc d)) (h : Res2 (F := Ideal) d W Y)
    (l : Fin 200) (e : Fin 64) (r : Fin 4096) :
    @id EReal (Y (ix3 l e r)) = (∑ k : Fin 64, @id EReal (W a3' (ix2 k e))
        * @id EReal (W v11' (ix2 (⟨4096 * l.val + r.val, by omega⟩ : Fin 819200) (⟨k.val, by omega⟩ : Fin 128))))
      + @id EReal (W (Proc.devRef .tc main_v10) (ix2 e (0 : Fin 1))) := by
  show (Y (ix3 l e r) : EReal) = _
  have hl : l.val < 200 := l.isLt
  have hr : r.val < 4096 := r.isLt
  have ht : (ptOf l).val = l.val / 2 := rfl
  rw [h l e r]
  by_cases hp : l.val % 2 = 0
  · rw [if_pos hp, pay3_apply _ _ _ e r (by omega), bias_apply]
    refine congrArg₂ (fun a b : EReal => a + b) (Finset.sum_congr rfl fun k _ => ?_) rfl
    have hk : k.val < 64 := k.isLt
    have hi : (⟨8192 * (ptOf l).val + r.val, by rw [ht]; omega⟩ : Fin 819200) = ⟨4096 * l.val + r.val, by omega⟩ :=
      Fin.ext (by show 8192 * (ptOf l).val + r.val = 4096 * l.val + r.val; rw [ht]; omega)
    rw [mat_apply, in_apply W d (ptOf l) (⟨r.val, by omega⟩ : Fin 8192) k (by rw [ht]; omega) (by omega), hi] <;> rfl
  · rw [if_neg hp, pay4_apply _ _ _ e r (by omega), bias_apply]
    refine congrArg₂ (fun a b : EReal => a + b) (Finset.sum_congr rfl fun k _ => ?_) rfl
    have hk : k.val < 64 := k.isLt
    have hi : (⟨8192 * (ptOf l).val + (4096 + r.val), by rw [ht]; omega⟩ : Fin 819200) = ⟨4096 * l.val + r.val, by omega⟩ :=
      Fin.ext (by show 8192 * (ptOf l).val + (4096 + r.val) = 4096 * l.val + r.val; rw [ht]; omega)
    rw [mat_apply, in_apply W d (ptOf l) (⟨4096 + r.val, by omega⟩ : Fin 8192) k (by rw [ht]; omega) (by omega), hi] <;> rfl

end Cert.Proof.KI

end
-- ==== Proof.lean ====
/-
  The certificate of the lookup kernel against its reference.

  The kernel program writes a table (row v of the embedding in the first 64 of 128 columns) by a pipelined call on the
  TensorCore, has the 32 vector subcores of the two SparseCores copy, for each of the 819200 token positions, the table row
  its index word names into a row buffer, multiplies each gathered row by W and adds b in a second pipelined call, and
  transposes the result; the reference takes the embedding rows by the token words, multiplies by W and adds b. At the
  ideal instance both compute, at (r, l, e), the sum over k < 64 of embedding[ids[r, l], k] * W[k, e], plus b[e]
  (the function G of the module Spec).

  The three frames: each program's every weakly fair execution terminates, nothing faulting, its arguments unchanged — for
  the two kernel programs by the SparseCore launch theorem, @main's two pipelined calls each a step between stretches of host
  operations, the vector subcores' task by a loop invariant that holds one gather in flight; for the reference by its run
  written out operation by operation. The idealization rewrote nothing, so preserves is trivial.

  The value claim. On the kernel side the table's entry (v, e), e < 64, is the product of column v of the transposed
  embedding with the 64 x 64 identity @main builds, that is embedding[v, e] (the body's product at each of the 123 points,
  read through the clipped write-backs); each vector subcore's block of the row buffer holds, position by position, the
  table row its index word names, and the index list is the token words transposed and flattened, so position 4096 l + r
  holds the row of ids[r, l]; the second call's output at (l, e, r) is the sum over k of W[k, e] times that row's entry k,
  plus b[e]; the last transpose puts it at (r, l, e). On the reference side the take's range mask holds at every
  position (the precondition puts every token word inside the table), so its select keeps the gathered row. The two sums
  differ by the order of each product's factors.
-/
import proofs.«217421_g60146722013857_cont_9to1c4b_519_37_alg».proof.Defs
import proofs.«217421_g60146722013857_cont_9to1c4b_519_37_alg».proof.Proof.Gen.Kernel
import proofs.«217421_g60146722013857_cont_9to1c4b_519_37_alg».proof.Proof.Gen.Kernel.Skeleton
import proofs.«217421_g60146722013857_cont_9to1c4b_519_37_alg».proof.Proof.Gen.Kernel.Launch
import proofs.«217421_g60146722013857_cont_9to1c4b_519_37_alg».proof.Proof.Gen.Kernel.Regions
import proofs.«217421_g60146722013857_cont_9to1c4b_519_37_alg».proof.Proof.Gen.Kernel.Points
import proofs.«217421_g60146722013857_cont_9to1c4b_519_37_alg».proof.Proof.Gen.KernelIdeal
import proofs.«217421_g60146722013857_cont_9to1c4b_519_37_alg».proof.Proof.Gen.KernelIdeal.Skeleton
import proofs.«217421_g60146722013857_cont_9to1c4b_519_37_alg».proof.Proof.Gen.KernelIdeal.Launch
import proofs.«217421_g60146722013857_cont_9to1c4b_519_37_alg».proof.Proof.Gen.KernelIdeal.Regions
import proofs.«217421_g60146722013857_cont_9to1c4b_519_37_alg».proof.Proof.Gen.KernelIdeal.Points
import proofs.«217421_g60146722013857_cont_9to1c4b_519_37_alg».proof.Proof.Gen.ReferenceIdeal
import proofs.«217421_g60146722013857_cont_9to1c4b_519_37_alg».proof.Proof.Gen.Pre_input_domain
import proofs.«217421_g60146722013857_cont_9to1c4b_519_37_alg».proof.Proof.KFrame
import proofs.«217421_g60146722013857_cont_9to1c4b_519_37_alg».proof.Proof.BFrame
import proofs.«217421_g60146722013857_cont_9to1c4b_519_37_alg».proof.Proof.RefRun
import proofs.«217421_g60146722013857_cont_9to1c4b_519_37_alg».proof.Proof.KAlg
import proofs.«217421_g60146722013857_cont_9to1c4b_519_37_alg».proof.Proof.KReg0S
import proofs.«217421_g60146722013857_cont_9to1c4b_519_37_alg».proof.Proof.KReg2Ideal
import Idealize.ShloMosaic.Adequacy
import Idealize.ShloMosaic.Init

noncomputable section

namespace Cert.Proof

open Idealize.ShloMosaic Idealize.SL.Sem Cert.Kernel

theorem frame_ReferenceIdeal : Cert.frame_ReferenceIdeal := fun m g _ => Cert.Proof.Ref.run_args (F := Ideal) m g

theorem algebraic : Cert.algebraic_KernelIdeal_ReferenceIdeal :=
  Cert.Proof.KI.algebraic Cert.Proof.KI.reg0_spec fun d W Y h l e r => Cert.Proof.KI.res2_ideal d W Y h l e r

theorem claim : Cert.Claim := ⟨Cert.Kernel.Gen.facts, Cert.KernelIdeal.Gen.facts, Cert.ReferenceIdeal.Gen.facts, Cert.Pre_input_domain.Gen.facts,
  Cert.Proof.KB.frame_Kernel, Cert.Proof.KI.frame_KernelIdeal, frame_ReferenceIdeal, trivial, algebraic⟩

end Cert.Proof

end
